-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v12_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v12_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_v221) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2 : Shape := ⟨1, ![2]⟩
abbrev S4x1x1024 : Shape := ⟨3, ![4, 1, 1024]⟩
abbrev S128x1024 : Shape := ⟨2, ![128, 1024]⟩
abbrev S32000x1024 : Shape := ⟨2, ![32000, 1024]⟩
abbrev S128x3072 : Shape := ⟨2, ![128, 3072]⟩
abbrev S128 : Shape := ⟨1, ![128]⟩
abbrev S1024x3072 : Shape := ⟨2, ![1024, 3072]⟩
abbrev S1024 : Shape := ⟨1, ![1024]⟩
abbrev S4x3072x1024 : Shape := ⟨3, ![4, 3072, 1024]⟩
abbrev S4x3072 : Shape := ⟨2, ![4, 3072]⟩
abbrev S64000x1024 : Shape := ⟨2, ![64000, 1024]⟩
abbrev S64000 : Shape := ⟨1, ![64000]⟩
abbrev S_ : Shape := ⟨0, ![]⟩

class Facts : Prop where
  bcast_S_S4x1x1024 : S_.BroadcastsInDim S4x1x1024 (![] : Fin 0 → Fin S4x1x1024.rank)
  reducesTo_S4x1x1024_S_d0_1_2 : S4x1x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S32000x1024 : S_.BroadcastsInDim S32000x1024 (![] : Fin 0 → Fin S32000x1024.rank)
  reducesTo_S32000x1024_S_d0_1 : S32000x1024.ReducesTo [0, 1] S_
  bcast_S_S128x3072 : S_.BroadcastsInDim S128x3072 (![] : Fin 0 → Fin S128x3072.rank)
  reducesTo_S128x3072_S_d0_1 : S128x3072.ReducesTo [0, 1] S_
  bcast_S_S128 : S_.BroadcastsInDim S128 (![] : Fin 0 → Fin S128.rank)
  reducesTo_S128_S_d0 : S128.ReducesTo [0] S_
  bcast_S_S1024x3072 : S_.BroadcastsInDim S1024x3072 (![] : Fin 0 → Fin S1024x3072.rank)
  reducesTo_S1024x3072_S_d0_1 : S1024x3072.ReducesTo [0, 1] S_
  bcast_S_S1024 : S_.BroadcastsInDim S1024 (![] : Fin 0 → Fin S1024.rank)
  reducesTo_S1024_S_d0 : S1024.ReducesTo [0] S_
  bcast_S_S4x3072x1024 : S_.BroadcastsInDim S4x3072x1024 (![] : Fin 0 → Fin S4x3072x1024.rank)
  reducesTo_S4x3072x1024_S_d0_1_2 : S4x3072x1024.ReducesTo [0, 1, 2] S_
  bcast_S_S4x3072 : S_.BroadcastsInDim S4x3072 (![] : Fin 0 → Fin S4x3072.rank)
  reducesTo_S4x3072_S_d0_1 : S4x3072.ReducesTo [0, 1] S_
  bcast_S_S64000x1024 : S_.BroadcastsInDim S64000x1024 (![] : Fin 0 → Fin S64000x1024.rank)
  reducesTo_S64000x1024_S_d0_1 : S64000x1024.ReducesTo [0, 1] S_
  bcast_S_S64000 : S_.BroadcastsInDim S64000 (![] : Fin 0 → Fin S64000.rank)
  reducesTo_S64000_S_d0 : S64000.ReducesTo [0] S_

variable [Facts]

def fn_part3 {F : FTy → Type} [FloatOps F] (main_arg12 : FVec F S64000x1024 .f32) (main_arg13 : FVec F S64000 .f32) (main_v48 : IVec S_ 1) (main_v49 : FVec F S4x3072 .f32) (main_v50 : FVec F S4x3072 .f32) : IVec S_ 1 :=
  let main_v51 : IVec S4x3072 1 := cmpf .olt main_v49 main_v50
  let main_c_19 : IVec S_ 1 := constantI S_ 1 1#1
  let main_v52 : IVec S_ 1 := (fun x v => Host.reduce IntOp.andi x v reducesTo_S4x3072_S_d0_1 h_S_) main_v51 main_c_19
  let main_v53 : IVec S_ 1 := andi main_v48 main_v52
  let main_v54 : FVec F S64000x1024 .f32 := Host.absf main_arg12
  let main_cst_20 : FVec F S_ .f32 := constant S_ .f32 0x7F800000#32
  let main_v55 : FVec F S64000x1024 .f32 := broadcastInDim S64000x1024 ![] bcast_S_S64000x1024 main_cst_20
  let main_v56 : IVec S64000x1024 1 := cmpf .olt main_v54 main_v55
  let main_c_21 : IVec S_ 1 := constantI S_ 1 1#1
  let main_v57 : IVec S_ 1 := (fun x v => Host.reduce IntOp.andi x v reducesTo_S64000x1024_S_d0_1 h_S_) main_v56 main_c_21
  let main_v58 : IVec S_ 1 := andi main_v53 main_v57
  let main_v59 : FVec F S64000 .f32 := Host.absf main_arg13
  let main_cst_22 : FVec F S_ .f32 := constant S_ .f32 0x7F800000#32
  let main_v60 : FVec F S64000 .f32 := broadcastInDim S64000 ![] bcast_S_S64000 main_cst_22
  let main_v61 : IVec S64000 1 := cmpf .olt main_v59 main_v60
  let main_c_23 : IVec S_ 1 := constantI S_ 1 1#1
  let main_v62 : IVec S_ 1 := (fun x v => Host.reduce IntOp.andi x v reducesTo_S64000_S_d0 h_S_) main_v61 main_c_23
  let main_v63 : IVec S_ 1 := andi main_v58 main_v62
  main_v63

def fn_part2 {F : FTy → Type} [FloatOps F] (main_arg8 : FVec F S4x3072x1024 .f32) (main_arg9 : FVec F S4x3072x1024 .f32) (main_arg10 : FVec F S4x3072 .f32) (main_arg11 : FVec F S4x3072 .f32) (main_arg12 : FVec F S64000x1024 .f32) (main_arg13 : FVec F S64000 .f32) (main_v33 : IVec S_ 1) : IVec S_ 1 :=
  let main_v34 : FVec F S4x3072x1024 .f32 := Host.absf main_arg8
  let main_cst_12 : FVec F S_ .f32 := constant S_ .f32 0x7F800000#32
  let main_v35 : FVec F S4x3072x1024 .f32 := broadcastInDim S4x3072x1024 ![] bcast_S_S4x3072x1024 main_cst_12
  let main_v36 : IVec S4x3072x1024 1 := cmpf .olt main_v34 main_v35
  let main_c_13 : IVec S_ 1 := constantI S_ 1 1#1
  let main_v37 : IVec S_ 1 := (fun x v => Host.reduce IntOp.andi x v reducesTo_S4x3072x1024_S_d0_1_2 h_S_) main_v36 main_c_13
  let main_v38 : IVec S_ 1 := andi main_v33 main_v37
  let main_v39 : FVec F S4x3072x1024 .f32 := Host.absf main_arg9
  let main_cst_14 : FVec F S_ .f32 := constant S_ .f32 0x7F800000#32
  let main_v40 : FVec F S4x3072x1024 .f32 := broadcastInDim S4x3072x1024 ![] bcast_S_S4x3072x1024 main_cst_14
  let main_v41 : IVec S4x3072x1024 1 := cmpf .olt main_v39 main_v40
  let main_c_15 : IVec S_ 1 := constantI S_ 1 1#1
  let main_v42 : IVec S_ 1 := (fun x v => Host.reduce IntOp.andi x v reducesTo_S4x3072x1024_S_d0_1_2 h_S_) main_v41 main_c_15
  let main_v43 : IVec S_ 1 := andi main_v38 main_v42
  let main_v44 : FVec F S4x3072 .f32 := Host.absf main_arg10
  let main_cst_16 : FVec F S_ .f32 := constant S_ .f32 0x7F800000#32
  let main_v45 : FVec F S4x3072 .f32 := broadcastInDim S4x3072 ![] bcast_S_S4x3072 main_cst_16
  let main_v46 : IVec S4x3072 1 := cmpf .olt main_v44 main_v45
  let main_c_17 : IVec S_ 1 := constantI S_ 1 1#1
  let main_v47 : IVec S_ 1 := (fun x v => Host.reduce IntOp.andi x v reducesTo_S4x3072_S_d0_1 h_S_) main_v46 main_c_17
  let main_v48 : IVec S_ 1 := andi main_v43 main_v47
  let main_v49 : FVec F S4x3072 .f32 := Host.absf main_arg11
  let main_cst_18 : FVec F S_ .f32 := constant S_ .f32 0x7F800000#32
  let main_v50 : FVec F S4x3072 .f32 := broadcastInDim S4x3072 ![] bcast_S_S4x3072 main_cst_18
  fn_part3 (F := F) main_arg12 main_arg13 main_v48 main_v49 main_v50

def fn_part1 {F : FTy → Type} [FloatOps F] (main_arg5 : FVec F S128 .f32) (main_arg6 : FVec F S1024x3072 .f32) (main_arg7 : FVec F S1024 .f32) (main_arg8 : FVec F S4x3072x1024 .f32) (main_arg9 : FVec F S4x3072x1024 .f32) (main_arg10 : FVec F S4x3072 .f32) (main_arg11 : FVec F S4x3072 .f32) (main_arg12 : FVec F S64000x1024 .f32) (main_arg13 : FVec F S64000 .f32) (main_v13 : IVec S_ 1) (main_v16 : IVec S128x3072 1) : IVec S_ 1 :=
  let main_c_5 : IVec S_ 1 := constantI S_ 1 1#1
  let main_v17 : IVec S_ 1 := (fun x v => Host.reduce IntOp.andi x v reducesTo_S128x3072_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1024x3072 .f32 := Host.absf main_arg6
  let main_cst_8 : FVec F S_ .f32 := constant S_ .f32 0x7F800000#32
  let main_v25 : FVec F S1024x3072 .f32 := broadcastInDim S1024x3072 ![] bcast_S_S1024x3072 main_cst_8
  let main_v26 : IVec S1024x3072 1 := cmpf .olt main_v24 main_v25
  let main_c_9 : IVec S_ 1 := constantI S_ 1 1#1
  let main_v27 : IVec S_ 1 := (fun x v => Host.reduce IntOp.andi x v reducesTo_S1024x3072_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S2 32) (main_arg1 : FVec F S4x1x1024 .f32) (main_arg2 : FVec F S128x1024 .f32) (main_arg3 : FVec F S32000x1024 .f32) (main_arg4 : FVec F S128x3072 .f32) (main_arg5 : FVec F S128 .f32) (main_arg6 : FVec F S1024x3072 .f32) (main_arg7 : FVec F S1024 .f32) (main_arg8 : FVec F S4x3072x1024 .f32) (main_arg9 : FVec F S4x3072x1024 .f32) (main_arg10 : FVec F S4x3072 .f32) (main_arg11 : FVec F S4x3072 .f32) (main_arg12 : FVec F S64000x1024 .f32) (main_arg13 : FVec F S64000 .f32) : IVec S_ 1 :=
  let main_v0 : FVec F S4x1x1024 .f32 := Host.absf main_arg1
  let main_cst : FVec F S_ .f32 := constant S_ .f32 0x7F800000#32
  let main_v1 : FVec F S4x1x1024 .f32 := broadcastInDim S4x1x1024 ![] bcast_S_S4x1x1024 main_cst
  let main_v2 : IVec S4x1x1024 1 := cmpf .olt main_v0 main_v1
  let main_c : IVec S_ 1 := constantI S_ 1 1#1
  let main_v3 : IVec S_ 1 := (fun x v => Host.reduce IntOp.andi x v reducesTo_S4x1x1024_S_d0_1_2 h_S_) main_v2 main_c
  let main_v4 : FVec F S128x1024 .f32 := Host.absf main_arg2
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S32000x1024 .f32 := Host.absf main_arg3
  let main_cst_2 : FVec F S_ .f32 := constant S_ .f32 0x7F800000#32
  let main_v10 : FVec F S32000x1024 .f32 := broadcastInDim S32000x1024 ![] bcast_S_S32000x1024 main_cst_2
  let main_v11 : IVec S32000x1024 1 := cmpf .olt main_v9 main_v10
  let main_c_3 : IVec S_ 1 := constantI S_ 1 1#1
  let main_v12 : IVec S_ 1 := (fun x v => Host.reduce IntOp.andi x v reducesTo_S32000x1024_S_d0_1 h_S_) main_v11 main_c_3
  let main_v13 : IVec S_ 1 := andi main_v8 main_v12
  let main_v14 : FVec F S128x3072 .f32 := Host.absf main_arg4
  let main_cst_4 : FVec F S_ .f32 := constant S_ .f32 0x7F800000#32
  let main_v15 : FVec F S128x3072 .f32 := broadcastInDim S128x3072 ![] bcast_S_S128x3072 main_cst_4
  let main_v16 : IVec S128x3072 1 := cmpf .olt main_v14 main_v15
  fn_part1 (F := F) main_arg5 main_arg6 main_arg7 main_arg8 main_arg9 main_arg10 main_arg11 main_arg12 main_arg13 main_v13 main_v16
-- ==== Kernel.lean ====
abbrev S2 : Shape := ⟨1, ![2]⟩
abbrev S4x1x1024 : Shape := ⟨3, ![4, 1, 1024]⟩
abbrev S128x1024 : Shape := ⟨2, ![128, 1024]⟩
abbrev S32000x1024 : Shape := ⟨2, ![32000, 1024]⟩
abbrev S128x3072 : Shape := ⟨2, ![128, 3072]⟩
abbrev S128 : Shape := ⟨1, ![128]⟩
abbrev S1024x3072 : Shape := ⟨2, ![1024, 3072]⟩
abbrev S1024 : Shape := ⟨1, ![1024]⟩
abbrev S4x3072x1024 : Shape := ⟨3, ![4, 3072, 1024]⟩
abbrev S4x3072 : Shape := ⟨2, ![4, 3072]⟩
abbrev S64000x1024 : Shape := ⟨2, ![64000, 1024]⟩
abbrev S64000 : Shape := ⟨1, ![64000]⟩
abbrev S_ : Shape := ⟨0, ![]⟩
abbrev S2x1 : Shape := ⟨2, ![2, 1]⟩
abbrev S2x1024 : Shape := ⟨2, ![2, 1024]⟩
abbrev S1x2048 : Shape := ⟨2, ![1, 2048]⟩
abbrev S1x1x1024 : Shape := ⟨3, ![1, 1, 1024]⟩
abbrev S1x1024 : Shape := ⟨2, ![1, 1024]⟩
abbrev S1x128 : Shape := ⟨2, ![1, 128]⟩
abbrev S128x2048 : Shape := ⟨2, ![128, 2048]⟩
abbrev S1 : Shape := ⟨1, ![1]⟩
abbrev S1x1 : Shape := ⟨2, ![1, 1]⟩
abbrev S1024x2048 : Shape := ⟨2, ![1024, 2048]⟩
abbrev S1024x1024 : Shape := ⟨2, ![1024, 1024]⟩
abbrev S12x1024x1024 : Shape := ⟨3, ![12, 1024, 1024]⟩
abbrev S12x1x1024 : Shape := ⟨3, ![12, 1, 1024]⟩
abbrev S1x1024x1024 : Shape := ⟨3, ![1, 1024, 1024]⟩
abbrev S1x64000 : Shape := ⟨2, ![1, 64000]⟩
abbrev S3200x1024 : Shape := ⟨2, ![3200, 1024]⟩
abbrev S1x3200 : Shape := ⟨2, ![1, 3200]⟩
abbrev S2x32000 : Shape := ⟨2, ![2, 32000]⟩

abbrev nBuf : Space → Nat
  | .hbm => 55
  | .vmem => 32
  | .smem => 0
  | _ => 0

abbrev bufTy : (tb : Table) → Fin (tcTables nBuf tb) → BufTy
  | .hbm, ⟨0, _⟩ => ⟨S2, .i32⟩
  | .hbm, ⟨1, _⟩ => ⟨S4x1x1024, .f32⟩
  | .hbm, ⟨2, _⟩ => ⟨S128x1024, .f32⟩
  | .hbm, ⟨3, _⟩ => ⟨S32000x1024, .f32⟩
  | .hbm, ⟨4, _⟩ => ⟨S128x3072, .f32⟩
  | .hbm, ⟨5, _⟩ => ⟨S128, .f32⟩
  | .hbm, ⟨6, _⟩ => ⟨S1024x3072, .f32⟩
  | .hbm, ⟨7, _⟩ => ⟨S1024, .f32⟩
  | .hbm, ⟨8, _⟩ => ⟨S4x3072x1024, .f32⟩
  | .hbm, ⟨9, _⟩ => ⟨S4x3072x1024, .f32⟩
  | .hbm, ⟨10, _⟩ => ⟨S4x3072, .f32⟩
  | .hbm, ⟨11, _⟩ => ⟨S4x3072, .f32⟩
  | .hbm, ⟨12, _⟩ => ⟨S64000x1024, .f32⟩
  | .hbm, ⟨13, _⟩ => ⟨S64000, .f32⟩
  | .hbm, ⟨14, _⟩ => ⟨S_, .i32⟩
  | .hbm, ⟨15, _⟩ => ⟨S2, .i32⟩
  | .hbm, ⟨16, _⟩ => ⟨S2, .i1⟩
  | .hbm, ⟨17, _⟩ => ⟨S_, .i32⟩
  | .hbm, ⟨18, _⟩ => ⟨S2, .i32⟩
  | .hbm, ⟨19, _⟩ => ⟨S2, .i32⟩
  | .hbm, ⟨20, _⟩ => ⟨S2, .i32⟩
  | .hbm, ⟨21, _⟩ => ⟨S2x1, .i32⟩
  | .hbm, ⟨22, _⟩ => ⟨S2x1024, .f32⟩
  | .hbm, ⟨23, _⟩ => ⟨S1x2048, .f32⟩
  | .hbm, ⟨24, _⟩ => ⟨S1x1x1024, .f32⟩
  | .hbm, ⟨25, _⟩ => ⟨S1x1024, .f32⟩
  | .hbm, ⟨26, _⟩ => ⟨S1x128, .f32⟩
  | .hbm, ⟨27, _⟩ => ⟨S1x1024, .f32⟩
  | .hbm, ⟨28, _⟩ => ⟨S1x128, .f32⟩
  | .hbm, ⟨29, _⟩ => ⟨S1x1024, .f32⟩
  | .hbm, ⟨30, _⟩ => ⟨S12x1024x1024, .f32⟩
  | .hbm, ⟨31, _⟩ => ⟨S12x1024x1024, .f32⟩
  | .hbm, ⟨32, _⟩ => ⟨S12x1x1024, .f32⟩
  | .hbm, ⟨33, _⟩ => ⟨S12x1x1024, .f32⟩
  | .hbm, ⟨34, _⟩ => ⟨S4x1x1024, .f32⟩
  | .hbm, ⟨35, _⟩ => ⟨S1x1x1024, .f32⟩
  | .hbm, ⟨36, _⟩ => ⟨S1x1024, .f32⟩
  | .hbm, ⟨37, _⟩ => ⟨S1x64000, .f32⟩
  | .hbm, ⟨38, _⟩ => ⟨S1x64000, .f32⟩
  | .hbm, ⟨39, _⟩ => ⟨S2x32000, .f32⟩
  | .hbm, ⟨40, _⟩ => ⟨S_, .f32⟩
  | .hbm, ⟨41, _⟩ => ⟨S2, .f32⟩
  | .hbm, ⟨42, _⟩ => ⟨S_, .f32⟩
  | .hbm, ⟨43, _⟩ => ⟨S2, .f32⟩
  | .hbm, ⟨44, _⟩ => ⟨S2, .f32⟩
  | .hbm, ⟨45, _⟩ => ⟨S2x1, .f32⟩
  | .hbm, ⟨46, _⟩ => ⟨S2x32000, .f32⟩
  | .hbm, ⟨47, _⟩ => ⟨S2x32000, .f32⟩
  | .hbm, ⟨48, _⟩ => ⟨S2x32000, .f32⟩
  | .hbm, ⟨49, _⟩ => ⟨S_, .f32⟩
  | .hbm, ⟨50, _⟩ => ⟨S2, .f32⟩
  | .hbm, ⟨51, _⟩ => ⟨S2x1, .f32⟩
  | .hbm, ⟨52, _⟩ => ⟨S2x1, .f32⟩
  | .hbm, ⟨53, _⟩ => ⟨S2x32000, .f32⟩
  | .hbm, ⟨54, _⟩ => ⟨S2x32000, .f32⟩
  | .local _ .vmem, ⟨0, _⟩ => ⟨S1x2048, .f32⟩
  | .local _ .vmem, ⟨1, _⟩ => ⟨S1x1024, .f32⟩
  | .local _ .vmem, ⟨2, _⟩ => ⟨S128x3072, .f32⟩
  | .local _ .vmem, ⟨3, _⟩ => ⟨S1x128, .f32⟩
  | .local _ .vmem, ⟨4, _⟩ => ⟨S128x1024, .f32⟩
  | .local _ .vmem, ⟨5, _⟩ => ⟨S1024x3072, .f32⟩
  | .local _ .vmem, ⟨6, _⟩ => ⟨S1x1024, .f32⟩
  | .local _ .vmem, ⟨7, _⟩ => ⟨S1x128, .f32⟩
  | .local _ .vmem, ⟨8, _⟩ => ⟨S1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S3200x1024, .f32⟩
  | .local _ .vmem, ⟨27, _⟩ => ⟨S3200x1024, .f32⟩
  | .local _ .vmem, ⟨28, _⟩ => ⟨S1x3200, .f32⟩
  | .local _ .vmem, ⟨29, _⟩ => ⟨S1x3200, .f32⟩
  | .local _ .vmem, ⟨30, _⟩ => ⟨S1x3200, .f32⟩
  | .local _ .vmem, ⟨31, _⟩ => ⟨S1x3200, .f32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_call0_cst_0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_cst_1 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_v23 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc2_stg0_0 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![4, 3], ![false, false]⟩

def k1_cond4 (i : grid1.Coords) : BitVec 1 :=
  let arg1 : BitVec 32 := BitVec.ofNat 32 (i 1).val
  let c2_i32 : BitVec 32 := 2#32
  let v30 : BitVec 1 := Scalar.cmpi .eq arg1 c2_i32
  let v31 : BitVec 32 := Scalar.extui v30
  let c0_i32_22 : BitVec 32 := 0#32
  let v32 : BitVec 1 := Scalar.cmpi .ne v31 c0_i32_22
  v32

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S3200x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x3200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x3200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S2 : S_.BroadcastsInDim S2 (![] : Fin 0 → Fin S2.rank)
  bcast_S2_S2x1_0 : S2.BroadcastsInDim S2x1 (![0] : Fin 1 → Fin S2x1.rank)
  shapeCasts_S2x1024_S1x2048 : S2x1024.ShapeCasts S1x2048
  slices_S4x1x1024_S1x1x1024_0_0_0 : S4x1x1024.Slices ![0, 0, 0] S1x1x1024
  shapeCasts_S1x1x1024_S1x1024 : S1x1x1024.ShapeCasts S1x1024
  shapeCasts_S128_S1x128 : S128.ShapeCasts S1x128
  shapeCasts_S1024_S1x1024 : S1024.ShapeCasts S1x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S128x3072_S128x2048_0_0 : ∀ a, (![0, 0] : Fin 2 → Nat) a + S128x2048.size a ≤ S128x3072.size a
  h_S128x2048 : 0 < S128x2048.numel
  bitsLt_bf16_f32 : FTy.bits .bf16 < FTy.bits .f32
  inb_S128x3072_S128x1024_0_2048 : ∀ a, (![0, 2048] : Fin 2 → Nat) a + S128x1024.size a ≤ S128x3072.size a
  h_S128x1024 : 0 < S128x1024.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S1x128_S1 : S1x128.Reduces [1] S1
  shapeCasts_S1_S1x1 : S1.ShapeCasts S1x1
  broadcasts_S1x1_S1x128 : S1x1.Broadcasts S1x128
  inb_S128x1024_S128x1024_0_0 : ∀ a, (![0, 0] : Fin 2 → Nat) a + S128x1024.size a ≤ S128x1024.size a
  inb_S1024x3072_S1024x2048_0_0 : ∀ a, (![0, 0] : Fin 2 → Nat) a + S1024x2048.size a ≤ S1024x3072.size a
  h_S1024x2048 : 0 < S1024x2048.numel
  inb_S1024x3072_S1024x1024_0_2048 : ∀ a, (![0, 2048] : Fin 2 → Nat) a + S1024x1024.size a ≤ S1024x3072.size a
  h_S1024x1024 : 0 < S1024x1024.numel
  shapeCasts_S4x3072x1024_S12x1024x1024 : S4x3072x1024.ShapeCasts S12x1024x1024
  shapeCasts_S4x3072_S12x1x1024 : S4x3072.ShapeCasts S12x1x1024
  inb_S1x1x1024_S1x1x1024_0_0_0 : ∀ a, (![0, 0, 0] : Fin 3 → Nat) a + S1x1x1024.size a ≤ S1x1x1024.size a
  h_S1x1x1024 : 0 < S1x1x1024.numel
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1x1024_S1x1x1024 : S1x1024.ShapeCasts S1x1x1024
  slices_S4x1x1024_S1x1x1024_3_0_0 : S4x1x1024.Slices ![3, 0, 0] S1x1x1024
  shapeCasts_S64000_S1x64000 : S64000.ShapeCasts S1x64000
  inb_S3200x1024_S3200x1024_0_0 : ∀ a, (![0, 0] : Fin 2 → Nat) a + S3200x1024.size a ≤ S3200x1024.size a
  h_S3200x1024 : 0 < S3200x1024.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  shapeCasts_S1x64000_S2x32000 : S1x64000.ShapeCasts S2x32000
  reducesTo_S2x32000_S2_d1 : S2x32000.ReducesTo [1] S2
  h_S_ : 0 < S_.numel
  bcast_S2x1_S2x32000_0_1 : S2x1.BroadcastsInDim S2x32000 (![0, 1] : Fin 2 → Fin S2x32000.rank)
  gather_S32000x1024_S2x1_S2x1024_1_0_n_n_0_1_11024_wf : GatherDims.WF S32000x1024 S2x1 S2x1024 [1] [0] [] [0] [] 1 ![1, 1024]
  dot_S1x2048_S128x2048_S1x128_1_1_0_0_n_n_wf : DotDims.WF S1x2048 S128x2048 S1x128 [1] [1] [0] [0] [] []
  dot_S1x1024_S128x1024_S1x128_1_1_0_0_n_n_wf : DotDims.WF S1x1024 S128x1024 S1x128 [1] [1] [0] [0] [] []
  dot_S1x128_S128x1024_S1x1024_1_0_0_1_n_n_wf : DotDims.WF S1x128 S128x1024 S1x1024 [1] [0] [0] [1] [] []
  dot_S1x2048_S1024x2048_S1x1024_1_1_0_0_n_n_wf : DotDims.WF S1x2048 S1024x2048 S1x1024 [1] [1] [0] [0] [] []
  dot_S1x1024_S1024x1024_S1x1024_1_1_0_0_n_n_wf : DotDims.WF S1x1024 S1024x1024 S1x1024 [1] [1] [0] [0] [] []
  dot_S1x1024_S3200x1024_S1x3200_1_1_0_0_n_n_wf : DotDims.WF S1x1024 S3200x1024 S1x3200 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x3072.size a ≤ S128x3072.size a
  hwx0_2 : ∀ i : grid0.Coords, EltTy.bits .f32 = 32 ∨ (Rect.block (s := S128x3072) S128x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x1024.size a
  hwx0_4 : ∀ i : grid0.Coords, EltTy.bits .f32 = 32 ∨ (Rect.block (s := S128x1024) S128x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x3072.size a ≤ S1024x3072.size a
  hwx0_5 : ∀ i : grid0.Coords, EltTy.bits .f32 = 32 ∨ (Rect.block (s := S1024x3072) S1024x3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024.size a ≤ S4x1x1024.size a
  hwx1_1 : ∀ i : grid1.Coords, EltTy.bits .f32 = 32 ∨ (Rect.block (s := S4x1x1024) S1x1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S12x1024x1024.size a
  hwx1_2 : ∀ i : grid1.Coords, EltTy.bits .f32 = 32 ∨ (Rect.block (s := S12x1024x1024) S1x1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S12x1024x1024.size a
  hwx1_3 : ∀ i : grid1.Coords, EltTy.bits .f32 = 32 ∨ (Rect.block (s := S12x1024x1024) S1x1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1024.size a ≤ S12x1x1024.size a
  hwx1_4 : ∀ i : grid1.Coords, EltTy.bits .f32 = 32 ∨ (Rect.block (s := S12x1x1024) S1x1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1024.size a ≤ S12x1x1024.size a
  hwx1_5 : ∀ i : grid1.Coords, EltTy.bits .f32 = 32 ∨ (Rect.block (s := S12x1x1024) S1x1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x1024.size a ≤ S4x1x1024.size a
  hwx1_6 : ∀ i : grid1.Coords, EltTy.bits .f32 = 32 ∨ (Rect.block (s := S4x1x1024) S1x1x1024.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x1024.size a ≤ S64000x1024.size a
  hwx2_1 : ∀ i : grid2.Coords, EltTy.bits .f32 = 32 ∨ (Rect.block (s := S64000x1024) S3200x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x3200.size a ≤ S1x64000.size a
  hwx2_2 : ∀ i : grid2.Coords, EltTy.bits .f32 = 32 ∨ (Rect.block (s := S1x64000) S1x3200.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x3200.size a ≤ S1x64000.size a
  hwx2_3 : ∀ i : grid2.Coords, EltTy.bits .f32 = 32 ∨ (Rect.block (s := S1x64000) S1x3200.size (cc2_transform_3 i) (hinb2_3 i)).WholeWords (EltTy.packing .f32)

variable [Facts₀]

def gather_S32000x1024_S2x1_S2x1024_1_0_n_n_0_1_11024 : GatherDims S32000x1024 S2x1 S2x1024 where
  offsetDims := [1]
  collapsedSliceDims := [0]
  operandBatchingDims := []
  startIndicesBatchingDims := []
  startIndexMap := [0]
  indexVectorDim := 1
  sliceSizes := ![1, 1024]
  wf := gather_S32000x1024_S2x1_S2x1024_1_0_n_n_0_1_11024_wf
def dot_S1x2048_S128x2048_S1x128_1_1_0_0_n_n : DotDims S1x2048 S128x2048 S1x128 where
  lhsContracting := [1]
  rhsContracting := [1]
  lhsNonContracting := [0]
  rhsNonContracting := [0]
  lhsBatch := []
  rhsBatch := []
  wf := dot_S1x2048_S128x2048_S1x128_1_1_0_0_n_n_wf
def dot_S1x1024_S128x1024_S1x128_1_1_0_0_n_n : DotDims S1x1024 S128x1024 S1x128 where
  lhsContracting := [1]
  rhsContracting := [1]
  lhsNonContracting := [0]
  rhsNonContracting := [0]
  lhsBatch := []
  rhsBatch := []
  wf := dot_S1x1024_S128x1024_S1x128_1_1_0_0_n_n_wf
def dot_S1x128_S128x1024_S1x1024_1_0_0_1_n_n : DotDims S1x128 S128x1024 S1x1024 where
  lhsContracting := [1]
  rhsContracting := [0]
  lhsNonContracting := [0]
  rhsNonContracting := [1]
  lhsBatch := []
  rhsBatch := []
  wf := dot_S1x128_S128x1024_S1x1024_1_0_0_1_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S3200x1024_S1x3200_1_1_0_0_n_n : DotDims S1x1024 S3200x1024 S1x3200 where
  lhsContracting := [1]
  rhsContracting := [1]
  lhsNonContracting := [0]
  rhsNonContracting := [0]
  lhsBatch := []
  rhsBatch := []
  wf := dot_S1x1024_S3200x1024_S1x3200_1_1_0_0_n_n_wf

abbrev win0_0 : Pipeline.Window sig grid0 :=
  Pipeline.Window.ofSpec (Memref.whole main_v7) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12_0) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12_1) S1x1024.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v12_1) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x1x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond4 i == 1#1) | ⟨_ + 7, h⟩ => absurd h (Nat.not_lt.2 (Nat.le_add_left _ _))

abbrev win2_0 : Pipeline.Window sig grid2 :=
  Pipeline.Window.ofSpec (Memref.whole main_v19) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S3200x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x3200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x3200.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2 : Shape := ⟨1, ![2]⟩
abbrev S4x1x1024 : Shape := ⟨3, ![4, 1, 1024]⟩
abbrev S128x1024 : Shape := ⟨2, ![128, 1024]⟩
abbrev S32000x1024 : Shape := ⟨2, ![32000, 1024]⟩
abbrev S128x3072 : Shape := ⟨2, ![128, 3072]⟩
abbrev S128 : Shape := ⟨1, ![128]⟩
abbrev S1024x3072 : Shape := ⟨2, ![1024, 3072]⟩
abbrev S1024 : Shape := ⟨1, ![1024]⟩
abbrev S4x3072x1024 : Shape := ⟨3, ![4, 3072, 1024]⟩
abbrev S4x3072 : Shape := ⟨2, ![4, 3072]⟩
abbrev S64000x1024 : Shape := ⟨2, ![64000, 1024]⟩
abbrev S64000 : Shape := ⟨1, ![64000]⟩
abbrev S_ : Shape := ⟨0, ![]⟩
abbrev S2x1 : Shape := ⟨2, ![2, 1]⟩
abbrev S2x1024 : Shape := ⟨2, ![2, 1024]⟩
abbrev S1x2048 : Shape := ⟨2, ![1, 2048]⟩
abbrev S1x1x1024 : Shape := ⟨3, ![1, 1, 1024]⟩
abbrev S1x1024 : Shape := ⟨2, ![1, 1024]⟩
abbrev S1x3072 : Shape := ⟨2, ![1, 3072]⟩
abbrev S3072x128 : Shape := ⟨2, ![3072, 128]⟩
abbrev S1x128 : Shape := ⟨2, ![1, 128]⟩
abbrev S1 : Shape := ⟨1, ![1]⟩
abbrev S1x1 : Shape := ⟨2, ![1, 1]⟩
abbrev S3072x1024 : Shape := ⟨2, ![3072, 1024]⟩
abbrev S1x3072x1024 : Shape := ⟨3, ![1, 3072, 1024]⟩
abbrev S3072 : Shape := ⟨1, ![3072]⟩
abbrev S1024x64000 : Shape := ⟨2, ![1024, 64000]⟩
abbrev S1x64000 : Shape := ⟨2, ![1, 64000]⟩
abbrev S2x32000 : Shape := ⟨2, ![2, 32000]⟩

abbrev nBuf : Space → Nat
  | .hbm => 283
  | .vmem => 0
  | .smem => 0
  | _ => 0

abbrev hbmTy0_0 (i : Nat) : BufTy := match i % 128 with
  | 0 => ⟨S2, .i32⟩
  | 1 => ⟨S4x1x1024, .f32⟩
  | 2 => ⟨S128x1024, .f32⟩
  | 3 => ⟨S32000x1024, .f32⟩
  | 4 => ⟨S128x3072, .f32⟩
  | 5 => ⟨S128, .f32⟩
  | 6 => ⟨S1024x3072, .f32⟩
  | 7 => ⟨S1024, .f32⟩
  | 8 => ⟨S4x3072x1024, .f32⟩
  | 9 => ⟨S4x3072x1024, .f32⟩
  | 10 => ⟨S4x3072, .f32⟩
  | 11 => ⟨S4x3072, .f32⟩
  | 12 => ⟨S64000x1024, .f32⟩
  | 13 => ⟨S64000, .f32⟩
  | 14 => ⟨S_, .i32⟩
  | 15 => ⟨S2, .i32⟩
  | 16 => ⟨S2, .i1⟩
  | 17 => ⟨S_, .i32⟩
  | 18 => ⟨S2, .i32⟩
  | 19 => ⟨S2, .i32⟩
  | 20 => ⟨S2, .i32⟩
  | 21 => ⟨S2x1, .i32⟩
  | 22 => ⟨S2x1024, .f32⟩
  | 23 => ⟨S1x2048, .f32⟩
  | 24 => ⟨S1x1x1024, .f32⟩
  | 25 => ⟨S1x1024, .f32⟩
  | 26 => ⟨S1x3072, .f32⟩
  | 27 => ⟨S3072x128, .f32⟩
  | 28 => ⟨S1x128, .f32⟩
  | 29 => ⟨S1x128, .f32⟩
  | 30 => ⟨S1x128, .f32⟩
  | 31 => ⟨S_, .f32⟩
  | 32 => ⟨S1, .f32⟩
  | 33 => ⟨S_, .f32⟩
  | 34 => ⟨S1, .f32⟩
  | 35 => ⟨S1, .f32⟩
  | 36 => ⟨S1x1, .f32⟩
  | 37 => ⟨S1x128, .f32⟩
  | 38 => ⟨S1x128, .f32⟩
  | 39 => ⟨S1x128, .f32⟩
  | 40 => ⟨S_, .f32⟩
  | 41 => ⟨S1, .f32⟩
  | 42 => ⟨S1x1, .f32⟩
  | 43 => ⟨S1x128, .f32⟩
  | 44 => ⟨S1x128, .f32⟩
  | 45 => ⟨S1x1024, .f32⟩
  | 46 => ⟨S1x3072, .f32⟩
  | 47 => ⟨S3072x1024, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1x1024, .f32⟩
  | 55 => ⟨S1x1024, .f32⟩
  | 56 => ⟨S1x3072x1024, .f32⟩
  | 57 => ⟨S3072x1024, .f32⟩
  | 58 => ⟨S1024x3072, .f32⟩
  | 59 => ⟨S1x3072, .f32⟩
  | 60 => ⟨S1x3072, .f32⟩
  | 61 => ⟨S3072, .f32⟩
  | 62 => ⟨S1x3072, .f32⟩
  | 63 => ⟨S1x3072, .f32⟩
  | 64 => ⟨S1x3072x1024, .f32⟩
  | 65 => ⟨S3072x1024, .f32⟩
  | 66 => ⟨S1024x3072, .f32⟩
  | 67 => ⟨S1x3072, .f32⟩
  | 68 => ⟨S1x3072, .f32⟩
  | 69 => ⟨S3072, .f32⟩
  | 70 => ⟨S1x3072, .f32⟩
  | 71 => ⟨S1x3072, .f32⟩
  | 72 => ⟨S1x1024, .f32⟩
  | 73 => ⟨S1x1024, .f32⟩
  | 74 => ⟨S1x1024, .f32⟩
  | 75 => ⟨S1x1024, .f32⟩
  | 76 => ⟨S1x1024, .f32⟩
  | 77 => ⟨S1x1024, .f32⟩
  | 78 => ⟨S1x1024, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1x1024, .f32⟩
  | 106 => ⟨S1x1024, .f32⟩
  | 107 => ⟨S1x3072x1024, .f32⟩
  | 108 => ⟨S3072x1024, .f32⟩
  | 109 => ⟨S1024x3072, .f32⟩
  | 110 => ⟨S1x3072, .f32⟩
  | 111 => ⟨S1x3072, .f32⟩
  | 112 => ⟨S3072, .f32⟩
  | 113 => ⟨S1x3072, .f32⟩
  | 114 => ⟨S1x3072, .f32⟩
  | 115 => ⟨S1x3072x1024, .f32⟩
  | 116 => ⟨S3072x1024, .f32⟩
  | 117 => ⟨S1024x3072, .f32⟩
  | 118 => ⟨S1x3072, .f32⟩
  | 119 => ⟨S1x3072, .f32⟩
  | 120 => ⟨S3072, .f32⟩
  | 121 => ⟨S1x3072, .f32⟩
  | 122 => ⟨S1x3072, .f32⟩
  | 123 => ⟨S1x1024, .f32⟩
  | 124 => ⟨S1x1024, .f32⟩
  | 125 => ⟨S1x1024, .f32⟩
  | 126 => ⟨S1x1024, .f32⟩
  | 127 => ⟨S1x1024, .f32⟩
  | _ => ⟨S2, .i32⟩

abbrev hbmTy0_1 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1x1024, .f32⟩
  | 29 => ⟨S1x1024, .f32⟩
  | 30 => ⟨S1x3072x1024, .f32⟩
  | 31 => ⟨S3072x1024, .f32⟩
  | 32 => ⟨S1024x3072, .f32⟩
  | 33 => ⟨S1x3072, .f32⟩
  | 34 => ⟨S1x3072, .f32⟩
  | 35 => ⟨S3072, .f32⟩
  | 36 => ⟨S1x3072, .f32⟩
  | 37 => ⟨S1x3072, .f32⟩
  | 38 => ⟨S1x3072x1024, .f32⟩
  | 39 => ⟨S3072x1024, .f32⟩
  | 40 => ⟨S1024x3072, .f32⟩
  | 41 => ⟨S1x3072, .f32⟩
  | 42 => ⟨S1x3072, .f32⟩
  | 43 => ⟨S3072, .f32⟩
  | 44 => ⟨S1x3072, .f32⟩
  | 45 => ⟨S1x3072, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S1x1024, .f32⟩
  | 78 => ⟨S1x1024, .f32⟩
  | 79 => ⟨S1x1x1024, .f32⟩
  | 80 => ⟨S1x1024, .f32⟩
  | 81 => ⟨S1x3072x1024, .f32⟩
  | 82 => ⟨S3072x1024, .f32⟩
  | 83 => ⟨S1024x3072, .f32⟩
  | 84 => ⟨S1x3072, .f32⟩
  | 85 => ⟨S1x3072, .f32⟩
  | 86 => ⟨S3072, .f32⟩
  | 87 => ⟨S1x3072, .f32⟩
  | 88 => ⟨S1x3072, .f32⟩
  | 89 => ⟨S1x3072x1024, .f32⟩
  | 90 => ⟨S3072x1024, .f32⟩
  | 91 => ⟨S1024x3072, .f32⟩
  | 92 => ⟨S1x3072, .f32⟩
  | 93 => ⟨S1x3072, .f32⟩
  | 94 => ⟨S3072, .f32⟩
  | 95 => ⟨S1x3072, .f32⟩
  | 96 => ⟨S1x3072, .f32⟩
  | 97 => ⟨S1x1024, .f32⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S_, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S2, .i32⟩

abbrev hbmTy0_2 (i : Nat) : BufTy := match i % 128 with
  | 0 => ⟨S1x1024, .f32⟩
  | 1 => ⟨S1x1024, .f32⟩
  | 2 => ⟨S1x1x1024, .f32⟩
  | 3 => ⟨S1x1x1024, .f32⟩
  | 4 => ⟨S1x1x1024, .f32⟩
  | 5 => ⟨S1x1x1024, .f32⟩
  | 6 => ⟨S4x1x1024, .f32⟩
  | 7 => ⟨S1024x64000, .f32⟩
  | 8 => ⟨S1x64000, .f32⟩
  | 9 => ⟨S1x64000, .f32⟩
  | 10 => ⟨S1x64000, .f32⟩
  | 11 => ⟨S2x32000, .f32⟩
  | 12 => ⟨S_, .f32⟩
  | 13 => ⟨S2, .f32⟩
  | 14 => ⟨S_, .f32⟩
  | 15 => ⟨S2, .f32⟩
  | 16 => ⟨S2, .f32⟩
  | 17 => ⟨S2x1, .f32⟩
  | 18 => ⟨S2x32000, .f32⟩
  | 19 => ⟨S2x32000, .f32⟩
  | 20 => ⟨S2x32000, .f32⟩
  | 21 => ⟨S_, .f32⟩
  | 22 => ⟨S2, .f32⟩
  | 23 => ⟨S2x1, .f32⟩
  | 24 => ⟨S2x1, .f32⟩
  | 25 => ⟨S2x32000, .f32⟩
  | 26 => ⟨S2x32000, .f32⟩
  | _ => ⟨S2, .i32⟩

abbrev hbmTy (i : Nat) : BufTy := match i / 128 with
  | 0 => hbmTy0_0 i
  | 1 => hbmTy0_1 i
  | 2 => hbmTy0_2 i
  | _ => ⟨S2, .i32⟩

abbrev bufTy : (tb : Table) → Fin (tcTables nBuf tb) → BufTy
  | .hbm, ⟨i, _⟩ => hbmTy i
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call0_cst : Ref sig .tc := ⟨.hbm, 51, rfl⟩
abbrev main_call0_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_3 : Ref sig .tc := ⟨.hbm, 81, rfl⟩
abbrev main_v60 : Ref sig .tc := ⟨.hbm, 82, rfl⟩
abbrev main_v61 : Ref sig .tc := ⟨.hbm, 83, rfl⟩
abbrev main_cst_4 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_5 : Ref sig .tc := ⟨.hbm, 90, rfl⟩
abbrev main_v67 : Ref sig .tc := ⟨.hbm, 91, rfl⟩
abbrev main_v68 : Ref sig .tc := ⟨.hbm, 92, rfl⟩
abbrev main_cst_6 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_7 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_8 : Ref sig .tc := ⟨.hbm, 132, rfl⟩
abbrev main_v106 : Ref sig .tc := ⟨.hbm, 133, rfl⟩
abbrev main_v107 : Ref sig .tc := ⟨.hbm, 134, rfl⟩
abbrev main_cst_9 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_10 : Ref sig .tc := ⟨.hbm, 141, rfl⟩
abbrev main_v113 : Ref sig .tc := ⟨.hbm, 142, rfl⟩
abbrev main_v114 : Ref sig .tc := ⟨.hbm, 143, rfl⟩
abbrev main_cst_11 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_12 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_13 : Ref sig .tc := ⟨.hbm, 183, rfl⟩
abbrev main_v152 : Ref sig .tc := ⟨.hbm, 184, rfl⟩
abbrev main_v153 : Ref sig .tc := ⟨.hbm, 185, rfl⟩
abbrev main_cst_14 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_cst_15 : Ref sig .tc := ⟨.hbm, 192, rfl⟩
abbrev main_v159 : Ref sig .tc := ⟨.hbm, 193, rfl⟩
abbrev main_v160 : Ref sig .tc := ⟨.hbm, 194, rfl⟩
abbrev main_cst_16 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_cst_17 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_cst_18 : Ref sig .tc := ⟨.hbm, 234, rfl⟩
abbrev main_v198 : Ref sig .tc := ⟨.hbm, 235, rfl⟩
abbrev main_v199 : Ref sig .tc := ⟨.hbm, 236, rfl⟩
abbrev main_cst_19 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_cst_20 : Ref sig .tc := ⟨.hbm, 243, rfl⟩
abbrev main_v205 : Ref sig .tc := ⟨.hbm, 244, rfl⟩
abbrev main_v206 : Ref sig .tc := ⟨.hbm, 245, rfl⟩
abbrev main_cst_21 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_cst_22 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_call1_cst : Ref sig .tc := ⟨.hbm, 268, rfl⟩
abbrev main_call1_v0 : Ref sig .tc := ⟨.hbm, 269, rfl⟩
abbrev main_call1_cst_0 : Ref sig .tc := ⟨.hbm, 270, rfl⟩
abbrev main_call1_v1 : Ref sig .tc := ⟨.hbm, 271, rfl⟩
abbrev main_call1_v2 : Ref sig .tc := ⟨.hbm, 272, rfl⟩
abbrev main_call1_v3 : Ref sig .tc := ⟨.hbm, 273, rfl⟩
abbrev main_call1_v4 : Ref sig .tc := ⟨.hbm, 274, rfl⟩
abbrev main_call1_v5 : Ref sig .tc := ⟨.hbm, 275, rfl⟩
abbrev main_call1_v6 : Ref sig .tc := ⟨.hbm, 276, rfl⟩
abbrev main_call1_cst_1 : Ref sig .tc := ⟨.hbm, 277, rfl⟩
abbrev main_call1_v7 : Ref sig .tc := ⟨.hbm, 278, rfl⟩
abbrev main_call1_v8 : Ref sig .tc := ⟨.hbm, 279, rfl⟩
abbrev main_call1_v9 : Ref sig .tc := ⟨.hbm, 280, rfl⟩
abbrev main_call1_v10 : Ref sig .tc := ⟨.hbm, 281, rfl⟩
abbrev main_v227 : Ref sig .tc := ⟨.hbm, 282, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S2_S2x1_0 : S2.BroadcastsInDim S2x1 (![0] : Fin 1 → Fin S2x1.rank)
  shapeCasts_S2x1024_S1x2048 : S2x1024.ShapeCasts S1x2048
  slices_S4x1x1024_S1x1x1024_0_0_0 : S4x1x1024.Slices ![0, 0, 0] S1x1x1024
  shapeCasts_S1x1x1024_S1x1024 : S1x1x1024.ShapeCasts S1x1024
  concatenates_S1x2048_S1x1024_S1x3072_d1 : Shape.Concatenates [S1x2048, S1x1024] S1x3072 1
  transposes_S128x3072_S3072x128_1_0 : S128x3072.Transposes [1, 0] S3072x128
  bcast_S128_S1x128_1 : S128.BroadcastsInDim S1x128 (![1] : Fin 1 → Fin S1x128.rank)
  reducesTo_S1x128_S1_d1 : S1x128.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x128_0_1 : S1x1.BroadcastsInDim S1x128 (![0, 1] : Fin 2 → Fin S1x128.rank)
  transposes_S1024x3072_S3072x1024_1_0 : S1024x3072.Transposes [1, 0] S3072x1024
  bcast_S1024_S1x1024_1 : S1024.BroadcastsInDim S1x1024 (![1] : Fin 1 → Fin S1x1024.rank)
  bcast_S_S1x1024 : S_.BroadcastsInDim S1x1024 (![] : Fin 0 → Fin S1x1024.rank)
  slices_S4x3072x1024_S1x3072x1024_0_0_0 : S4x3072x1024.Slices ![0, 0, 0] S1x3072x1024
  shapeCasts_S1x3072x1024_S3072x1024 : S1x3072x1024.ShapeCasts S3072x1024
  transposes_S3072x1024_S1024x3072_1_0 : S3072x1024.Transposes [1, 0] S1024x3072
  slices_S4x3072_S1x3072_0_0 : S4x3072.Slices ![0, 0] S1x3072
  shapeCasts_S1x3072_S3072 : S1x3072.ShapeCasts S3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  slices_S4x1x1024_S1x1x1024_1_0_0 : S4x1x1024.Slices ![1, 0, 0] S1x1x1024
  slices_S4x3072x1024_S1x3072x1024_1_0_0 : S4x3072x1024.Slices ![1, 0, 0] S1x3072x1024
  slices_S4x3072_S1x3072_1_0 : S4x3072.Slices ![1, 0] S1x3072
  slices_S4x1x1024_S1x1x1024_2_0_0 : S4x1x1024.Slices ![2, 0, 0] S1x1x1024
  slices_S4x3072x1024_S1x3072x1024_2_0_0 : S4x3072x1024.Slices ![2, 0, 0] S1x3072x1024
  slices_S4x3072_S1x3072_2_0 : S4x3072.Slices ![2, 0] S1x3072
  slices_S4x1x1024_S1x1x1024_3_0_0 : S4x1x1024.Slices ![3, 0, 0] S1x1x1024
  slices_S4x3072x1024_S1x3072x1024_3_0_0 : S4x3072x1024.Slices ![3, 0, 0] S1x3072x1024
  slices_S4x3072_S1x3072_3_0 : S4x3072.Slices ![3, 0] S1x3072
  bcast_S1x1024_S1x1x1024_1_2 : S1x1024.BroadcastsInDim S1x1x1024 (![1, 2] : Fin 2 → Fin S1x1x1024.rank)
  concatenates_S1x1x1024_S1x1x1024_S1x1x1024_S1x1x1024_S4x1x1024_d0 : Shape.Concatenates [S1x1x1024, S1x1x1024, S1x1x1024, S1x1x1024] S4x1x1024 0
  transposes_S64000x1024_S1024x64000_1_0 : S64000x1024.Transposes [1, 0] S1024x64000
  bcast_S64000_S1x64000_1 : S64000.BroadcastsInDim S1x64000 (![1] : Fin 1 → Fin S1x64000.rank)
  shapeCasts_S1x64000_S2x32000 : S1x64000.ShapeCasts S2x32000
  reducesTo_S2x32000_S2_d1 : S2x32000.ReducesTo [1] S2
  bcast_S2x1_S2x32000_0_1 : S2x1.BroadcastsInDim S2x32000 (![0, 1] : Fin 2 → Fin S2x32000.rank)
  gather_S32000x1024_S2x1_S2x1024_1_0_n_n_0_1_11024_wf : GatherDims.WF S32000x1024 S2x1 S2x1024 [1] [0] [] [0] [] 1 ![1, 1024]
  dot_S1x3072_S3072x128_S1x128_1_0_0_1_n_n_wf : DotDims.WF S1x3072 S3072x128 S1x128 [1] [0] [0] [1] [] []
  dot_S1x128_S128x1024_S1x1024_1_0_0_1_n_n_wf : DotDims.WF S1x128 S128x1024 S1x1024 [1] [0] [0] [1] [] []
  dot_S1x3072_S3072x1024_S1x1024_1_0_0_1_n_n_wf : DotDims.WF S1x3072 S3072x1024 S1x1024 [1] [0] [0] [1] [] []
  dot_S1x1024_S1024x3072_S1x3072_1_0_0_1_n_n_wf : DotDims.WF S1x1024 S1024x3072 S1x3072 [1] [0] [0] [1] [] []
  dot_S1x1024_S1024x64000_S1x64000_1_0_0_1_n_n_wf : DotDims.WF S1x1024 S1024x64000 S1x64000 [1] [0] [0] [1] [] []

variable [Facts₀]

def gather_S32000x1024_S2x1_S2x1024_1_0_n_n_0_1_11024 : GatherDims S32000x1024 S2x1 S2x1024 where
  offsetDims := [1]
  collapsedSliceDims := [0]
  operandBatchingDims := []
  startIndicesBatchingDims := []
  startIndexMap := [0]
  indexVectorDim := 1
  sliceSizes := ![1, 1024]
  wf := gather_S32000x1024_S2x1_S2x1024_1_0_n_n_0_1_11024_wf
def dot_S1x3072_S3072x128_S1x128_1_0_0_1_n_n : DotDims S1x3072 S3072x128 S1x128 where
  lhsContracting := [1]
  rhsContracting := [0]
  lhsNonContracting := [0]
  rhsNonContracting := [1]
  lhsBatch := []
  rhsBatch := []
  wf := dot_S1x3072_S3072x128_S1x128_1_0_0_1_n_n_wf
def dot_S1x128_S128x1024_S1x1024_1_0_0_1_n_n : DotDims S1x128 S128x1024 S1x1024 where
  lhsContracting := [1]
  rhsContracting := [0]
  lhsNonContracting := [0]
  rhsNonContracting := [1]
  lhsBatch := []
  rhsBatch := []
  wf := dot_S1x128_S128x1024_S1x1024_1_0_0_1_n_n_wf
def dot_S1x3072_S3072x1024_S1x1024_1_0_0_1_n_n : DotDims S1x3072 S3072x1024 S1x1024 where
  lhsContracting := [1]
  rhsContracting := [0]
  lhsNonContracting := [0]
  rhsNonContracting := [1]
  lhsBatch := []
  rhsBatch := []
  wf := dot_S1x3072_S3072x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x64000_S1x64000_1_0_0_1_n_n : DotDims S1x1024 S1024x64000 S1x64000 where
  lhsContracting := [1]
  rhsContracting := [0]
  lhsNonContracting := [0]
  rhsNonContracting := [1]
  lhsBatch := []
  rhsBatch := []
  wf := dot_S1x1024_S1024x64000_S1x64000_1_0_0_1_n_n_wf

class Facts : Prop extends Facts₀ where

variable [Facts]
-- ==== Proof.RefRun.lean ====
import proofs.«145509_j26731876451021_2_alg».proof.Proof.RefRunP
import proofs.«145509_j26731876451021_2_alg».proof.Proof.RefReadP
import Idealize.ShloMosaic.Lib.Pipeline.Regions

/-! The reference's run, read at its three results: each is the composed value of the operations that compute it, as a
function of the fourteen arguments. The 269 operations are taken in six stretches — embedding, attention and combine;
the four layers of the recurrent unit; stacking, projection and log-softmax — and each stretch is read at the few buffers
a later stretch or the result needs: what it computes there from what it finds, and what it leaves unwritten. (A stretch whose
operations join several operands into one value — a concatenation — is read by unfolding the fold itself: both sides of such an
equation are one term up to definitional unfolding.) -/

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP

/-! ## What each stretch leaves unwritten -/
theorem c0_keep_main_arg0 (W : Valuation τ sig (Elt Ideal)) : after c0 W (Proc.devRef .tc main_arg0) = W (Proc.devRef .tc main_arg0) := by after_results_simp
theorem c0_keep_main_arg1 (W : Valuation τ sig (Elt Ideal)) : after c0 W (Proc.devRef .tc main_arg1) = W (Proc.devRef .tc main_arg1) := by after_results_simp
theorem c0_keep_main_arg2 (W : Valuation τ sig (Elt Ideal)) : after c0 W (Proc.devRef .tc main_arg2) = W (Proc.devRef .tc main_arg2) := by after_results_simp
theorem c0_keep_main_arg3 (W : Valuation τ sig (Elt Ideal)) : after c0 W (Proc.devRef .tc main_arg3) = W (Proc.devRef .tc main_arg3) := by after_results_simp
theorem c0_keep_main_arg4 (W : Valuation τ sig (Elt Ideal)) : after c0 W (Proc.devRef .tc main_arg4) = W (Proc.devRef .tc main_arg4) := by after_results_simp
theorem c0_keep_main_arg5 (W : Valuation τ sig (Elt Ideal)) : after c0 W (Proc.devRef .tc main_arg5) = W (Proc.devRef .tc main_arg5) := by after_results_simp
theorem c0_keep_main_arg6 (W : Valuation τ sig (Elt Ideal)) : after c0 W (Proc.devRef .tc main_arg6) = W (Proc.devRef .tc main_arg6) := by after_results_simp
theorem c0_keep_main_arg7 (W : Valuation τ sig (Elt Ideal)) : after c0 W (Proc.devRef .tc main_arg7) = W (Proc.devRef .tc main_arg7) := by after_results_simp
theorem c0_keep_main_arg8 (W : Valuation τ sig (Elt Ideal)) : after c0 W (Proc.devRef .tc main_arg8) = W (Proc.devRef .tc main_arg8) := by after_results_simp
theorem c0_keep_main_arg9 (W : Valuation τ sig (Elt Ideal)) : after c0 W (Proc.devRef .tc main_arg9) = W (Proc.devRef .tc main_arg9) := by after_results_simp
theorem c0_keep_main_arg10 (W : Valuation τ sig (Elt Ideal)) : after c0 W (Proc.devRef .tc main_arg10) = W (Proc.devRef .tc main_arg10) := by after_results_simp
theorem c0_keep_main_arg11 (W : Valuation τ sig (Elt Ideal)) : after c0 W (Proc.devRef .tc main_arg11) = W (Proc.devRef .tc main_arg11) := by after_results_simp
theorem c0_keep_main_arg12 (W : Valuation τ sig (Elt Ideal)) : after c0 W (Proc.devRef .tc main_arg12) = W (Proc.devRef .tc main_arg12) := by after_results_simp
theorem c0_keep_main_arg13 (W : Valuation τ sig (Elt Ideal)) : after c0 W (Proc.devRef .tc main_arg13) = W (Proc.devRef .tc main_arg13) := by after_results_simp
theorem c1_keep_main_arg0 (W : Valuation τ sig (Elt Ideal)) : after c1 W (Proc.devRef .tc main_arg0) = W (Proc.devRef .tc main_arg0) := by after_results_simp
theorem c1_keep_main_arg1 (W : Valuation τ sig (Elt Ideal)) : after c1 W (Proc.devRef .tc main_arg1) = W (Proc.devRef .tc main_arg1) := by after_results_simp
theorem c1_keep_main_arg2 (W : Valuation τ sig (Elt Ideal)) : after c1 W (Proc.devRef .tc main_arg2) = W (Proc.devRef .tc main_arg2) := by after_results_simp
theorem c1_keep_main_arg3 (W : Valuation τ sig (Elt Ideal)) : after c1 W (Proc.devRef .tc main_arg3) = W (Proc.devRef .tc main_arg3) := by after_results_simp
theorem c1_keep_main_arg4 (W : Valuation τ sig (Elt Ideal)) : after c1 W (Proc.devRef .tc main_arg4) = W (Proc.devRef .tc main_arg4) := by after_results_simp
theorem c1_keep_main_arg5 (W : Valuation τ sig (Elt Ideal)) : after c1 W (Proc.devRef .tc main_arg5) = W (Proc.devRef .tc main_arg5) := by after_results_simp
theorem c1_keep_main_arg6 (W : Valuation τ sig (Elt Ideal)) : after c1 W (Proc.devRef .tc main_arg6) = W (Proc.devRef .tc main_arg6) := by after_results_simp
theorem c1_keep_main_arg7 (W : Valuation τ sig (Elt Ideal)) : after c1 W (Proc.devRef .tc main_arg7) = W (Proc.devRef .tc main_arg7) := by after_results_simp
theorem c1_keep_main_arg8 (W : Valuation τ sig (Elt Ideal)) : after c1 W (Proc.devRef .tc main_arg8) = W (Proc.devRef .tc main_arg8) := by after_results_simp
theorem c1_keep_main_arg9 (W : Valuation τ sig (Elt Ideal)) : after c1 W (Proc.devRef .tc main_arg9) = W (Proc.devRef .tc main_arg9) := by after_results_simp
theorem c1_keep_main_arg10 (W : Valuation τ sig (Elt Ideal)) : after c1 W (Proc.devRef .tc main_arg10) = W (Proc.devRef .tc main_arg10) := by after_results_simp
theorem c1_keep_main_arg11 (W : Valuation τ sig (Elt Ideal)) : after c1 W (Proc.devRef .tc main_arg11) = W (Proc.devRef .tc main_arg11) := by after_results_simp
theorem c1_keep_main_arg12 (W : Valuation τ sig (Elt Ideal)) : after c1 W (Proc.devRef .tc main_arg12) = W (Proc.devRef .tc main_arg12) := by after_results_simp
theorem c1_keep_main_arg13 (W : Valuation τ sig (Elt Ideal)) : after c1 W (Proc.devRef .tc main_arg13) = W (Proc.devRef .tc main_arg13) := by after_results_simp
theorem c2_keep_main_arg0 (W : Valuation τ sig (Elt Ideal)) : after c2 W (Proc.devRef .tc main_arg0) = W (Proc.devRef .tc main_arg0) := by after_results_simp
theorem c2_keep_main_arg1 (W : Valuation τ sig (Elt Ideal)) : after c2 W (Proc.devRef .tc main_arg1) = W (Proc.devRef .tc main_arg1) := by after_results_simp
theorem c2_keep_main_arg2 (W : Valuation τ sig (Elt Ideal)) : after c2 W (Proc.devRef .tc main_arg2) = W (Proc.devRef .tc main_arg2) := by after_results_simp
theorem c2_keep_main_arg3 (W : Valuation τ sig (Elt Ideal)) : after c2 W (Proc.devRef .tc main_arg3) = W (Proc.devRef .tc main_arg3) := by after_results_simp
theorem c2_keep_main_arg4 (W : Valuation τ sig (Elt Ideal)) : after c2 W (Proc.devRef .tc main_arg4) = W (Proc.devRef .tc main_arg4) := by after_results_simp
theorem c2_keep_main_arg5 (W : Valuation τ sig (Elt Ideal)) : after c2 W (Proc.devRef .tc main_arg5) = W (Proc.devRef .tc main_arg5) := by after_results_simp
theorem c2_keep_main_arg6 (W : Valuation τ sig (Elt Ideal)) : after c2 W (Proc.devRef .tc main_arg6) = W (Proc.devRef .tc main_arg6) := by after_results_simp
theorem c2_keep_main_arg7 (W : Valuation τ sig (Elt Ideal)) : after c2 W (Proc.devRef .tc main_arg7) = W (Proc.devRef .tc main_arg7) := by after_results_simp
theorem c2_keep_main_arg8 (W : Valuation τ sig (Elt Ideal)) : after c2 W (Proc.devRef .tc main_arg8) = W (Proc.devRef .tc main_arg8) := by after_results_simp
theorem c2_keep_main_arg9 (W : Valuation τ sig (Elt Ideal)) : after c2 W (Proc.devRef .tc main_arg9) = W (Proc.devRef .tc main_arg9) := by after_results_simp
theorem c2_keep_main_arg10 (W : Valuation τ sig (Elt Ideal)) : after c2 W (Proc.devRef .tc main_arg10) = W (Proc.devRef .tc main_arg10) := by after_results_simp
theorem c2_keep_main_arg11 (W : Valuation τ sig (Elt Ideal)) : after c2 W (Proc.devRef .tc main_arg11) = W (Proc.devRef .tc main_arg11) := by after_results_simp
theorem c2_keep_main_arg12 (W : Valuation τ sig (Elt Ideal)) : after c2 W (Proc.devRef .tc main_arg12) = W (Proc.devRef .tc main_arg12) := by after_results_simp
theorem c2_keep_main_arg13 (W : Valuation τ sig (Elt Ideal)) : after c2 W (Proc.devRef .tc main_arg13) = W (Proc.devRef .tc main_arg13) := by after_results_simp
theorem c3_keep_main_arg0 (W : Valuation τ sig (Elt Ideal)) : after c3 W (Proc.devRef .tc main_arg0) = W (Proc.devRef .tc main_arg0) := by after_results_simp
theorem c3_keep_main_arg1 (W : Valuation τ sig (Elt Ideal)) : after c3 W (Proc.devRef .tc main_arg1) = W (Proc.devRef .tc main_arg1) := by after_results_simp
theorem c3_keep_main_arg2 (W : Valuation τ sig (Elt Ideal)) : after c3 W (Proc.devRef .tc main_arg2) = W (Proc.devRef .tc main_arg2) := by after_results_simp
theorem c3_keep_main_arg3 (W : Valuation τ sig (Elt Ideal)) : after c3 W (Proc.devRef .tc main_arg3) = W (Proc.devRef .tc main_arg3) := by after_results_simp
theorem c3_keep_main_arg4 (W : Valuation τ sig (Elt Ideal)) : after c3 W (Proc.devRef .tc main_arg4) = W (Proc.devRef .tc main_arg4) := by after_results_simp
theorem c3_keep_main_arg5 (W : Valuation τ sig (Elt Ideal)) : after c3 W (Proc.devRef .tc main_arg5) = W (Proc.devRef .tc main_arg5) := by after_results_simp
theorem c3_keep_main_arg6 (W : Valuation τ sig (Elt Ideal)) : after c3 W (Proc.devRef .tc main_arg6) = W (Proc.devRef .tc main_arg6) := by after_results_simp
theorem c3_keep_main_arg7 (W : Valuation τ sig (Elt Ideal)) : after c3 W (Proc.devRef .tc main_arg7) = W (Proc.devRef .tc main_arg7) := by after_results_simp
theorem c3_keep_main_arg8 (W : Valuation τ sig (Elt Ideal)) : after c3 W (Proc.devRef .tc main_arg8) = W (Proc.devRef .tc main_arg8) := by after_results_simp
theorem c3_keep_main_arg9 (W : Valuation τ sig (Elt Ideal)) : after c3 W (Proc.devRef .tc main_arg9) = W (Proc.devRef .tc main_arg9) := by after_results_simp
theorem c3_keep_main_arg10 (W : Valuation τ sig (Elt Ideal)) : after c3 W (Proc.devRef .tc main_arg10) = W (Proc.devRef .tc main_arg10) := by after_results_simp
theorem c3_keep_main_arg11 (W : Valuation τ sig (Elt Ideal)) : after c3 W (Proc.devRef .tc main_arg11) = W (Proc.devRef .tc main_arg11) := by after_results_simp
theorem c3_keep_main_arg12 (W : Valuation τ sig (Elt Ideal)) : after c3 W (Proc.devRef .tc main_arg12) = W (Proc.devRef .tc main_arg12) := by after_results_simp
theorem c3_keep_main_arg13 (W : Valuation τ sig (Elt Ideal)) : after c3 W (Proc.devRef .tc main_arg13) = W (Proc.devRef .tc main_arg13) := by after_results_simp
theorem c4_keep_main_arg0 (W : Valuation τ sig (Elt Ideal)) : after c4 W (Proc.devRef .tc main_arg0) = W (Proc.devRef .tc main_arg0) := by after_results_simp
theorem c4_keep_main_arg1 (W : Valuation τ sig (Elt Ideal)) : after c4 W (Proc.devRef .tc main_arg1) = W (Proc.devRef .tc main_arg1) := by after_results_simp
theorem c4_keep_main_arg2 (W : Valuation τ sig (Elt Ideal)) : after c4 W (Proc.devRef .tc main_arg2) = W (Proc.devRef .tc main_arg2) := by after_results_simp
theorem c4_keep_main_arg3 (W : Valuation τ sig (Elt Ideal)) : after c4 W (Proc.devRef .tc main_arg3) = W (Proc.devRef .tc main_arg3) := by after_results_simp
theorem c4_keep_main_arg4 (W : Valuation τ sig (Elt Ideal)) : after c4 W (Proc.devRef .tc main_arg4) = W (Proc.devRef .tc main_arg4) := by after_results_simp
theorem c4_keep_main_arg5 (W : Valuation τ sig (Elt Ideal)) : after c4 W (Proc.devRef .tc main_arg5) = W (Proc.devRef .tc main_arg5) := by after_results_simp
theorem c4_keep_main_arg6 (W : Valuation τ sig (Elt Ideal)) : after c4 W (Proc.devRef .tc main_arg6) = W (Proc.devRef .tc main_arg6) := by after_results_simp
theorem c4_keep_main_arg7 (W : Valuation τ sig (Elt Ideal)) : after c4 W (Proc.devRef .tc main_arg7) = W (Proc.devRef .tc main_arg7) := by after_results_simp
theorem c4_keep_main_arg8 (W : Valuation τ sig (Elt Ideal)) : after c4 W (Proc.devRef .tc main_arg8) = W (Proc.devRef .tc main_arg8) := by after_results_simp
theorem c4_keep_main_arg9 (W : Valuation τ sig (Elt Ideal)) : after c4 W (Proc.devRef .tc main_arg9) = W (Proc.devRef .tc main_arg9) := by after_results_simp
theorem c4_keep_main_arg10 (W : Valuation τ sig (Elt Ideal)) : after c4 W (Proc.devRef .tc main_arg10) = W (Proc.devRef .tc main_arg10) := by after_results_simp
theorem c4_keep_main_arg11 (W : Valuation τ sig (Elt Ideal)) : after c4 W (Proc.devRef .tc main_arg11) = W (Proc.devRef .tc main_arg11) := by after_results_simp
theorem c4_keep_main_arg12 (W : Valuation τ sig (Elt Ideal)) : after c4 W (Proc.devRef .tc main_arg12) = W (Proc.devRef .tc main_arg12) := by after_results_simp
theorem c4_keep_main_arg13 (W : Valuation τ sig (Elt Ideal)) : after c4 W (Proc.devRef .tc main_arg13) = W (Proc.devRef .tc main_arg13) := by after_results_simp
theorem c5_keep_main_arg0 (W : Valuation τ sig (Elt Ideal)) : after c5 W (Proc.devRef .tc main_arg0) = W (Proc.devRef .tc main_arg0) := by after_results_simp
theorem c5_keep_main_arg1 (W : Valuation τ sig (Elt Ideal)) : after c5 W (Proc.devRef .tc main_arg1) = W (Proc.devRef .tc main_arg1) := by after_results_simp
theorem c5_keep_main_arg2 (W : Valuation τ sig (Elt Ideal)) : after c5 W (Proc.devRef .tc main_arg2) = W (Proc.devRef .tc main_arg2) := by after_results_simp
theorem c5_keep_main_arg3 (W : Valuation τ sig (Elt Ideal)) : after c5 W (Proc.devRef .tc main_arg3) = W (Proc.devRef .tc main_arg3) := by after_results_simp
theorem c5_keep_main_arg4 (W : Valuation τ sig (Elt Ideal)) : after c5 W (Proc.devRef .tc main_arg4) = W (Proc.devRef .tc main_arg4) := by after_results_simp
theorem c5_keep_main_arg5 (W : Valuation τ sig (Elt Ideal)) : after c5 W (Proc.devRef .tc main_arg5) = W (Proc.devRef .tc main_arg5) := by after_results_simp
theorem c5_keep_main_arg6 (W : Valuation τ sig (Elt Ideal)) : after c5 W (Proc.devRef .tc main_arg6) = W (Proc.devRef .tc main_arg6) := by after_results_simp
theorem c5_keep_main_arg7 (W : Valuation τ sig (Elt Ideal)) : after c5 W (Proc.devRef .tc main_arg7) = W (Proc.devRef .tc main_arg7) := by after_results_simp
theorem c5_keep_main_arg8 (W : Valuation τ sig (Elt Ideal)) : after c5 W (Proc.devRef .tc main_arg8) = W (Proc.devRef .tc main_arg8) := by after_results_simp
theorem c5_keep_main_arg9 (W : Valuation τ sig (Elt Ideal)) : after c5 W (Proc.devRef .tc main_arg9) = W (Proc.devRef .tc main_arg9) := by after_results_simp
theorem c5_keep_main_arg10 (W : Valuation τ sig (Elt Ideal)) : after c5 W (Proc.devRef .tc main_arg10) = W (Proc.devRef .tc main_arg10) := by after_results_simp
theorem c5_keep_main_arg11 (W : Valuation τ sig (Elt Ideal)) : after c5 W (Proc.devRef .tc main_arg11) = W (Proc.devRef .tc main_arg11) := by after_results_simp
theorem c5_keep_main_arg12 (W : Valuation τ sig (Elt Ideal)) : after c5 W (Proc.devRef .tc main_arg12) = W (Proc.devRef .tc main_arg12) := by after_results_simp
theorem c5_keep_main_arg13 (W : Valuation τ sig (Elt Ideal)) : after c5 W (Proc.devRef .tc main_arg13) = W (Proc.devRef .tc main_arg13) := by after_results_simp
theorem c1_keep_main_v25 (W : Valuation τ sig (Elt Ideal)) : after c1 W (Proc.devRef .tc main_v25) = W (Proc.devRef .tc main_v25) := by after_results_simp
theorem c2_keep_main_v25 (W : Valuation τ sig (Elt Ideal)) : after c2 W (Proc.devRef .tc main_v25) = W (Proc.devRef .tc main_v25) := by after_results_simp
theorem c3_keep_main_v25 (W : Valuation τ sig (Elt Ideal)) : after c3 W (Proc.devRef .tc main_v25) = W (Proc.devRef .tc main_v25) := by after_results_simp
theorem c4_keep_main_v25 (W : Valuation τ sig (Elt Ideal)) : after c4 W (Proc.devRef .tc main_v25) = W (Proc.devRef .tc main_v25) := by after_results_simp
theorem c5_keep_main_v25 (W : Valuation τ sig (Elt Ideal)) : after c5 W (Proc.devRef .tc main_v25) = W (Proc.devRef .tc main_v25) := by after_results_simp
theorem c2_keep_main_v78 (W : Valuation τ sig (Elt Ideal)) : after c2 W (Proc.devRef .tc main_v78) = W (Proc.devRef .tc main_v78) := by after_results_simp
theorem c3_keep_main_v78 (W : Valuation τ sig (Elt Ideal)) : after c3 W (Proc.devRef .tc main_v78) = W (Proc.devRef .tc main_v78) := by after_results_simp
theorem c4_keep_main_v78 (W : Valuation τ sig (Elt Ideal)) : after c4 W (Proc.devRef .tc main_v78) = W (Proc.devRef .tc main_v78) := by after_results_simp
theorem c3_keep_main_v124 (W : Valuation τ sig (Elt Ideal)) : after c3 W (Proc.devRef .tc main_v124) = W (Proc.devRef .tc main_v124) := by after_results_simp
theorem c4_keep_main_v124 (W : Valuation τ sig (Elt Ideal)) : after c4 W (Proc.devRef .tc main_v124) = W (Proc.devRef .tc main_v124) := by after_results_simp
theorem c4_keep_main_v170 (W : Valuation τ sig (Elt Ideal)) : after c4 W (Proc.devRef .tc main_v170) = W (Proc.devRef .tc main_v170) := by after_results_simp

/-! ## What each stretch computes -/

set_option maxHeartbeats 4000000 in
theorem c0_v25 (V : Valuation τ sig (Elt Ideal)) :
    after c0 V (Proc.devRef .tc main_v25) = Read.val_main_v25 (V (Proc.devRef .tc main_arg0)) (V (Proc.devRef .tc main_arg1)) (V (Proc.devRef .tc main_arg3)) (V (Proc.devRef .tc main_arg4)) (V (Proc.devRef .tc main_arg5)) := by
  chain_rfl
set_option maxHeartbeats 4000000 in
theorem c0_v32 (V : Valuation τ sig (Elt Ideal)) :
    after c0 V (Proc.devRef .tc main_v32) = Read.val_main_v32 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  chain_rfl
set_option maxHeartbeats 4000000 in
theorem c1_v78 (W : Valuation τ sig (Elt Ideal)) (x0 : (⟨S2, .i32⟩ : BufTy).Contents (Elt Ideal)) (x1 : (⟨S4x1x1024, .f32⟩ : BufTy).Contents (Elt Ideal)) (x2 : (⟨S128x1024, .f32⟩ : BufTy).Contents (Elt Ideal)) (x3 : (⟨S32000x1024, .f32⟩ : BufTy).Contents (Elt Ideal)) (x4 : (⟨S128x3072, .f32⟩ : BufTy).Contents (Elt Ideal)) (x5 : (⟨S128, .f32⟩ : BufTy).Contents (Elt Ideal)) (x6 : (⟨S1024x3072, .f32⟩ : BufTy).Contents (Elt Ideal)) (x7 : (⟨S1024, .f32⟩ : BufTy).Contents (Elt Ideal)) (x8 : (⟨S4x3072x1024, .f32⟩ : BufTy).Contents (Elt Ideal)) (x9 : (⟨S4x3072x1024, .f32⟩ : BufTy).Contents (Elt Ideal)) (x10 : (⟨S4x3072, .f32⟩ : BufTy).Contents (Elt Ideal)) (x11 : (⟨S4x3072, .f32⟩ : BufTy).Contents (Elt Ideal))
    (hin : W (Proc.devRef .tc main_v32) = Read.val_main_v32 x0 x1 x2 x3 x4 x5 x6 x7) (h1 : W (Proc.devRef .tc main_arg1) = x1) (h8 : W (Proc.devRef .tc main_arg8) = x8) (h9 : W (Proc.devRef .tc main_arg9) = x9) (h10 : W (Proc.devRef .tc main_arg10) = x10) (h11 : W (Proc.devRef .tc main_arg11) = x11) :
    after c1 W (Proc.devRef .tc main_v78) = Read.val_main_v78 x0 x1 x2 x3 x4 x5 x6 x7 x8 x9 x10 x11 := by
  after_results_simp
  rw [hin, h1, h8, h9, h10, h11]
  rfl
set_option maxHeartbeats 4000000 in
theorem c2_v124 (W : Valuation τ sig (Elt Ideal)) (x0 : (⟨S2, .i32⟩ : BufTy).Contents (Elt Ideal)) (x1 : (⟨S4x1x1024, .f32⟩ : BufTy).Contents (Elt Ideal)) (x2 : (⟨S128x1024, .f32⟩ : BufTy).Contents (Elt Ideal)) (x3 : (⟨S32000x1024, .f32⟩ : BufTy).Contents (Elt Ideal)) (x4 : (⟨S128x3072, .f32⟩ : BufTy).Contents (Elt Ideal)) (x5 : (⟨S128, .f32⟩ : BufTy).Contents (Elt Ideal)) (x6 : (⟨S1024x3072, .f32⟩ : BufTy).Contents (Elt Ideal)) (x7 : (⟨S1024, .f32⟩ : BufTy).Contents (Elt Ideal)) (x8 : (⟨S4x3072x1024, .f32⟩ : BufTy).Contents (Elt Ideal)) (x9 : (⟨S4x3072x1024, .f32⟩ : BufTy).Contents (Elt Ideal)) (x10 : (⟨S4x3072, .f32⟩ : BufTy).Contents (Elt Ideal)) (x11 : (⟨S4x3072, .f32⟩ : BufTy).Contents (Elt Ideal))
    (hin : W (Proc.devRef .tc main_v78) = Read.val_main_v78 x0 x1 x2 x3 x4 x5 x6 x7 x8 x9 x10 x11) (h1 : W (Proc.devRef .tc main_arg1) = x1) (h8 : W (Proc.devRef .tc main_arg8) = x8) (h9 : W (Proc.devRef .tc main_arg9) = x9) (h10 : W (Proc.devRef .tc main_arg10) = x10) (h11 : W (Proc.devRef .tc main_arg11) = x11) :
    after c2 W (Proc.devRef .tc main_v124) = Read.val_main_v124 x0 x1 x2 x3 x4 x5 x6 x7 x8 x9 x10 x11 := by
  after_results_simp
  rw [hin, h1, h8, h9, h10, h11]
  rfl
set_option maxHeartbeats 4000000 in
theorem c3_v170 (W : Valuation τ sig (Elt Ideal)) (x0 : (⟨S2, .i32⟩ : BufTy).Contents (Elt Ideal)) (x1 : (⟨S4x1x1024, .f32⟩ : BufTy).Contents (Elt Ideal)) (x2 : (⟨S128x1024, .f32⟩ : BufTy).Contents (Elt Ideal)) (x3 : (⟨S32000x1024, .f32⟩ : BufTy).Contents (Elt Ideal)) (x4 : (⟨S128x3072, .f32⟩ : BufTy).Contents (Elt Ideal)) (x5 : (⟨S128, .f32⟩ : BufTy).Contents (Elt Ideal)) (x6 : (⟨S1024x3072, .f32⟩ : BufTy).Contents (Elt Ideal)) (x7 : (⟨S1024, .f32⟩ : BufTy).Contents (Elt Ideal)) (x8 : (⟨S4x3072x1024, .f32⟩ : BufTy).Contents (Elt Ideal)) (x9 : (⟨S4x3072x1024, .f32⟩ : BufTy).Contents (Elt Ideal)) (x10 : (⟨S4x3072, .f32⟩ : BufTy).Contents (Elt Ideal)) (x11 : (⟨S4x3072, .f32⟩ : BufTy).Contents (Elt Ideal))
    (hin : W (Proc.devRef .tc main_v124) = Read.val_main_v124 x0 x1 x2 x3 x4 x5 x6 x7 x8 x9 x10 x11) (h1 : W (Proc.devRef .tc main_arg1) = x1) (h8 : W (Proc.devRef .tc main_arg8) = x8) (h9 : W (Proc.devRef .tc main_arg9) = x9) (h10 : W (Proc.devRef .tc main_arg10) = x10) (h11 : W (Proc.devRef .tc main_arg11) = x11) :
    after c3 W (Proc.devRef .tc main_v170) = Read.val_main_v170 x0 x1 x2 x3 x4 x5 x6 x7 x8 x9 x10 x11 := by
  after_results_simp
  rw [hin, h1, h8, h9, h10, h11]
  rfl
set_option maxHeartbeats 4000000 in
theorem c4_v216 (W : Valuation τ sig (Elt Ideal)) (x0 : (⟨S2, .i32⟩ : BufTy).Contents (Elt Ideal)) (x1 : (⟨S4x1x1024, .f32⟩ : BufTy).Contents (Elt Ideal)) (x2 : (⟨S128x1024, .f32⟩ : BufTy).Contents (Elt Ideal)) (x3 : (⟨S32000x1024, .f32⟩ : BufTy).Contents (Elt Ideal)) (x4 : (⟨S128x3072, .f32⟩ : BufTy).Contents (Elt Ideal)) (x5 : (⟨S128, .f32⟩ : BufTy).Contents (Elt Ideal)) (x6 : (⟨S1024x3072, .f32⟩ : BufTy).Contents (Elt Ideal)) (x7 : (⟨S1024, .f32⟩ : BufTy).Contents (Elt Ideal)) (x8 : (⟨S4x3072x1024, .f32⟩ : BufTy).Contents (Elt Ideal)) (x9 : (⟨S4x3072x1024, .f32⟩ : BufTy).Contents (Elt Ideal)) (x10 : (⟨S4x3072, .f32⟩ : BufTy).Contents (Elt Ideal)) (x11 : (⟨S4x3072, .f32⟩ : BufTy).Contents (Elt Ideal))
    (hin : W (Proc.devRef .tc main_v170) = Read.val_main_v170 x0 x1 x2 x3 x4 x5 x6 x7 x8 x9 x10 x11) (h1 : W (Proc.devRef .tc main_arg1) = x1) (h8 : W (Proc.devRef .tc main_arg8) = x8) (h9 : W (Proc.devRef .tc main_arg9) = x9) (h10 : W (Proc.devRef .tc main_arg10) = x10) (h11 : W (Proc.devRef .tc main_arg11) = x11) :
    after c4 W (Proc.devRef .tc main_v216) = Read.val_main_v216 x0 x1 x2 x3 x4 x5 x6 x7 x8 x9 x10 x11 := by
  after_results_simp
  rw [hin, h1, h8, h9, h10, h11]
  rfl
set_option maxHeartbeats 4000000 in
theorem c5_v221 (W : Valuation τ sig (Elt Ideal)) (x0 : (⟨S2, .i32⟩ : BufTy).Contents (Elt Ideal)) (x1 : (⟨S4x1x1024, .f32⟩ : BufTy).Contents (Elt Ideal)) (x2 : (⟨S128x1024, .f32⟩ : BufTy).Contents (Elt Ideal)) (x3 : (⟨S32000x1024, .f32⟩ : BufTy).Contents (Elt Ideal)) (x4 : (⟨S128x3072, .f32⟩ : BufTy).Contents (Elt Ideal)) (x5 : (⟨S128, .f32⟩ : BufTy).Contents (Elt Ideal)) (x6 : (⟨S1024x3072, .f32⟩ : BufTy).Contents (Elt Ideal)) (x7 : (⟨S1024, .f32⟩ : BufTy).Contents (Elt Ideal)) (x8 : (⟨S4x3072x1024, .f32⟩ : BufTy).Contents (Elt Ideal)) (x9 : (⟨S4x3072x1024, .f32⟩ : BufTy).Contents (Elt Ideal)) (x10 : (⟨S4x3072, .f32⟩ : BufTy).Contents (Elt Ideal)) (x11 : (⟨S4x3072, .f32⟩ : BufTy).Contents (Elt Ideal))
    (h78 : W (Proc.devRef .tc main_v78) = Read.val_main_v78 x0 x1 x2 x3 x4 x5 x6 x7 x8 x9 x10 x11) (h124 : W (Proc.devRef .tc main_v124) = Read.val_main_v124 x0 x1 x2 x3 x4 x5 x6 x7 x8 x9 x10 x11)
    (h170 : W (Proc.devRef .tc main_v170) = Read.val_main_v170 x0 x1 x2 x3 x4 x5 x6 x7 x8 x9 x10 x11) (h216 : W (Proc.devRef .tc main_v216) = Read.val_main_v216 x0 x1 x2 x3 x4 x5 x6 x7 x8 x9 x10 x11) :
    after c5 W (Proc.devRef .tc main_v221) = Read.val_main_v221 x0 x1 x2 x3 x4 x5 x6 x7 x8 x9 x10 x11 := by
  have e : after c5 W (Proc.devRef .tc main_v221)
      = concatenate S4x1x1024 0 [⟨S1x1x1024, broadcastInDim S1x1x1024 ![1, 2] bcast_S1x1024_S1x1x1024_1_2 (W (Proc.devRef .tc main_v78))⟩,
          ⟨S1x1x1024, broadcastInDim S1x1x1024 ![1, 2] bcast_S1x1024_S1x1x1024_1_2 (W (Proc.devRef .tc main_v124))⟩,
          ⟨S1x1x1024, broadcastInDim S1x1x1024 ![1, 2] bcast_S1x1024_S1x1x1024_1_2 (W (Proc.devRef .tc main_v170))⟩,
          ⟨S1x1x1024, broadcastInDim S1x1x1024 ![1, 2] bcast_S1x1024_S1x1x1024_1_2 (W (Proc.devRef .tc main_v216))⟩]
          concatenates_S1x1x1024_S1x1x1024_S1x1x1024_S1x1x1024_S4x1x1024_d0 := by chain_rfl
  rw [e, h78, h124, h170, h216]
  rfl
set_option maxHeartbeats 4000000 in
theorem c5_v227 (W : Valuation τ sig (Elt Ideal)) (x0 : (⟨S2, .i32⟩ : BufTy).Contents (Elt Ideal)) (x1 : (⟨S4x1x1024, .f32⟩ : BufTy).Contents (Elt Ideal)) (x2 : (⟨S128x1024, .f32⟩ : BufTy).Contents (Elt Ideal)) (x3 : (⟨S32000x1024, .f32⟩ : BufTy).Contents (Elt Ideal)) (x4 : (⟨S128x3072, .f32⟩ : BufTy).Contents (Elt Ideal)) (x5 : (⟨S128, .f32⟩ : BufTy).Contents (Elt Ideal)) (x6 : (⟨S1024x3072, .f32⟩ : BufTy).Contents (Elt Ideal)) (x7 : (⟨S1024, .f32⟩ : BufTy).Contents (Elt Ideal)) (x8 : (⟨S4x3072x1024, .f32⟩ : BufTy).Contents (Elt Ideal)) (x9 : (⟨S4x3072x1024, .f32⟩ : BufTy).Contents (Elt Ideal)) (x10 : (⟨S4x3072, .f32⟩ : BufTy).Contents (Elt Ideal)) (x11 : (⟨S4x3072, .f32⟩ : BufTy).Contents (Elt Ideal)) (x12 : (⟨S64000x1024, .f32⟩ : BufTy).Contents (Elt Ideal)) (x13 : (⟨S64000, .f32⟩ : BufTy).Contents (Elt Ideal))
    (h216 : W (Proc.devRef .tc main_v216) = Read.val_main_v216 x0 x1 x2 x3 x4 x5 x6 x7 x8 x9 x10 x11) (h12 : W (Proc.devRef .tc main_arg12) = x12) (h13 : W (Proc.devRef .tc main_arg13) = x13) :
    after c5 W (Proc.devRef .tc main_v227) = Read.val_main_v227 x0 x1 x2 x3 x4 x5 x6 x7 x8 x9 x10 x11 x12 x13 := by
  after_results_simp
  rw [h216, h12, h13]
  simp only [cast_cast, cast_eq]
  unfold Read.val_main_v227 Read.val_main_call1_v10 Read.val_main_call1_v9 Read.val_main_call1_v8 Read.val_main_call1_v7 Read.val_main_call1_cst_1 Read.val_main_call1_v6 Read.val_main_call1_v5 Read.val_main_call1_v4 Read.val_main_call1_v3 Read.val_main_call1_v2 Read.val_main_call1_v1 Read.val_main_call1_cst_0 Read.val_main_call1_v0 Read.val_main_call1_cst Read.val_main_v226 Read.val_main_v225 Read.val_main_v224 Read.val_main_v223 Read.val_main_v222
  rfl

/-! ## The whole list -/

variable (V : Valuation τ sig (Elt Ideal))

theorem after_ops : after (ops : List (HloOp τ sig (Elt Ideal))) V = after c5 (after c4 (after c3 (after c2 (after c1 (after c0 V))))) := by
  rw [ops_split, after_append, after_append, after_append, after_append, after_append]

theorem ops_main_arg0 : after (ops : List (HloOp τ sig (Elt Ideal))) V (Proc.devRef .tc main_arg0) = V (Proc.devRef .tc main_arg0) := by
  rw [after_ops, c5_keep_main_arg0, c4_keep_main_arg0, c3_keep_main_arg0, c2_keep_main_arg0, c1_keep_main_arg0, c0_keep_main_arg0]
theorem ops_main_arg1 : after (ops : List (HloOp τ sig (Elt Ideal))) V (Proc.devRef .tc main_arg1) = V (Proc.devRef .tc main_arg1) := by
  rw [after_ops, c5_keep_main_arg1, c4_keep_main_arg1, c3_keep_main_arg1, c2_keep_main_arg1, c1_keep_main_arg1, c0_keep_main_arg1]
theorem ops_main_arg2 : after (ops : List (HloOp τ sig (Elt Ideal))) V (Proc.devRef .tc main_arg2) = V (Proc.devRef .tc main_arg2) := by
  rw [after_ops, c5_keep_main_arg2, c4_keep_main_arg2, c3_keep_main_arg2, c2_keep_main_arg2, c1_keep_main_arg2, c0_keep_main_arg2]
theorem ops_main_arg3 : after (ops : List (HloOp τ sig (Elt Ideal))) V (Proc.devRef .tc main_arg3) = V (Proc.devRef .tc main_arg3) := by
  rw [after_ops, c5_keep_main_arg3, c4_keep_main_arg3, c3_keep_main_arg3, c2_keep_main_arg3, c1_keep_main_arg3, c0_keep_main_arg3]
theorem ops_main_arg4 : after (ops : List (HloOp τ sig (Elt Ideal))) V (Proc.devRef .tc main_arg4) = V (Proc.devRef .tc main_arg4) := by
  rw [after_ops, c5_keep_main_arg4, c4_keep_main_arg4, c3_keep_main_arg4, c2_keep_main_arg4, c1_keep_main_arg4, c0_keep_main_arg4]
theorem ops_main_arg5 : after (ops : List (HloOp τ sig (Elt Ideal))) V (Proc.devRef .tc main_arg5) = V (Proc.devRef .tc main_arg5) := by
  rw [after_ops, c5_keep_main_arg5, c4_keep_main_arg5, c3_keep_main_arg5, c2_keep_main_arg5, c1_keep_main_arg5, c0_keep_main_arg5]
theorem ops_main_arg6 : after (ops : List (HloOp τ sig (Elt Ideal))) V (Proc.devRef .tc main_arg6) = V (Proc.devRef .tc main_arg6) := by
  rw [after_ops, c5_keep_main_arg6, c4_keep_main_arg6, c3_keep_main_arg6, c2_keep_main_arg6, c1_keep_main_arg6, c0_keep_main_arg6]
theorem ops_main_arg7 : after (ops : List (HloOp τ sig (Elt Ideal))) V (Proc.devRef .tc main_arg7) = V (Proc.devRef .tc main_arg7) := by
  rw [after_ops, c5_keep_main_arg7, c4_keep_main_arg7, c3_keep_main_arg7, c2_keep_main_arg7, c1_keep_main_arg7, c0_keep_main_arg7]
theorem ops_main_arg8 : after (ops : List (HloOp τ sig (Elt Ideal))) V (Proc.devRef .tc main_arg8) = V (Proc.devRef .tc main_arg8) := by
  rw [after_ops, c5_keep_main_arg8, c4_keep_main_arg8, c3_keep_main_arg8, c2_keep_main_arg8, c1_keep_main_arg8, c0_keep_main_arg8]
theorem ops_main_arg9 : after (ops : List (HloOp τ sig (Elt Ideal))) V (Proc.devRef .tc main_arg9) = V (Proc.devRef .tc main_arg9) := by
  rw [after_ops, c5_keep_main_arg9, c4_keep_main_arg9, c3_keep_main_arg9, c2_keep_main_arg9, c1_keep_main_arg9, c0_keep_main_arg9]
theorem ops_main_arg10 : after (ops : List (HloOp τ sig (Elt Ideal))) V (Proc.devRef .tc main_arg10) = V (Proc.devRef .tc main_arg10) := by
  rw [after_ops, c5_keep_main_arg10, c4_keep_main_arg10, c3_keep_main_arg10, c2_keep_main_arg10, c1_keep_main_arg10, c0_keep_main_arg10]
theorem ops_main_arg11 : after (ops : List (HloOp τ sig (Elt Ideal))) V (Proc.devRef .tc main_arg11) = V (Proc.devRef .tc main_arg11) := by
  rw [after_ops, c5_keep_main_arg11, c4_keep_main_arg11, c3_keep_main_arg11, c2_keep_main_arg11, c1_keep_main_arg11, c0_keep_main_arg11]
theorem ops_main_arg12 : after (ops : List (HloOp τ sig (Elt Ideal))) V (Proc.devRef .tc main_arg12) = V (Proc.devRef .tc main_arg12) := by
  rw [after_ops, c5_keep_main_arg12, c4_keep_main_arg12, c3_keep_main_arg12, c2_keep_main_arg12, c1_keep_main_arg12, c0_keep_main_arg12]
theorem ops_main_arg13 : after (ops : List (HloOp τ sig (Elt Ideal))) V (Proc.devRef .tc main_arg13) = V (Proc.devRef .tc main_arg13) := by
  rw [after_ops, c5_keep_main_arg13, c4_keep_main_arg13, c3_keep_main_arg13, c2_keep_main_arg13, c1_keep_main_arg13, c0_keep_main_arg13]

theorem ops_v25 : after (ops : List (HloOp τ sig (Elt Ideal))) V (Proc.devRef .tc main_v25) = Read.val_main_v25 (V (Proc.devRef .tc main_arg0)) (V (Proc.devRef .tc main_arg1)) (V (Proc.devRef .tc main_arg3)) (V (Proc.devRef .tc main_arg4)) (V (Proc.devRef .tc main_arg5)) := by
  rw [after_ops, c5_keep_main_v25, c4_keep_main_v25, c3_keep_main_v25, c2_keep_main_v25, c1_keep_main_v25, c0_v25]

/-- The layers' rows after each stretch. -/
theorem w1_v78 : after c1 (after c0 V) (Proc.devRef .tc main_v78) = Read.val_main_v78 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  c1_v78 _ _ _ _ _ _ _ _ _ _ _ _ _ (c0_v32 V) (c0_keep_main_arg1 V) (c0_keep_main_arg8 V) (c0_keep_main_arg9 V) (c0_keep_main_arg10 V) (c0_keep_main_arg11 V)
theorem w2_v124 : after c2 (after c1 (after c0 V)) (Proc.devRef .tc main_v124) = Read.val_main_v124 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  c2_v124 _ _ _ _ _ _ _ _ _ _ _ _ _ (w1_v78 V) ((c1_keep_main_arg1 _).trans (c0_keep_main_arg1 V)) ((c1_keep_main_arg8 _).trans (c0_keep_main_arg8 V)) ((c1_keep_main_arg9 _).trans (c0_keep_main_arg9 V)) ((c1_keep_main_arg10 _).trans (c0_keep_main_arg10 V)) ((c1_keep_main_arg11 _).trans (c0_keep_main_arg11 V))
theorem w3_v170 : after c3 (after c2 (after c1 (after c0 V))) (Proc.devRef .tc main_v170) = Read.val_main_v170 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  c3_v170 _ _ _ _ _ _ _ _ _ _ _ _ _ (w2_v124 V) ((c2_keep_main_arg1 _).trans ((c1_keep_main_arg1 _).trans (c0_keep_main_arg1 V))) ((c2_keep_main_arg8 _).trans ((c1_keep_main_arg8 _).trans (c0_keep_main_arg8 V))) ((c2_keep_main_arg9 _).trans ((c1_keep_main_arg9 _).trans (c0_keep_main_arg9 V))) ((c2_keep_main_arg10 _).trans ((c1_keep_main_arg10 _).trans (c0_keep_main_arg10 V))) ((c2_keep_main_arg11 _).trans ((c1_keep_main_arg11 _).trans (c0_keep_main_arg11 V)))
theorem w4_v216 : after c4 (after c3 (after c2 (after c1 (after c0 V)))) (Proc.devRef .tc main_v216) = Read.val_main_v216 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  c4_v216 _ _ _ _ _ _ _ _ _ _ _ _ _ (w3_v170 V) ((c3_keep_main_arg1 _).trans ((c2_keep_main_arg1 _).trans ((c1_keep_main_arg1 _).trans (c0_keep_main_arg1 V)))) ((c3_keep_main_arg8 _).trans ((c2_keep_main_arg8 _).trans ((c1_keep_main_arg8 _).trans (c0_keep_main_arg8 V)))) ((c3_keep_main_arg9 _).trans ((c2_keep_main_arg9 _).trans ((c1_keep_main_arg9 _).trans (c0_keep_main_arg9 V)))) ((c3_keep_main_arg10 _).trans ((c2_keep_main_arg10 _).trans ((c1_keep_main_arg10 _).trans (c0_keep_main_arg10 V)))) ((c3_keep_main_arg11 _).trans ((c2_keep_main_arg11 _).trans ((c1_keep_main_arg11 _).trans (c0_keep_main_arg11 V))))

theorem ops_v221 : after (ops : List (HloOp τ sig (Elt Ideal))) V (Proc.devRef .tc main_v221) = Read.val_main_v221 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops]
  exact c5_v221 _ _ _ _ _ _ _ _ _ _ _ _ _
    ((c4_keep_main_v78 _).trans ((c3_keep_main_v78 _).trans ((c2_keep_main_v78 _).trans (w1_v78 V))))
    ((c4_keep_main_v124 _).trans ((c3_keep_main_v124 _).trans (w2_v124 V)))
    ((c4_keep_main_v170 _).trans (w3_v170 V))
    (w4_v216 V)

theorem ops_v227 : after (ops : List (HloOp τ sig (Elt Ideal))) V (Proc.devRef .tc main_v227) = Read.val_main_v227 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [after_ops]
  exact c5_v227 _ _ _ _ _ _ _ _ _ _ _ _ _ _ _ (w4_v216 V)
    ((c4_keep_main_arg12 _).trans ((c3_keep_main_arg12 _).trans ((c2_keep_main_arg12 _).trans ((c1_keep_main_arg12 _).trans (c0_keep_main_arg12 V)))))
    ((c4_keep_main_arg13 _).trans ((c3_keep_main_arg13 _).trans ((c2_keep_main_arg13 _).trans ((c1_keep_main_arg13 _).trans (c0_keep_main_arg13 V)))))

/-- THE REFERENCE'S RUN: every weakly fair execution terminates with the three results at the operations' composed values
    of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v227) = Read.val_main_v227 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v221) = Read.val_main_v221 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v25) = Read.val_main_v25 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v227).trans (ops_v227 (launchContents m c)), (h c main_v221).trans (ops_v221 (launchContents m c)),
      (h c main_v25).trans (ops_v25 (launchContents m c)),
      (h c main_arg0).trans (ops_main_arg0 (launchContents m c)),
      (h c main_arg1).trans (ops_main_arg1 (launchContents m c)),
      (h c main_arg2).trans (ops_main_arg2 (launchContents m c)),
      (h c main_arg3).trans (ops_main_arg3 (launchContents m c)),
      (h c main_arg4).trans (ops_main_arg4 (launchContents m c)),
      (h c main_arg5).trans (ops_main_arg5 (launchContents m c)),
      (h c main_arg6).trans (ops_main_arg6 (launchContents m c)),
      (h c main_arg7).trans (ops_main_arg7 (launchContents m c)),
      (h c main_arg8).trans (ops_main_arg8 (launchContents m c)),
      (h c main_arg9).trans (ops_main_arg9 (launchContents m c)),
      (h c main_arg10).trans (ops_main_arg10 (launchContents m c)),
      (h c main_arg11).trans (ops_main_arg11 (launchContents m c)),
      (h c main_arg12).trans (ops_main_arg12 (launchContents m c)),
      (h c main_arg13).trans (ops_main_arg13 (launchContents m c))⟩)
    (run_after (F := Ideal) m ρ)

end Cert.ReferenceIdeal.RefRun

end
-- ==== Proof.K.R0.lean ====
import proofs.«145509_j26731876451021_2_alg».proof.Proof.Gen.Kernel.Launch
import proofs.«145509_j26731876451021_2_alg».proof.Proof.Gen.Kernel.Skeleton
import proofs.«145509_j26731876451021_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The attention-and-combine region (the first pallas_call): one point, every block its whole array.

The body reads the embedded tokens (window 0), the first layer's state row (1), the attention matrix (2, in two column
bands), its bias row (3), the encoder outputs (4), the combine matrix (5, in the same two bands) and its bias row (6), and
stores the attention weights (window 7) and the recurrent unit's first input row (window 8). -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: whole buffers, and the two column bands of each of the two matrices. -/
abbrev r0_e : Rect S1x2048 := Rect.unit (s := S1x2048) ![0, 0] S1x2048.size inb_S1x2048_S1x2048_0_0
abbrev r0_h : Rect S1x1024 := Rect.unit (s := S1x1024) ![0, 0] S1x1024.size inb_S1x1024_S1x1024_0_0
abbrev r0_A1 : Rect S128x3072 := Rect.unit (s := S128x3072) ![0, 0] S128x2048.size inb_S128x3072_S128x2048_0_0
abbrev r0_A2 : Rect S128x3072 := Rect.unit (s := S128x3072) ![0, 2048] S128x1024.size inb_S128x3072_S128x1024_0_2048
abbrev r0_b : Rect S1x128 := Rect.unit (s := S1x128) ![0, 0] S1x128.size inb_S1x128_S1x128_0_0
abbrev r0_enc : Rect S128x1024 := Rect.unit (s := S128x1024) ![0, 0] S128x1024.size inb_S128x1024_S128x1024_0_0
abbrev r0_C1 : Rect S1024x3072 := Rect.unit (s := S1024x3072) ![0, 0] S1024x2048.size inb_S1024x3072_S1024x2048_0_0
abbrev r0_C2 : Rect S1024x3072 := Rect.unit (s := S1024x3072) ![0, 2048] S1024x1024.size inb_S1024x3072_S1024x1024_0_2048
abbrev r0_c : Rect S1x1024 := Rect.unit (s := S1x1024) ![0, 0] S1x1024.size inb_S1x1024_S1x1024_0_0

/-- The attention weights' buffer after the body: its one store. -/
def out0_7 (x0 : Vec F S1x2048 .f32) (x1 : Vec F S1x1024 .f32) (x2 : Vec F S128x3072 .f32) (x3 : Vec F S1x128 .f32) : Vec F S1x128 .f32 :=
  View.canon [⟨r0_b, k0_pay3 (View.ld x0 r0_e) (View.ld x1 r0_h) (View.ld x2 r0_A1) (View.ld x2 r0_A2) (View.ld x3 r0_b)⟩]
/-- The recurrent input's buffer after the body: its one store. -/
def out0_8 (x0 : Vec F S1x2048 .f32) (x1 : Vec F S1x1024 .f32) (x2 : Vec F S128x3072 .f32) (x3 : Vec F S1x128 .f32) (x4 : Vec F S128x1024 .f32) (x5 : Vec F S1024x3072 .f32) (x6 : Vec F S1x1024 .f32) : Vec F S1x1024 .f32 :=
  View.canon [⟨r0_c, k0_pay1 (k0_pay4 (View.ld x0 r0_e) (View.ld x1 r0_h) (View.ld x2 r0_A1) (View.ld x2 r0_A2) (View.ld x3 r0_b) (View.ld x4 r0_enc)) (k0_pay5 (View.ld x0 r0_e)) (k0_pay6 (View.ld x5 r0_C1)) (constant S1x1024 .f32 0x00000000#32) (View.ld x5 r0_C2) (View.ld x6 r0_c)⟩]

theorem cover0_7 (p0 : Vec F S1x128 .f32) (y : S1x128.Idx) :
    ∃ pc ∈ ([⟨r0_b, p0⟩] : List (View.Piece (Elt F) S1x128 .f32)), y ∈ pc.1.set :=
  View.cover_of_tiled [⟨r0_b, p0⟩] S1x128.size (by rfl) y
theorem cover0_8 (p0 : Vec F S1x1024 .f32) (y : S1x1024.Idx) :
    ∃ pc ∈ ([⟨r0_c, p0⟩] : List (View.Piece (Elt F) S1x1024 .f32)), y ∈ pc.1.set :=
  View.cover_of_tiled [⟨r0_c, p0⟩] S1x1024.size (by rfl) y

set_option maxHeartbeats 2000000 in
/-- The body on whole staging memrefs: the inputs keep their contents, the two outputs end at `out0_7`, `out0_8` of them. -/
theorem sound_kernel0 (c : Dev nD) (E : Set ℕ) (i : grid0.Coords) (arg1 : Memref sig .tc .vmem S1x2048 .f32) (harg1 : arg1.IsWhole) (arg2 : Memref sig .tc .vmem S1x1024 .f32) (harg2 : arg2.IsWhole) (arg3 : Memref sig .tc .vmem S128x3072 .f32) (harg3 : arg3.IsWhole) (arg4 : Memref sig .tc .vmem S1x128 .f32) (harg4 : arg4.IsWhole) (arg5 : Memref sig .tc .vmem S128x1024 .f32) (harg5 : arg5.IsWhole) (arg6 : Memref sig .tc .vmem S1024x3072 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x1024 .f32) (harg9 : arg9.IsWhole)
    (x0 : Vec F S1x2048 .f32) (x1 : Vec F S1x1024 .f32) (x2 : Vec F S128x3072 .f32) (x3 : Vec F S1x128 .f32) (x4 : Vec F S128x1024 .f32) (x5 : Vec F S1024x3072 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3) ∗ owns (c : Thread nD τ) arg9 fullShare (out0_8 x0 x1 x2 x3 x4 x5 x6)) -∗ K ⟨⟩))
      ⊢ wp frame (wpE (defs₀ (F := F)) Variants.none c none) E (cc0__attn_comb_kernel i arg1 harg1 arg2 harg2 arg3 harg3 arg4 harg4 arg5 harg5 arg6 harg6 arg7 harg7 arg8 harg8 arg9 harg9) K := by
  simp only [cc0__attn_comb_kernel_eq_skeleton]; unfold cc0__attn_comb_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  iexists _; isplitr
  swap; · iexact H8
  ipureintro
  try dsimp only
  exact View.read_writes_eq_canon _ _ _ (cover0_8 _)

/-- The region's proof data: the arrays as found; after the body each input's buffer at its block, the outputs' at
    `out0_7`, `out0_8` of the blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«145509_j26731876451021_2_alg».proof.Proof.Gen.Kernel.Launch
import proofs.«145509_j26731876451021_2_alg».proof.Proof.Gen.Kernel.Skeleton
import proofs.«145509_j26731876451021_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The recurrent unit's region (the second pallas_call): twelve points, three per layer.

Point `3·l + g` works on layer `l`'s state row (window 1) and on block `3·l + g` of the re-laid input weights, state weights
and the two biases (windows 2–5). Three scratch rows are carried from point to point: the layer's input `x`, the reset gate `r`
and the update gate `z`. The first point copies the region's input row (window 0) into `x`; a point with `g = 0` stores `r`,
one with `g = 1` stores `z`, one with `g = 2` stores the layer's new state into the output block (window 6, written back there
and idle elsewhere) and into `x`. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's four branch conditions, from the grid coordinates -/

abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev cond1_1 (i : grid1.Coords) : Prop := (Scalar.cmpi .ne (Scalar.extui (Scalar.cmpi .eq (BitVec.ofNat 32 (i 1).val) 0#32)) 0#32) = 1#1
abbrev cond1_2 (i : grid1.Coords) : Prop := (Scalar.cmpi .ne (Scalar.extui (Scalar.cmpi .eq (BitVec.ofNat 32 (i 1).val) 1#32)) 0#32) = 1#1
abbrev cond1_3 (i : grid1.Coords) : Prop := k1_cond4 i = 1#1

/-- The first holds at the first point only; the others where the point's position in its layer is 0, 1, 2. -/
theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ t.val % 3 = 0 :=
  (by decide +kernel : ∀ t : Fin grid1.N, cond1_1 (grid1.coords t) ↔ t.val % 3 = 0)
theorem hcond1_2 : ∀ t : Fin cfg1.N, cond1_2 (grid1.coords t) ↔ t.val % 3 = 1 :=
  (by decide +kernel : ∀ t : Fin grid1.N, cond1_2 (grid1.coords t) ↔ t.val % 3 = 1)
theorem hcond1_3 : ∀ t : Fin cfg1.N, cond1_3 (grid1.coords t) ↔ t.val % 3 = 2 :=
  (by decide +kernel : ∀ t : Fin grid1.N, cond1_3 (grid1.coords t) ↔ t.val % 3 = 2)

/-- The output block is idle, and not written back, away from the third point of a layer; live there. -/
theorem idleAt1_6 : ∀ t : Fin cfg1.N, ¬cond1_3 (grid1.coords t) → cfg1.idle 6 (grid1.coords t) = true := by decide +kernel
theorem noFlush1_6 : ∀ t : Fin cfg1.N, ¬cond1_3 (grid1.coords t) → (cfg1.win 6).flush t = false := by decide +kernel
theorem liveAt1_6 : ∀ t : Fin cfg1.N, cond1_3 (grid1.coords t) → cfg1.idle 6 (grid1.coords t) = false := by decide +kernel

/-! ## The body's run, case by case -/

set_option maxHeartbeats 2000000 in
/-- The body at a point of case A: on whole memrefs holding the point's blocks and the carried scratch, it runs to the
    continuation with the blocks as they were and each buffer it stores into holding its pieces written. -/
noncomputable def kernelRun1_A (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : cond1_0 i) (hc1 : cond1_1 i) (hc2 : ¬cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) :
    Σ' (LS0 : List (View.Piece (Elt F) S1x1024 .f32)), { LS1 : List (View.Piece (Elt F) S1x1024 .f32) //
      ∀ (xi6 : Vec F S1x1x1024 .f32) (xz : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ owns (c : Thread nD τ) arg11 fullShare xz
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ owns (c : Thread nD τ) arg11 fullShare xz) -∗ K ⟨⟩))
          ⊢ wp frame (wpE (defs₀ (F := F)) Variants.none c none) E (cc1__gru_kernel i arg2 harg2 arg3 harg3 arg4 harg4 arg5 harg5 arg6 harg6 arg7 harg7 arg8 harg8 arg9 harg9 arg10 harg10 arg11 harg11) K } := by
  refine ⟨?_, ?_, fun xi6 xz E K => ?run⟩
  case run =>
    simp only [cc1__gru_kernel_eq_skeleton]; unfold cc1__gru_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, HS0⟩, ⟨%d8, %f8, -, HS1⟩, ⟨%f9, %hf9, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; isplitr; · ipureintro; exact harg11.read_unread _
    iexact HS2

set_option maxHeartbeats 2000000 in
/-- The body at a point of case B: on whole memrefs holding the point's blocks and the carried scratch, it runs to the
    continuation with the blocks as they were and each buffer it stores into holding its pieces written. -/
noncomputable def kernelRun1_B (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : cond1_1 i) (hc2 : ¬cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) :
    { LS1 : List (View.Piece (Elt F) S1x1024 .f32) //
      ∀ (xi6 : Vec F S1x1x1024 .f32) (xz : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ (∃ d, owns (c : Thread nD τ) arg10 fullShare d) ∗ owns (c : Thread nD τ) arg11 fullShare xz
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ (∃ f, arg10.view.loc (c : Thread nD τ) ↦[arg10.view.set]{fullShare} arg10.view.writes (Elt F) f LS1) ∗ owns (c : Thread nD τ) arg11 fullShare xz) -∗ K ⟨⟩))
          ⊢ wp frame (wpE (defs₀ (F := F)) Variants.none c none) E (cc1__gru_kernel i arg2 harg2 arg3 harg3 arg4 harg4 arg5 harg5 arg6 harg6 arg7 harg7 arg8 harg8 arg9 harg9 arg10 harg10 arg11 harg11) K } := by
  refine ⟨?_, fun xi6 xz E K => ?run⟩
  case run =>
    simp only [cc1__gru_kernel_eq_skeleton]; unfold cc1__gru_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, HS0⟩, ⟨%d8, %f8, -, HS1⟩, ⟨%f9, %hf9, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]; · iexists _; iexact HS1
    iexists _; isplitr; · ipureintro; exact harg11.read_unread _
    iexact HS2

set_option maxHeartbeats 2000000 in
/-- The body at a point of case C: on whole memrefs holding the point's blocks and the carried scratch, it runs to the
    continuation with the blocks as they were and each buffer it stores into holding its pieces written. -/
noncomputable def kernelRun1_C (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : ¬cond1_1 i) (hc2 : cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) :
    { LS2 : List (View.Piece (Elt F) S1x1024 .f32) //
      ∀ (xi6 : Vec F S1x1x1024 .f32) (xr : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xr ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xr ∗ (∃ f, arg11.view.loc (c : Thread nD τ) ↦[arg11.view.set]{fullShare} arg11.view.writes (Elt F) f LS2)) -∗ K ⟨⟩))
          ⊢ wp frame (wpE (defs₀ (F := F)) Variants.none c none) E (cc1__gru_kernel i arg2 harg2 arg3 harg3 arg4 harg4 arg5 harg5 arg6 harg6 arg7 harg7 arg8 harg8 arg9 harg9 arg10 harg10 arg11 harg11) K } := by
  refine ⟨?_, fun xi6 xr E K => ?run⟩
  case run =>
    simp only [cc1__gru_kernel_eq_skeleton]; unfold cc1__gru_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, HS0⟩, ⟨%f8, %hf8, HS1⟩, ⟨%d9, %f9, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]
    · iexists _; isplitr; · ipureintro; exact harg10.read_unread _
      iexact HS1
    iexists _; iexact HS2

set_option maxHeartbeats 2000000 in
/-- The body at a point of case D: on whole memrefs holding the point's blocks and the carried scratch, it runs to the
    continuation with the blocks as they were and each buffer it stores into holding its pieces written. -/
noncomputable def kernelRun1_D (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : ¬cond1_1 i) (hc2 : ¬cond1_2 i) (hc3 : cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) (xr : Vec F S1x1024 .f32) (xz : Vec F S1x1024 .f32) :
    Σ' (L6 : List (View.Piece (Elt F) S1x1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xr ∗ owns (c : Thread nD τ) arg11 fullShare xz
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ owns (c : Thread nD τ) arg10 fullShare xr ∗ owns (c : Thread nD τ) arg11 fullShare xz) -∗ K ⟨⟩))
          ⊢ wp frame (wpE (defs₀ (F := F)) Variants.none c none) E (cc1__gru_kernel i arg2 harg2 arg3 harg3 arg4 harg4 arg5 harg5 arg6 harg6 arg7 harg7 arg8 harg8 arg9 harg9 arg10 harg10 arg11 harg11) K } := by
  refine ⟨?_, ?_, fun  E K => ?run⟩
  case run =>
    simp only [cc1__gru_kernel_eq_skeleton]; unfold cc1__gru_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, HS0⟩, ⟨%f8, %hf8, HS1⟩, ⟨%f9, %hf9, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]
    · iexists _; isplitr; · ipureintro; exact harg10.read_unread _
      iexact HS1
    iexists _; isplitr; · ipureintro; exact harg11.read_unread _
    iexact HS2

/-! ## What each case's stores leave, as the skeleton's payloads of the blocks -/

theorem hz2 : (![0, 0] : Fin 2 → Nat) = fun _ => 0 := by funext a; fin_cases a <;> rfl
theorem hz3 : (![0, 0, 0] : Fin 3 → Nat) = fun _ => 0 := by funext a; fin_cases a <;> rfl

theorem canonA_x (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : cond1_0 i) (hc1 : cond1_1 i) (hc2 : ¬cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) :
    View.canon (kernelRun1_A (F := F) c i arg2 harg2 arg3 harg3 arg4 harg4 arg5 harg5 arg6 harg6 arg7 harg7 arg8 harg8 arg9 harg9 arg10 harg10 arg11 harg11 hc0 hc1 hc2 hc3 x0 x1 x2 x3 x4 x5).1 = k1_pay5 x0 := by
  unfold kernelRun1_A; dsimp only; sl_unfold_words
  rw [View.canon_unit_zero (S := S1x1024) hz2]
  simp only [View.readAt_eq_ld, Memref.IsWhole.read_unread, View.ld_unit_zero (S := S1x1024) hz2, View.ld_unit_zero (S := S1x1x1024) hz3, View.ld_unit_zero (S := S1x1024x1024) hz3, View.readCov_unit_zero (S := S1x1024) _ hz2]
theorem cover_canonA_x (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : cond1_0 i) (hc1 : cond1_1 i) (hc2 : ¬cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (y : S1x1024.Idx) :
    ∃ pc ∈ (kernelRun1_A (F := F) c i arg2 harg2 arg3 harg3 arg4 harg4 arg5 harg5 arg6 harg6 arg7 harg7 arg8 harg8 arg9 harg9 arg10 harg10 arg11 harg11 hc0 hc1 hc2 hc3 x0 x1 x2 x3 x4 x5).1, y ∈ pc.1.set :=
  View.cover_of_tiledL (kernelRun1_A (F := F) c i arg2 harg2 arg3 harg3 arg4 harg4 arg5 harg5 arg6 harg6 arg7 harg7 arg8 harg8 arg9 harg9 arg10 harg10 arg11 harg11 hc0 hc1 hc2 hc3 x0 x1 x2 x3 x4 x5).1 S1x1024.size (by sl_kernel_rfl) y

theorem canonA_r (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : cond1_0 i) (hc1 : cond1_1 i) (hc2 : ¬cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) :
    View.canon (kernelRun1_A (F := F) c i arg2 harg2 arg3 harg3 arg4 harg4 arg5 harg5 arg6 harg6 arg7 harg7 arg8 harg8 arg9 harg9 arg10 harg10 arg11 harg11 hc0 hc1 hc2 hc3 x0 x1 x2 x3 x4 x5).2.1 = k1_pay9 (k1_pay5 x0) x1 x2 x4 x3 x5 := by
  unfold kernelRun1_A; dsimp only; sl_unfold_words
  rw [View.canon_unit_zero (S := S1x1024) hz2]
  simp only [View.readAt_eq_ld, Memref.IsWhole.read_unread, View.ld_unit_zero (S := S1x1024) hz2, View.ld_unit_zero (S := S1x1x1024) hz3, View.ld_unit_zero (S := S1x1024x1024) hz3, View.readCov_unit_zero (S := S1x1024) _ hz2]
theorem cover_canonA_r (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : cond1_0 i) (hc1 : cond1_1 i) (hc2 : ¬cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (y : S1x1024.Idx) :
    ∃ pc ∈ (kernelRun1_A (F := F) c i arg2 harg2 arg3 harg3 arg4 harg4 arg5 harg5 arg6 harg6 arg7 harg7 arg8 harg8 arg9 harg9 arg10 harg10 arg11 harg11 hc0 hc1 hc2 hc3 x0 x1 x2 x3 x4 x5).2.1, y ∈ pc.1.set :=
  View.cover_of_tiledL (kernelRun1_A (F := F) c i arg2 harg2 arg3 harg3 arg4 harg4 arg5 harg5 arg6 harg6 arg7 harg7 arg8 harg8 arg9 harg9 arg10 harg10 arg11 harg11 hc0 hc1 hc2 hc3 x0 x1 x2 x3 x4 x5).2.1 S1x1024.size (by sl_kernel_rfl) y

theorem canonB_r (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : cond1_1 i) (hc2 : ¬cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) :
    View.canon (kernelRun1_B (F := F) c i arg2 harg2 arg3 harg3 arg4 harg4 arg5 harg5 arg6 harg6 arg7 harg7 arg8 harg8 arg9 harg9 arg10 harg10 arg11 harg11 hc0 hc1 hc2 hc3 x0 x1 x2 x3 x4 x5 xs0).1 = k1_pay9 xs0 x1 x2 x4 x3 x5 := by
  unfold kernelRun1_B; dsimp only; sl_unfold_words
  rw [View.canon_unit_zero (S := S1x1024) hz2]
  simp only [View.readAt_eq_ld, Memref.IsWhole.read_unread, View.ld_unit_zero (S := S1x1024) hz2, View.ld_unit_zero (S := S1x1x1024) hz3, View.ld_unit_zero (S := S1x1024x1024) hz3, View.readCov_unit_zero (S := S1x1024) _ hz2]
theorem cover_canonB_r (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : cond1_1 i) (hc2 : ¬cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) (y : S1x1024.Idx) :
    ∃ pc ∈ (kernelRun1_B (F := F) c i arg2 harg2 arg3 harg3 arg4 harg4 arg5 harg5 arg6 harg6 arg7 harg7 arg8 harg8 arg9 harg9 arg10 harg10 arg11 harg11 hc0 hc1 hc2 hc3 x0 x1 x2 x3 x4 x5 xs0).1, y ∈ pc.1.set :=
  View.cover_of_tiledL (kernelRun1_B (F := F) c i arg2 harg2 arg3 harg3 arg4 harg4 arg5 harg5 arg6 harg6 arg7 harg7 arg8 harg8 arg9 harg9 arg10 harg10 arg11 harg11 hc0 hc1 hc2 hc3 x0 x1 x2 x3 x4 x5 xs0).1 S1x1024.size (by sl_kernel_rfl) y

theorem canonC_z (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : ¬cond1_1 i) (hc2 : cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) :
    View.canon (kernelRun1_C (F := F) c i arg2 harg2 arg3 harg3 arg4 harg4 arg5 harg5 arg6 harg6 arg7 harg7 arg8 harg8 arg9 harg9 arg10 harg10 arg11 harg11 hc0 hc1 hc2 hc3 x0 x1 x2 x3 x4 x5 xs0).1 = k1_pay1 (k1_pay7 xs0 x2 x4) (k1_pay8 x1 x3 x5) := by
  unfold kernelRun1_C; dsimp only; sl_unfold_words
  rw [View.canon_unit_zero (S := S1x1024) hz2]
  simp only [View.readAt_eq_ld, Memref.IsWhole.read_unread, View.ld_unit_zero (S := S1x1024) hz2, View.ld_unit_zero (S := S1x1x1024) hz3, View.ld_unit_zero (S := S1x1024x1024) hz3, View.readCov_unit_zero (S := S1x1024) _ hz2]
theorem cover_canonC_z (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : ¬cond1_1 i) (hc2 : cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) (y : S1x1024.Idx) :
    ∃ pc ∈ (kernelRun1_C (F := F) c i arg2 harg2 arg3 harg3 arg4 harg4 arg5 harg5 arg6 harg6 arg7 harg7 arg8 harg8 arg9 harg9 arg10 harg10 arg11 harg11 hc0 hc1 hc2 hc3 x0 x1 x2 x3 x4 x5 xs0).1, y ∈ pc.1.set :=
  View.cover_of_tiledL (kernelRun1_C (F := F) c i arg2 harg2 arg3 harg3 arg4 harg4 arg5 harg5 arg6 harg6 arg7 harg7 arg8 harg8 arg9 harg9 arg10 harg10 arg11 harg11 hc0 hc1 hc2 hc3 x0 x1 x2 x3 x4 x5 xs0).1 S1x1024.size (by sl_kernel_rfl) y

theorem canonD_o (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : ¬cond1_1 i) (hc2 : ¬cond1_2 i) (hc3 : cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) (xr : Vec F S1x1024 .f32) (xz : Vec F S1x1024 .f32) :
    View.canon (kernelRun1_D (F := F) c i arg2 harg2 arg3 harg3 arg4 harg4 arg5 harg5 arg6 harg6 arg7 harg7 arg8 harg8 arg9 harg9 arg10 harg10 arg11 harg11 hc0 hc1 hc2 hc3 x0 x1 x2 x3 x4 x5 xs0 xr xz).1 = k1_pay3 (k1_pay6 x1) (k1_pay7 xs0 x2 x4) (k1_pay8 x1 x3 x5) xr xz := by
  unfold kernelRun1_D; dsimp only; sl_unfold_words
  rw [View.canon_unit_zero (S := S1x1x1024) hz3]
  simp only [View.readAt_eq_ld, Memref.IsWhole.read_unread, View.ld_unit_zero (S := S1x1024) hz2, View.ld_unit_zero (S := S1x1x1024) hz3, View.ld_unit_zero (S := S1x1024x1024) hz3, View.readCov_unit_zero (S := S1x1024) _ hz2]
theorem cover_canonD_o (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : ¬cond1_1 i) (hc2 : ¬cond1_2 i) (hc3 : cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) (xr : Vec F S1x1024 .f32) (xz : Vec F S1x1024 .f32) (y : S1x1x1024.Idx) :
    ∃ pc ∈ (kernelRun1_D (F := F) c i arg2 harg2 arg3 harg3 arg4 harg4 arg5 harg5 arg6 harg6 arg7 harg7 arg8 harg8 arg9 harg9 arg10 harg10 arg11 harg11 hc0 hc1 hc2 hc3 x0 x1 x2 x3 x4 x5 xs0 xr xz).1, y ∈ pc.1.set :=
  View.cover_of_tiledL (kernelRun1_D (F := F) c i arg2 harg2 arg3 harg3 arg4 harg4 arg5 harg5 arg6 harg6 arg7 harg7 arg8 harg8 arg9 harg9 arg10 harg10 arg11 harg11 hc0 hc1 hc2 hc3 x0 x1 x2 x3 x4 x5 xs0 xr xz).1 S1x1x1024.size (by sl_kernel_rfl) y

theorem canonD_x (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : ¬cond1_1 i) (hc2 : ¬cond1_2 i) (hc3 : cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) (xr : Vec F S1x1024 .f32) (xz : Vec F S1x1024 .f32) :
    View.canon (kernelRun1_D (F := F) c i arg2 harg2 arg3 harg3 arg4 harg4 arg5 harg5 arg6 harg6 arg7 harg7 arg8 harg8 arg9 harg9 arg10 harg10 arg11 harg11 hc0 hc1 hc2 hc3 x0 x1 x2 x3 x4 x5 xs0 xr xz).2.1 = k1_pay4 (k1_pay6 x1) (k1_pay7 xs0 x2 x4) (k1_pay8 x1 x3 x5) xr xz := by
  unfold kernelRun1_D; dsimp only; sl_unfold_words
  rw [View.canon_unit_zero (S := S1x1024) hz2]
  simp only [View.readAt_eq_ld, Memref.IsWhole.read_unread, View.ld_unit_zero (S := S1x1024) hz2, View.ld_unit_zero (S := S1x1x1024) hz3, View.ld_unit_zero (S := S1x1024x1024) hz3, View.readCov_unit_zero (S := S1x1024) _ hz2]
theorem cover_canonD_x (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : ¬cond1_1 i) (hc2 : ¬cond1_2 i) (hc3 : cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) (xr : Vec F S1x1024 .f32) (xz : Vec F S1x1024 .f32) (y : S1x1024.Idx) :
    ∃ pc ∈ (kernelRun1_D (F := F) c i arg2 harg2 arg3 harg3 arg4 harg4 arg5 harg5 arg6 harg6 arg7 harg7 arg8 harg8 arg9 harg9 arg10 harg10 arg11 harg11 hc0 hc1 hc2 hc3 x0 x1 x2 x3 x4 x5 xs0 xr xz).2.1, y ∈ pc.1.set :=
  View.cover_of_tiledL (kernelRun1_D (F := F) c i arg2 harg2 arg3 harg3 arg4 harg4 arg5 harg5 arg6 harg6 arg7 harg7 arg8 harg8 arg9 harg9 arg10 harg10 arg11 harg11 hc0 hc1 hc2 hc3 x0 x1 x2 x3 x4 x5 xs0 xr xz).2.1 S1x1024.size (by sl_kernel_rfl) y

/-! ## The carried rows after each point -/

/-- The three scratch rows, whole scoped buffers of the kernel's own. -/
abbrev scM1_0 : Memref sig .tc .vmem S1x1024 .f32 := Memref.whole cc1_scratch0
abbrev scM1_1 : Memref sig .tc .vmem S1x1024 .f32 := Memref.whole cc1_scratch1
abbrev scM1_2 : Memref sig .tc .vmem S1x1024 .f32 := Memref.whole cc1_scratch2

/-- The grid point numbered `n` (mod 12). -/
def pt1 (n : ℕ) : Fin cfg1.N := ⟨n % 12, lt_of_lt_of_eq (Nat.mod_lt n (by decide)) N_1.symm⟩
theorem pt1_val (t : Fin cfg1.N) : pt1 t.val = t :=
  Fin.ext (Nat.mod_eq_of_lt (lt_of_lt_of_eq t.isLt N_1))

/-- The windows' blocks at point `n`, typed by their literal shapes. -/
def b1_0 (c : Dev nD) (n : ℕ) : Vec F S1x1024 .f32 := iblk1 V c 0 (pt1 n)
def b1_1 (c : Dev nD) (n : ℕ) : Vec F S1x1x1024 .f32 := iblk1 V c 1 (pt1 n)
def b1_2 (c : Dev nD) (n : ℕ) : Vec F S1x1024x1024 .f32 := iblk1 V c 2 (pt1 n)
def b1_3 (c : Dev nD) (n : ℕ) : Vec F S1x1024x1024 .f32 := iblk1 V c 3 (pt1 n)
def b1_4 (c : Dev nD) (n : ℕ) : Vec F S1x1x1024 .f32 := iblk1 V c 4 (pt1 n)
def b1_5 (c : Dev nD) (n : ℕ) : Vec F S1x1x1024 .f32 := iblk1 V c 5 (pt1 n)

/-- The reset gate a layer's first point stores, the update gate its second point stores, and what its third point
    stores into the output block and into the input row, from the layer's input row `x` and the blocks at the point. -/
def rAt (c : Dev nD) (x : Vec F S1x1024 .f32) (n : ℕ) : Vec F S1x1024 .f32 :=
  k1_pay9 x (b1_1 V c n) (b1_2 V c n) (b1_4 V c n) (b1_3 V c n) (b1_5 V c n)
def zAt (c : Dev nD) (x : Vec F S1x1024 .f32) (n : ℕ) : Vec F S1x1024 .f32 :=
  k1_pay1 (k1_pay7 x (b1_2 V c n) (b1_4 V c n)) (k1_pay8 (b1_1 V c n) (b1_3 V c n) (b1_5 V c n))
def outOf (c : Dev nD) (x : Vec F S1x1024 .f32) (n : ℕ) : Vec F S1x1x1024 .f32 :=
  k1_pay3 (k1_pay6 (b1_1 V c n)) (k1_pay7 x (b1_2 V c n) (b1_4 V c n)) (k1_pay8 (b1_1 V c n) (b1_3 V c n) (b1_5 V c n))
    (rAt V c x (n - 2)) (zAt V c x (n - 1))
def xOf (c : Dev nD) (x : Vec F S1x1024 .f32) (n : ℕ) : Vec F S1x1024 .f32 :=
  k1_pay4 (k1_pay6 (b1_1 V c n)) (k1_pay7 x (b1_2 V c n) (b1_4 V c n)) (k1_pay8 (b1_1 V c n) (b1_3 V c n) (b1_5 V c n))
    (rAt V c x (n - 2)) (zAt V c x (n - 1))

/-- Layer `l`'s input row: the region's input for the first layer, the layer before's new state after. -/
def xin (c : Dev nD) : ℕ → Vec F S1x1024 .f32
  | 0 => k1_pay5 (b1_0 V c 0)
  | l + 1 => xOf V c (xin c l) (3 * l + 2)

/-- The scoped buffers that are neither a staging buffer of this region nor its scratch, each at some contents, and
    the generator register at some state: untouched by the body. -/
def Rest1 (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r))

/-- The class invariant (every scoped buffer that is no staging buffer at some contents, the generator register at
    some state) with the three scratch rows as memrefs owned at some contents. -/
theorem PhiA1_eq (c : Dev nD) :
    (Pipeline.ΦA spec1 c : sProp 𝕄)
      = iprop(((∃ d, owns (c : Thread nD τ) scM1_0 fullShare d) ∗ (∃ d, owns (c : Thread nD τ) scM1_1 fullShare d) ∗ (∃ d, owns (c : Thread nD τ) scM1_2 fullShare d)
          ∗ (∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  unfold Pipeline.ΦA
  rw [Pipeline.scopedRest_eq_of_list spec1 c [cc1_scratch0, cc1_scratch1, cc1_scratch2, cc0_stg0_0, cc0_stg1_0, cc0_stg2_0, cc0_stg3_0, cc0_stg4_0, cc0_stg5_0, cc0_stg6_0, cc0_stg7_0, cc0_stg8_0, cc2_stg0_0, cc2_stg1_0, cc2_stg1_1, cc2_stg2_0, cc2_stg2_1, cc2_stg3_0, cc2_stg3_1] (by decide) (by decide)]
  simp only [scM1_0, scM1_1, scM1_2, owns_whole]; try rfl

/-- The region invariant before position `n`: before the first point the class invariant; afterwards the input row of the
    layer the position is in, the reset gate once the layer's first point has stored it, the update gate once its second
    point has, the other scratch rows at anything, and the untouched rest. -/
def PhiS (c : Dev nD) (n : ℕ) : sProp 𝕄 :=
  if n = 0 then Pipeline.ΦA spec1 c else
    iprop(owns (c : Thread nD τ) scM1_0 fullShare (xin V c (n / 3))
      ∗ (if n % 3 = 0 then iprop(∃ d, owns (c : Thread nD τ) scM1_1 fullShare d) else owns (c : Thread nD τ) scM1_1 fullShare (rAt V c (xin V c (n / 3)) (3 * (n / 3))))
      ∗ (if n % 3 = 2 then owns (c : Thread nD τ) scM1_2 fullShare (zAt V c (xin V c (n / 3)) (3 * (n / 3) + 1)) else iprop(∃ d, owns (c : Thread nD τ) scM1_2 fullShare d))
      ∗ Rest1 c)

theorem PhiS_zero (c : Dev nD) : PhiS V c 0 = Pipeline.ΦA spec1 c := if_pos rfl
theorem PhiS_g0 (c : Dev nD) (n : ℕ) (h0 : n ≠ 0) (h : n % 3 = 0) : PhiS V c n =
    iprop(owns (c : Thread nD τ) scM1_0 fullShare (xin V c (n / 3)) ∗ (∃ d, owns (c : Thread nD τ) scM1_1 fullShare d)
      ∗ (∃ d, owns (c : Thread nD τ) scM1_2 fullShare d) ∗ Rest1 c) := by
  unfold PhiS; rw [if_neg h0, if_pos h, if_neg (by omega)]
theorem PhiS_g1 (c : Dev nD) (n : ℕ) (h : n % 3 = 1) : PhiS V c n =
    iprop(owns (c : Thread nD τ) scM1_0 fullShare (xin V c (n / 3)) ∗ owns (c : Thread nD τ) scM1_1 fullShare (rAt V c (xin V c (n / 3)) (3 * (n / 3)))
      ∗ (∃ d, owns (c : Thread nD τ) scM1_2 fullShare d) ∗ Rest1 c) := by
  unfold PhiS; rw [if_neg (by omega), if_neg (by omega), if_neg (by omega)]
theorem PhiS_g2 (c : Dev nD) (n : ℕ) (h : n % 3 = 2) : PhiS V c n =
    iprop(owns (c : Thread nD τ) scM1_0 fullShare (xin V c (n / 3)) ∗ owns (c : Thread nD τ) scM1_1 fullShare (rAt V c (xin V c (n / 3)) (3 * (n / 3)))
      ∗ owns (c : Thread nD τ) scM1_2 fullShare (zAt V c (xin V c (n / 3)) (3 * (n / 3) + 1)) ∗ Rest1 c) := by
  unfold PhiS; rw [if_neg (by omega), if_neg (by omega), if_pos h]

/-! ## The region's proof data -/

/-- The arrays as found; after the body each input's buffer at its block, the output's at what the layer's third point
    stores; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outOf V c (xin V c (t.val / 3)) t.val
  Φ t := PhiS V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outOf V c (xin V c (t.val / 3)) t.val := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, -/
def bodyPre1 (c : Dev nD) (t : Fin cfg1.N) : sProp 𝕄 :=
  iprop(PhiS V c t.val ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop(PhiS V c (t.val + 1) ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ (dat1 V c).leavesExact 6 t)

set_option maxHeartbeats 4000000 in
/-- The first point: the input row is copied into `x`, the reset gate stored. -/
theorem sound_body1_A (c : Dev nD) (t : Fin cfg1.N) (h0 : t.val = 0) :
    bodyPre1 V c t ⊢ wp frame (wpE (defs₀ (F := F)) Variants.none c none) Set.univ (bodyAt1 t) (fun _ => bodyPost1 V c t) := by
    unfold bodyPre1 bodyPost1 bodyAt1
    simp only [before1_0, before1_1, before1_2, before1_3, before1_4, before1_5]
    have hb0 : b1_0 V c t.val = iblk1 V c 0 t := by unfold b1_0; rw [pt1_val]
    have hb1 : b1_1 V c t.val = iblk1 V c 1 t := by unfold b1_1; rw [pt1_val]
    have hb2 : b1_2 V c t.val = iblk1 V c 2 t := by unfold b1_2; rw [pt1_val]
    have hb3 : b1_3 V c t.val = iblk1 V c 3 t := by unfold b1_3; rw [pt1_val]
    have hb4 : b1_4 V c t.val = iblk1 V c 4 t := by unfold b1_4; rw [pt1_val]
    have hb5 : b1_5 V c t.val = iblk1 V c 5 t := by unfold b1_5; rw [pt1_val]
    have hc0 : cond1_0 (grid1.coords t) := (hcond1_0 t).mpr h0
    have hc1 : cond1_1 (grid1.coords t) := (hcond1_1 t).mpr (by omega)
    have hc2 : ¬cond1_2 (grid1.coords t) := fun h => by have := (hcond1_2 t).mp h; omega
    have hc3 : ¬cond1_3 (grid1.coords t) := fun h => by have := (hcond1_3 t).mp h; omega
    rw [Dat.leavesExact_idle (dat1 V c) 6 t (idleAt1_6 t hc3) (noFlush1_6 t hc3)]
    rw [PhiS_g1 V c (t.val + 1) (by omega)]
    have e1 : (t.val + 1) / 3 = 0 := by omega
    rw [e1, h0, PhiS_zero, PhiA1_eq]
    iintro ⟨⟨⟨HS0, HS1, ⟨%dz, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t)).2.2 _ dz Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, ⟨%e0, HS0⟩, ⟨%e1, HS1⟩, HS2⟩
    isplitl [HS0 HS1 HS2 HR Hg]
    · isplitl [HS0]
      · unfold owns; iexists _; isplitr
        swap; · iexact HS0
        ipureintro
        exact (View.read_writes_eq_canon _ _ _ (cover_canonA_x c (grid1.coords t) _ _ _ _ _ _ _ _ _ _ _ _ _ _ _ _ _ _ _ _ hc0 hc1 hc2 hc3 _ _ _ _ _ _)).trans ((canonA_x c (grid1.coords t) _ _ _ _ _ _ _ _ _ _ _ _ _ _ _ _ _ _ _ _ hc0 hc1 hc2 hc3 _ _ _ _ _ _).trans (by rw [h0] at hb0; unfold xin; rw [hb0]))
      isplitl [HS1]
      · unfold owns; iexists _; isplitr
        swap; · iexact HS1
        ipureintro
        exact (View.read_writes_eq_canon _ _ _ (cover_canonA_r c (grid1.coords t) _ _ _ _ _ _ _ _ _ _ _ _ _ _ _ _ _ _ _ _ hc0 hc1 hc2 hc3 _ _ _ _ _ _)).trans ((canonA_r c (grid1.coords t) _ _ _ _ _ _ _ _ _ _ _ _ _ _ _ _ _ _ _ _ hc0 hc1 hc2 hc3 _ _ _ _ _ _).trans (by rw [h0] at hb0 hb1 hb2 hb3 hb4 hb5; unfold rAt xin; simp only [Nat.mul_zero]; rw [hb0, hb1, hb2, hb3, hb4, hb5]))
      isplitl [HS2]; · iexists _; iexact HS2
      unfold Rest1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

set_option maxHeartbeats 4000000 in
/-- A later layer's first point: the reset gate is stored. -/
theorem sound_body1_B (c : Dev nD) (t : Fin cfg1.N) (h0 : t.val ≠ 0) (h3 : t.val % 3 = 0) :
    bodyPre1 V c t ⊢ wp frame (wpE (defs₀ (F := F)) Variants.none c none) Set.univ (bodyAt1 t) (fun _ => bodyPost1 V c t) := by
    unfold bodyPre1 bodyPost1 bodyAt1
    simp only [before1_0, before1_1, before1_2, before1_3, before1_4, before1_5]
    have hb0 : b1_0 V c t.val = iblk1 V c 0 t := by unfold b1_0; rw [pt1_val]
    have hb1 : b1_1 V c t.val = iblk1 V c 1 t := by unfold b1_1; rw [pt1_val]
    have hb2 : b1_2 V c t.val = iblk1 V c 2 t := by unfold b1_2; rw [pt1_val]
    have hb3 : b1_3 V c t.val = iblk1 V c 3 t := by unfold b1_3; rw [pt1_val]
    have hb4 : b1_4 V c t.val = iblk1 V c 4 t := by unfold b1_4; rw [pt1_val]
    have hb5 : b1_5 V c t.val = iblk1 V c 5 t := by unfold b1_5; rw [pt1_val]
    have hc0 : ¬cond1_0 (grid1.coords t) := fun h => h0 ((hcond1_0 t).mp h)
    have hc1 : cond1_1 (grid1.coords t) := (hcond1_1 t).mpr h3
    have hc2 : ¬cond1_2 (grid1.coords t) := fun h => by have := (hcond1_2 t).mp h; omega
    have hc3 : ¬cond1_3 (grid1.coords t) := fun h => by have := (hcond1_3 t).mp h; omega
    rw [Dat.leavesExact_idle (dat1 V c) 6 t (idleAt1_6 t hc3) (noFlush1_6 t hc3)]
    rw [PhiS_g0 V c t.val h0 h3, PhiS_g1 V c (t.val + 1) (by omega)]
    have e1 : (t.val + 1) / 3 = t.val / 3 := by omega
    have e2 : 3 * (t.val / 3) = t.val := by omega
    rw [e1, e2]
    iintro ⟨⟨HS0, ⟨%dr, HS1⟩, ⟨%dz, HS2⟩, HR⟩, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t) (xin V c (t.val / 3))).2 _ dz Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexists _; iexact HS1
    isplitl [HS2]; · iexact HS2
    iintro ⟨H0, H1, H2, H3, H4, H5, H6, HS0, ⟨%e1', HS1⟩, HS2⟩
    isplitl [HS0 HS1 HS2 HR]
    · isplitl [HS0]; · iexact HS0
      isplitl [HS1]
      · unfold owns; iexists _; isplitr
        swap; · iexact HS1
        ipureintro
        exact (View.read_writes_eq_canon _ _ _ (cover_canonB_r c (grid1.coords t) _ _ _ _ _ _ _ _ _ _ _ _ _ _ _ _ _ _ _ _ hc0 hc1 hc2 hc3 _ _ _ _ _ _ _)).trans ((canonB_r c (grid1.coords t) _ _ _ _ _ _ _ _ _ _ _ _ _ _ _ _ _ _ _ _ hc0 hc1 hc2 hc3 _ _ _ _ _ _ _).trans (by unfold rAt; rw [hb1, hb2, hb3, hb4, hb5]))
      isplitl [HS2]; · iexists _; iexact HS2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

set_option maxHeartbeats 4000000 in
/-- A layer's second point: the update gate is stored. -/
theorem sound_body1_C (c : Dev nD) (t : Fin cfg1.N) (h3 : t.val % 3 = 1) :
    bodyPre1 V c t ⊢ wp frame (wpE (defs₀ (F := F)) Variants.none c none) Set.univ (bodyAt1 t) (fun _ => bodyPost1 V c t) := by
    unfold bodyPre1 bodyPost1 bodyAt1
    simp only [before1_0, before1_1, before1_2, before1_3, before1_4, before1_5]
    have hb0 : b1_0 V c t.val = iblk1 V c 0 t := by unfold b1_0; rw [pt1_val]
    have hb1 : b1_1 V c t.val = iblk1 V c 1 t := by unfold b1_1; rw [pt1_val]
    have hb2 : b1_2 V c t.val = iblk1 V c 2 t := by unfold b1_2; rw [pt1_val]
    have hb3 : b1_3 V c t.val = iblk1 V c 3 t := by unfold b1_3; rw [pt1_val]
    have hb4 : b1_4 V c t.val = iblk1 V c 4 t := by unfold b1_4; rw [pt1_val]
    have hb5 : b1_5 V c t.val = iblk1 V c 5 t := by unfold b1_5; rw [pt1_val]
    have hc0 : ¬cond1_0 (grid1.coords t) := fun h => by have := (hcond1_0 t).mp h; omega
    have hc1 : ¬cond1_1 (grid1.coords t) := fun h => by have := (hcond1_1 t).mp h; omega
    have hc2 : cond1_2 (grid1.coords t) := (hcond1_2 t).mpr h3
    have hc3 : ¬cond1_3 (grid1.coords t) := fun h => by have := (hcond1_3 t).mp h; omega
    rw [Dat.leavesExact_idle (dat1 V c) 6 t (idleAt1_6 t hc3) (noFlush1_6 t hc3)]
    rw [PhiS_g1 V c t.val h3, PhiS_g2 V c (t.val + 1) (by omega)]
    have e1 : (t.val + 1) / 3 = t.val / 3 := by omega
    have e2 : 3 * (t.val / 3) + 1 = t.val := by omega
    rw [e1, e2]
    iintro ⟨⟨HS0, HS1, ⟨%dz, HS2⟩, HR⟩, Ho, ⟨%d0, H0⟩, ⟨%d1, H1⟩, ⟨%d2, H2⟩, ⟨%d3, H3⟩, ⟨%d4, H4⟩, ⟨%d5, H5⟩, ⟨%d6, H6⟩⟩
    iapply ((kernelRun1_C c (grid1.coords t) _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t) (xin V c (t.val / 3))).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexists _; iexact HS2
    iintro ⟨H0, H1, H2, H3, H4, H5, H6, HS0, HS1, ⟨%e2', HS2⟩⟩
    isplitl [HS0 HS1 HS2 HR]
    · isplitl [HS0]; · iexact HS0
      isplitl [HS1]; · iexact HS1
      isplitl [HS2]
      · unfold owns; iexists _; isplitr
        swap; · iexact HS2
        ipureintro
        exact (View.read_writes_eq_canon _ _ _ (cover_canonC_z c (grid1.coords t) _ _ _ _ _ _ _ _ _ _ _ _ _ _ _ _ _ _ _ _ hc0 hc1 hc2 hc3 _ _ _ _ _ _ _)).trans ((canonC_z c (grid1.coords t) _ _ _ _ _ _ _ _ _ _ _ _ _ _ _ _ _ _ _ _ hc0 hc1 hc2 hc3 _ _ _ _ _ _ _).trans (by unfold zAt; rw [hb1, hb2, hb3, hb4, hb5]))
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

set_option maxHeartbeats 4000000 in
/-- A layer's third point: the new state is stored into the output block and into the input row. -/
theorem sound_body1_D (c : Dev nD) (t : Fin cfg1.N) (h3 : t.val % 3 = 2) :
    bodyPre1 V c t ⊢ wp frame (wpE (defs₀ (F := F)) Variants.none c none) Set.univ (bodyAt1 t) (fun _ => bodyPost1 V c t) := by
    unfold bodyPre1 bodyPost1 bodyAt1
    simp only [before1_0, before1_1, before1_2, before1_3, before1_4, before1_5]
    have hb0 : b1_0 V c t.val = iblk1 V c 0 t := by unfold b1_0; rw [pt1_val]
    have hb1 : b1_1 V c t.val = iblk1 V c 1 t := by unfold b1_1; rw [pt1_val]
    have hb2 : b1_2 V c t.val = iblk1 V c 2 t := by unfold b1_2; rw [pt1_val]
    have hb3 : b1_3 V c t.val = iblk1 V c 3 t := by unfold b1_3; rw [pt1_val]
    have hb4 : b1_4 V c t.val = iblk1 V c 4 t := by unfold b1_4; rw [pt1_val]
    have hb5 : b1_5 V c t.val = iblk1 V c 5 t := by unfold b1_5; rw [pt1_val]
    have hc0 : ¬cond1_0 (grid1.coords t) := fun h => by have := (hcond1_0 t).mp h; omega
    have hc1 : ¬cond1_1 (grid1.coords t) := fun h => by have := (hcond1_1 t).mp h; omega
    have hc2 : ¬cond1_2 (grid1.coords t) := fun h => by have := (hcond1_2 t).mp h; omega
    have hc3 : cond1_3 (grid1.coords t) := (hcond1_3 t).mpr h3
    rw [show (dat1 V c).leavesExact 6 t = owns (c : Thread nD τ) (st1_6 t) fullShare ((dat1 V c).after 6 t) from by
      unfold Dat.leavesExact; rw [liveAt1_6 t hc3], after1_6]
    rw [PhiS_g2 V c t.val h3, PhiS_g0 V c (t.val + 1) (by omega) (by omega)]
    have e1 : (t.val + 1) / 3 = t.val / 3 + 1 := by omega
    have e2 : 3 * (t.val / 3) = t.val - 2 := by omega
    have e3 : t.val - 2 + 1 = t.val - 1 := by omega
    have e4 : 3 * (t.val / 3) + 2 = t.val := by omega
    rw [e1, e2, e3]
    iintro ⟨⟨HS0, HS1, HS2, HR⟩, Ho, ⟨%d0, H0⟩, ⟨%d1, H1⟩, ⟨%d2, H2⟩, ⟨%d3, H3⟩, ⟨%d4, H4⟩, ⟨%d5, H5⟩, ⟨%d6, H6⟩⟩
    iapply ((kernelRun1_D c (grid1.coords t) _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t) (xin V c (t.val / 3)) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%e6, H6⟩, ⟨%e0', HS0⟩, HS1, HS2⟩
    isplitl [HS0 HS1 HS2 HR]
    · isplitl [HS0]
      · unfold owns; iexists _; isplitr
        swap; · iexact HS0
        ipureintro
        exact (View.read_writes_eq_canon _ _ _ (cover_canonD_x c (grid1.coords t) _ _ _ _ _ _ _ _ _ _ _ _ _ _ _ _ _ _ _ _ hc0 hc1 hc2 hc3 _ _ _ _ _ _ _ _ _)).trans ((canonD_x c (grid1.coords t) _ _ _ _ _ _ _ _ _ _ _ _ _ _ _ _ _ _ _ _ hc0 hc1 hc2 hc3 _ _ _ _ _ _ _ _ _).trans (by show _ = xOf V c (xin V c (t.val / 3)) (3 * (t.val / 3) + 2); rw [e4]; unfold xOf; rw [hb1, hb2, hb3, hb4, hb5]))
      isplitl [HS1]; · iexists _; iexact HS1
      isplitl [HS2]; · iexists _; iexact HS2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    exact (View.read_writes_eq_canon _ _ _ (cover_canonD_o c (grid1.coords t) _ _ _ _ _ _ _ _ _ _ _ _ _ _ _ _ _ _ _ _ hc0 hc1 hc2 hc3 _ _ _ _ _ _ _ _ _)).trans ((canonD_o c (grid1.coords t) _ _ _ _ _ _ _ _ _ _ _ _ _ _ _ _ _ _ _ _ hc0 hc1 hc2 hc3 _ _ _ _ _ _ _ _ _).trans (by unfold outOf; rw [hb1, hb2, hb3, hb4, hb5]))

/-- The body at any point: by the point's position in its layer. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val = 0
  · exact sound_body1_A V c t h0
  · have h : t.val % 3 = 0 ∨ t.val % 3 = 1 ∨ t.val % 3 = 2 := by omega
    rcases h with h | h | h
    · exact sound_body1_B V c t h0 h
    · exact sound_body1_C V c t h
    · exact sound_body1_D V c t h

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After the last point the invariant gives the class invariant back: the scratch rows' contents are forgotten. -/
theorem hout1 (c : Dev nD) : (dat1 V c).Φ (Fin.last cfg1.N) ⊢ Pipeline.ΦA spec1 c := by
  have hl : (Fin.last cfg1.N).val = 12 := N_1
  show PhiS V c (Fin.last cfg1.N).val ⊢ _
  rw [hl, PhiS_g0 V c 12 (by decide) (by decide), PhiA1_eq]
  unfold Rest1
  iintro ⟨HS0, HS1, HS2, HR, Hg⟩
  isplitl [HS0 HS1 HS2 HR]
  · isplitl [HS0]; · iexists _; iexact HS0
    isplitl [HS1]; · iexact HS1
    isplitl [HS2]; · iexact HS2
    iexact HR
  iexact Hg

end Cert.Kernel.Hand

end
-- ==== Proof.K.R2.lean ====
import proofs.«145509_j26731876451021_2_alg».proof.Proof.Gen.Kernel.Launch
import proofs.«145509_j26731876451021_2_alg».proof.Proof.Gen.Kernel.Skeleton
import proofs.«145509_j26731876451021_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The output projection's region (the third pallas_call): one point per tile of 3200 output columns.

At tile `t` the body reads the whole input row `x` (window 0, the same block at every point), rows
`3200·t … 3200·t + 3199` of the weight matrix (window 1) and the matching 3200 entries of the bias (window 2), and
stores into the output's tile (window 3) the row-times-matrixᵀ product plus the bias. Nothing is kept between points. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each staging buffer whole. -/
abbrev r2_x : Rect S1x1024 := Rect.unit (s := S1x1024) ![0, 0] S1x1024.size inb_S1x1024_S1x1024_0_0
abbrev r2_w : Rect S3200x1024 := Rect.unit (s := S3200x1024) ![0, 0] S3200x1024.size inb_S3200x1024_S3200x1024_0_0
abbrev r2_b : Rect S1x3200 := Rect.unit (s := S1x3200) ![0, 0] S1x3200.size inb_S1x3200_S1x3200_0_0

/-- The output tile after the body: its one store, the product-plus-bias of the three input blocks. -/
def out2_3 (x0 : Vec F S1x1024 .f32) (x1 : Vec F S3200x1024 .f32) (x2 : Vec F S1x3200 .f32) : Vec F S1x3200 .f32 :=
  View.canon [⟨r2_b, k2_pay1 (View.ld x0 r2_x) (View.ld x1 r2_w) (View.ld x2 r2_b)⟩]

/-- The one store covers the tile. -/
theorem cover2_3 (p0 : Vec F S1x3200 .f32) (y : S1x3200.Idx) :
    ∃ pc ∈ ([⟨r2_b, p0⟩] : List (View.Piece (Elt F) S1x3200 .f32)), y ∈ pc.1.set :=
  View.cover_of_tiled [⟨r2_b, p0⟩] S1x3200.size (by rfl) y

set_option maxHeartbeats 1000000 in
/-- The body on whole staging memrefs: the inputs keep their contents, the output tile ends at `out2_3` of them. -/
theorem sound_kernel2 (c : Dev nD) (E : Set ℕ) (i : grid2.Coords) (arg1 : Memref sig .tc .vmem S1x1024 .f32) (harg1 : arg1.IsWhole) (arg2 : Memref sig .tc .vmem S3200x1024 .f32) (harg2 : arg2.IsWhole) (arg3 : Memref sig .tc .vmem S1x3200 .f32) (harg3 : arg3.IsWhole) (arg4 : Memref sig .tc .vmem S1x3200 .f32) (harg4 : arg4.IsWhole)
    (x0 : Vec F S1x1024 .f32) (x1 : Vec F S3200x1024 .f32) (x2 : Vec F S1x3200 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__outproj_kernel i arg1 harg1 arg2 harg2 arg3 harg3 arg4 harg4) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data: the arrays as found; after the body each input's buffer at its block, the output's at
    `out2_3` of the point's blocks; the class invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
import proofs.«145509_j26731876451021_2_alg».proof.Proof.K.R0
import proofs.«145509_j26731876451021_2_alg».proof.Proof.K.R1
import proofs.«145509_j26731876451021_2_alg».proof.Proof.K.R2
import proofs.«145509_j26731876451021_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The whole run: host stretches and the three regions in order

The contents of every unscoped buffer at each boundary between two items of the program, folded from the launch memory: a
host stretch applies its operations; a region leaves its windows' arrays at what its write-backs fold to and every other
buffer as it found it. Every weakly fair execution terminates with every unscoped buffer at the last boundary's contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- At region 0's exit: its arrays at what the pipeline leaves (the inputs as entered, each output's write-backs folded),
    every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b

/-- At region 1's exit: its arrays at what the pipeline leaves (the inputs as entered, each output's write-backs folded),
    every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the third host stretch (the third region's entry). -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b

/-- At region 2's exit: its arrays at what the pipeline leaves (the inputs as entered, each output's write-backs folded),
    every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After the last two host stretches (the return). -/
abbrev W7 : Dev nD → Valuation τ sig (Elt F) := fun c => StableHlo.after hostOps3 (W6 m ρ c)
abbrev W8 : Dev nD → Valuation τ sig (Elt F) := fun c => StableHlo.after hostOps3_1 (W7 m ρ c)

/-! ## The arguments end as launched -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := StableHlo.after_of_writes_sub hostOps3_1 _ hostOps3_1_writes (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := StableHlo.after_of_writes_sub hostOps3_1 _ hostOps3_1_writes (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := (W4_arr m ρ c 1).trans (((dat1 (U3 m ρ) c).arrAt_in 1 rfl _).trans (A_eq1 (U3 m ρ) c 1))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := StableHlo.after_of_writes_sub hostOps3_1 _ hostOps3_1_writes (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 4).trans (((dat0 (U1 m ρ) c).arrAt_in 4 rfl _).trans (A_eq0 (U1 m ρ) c 4))
    _ = W0 m ρ c (Proc.devRef .tc main_arg2) := StableHlo.after_of_writes_sub hostOps0 _ hostOps0_writes (by decide)
    _ = m ((c : Thread nD τ).loc main_arg2) := rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := StableHlo.after_of_writes_sub hostOps3_1 _ hostOps3_1_writes (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := StableHlo.after_of_writes_sub hostOps3_1 _ hostOps3_1_writes (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 2).trans (((dat0 (U1 m ρ) c).arrAt_in 2 rfl _).trans (A_eq0 (U1 m ρ) c 2))
    _ = W0 m ρ c (Proc.devRef .tc main_arg4) := StableHlo.after_of_writes_sub hostOps0 _ hostOps0_writes (by decide)
    _ = m ((c : Thread nD τ).loc main_arg4) := rfl
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := StableHlo.after_of_writes_sub hostOps3_1 _ hostOps3_1_writes (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := StableHlo.after_of_writes_sub hostOps3_1 _ hostOps3_1_writes (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 5).trans (((dat0 (U1 m ρ) c).arrAt_in 5 rfl _).trans (A_eq0 (U1 m ρ) c 5))
    _ = W0 m ρ c (Proc.devRef .tc main_arg6) := StableHlo.after_of_writes_sub hostOps0 _ hostOps0_writes (by decide)
    _ = m ((c : Thread nD τ).loc main_arg6) := rfl
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := StableHlo.after_of_writes_sub hostOps3_1 _ hostOps3_1_writes (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := StableHlo.after_of_writes_sub hostOps3_1 _ hostOps3_1_writes (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := StableHlo.after_of_writes_sub hostOps3_1 _ hostOps3_1_writes (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := StableHlo.after_of_writes_sub hostOps3_1 _ hostOps3_1_writes (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := StableHlo.after_of_writes_sub hostOps3_1 _ hostOps3_1_writes (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := StableHlo.after_of_writes_sub hostOps3_1 _ hostOps3_1_writes (by decide)
    _ = W6 m ρ c (Proc.devRef .tc main_arg12) := StableHlo.after_of_writes_sub hostOps3 _ hostOps3_writes (by decide)
    _ = W5 m ρ c (Proc.devRef .tc main_arg12) := (W6_arr m ρ c 1).trans (((dat2 (U5 m ρ) c).arrAt_in 1 rfl _).trans (A_eq2 (U5 m ρ) c 1))
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl
theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := StableHlo.after_of_writes_sub hostOps3_1 _ hostOps3_1_writes (by decide)
    _ = W6 m ρ c (Proc.devRef .tc main_arg13) := StableHlo.after_of_writes_sub hostOps3 _ hostOps3_writes (by decide)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 over the thread state: entered from every unscoped buffer at `W1`, left at `W2`; its arrays are split
    out of the unscoped buffers and put back at what the write-backs leave; the generator register and the scoped rest go
    into the region's invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`; its arrays are split
    out of the unscoped buffers and put back at what the write-backs leave; the generator register and the scoped rest go
    into the region's invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from PhiS_zero (U3 m ρ) c]; unfold Pipeline.ΦA
    iintro ⟨Hp, -, Hr⟩
    isplitl [Hr]; · iexact Hr
    iexact Hp
  hout c := by
    rw [Pipeline.ownSems0_none]
    refine (hout1 (U3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`; its arrays are split
    out of the unscoped buffers and put back at what the write-backs leave; the generator register and the scoped rest go
    into the region's invariant and come back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev msegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)) ]
theorem main_run (c : Dev nD) : main (F := F) c = Pipeline.Seg.run (msegs m ρ) := (main_chain c).trans (by chain_rfl)

set_option backward.isDefEq.respectTransparency.types false in
/-- THE RUN: from any memory with zero counters every weakly fair execution terminates, nothing faulting, with every
    unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W8 m ρ c) ∗ ∃ r, prngReg c r))
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c)
        ⊢ iprop(iprop(StableHlo.held (c : Thread nD τ) (Pipeline.ucRefs τ sig) (W8 m ρ c) ∗ ∃ r, prngReg c r) ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c),
    (h c _ (mem_uc main_arg11 (by decide))).trans (W8_main_arg11 m ρ c),
    (h c _ (mem_uc main_arg12 (by decide))).trans (W8_main_arg12 m ρ c),
    (h c _ (mem_uc main_arg13 (by decide))).trans (W8_main_arg13 m ρ c)⟩) (run m ρ)

end Cert.Kernel.Hand

end
-- ==== Proof.KI.R0.lean ====
import proofs.«145509_j26731876451021_2_alg».proof.Proof.Gen.KernelIdeal.Launch
import proofs.«145509_j26731876451021_2_alg».proof.Proof.Gen.KernelIdeal.Skeleton
import proofs.«145509_j26731876451021_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The attention-and-combine region (the first pallas_call): one point, every block its whole array.

The body reads the embedded tokens (window 0), the first layer's state row (1), the attention matrix (2, in two column
bands), its bias row (3), the encoder outputs (4), the combine matrix (5, in the same two bands) and its bias row (6), and
stores the attention weights (window 7) and the recurrent unit's first input row (window 8). -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: whole buffers, and the two column bands of each of the two matrices. -/
abbrev r0_e : Rect S1x2048 := Rect.unit (s := S1x2048) ![0, 0] S1x2048.size inb_S1x2048_S1x2048_0_0
abbrev r0_h : Rect S1x1024 := Rect.unit (s := S1x1024) ![0, 0] S1x1024.size inb_S1x1024_S1x1024_0_0
abbrev r0_A1 : Rect S128x3072 := Rect.unit (s := S128x3072) ![0, 0] S128x2048.size inb_S128x3072_S128x2048_0_0
abbrev r0_A2 : Rect S128x3072 := Rect.unit (s := S128x3072) ![0, 2048] S128x1024.size inb_S128x3072_S128x1024_0_2048
abbrev r0_b : Rect S1x128 := Rect.unit (s := S1x128) ![0, 0] S1x128.size inb_S1x128_S1x128_0_0
abbrev r0_enc : Rect S128x1024 := Rect.unit (s := S128x1024) ![0, 0] S128x1024.size inb_S128x1024_S128x1024_0_0
abbrev r0_C1 : Rect S1024x3072 := Rect.unit (s := S1024x3072) ![0, 0] S1024x2048.size inb_S1024x3072_S1024x2048_0_0
abbrev r0_C2 : Rect S1024x3072 := Rect.unit (s := S1024x3072) ![0, 2048] S1024x1024.size inb_S1024x3072_S1024x1024_0_2048
abbrev r0_c : Rect S1x1024 := Rect.unit (s := S1x1024) ![0, 0] S1x1024.size inb_S1x1024_S1x1024_0_0

/-- The attention weights' buffer after the body: its one store. -/
def out0_7 (x0 : Vec F S1x2048 .f32) (x1 : Vec F S1x1024 .f32) (x2 : Vec F S128x3072 .f32) (x3 : Vec F S1x128 .f32) : Vec F S1x128 .f32 :=
  View.canon [⟨r0_b, k0_pay3 (View.ld x0 r0_e) (View.ld x1 r0_h) (View.ld x2 r0_A1) (View.ld x2 r0_A2) (View.ld x3 r0_b)⟩]
/-- The recurrent input's buffer after the body: its one store. -/
def out0_8 (x0 : Vec F S1x2048 .f32) (x1 : Vec F S1x1024 .f32) (x2 : Vec F S128x3072 .f32) (x3 : Vec F S1x128 .f32) (x4 : Vec F S128x1024 .f32) (x5 : Vec F S1024x3072 .f32) (x6 : Vec F S1x1024 .f32) : Vec F S1x1024 .f32 :=
  View.canon [⟨r0_c, k0_pay1 (k0_pay4 (View.ld x0 r0_e) (View.ld x1 r0_h) (View.ld x2 r0_A1) (View.ld x2 r0_A2) (View.ld x3 r0_b) (View.ld x4 r0_enc)) (k0_pay5 (View.ld x0 r0_e)) (k0_pay6 (View.ld x5 r0_C1)) (constant S1x1024 .f32 0x00000000#32) (View.ld x5 r0_C2) (View.ld x6 r0_c)⟩]

theorem cover0_7 (p0 : Vec F S1x128 .f32) (y : S1x128.Idx) :
    ∃ pc ∈ ([⟨r0_b, p0⟩] : List (View.Piece (Elt F) S1x128 .f32)), y ∈ pc.1.set :=
  View.cover_of_tiled [⟨r0_b, p0⟩] S1x128.size (by rfl) y
theorem cover0_8 (p0 : Vec F S1x1024 .f32) (y : S1x1024.Idx) :
    ∃ pc ∈ ([⟨r0_c, p0⟩] : List (View.Piece (Elt F) S1x1024 .f32)), y ∈ pc.1.set :=
  View.cover_of_tiled [⟨r0_c, p0⟩] S1x1024.size (by rfl) y

set_option maxHeartbeats 2000000 in
/-- The body on whole staging memrefs: the inputs keep their contents, the two outputs end at `out0_7`, `out0_8` of them. -/
theorem sound_kernel0 (c : Dev nD) (E : Set ℕ) (i : grid0.Coords) (arg1 : Memref sig .tc .vmem S1x2048 .f32) (harg1 : arg1.IsWhole) (arg2 : Memref sig .tc .vmem S1x1024 .f32) (harg2 : arg2.IsWhole) (arg3 : Memref sig .tc .vmem S128x3072 .f32) (harg3 : arg3.IsWhole) (arg4 : Memref sig .tc .vmem S1x128 .f32) (harg4 : arg4.IsWhole) (arg5 : Memref sig .tc .vmem S128x1024 .f32) (harg5 : arg5.IsWhole) (arg6 : Memref sig .tc .vmem S1024x3072 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S1x1024 .f32) (harg9 : arg9.IsWhole)
    (x0 : Vec F S1x2048 .f32) (x1 : Vec F S1x1024 .f32) (x2 : Vec F S128x3072 .f32) (x3 : Vec F S1x128 .f32) (x4 : Vec F S128x1024 .f32) (x5 : Vec F S1024x3072 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3) ∗ owns (c : Thread nD τ) arg9 fullShare (out0_8 x0 x1 x2 x3 x4 x5 x6)) -∗ K ⟨⟩))
      ⊢ wp frame (wpE (defs₀ (F := F)) Variants.none c none) E (cc0__attn_comb_kernel i arg1 harg1 arg2 harg2 arg3 harg3 arg4 harg4 arg5 harg5 arg6 harg6 arg7 harg7 arg8 harg8 arg9 harg9) K := by
  simp only [cc0__attn_comb_kernel_eq_skeleton]; unfold cc0__attn_comb_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  iexists _; isplitr
  swap; · iexact H8
  ipureintro
  try dsimp only
  exact View.read_writes_eq_canon _ _ _ (cover0_8 _)

/-- The region's proof data: the arrays as found; after the body each input's buffer at its block, the outputs' at
    `out0_7`, `out0_8` of the blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«145509_j26731876451021_2_alg».proof.Proof.Gen.KernelIdeal.Launch
import proofs.«145509_j26731876451021_2_alg».proof.Proof.Gen.KernelIdeal.Skeleton
import proofs.«145509_j26731876451021_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The recurrent unit's region (the second pallas_call): twelve points, three per layer.

Point `3·l + g` works on layer `l`'s state row (window 1) and on block `3·l + g` of the re-laid input weights, state weights
and the two biases (windows 2–5). Three scratch rows are carried from point to point: the layer's input `x`, the reset gate `r`
and the update gate `z`. The first point copies the region's input row (window 0) into `x`; a point with `g = 0` stores `r`,
one with `g = 1` stores `z`, one with `g = 2` stores the layer's new state into the output block (window 6, written back there
and idle elsewhere) and into `x`. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's four branch conditions, from the grid coordinates -/

abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev cond1_1 (i : grid1.Coords) : Prop := (Scalar.cmpi .ne (Scalar.extui (Scalar.cmpi .eq (BitVec.ofNat 32 (i 1).val) 0#32)) 0#32) = 1#1
abbrev cond1_2 (i : grid1.Coords) : Prop := (Scalar.cmpi .ne (Scalar.extui (Scalar.cmpi .eq (BitVec.ofNat 32 (i 1).val) 1#32)) 0#32) = 1#1
abbrev cond1_3 (i : grid1.Coords) : Prop := k1_cond4 i = 1#1

/-- The first holds at the first point only; the others where the point's position in its layer is 0, 1, 2. -/
theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ t.val % 3 = 0 :=
  (by decide +kernel : ∀ t : Fin grid1.N, cond1_1 (grid1.coords t) ↔ t.val % 3 = 0)
theorem hcond1_2 : ∀ t : Fin cfg1.N, cond1_2 (grid1.coords t) ↔ t.val % 3 = 1 :=
  (by decide +kernel : ∀ t : Fin grid1.N, cond1_2 (grid1.coords t) ↔ t.val % 3 = 1)
theorem hcond1_3 : ∀ t : Fin cfg1.N, cond1_3 (grid1.coords t) ↔ t.val % 3 = 2 :=
  (by decide +kernel : ∀ t : Fin grid1.N, cond1_3 (grid1.coords t) ↔ t.val % 3 = 2)

/-- The output block is idle, and not written back, away from the third point of a layer; live there. -/
theorem idleAt1_6 : ∀ t : Fin cfg1.N, ¬cond1_3 (grid1.coords t) → cfg1.idle 6 (grid1.coords t) = true := by decide +kernel
theorem noFlush1_6 : ∀ t : Fin cfg1.N, ¬cond1_3 (grid1.coords t) → (cfg1.win 6).flush t = false := by decide +kernel
theorem liveAt1_6 : ∀ t : Fin cfg1.N, cond1_3 (grid1.coords t) → cfg1.idle 6 (grid1.coords t) = false := by decide +kernel

/-! ## The body's run, case by case -/

set_option maxHeartbeats 2000000 in
/-- The body at a point of case A: on whole memrefs holding the point's blocks and the carried scratch, it runs to the
    continuation with the blocks as they were and each buffer it stores into holding its pieces written. -/
noncomputable def kernelRun1_A (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : cond1_0 i) (hc1 : cond1_1 i) (hc2 : ¬cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) :
    Σ' (LS0 : List (View.Piece (Elt F) S1x1024 .f32)), { LS1 : List (View.Piece (Elt F) S1x1024 .f32) //
      ∀ (xi6 : Vec F S1x1x1024 .f32) (xz : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ owns (c : Thread nD τ) arg11 fullShare xz
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ owns (c : Thread nD τ) arg11 fullShare xz) -∗ K ⟨⟩))
          ⊢ wp frame (wpE (defs₀ (F := F)) Variants.none c none) E (cc1__gru_kernel i arg2 harg2 arg3 harg3 arg4 harg4 arg5 harg5 arg6 harg6 arg7 harg7 arg8 harg8 arg9 harg9 arg10 harg10 arg11 harg11) K } := by
  refine ⟨?_, ?_, fun xi6 xz E K => ?run⟩
  case run =>
    simp only [cc1__gru_kernel_eq_skeleton]; unfold cc1__gru_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, HS0⟩, ⟨%d8, %f8, -, HS1⟩, ⟨%f9, %hf9, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; isplitr; · ipureintro; exact harg11.read_unread _
    iexact HS2

set_option maxHeartbeats 2000000 in
/-- The body at a point of case B: on whole memrefs holding the point's blocks and the carried scratch, it runs to the
    continuation with the blocks as they were and each buffer it stores into holding its pieces written. -/
noncomputable def kernelRun1_B (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : cond1_1 i) (hc2 : ¬cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) :
    { LS1 : List (View.Piece (Elt F) S1x1024 .f32) //
      ∀ (xi6 : Vec F S1x1x1024 .f32) (xz : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ (∃ d, owns (c : Thread nD τ) arg10 fullShare d) ∗ owns (c : Thread nD τ) arg11 fullShare xz
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ (∃ f, arg10.view.loc (c : Thread nD τ) ↦[arg10.view.set]{fullShare} arg10.view.writes (Elt F) f LS1) ∗ owns (c : Thread nD τ) arg11 fullShare xz) -∗ K ⟨⟩))
          ⊢ wp frame (wpE (defs₀ (F := F)) Variants.none c none) E (cc1__gru_kernel i arg2 harg2 arg3 harg3 arg4 harg4 arg5 harg5 arg6 harg6 arg7 harg7 arg8 harg8 arg9 harg9 arg10 harg10 arg11 harg11) K } := by
  refine ⟨?_, fun xi6 xz E K => ?run⟩
  case run =>
    simp only [cc1__gru_kernel_eq_skeleton]; unfold cc1__gru_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, HS0⟩, ⟨%d8, %f8, -, HS1⟩, ⟨%f9, %hf9, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]; · iexists _; iexact HS1
    iexists _; isplitr; · ipureintro; exact harg11.read_unread _
    iexact HS2

set_option maxHeartbeats 2000000 in
/-- The body at a point of case C: on whole memrefs holding the point's blocks and the carried scratch, it runs to the
    continuation with the blocks as they were and each buffer it stores into holding its pieces written. -/
noncomputable def kernelRun1_C (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : ¬cond1_1 i) (hc2 : cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) :
    { LS2 : List (View.Piece (Elt F) S1x1024 .f32) //
      ∀ (xi6 : Vec F S1x1x1024 .f32) (xr : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xr ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xr ∗ (∃ f, arg11.view.loc (c : Thread nD τ) ↦[arg11.view.set]{fullShare} arg11.view.writes (Elt F) f LS2)) -∗ K ⟨⟩))
          ⊢ wp frame (wpE (defs₀ (F := F)) Variants.none c none) E (cc1__gru_kernel i arg2 harg2 arg3 harg3 arg4 harg4 arg5 harg5 arg6 harg6 arg7 harg7 arg8 harg8 arg9 harg9 arg10 harg10 arg11 harg11) K } := by
  refine ⟨?_, fun xi6 xr E K => ?run⟩
  case run =>
    simp only [cc1__gru_kernel_eq_skeleton]; unfold cc1__gru_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, HS0⟩, ⟨%f8, %hf8, HS1⟩, ⟨%d9, %f9, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]
    · iexists _; isplitr; · ipureintro; exact harg10.read_unread _
      iexact HS1
    iexists _; iexact HS2

set_option maxHeartbeats 2000000 in
/-- The body at a point of case D: on whole memrefs holding the point's blocks and the carried scratch, it runs to the
    continuation with the blocks as they were and each buffer it stores into holding its pieces written. -/
noncomputable def kernelRun1_D (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : ¬cond1_1 i) (hc2 : ¬cond1_2 i) (hc3 : cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) (xr : Vec F S1x1024 .f32) (xz : Vec F S1x1024 .f32) :
    Σ' (L6 : List (View.Piece (Elt F) S1x1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xr ∗ owns (c : Thread nD τ) arg11 fullShare xz
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ owns (c : Thread nD τ) arg10 fullShare xr ∗ owns (c : Thread nD τ) arg11 fullShare xz) -∗ K ⟨⟩))
          ⊢ wp frame (wpE (defs₀ (F := F)) Variants.none c none) E (cc1__gru_kernel i arg2 harg2 arg3 harg3 arg4 harg4 arg5 harg5 arg6 harg6 arg7 harg7 arg8 harg8 arg9 harg9 arg10 harg10 arg11 harg11) K } := by
  refine ⟨?_, ?_, fun  E K => ?run⟩
  case run =>
    simp only [cc1__gru_kernel_eq_skeleton]; unfold cc1__gru_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, HS0⟩, ⟨%f8, %hf8, HS1⟩, ⟨%f9, %hf9, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]
    · iexists _; isplitr; · ipureintro; exact harg10.read_unread _
      iexact HS1
    iexists _; isplitr; · ipureintro; exact harg11.read_unread _
    iexact HS2

/-! ## What each case's stores leave, as the skeleton's payloads of the blocks -/

theorem hz2 : (![0, 0] : Fin 2 → Nat) = fun _ => 0 := by funext a; fin_cases a <;> rfl
theorem hz3 : (![0, 0, 0] : Fin 3 → Nat) = fun _ => 0 := by funext a; fin_cases a <;> rfl

theorem canonA_x (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : cond1_0 i) (hc1 : cond1_1 i) (hc2 : ¬cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) :
    View.canon (kernelRun1_A (F := F) c i arg2 harg2 arg3 harg3 arg4 harg4 arg5 harg5 arg6 harg6 arg7 harg7 arg8 harg8 arg9 harg9 arg10 harg10 arg11 harg11 hc0 hc1 hc2 hc3 x0 x1 x2 x3 x4 x5).1 = k1_pay5 x0 := by
  unfold kernelRun1_A; dsimp only; sl_unfold_words
  rw [View.canon_unit_zero (S := S1x1024) hz2]
  simp only [View.readAt_eq_ld, Memref.IsWhole.read_unread, View.ld_unit_zero (S := S1x1024) hz2, View.ld_unit_zero (S := S1x1x1024) hz3, View.ld_unit_zero (S := S1x1024x1024) hz3, View.readCov_unit_zero (S := S1x1024) _ hz2]
theorem cover_canonA_x (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : cond1_0 i) (hc1 : cond1_1 i) (hc2 : ¬cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (y : S1x1024.Idx) :
    ∃ pc ∈ (kernelRun1_A (F := F) c i arg2 harg2 arg3 harg3 arg4 harg4 arg5 harg5 arg6 harg6 arg7 harg7 arg8 harg8 arg9 harg9 arg10 harg10 arg11 harg11 hc0 hc1 hc2 hc3 x0 x1 x2 x3 x4 x5).1, y ∈ pc.1.set :=
  View.cover_of_tiledL (kernelRun1_A (F := F) c i arg2 harg2 arg3 harg3 arg4 harg4 arg5 harg5 arg6 harg6 arg7 harg7 arg8 harg8 arg9 harg9 arg10 harg10 arg11 harg11 hc0 hc1 hc2 hc3 x0 x1 x2 x3 x4 x5).1 S1x1024.size (by sl_kernel_rfl) y

theorem canonA_r (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : cond1_0 i) (hc1 : cond1_1 i) (hc2 : ¬cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) :
    View.canon (kernelRun1_A (F := F) c i arg2 harg2 arg3 harg3 arg4 harg4 arg5 harg5 arg6 harg6 arg7 harg7 arg8 harg8 arg9 harg9 arg10 harg10 arg11 harg11 hc0 hc1 hc2 hc3 x0 x1 x2 x3 x4 x5).2.1 = k1_pay9 (k1_pay5 x0) x1 x2 x4 x3 x5 := by
  unfold kernelRun1_A; dsimp only; sl_unfold_words
  rw [View.canon_unit_zero (S := S1x1024) hz2]
  simp only [View.readAt_eq_ld, Memref.IsWhole.read_unread, View.ld_unit_zero (S := S1x1024) hz2, View.ld_unit_zero (S := S1x1x1024) hz3, View.ld_unit_zero (S := S1x1024x1024) hz3, View.readCov_unit_zero (S := S1x1024) _ hz2]
theorem cover_canonA_r (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : cond1_0 i) (hc1 : cond1_1 i) (hc2 : ¬cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (y : S1x1024.Idx) :
    ∃ pc ∈ (kernelRun1_A (F := F) c i arg2 harg2 arg3 harg3 arg4 harg4 arg5 harg5 arg6 harg6 arg7 harg7 arg8 harg8 arg9 harg9 arg10 harg10 arg11 harg11 hc0 hc1 hc2 hc3 x0 x1 x2 x3 x4 x5).2.1, y ∈ pc.1.set :=
  View.cover_of_tiledL (kernelRun1_A (F := F) c i arg2 harg2 arg3 harg3 arg4 harg4 arg5 harg5 arg6 harg6 arg7 harg7 arg8 harg8 arg9 harg9 arg10 harg10 arg11 harg11 hc0 hc1 hc2 hc3 x0 x1 x2 x3 x4 x5).2.1 S1x1024.size (by sl_kernel_rfl) y

theorem canonB_r (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : cond1_1 i) (hc2 : ¬cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) :
    View.canon (kernelRun1_B (F := F) c i arg2 harg2 arg3 harg3 arg4 harg4 arg5 harg5 arg6 harg6 arg7 harg7 arg8 harg8 arg9 harg9 arg10 harg10 arg11 harg11 hc0 hc1 hc2 hc3 x0 x1 x2 x3 x4 x5 xs0).1 = k1_pay9 xs0 x1 x2 x4 x3 x5 := by
  unfold kernelRun1_B; dsimp only; sl_unfold_words
  rw [View.canon_unit_zero (S := S1x1024) hz2]
  simp only [View.readAt_eq_ld, Memref.IsWhole.read_unread, View.ld_unit_zero (S := S1x1024) hz2, View.ld_unit_zero (S := S1x1x1024) hz3, View.ld_unit_zero (S := S1x1024x1024) hz3, View.readCov_unit_zero (S := S1x1024) _ hz2]
theorem cover_canonB_r (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : cond1_1 i) (hc2 : ¬cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) (y : S1x1024.Idx) :
    ∃ pc ∈ (kernelRun1_B (F := F) c i arg2 harg2 arg3 harg3 arg4 harg4 arg5 harg5 arg6 harg6 arg7 harg7 arg8 harg8 arg9 harg9 arg10 harg10 arg11 harg11 hc0 hc1 hc2 hc3 x0 x1 x2 x3 x4 x5 xs0).1, y ∈ pc.1.set :=
  View.cover_of_tiledL (kernelRun1_B (F := F) c i arg2 harg2 arg3 harg3 arg4 harg4 arg5 harg5 arg6 harg6 arg7 harg7 arg8 harg8 arg9 harg9 arg10 harg10 arg11 harg11 hc0 hc1 hc2 hc3 x0 x1 x2 x3 x4 x5 xs0).1 S1x1024.size (by sl_kernel_rfl) y

theorem canonC_z (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : ¬cond1_1 i) (hc2 : cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) :
    View.canon (kernelRun1_C (F := F) c i arg2 harg2 arg3 harg3 arg4 harg4 arg5 harg5 arg6 harg6 arg7 harg7 arg8 harg8 arg9 harg9 arg10 harg10 arg11 harg11 hc0 hc1 hc2 hc3 x0 x1 x2 x3 x4 x5 xs0).1 = k1_pay1 (k1_pay7 xs0 x2 x4) (k1_pay8 x1 x3 x5) := by
  unfold kernelRun1_C; dsimp only; sl_unfold_words
  rw [View.canon_unit_zero (S := S1x1024) hz2]
  simp only [View.readAt_eq_ld, Memref.IsWhole.read_unread, View.ld_unit_zero (S := S1x1024) hz2, View.ld_unit_zero (S := S1x1x1024) hz3, View.ld_unit_zero (S := S1x1024x1024) hz3, View.readCov_unit_zero (S := S1x1024) _ hz2]
theorem cover_canonC_z (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : ¬cond1_1 i) (hc2 : cond1_2 i) (hc3 : ¬cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) (y : S1x1024.Idx) :
    ∃ pc ∈ (kernelRun1_C (F := F) c i arg2 harg2 arg3 harg3 arg4 harg4 arg5 harg5 arg6 harg6 arg7 harg7 arg8 harg8 arg9 harg9 arg10 harg10 arg11 harg11 hc0 hc1 hc2 hc3 x0 x1 x2 x3 x4 x5 xs0).1, y ∈ pc.1.set :=
  View.cover_of_tiledL (kernelRun1_C (F := F) c i arg2 harg2 arg3 harg3 arg4 harg4 arg5 harg5 arg6 harg6 arg7 harg7 arg8 harg8 arg9 harg9 arg10 harg10 arg11 harg11 hc0 hc1 hc2 hc3 x0 x1 x2 x3 x4 x5 xs0).1 S1x1024.size (by sl_kernel_rfl) y

theorem canonD_o (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : ¬cond1_1 i) (hc2 : ¬cond1_2 i) (hc3 : cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) (xr : Vec F S1x1024 .f32) (xz : Vec F S1x1024 .f32) :
    View.canon (kernelRun1_D (F := F) c i arg2 harg2 arg3 harg3 arg4 harg4 arg5 harg5 arg6 harg6 arg7 harg7 arg8 harg8 arg9 harg9 arg10 harg10 arg11 harg11 hc0 hc1 hc2 hc3 x0 x1 x2 x3 x4 x5 xs0 xr xz).1 = k1_pay3 (k1_pay6 x1) (k1_pay7 xs0 x2 x4) (k1_pay8 x1 x3 x5) xr xz := by
  unfold kernelRun1_D; dsimp only; sl_unfold_words
  rw [View.canon_unit_zero (S := S1x1x1024) hz3]
  simp only [View.readAt_eq_ld, Memref.IsWhole.read_unread, View.ld_unit_zero (S := S1x1024) hz2, View.ld_unit_zero (S := S1x1x1024) hz3, View.ld_unit_zero (S := S1x1024x1024) hz3, View.readCov_unit_zero (S := S1x1024) _ hz2]
theorem cover_canonD_o (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : ¬cond1_1 i) (hc2 : ¬cond1_2 i) (hc3 : cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) (xr : Vec F S1x1024 .f32) (xz : Vec F S1x1024 .f32) (y : S1x1x1024.Idx) :
    ∃ pc ∈ (kernelRun1_D (F := F) c i arg2 harg2 arg3 harg3 arg4 harg4 arg5 harg5 arg6 harg6 arg7 harg7 arg8 harg8 arg9 harg9 arg10 harg10 arg11 harg11 hc0 hc1 hc2 hc3 x0 x1 x2 x3 x4 x5 xs0 xr xz).1, y ∈ pc.1.set :=
  View.cover_of_tiledL (kernelRun1_D (F := F) c i arg2 harg2 arg3 harg3 arg4 harg4 arg5 harg5 arg6 harg6 arg7 harg7 arg8 harg8 arg9 harg9 arg10 harg10 arg11 harg11 hc0 hc1 hc2 hc3 x0 x1 x2 x3 x4 x5 xs0 xr xz).1 S1x1x1024.size (by sl_kernel_rfl) y

theorem canonD_x (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : ¬cond1_1 i) (hc2 : ¬cond1_2 i) (hc3 : cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) (xr : Vec F S1x1024 .f32) (xz : Vec F S1x1024 .f32) :
    View.canon (kernelRun1_D (F := F) c i arg2 harg2 arg3 harg3 arg4 harg4 arg5 harg5 arg6 harg6 arg7 harg7 arg8 harg8 arg9 harg9 arg10 harg10 arg11 harg11 hc0 hc1 hc2 hc3 x0 x1 x2 x3 x4 x5 xs0 xr xz).2.1 = k1_pay4 (k1_pay6 x1) (k1_pay7 xs0 x2 x4) (k1_pay8 x1 x3 x5) xr xz := by
  unfold kernelRun1_D; dsimp only; sl_unfold_words
  rw [View.canon_unit_zero (S := S1x1024) hz2]
  simp only [View.readAt_eq_ld, Memref.IsWhole.read_unread, View.ld_unit_zero (S := S1x1024) hz2, View.ld_unit_zero (S := S1x1x1024) hz3, View.ld_unit_zero (S := S1x1024x1024) hz3, View.readCov_unit_zero (S := S1x1024) _ hz2]
theorem cover_canonD_x (c : Dev nD) (i : grid1.Coords) (arg2 : Memref sig .tc .vmem S1x1024 .f32) (harg2 : arg2.IsWhole) (arg3 : Memref sig .tc .vmem S1x1x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (hc0 : ¬cond1_0 i) (hc1 : ¬cond1_1 i) (hc2 : ¬cond1_2 i) (hc3 : cond1_3 i)
    (x0 : Vec F S1x1024 .f32) (x1 : Vec F S1x1x1024 .f32) (x2 : Vec F S1x1024x1024 .f32) (x3 : Vec F S1x1024x1024 .f32) (x4 : Vec F S1x1x1024 .f32) (x5 : Vec F S1x1x1024 .f32) (xs0 : Vec F S1x1024 .f32) (xr : Vec F S1x1024 .f32) (xz : Vec F S1x1024 .f32) (y : S1x1024.Idx) :
    ∃ pc ∈ (kernelRun1_D (F := F) c i arg2 harg2 arg3 harg3 arg4 harg4 arg5 harg5 arg6 harg6 arg7 harg7 arg8 harg8 arg9 harg9 arg10 harg10 arg11 harg11 hc0 hc1 hc2 hc3 x0 x1 x2 x3 x4 x5 xs0 xr xz).2.1, y ∈ pc.1.set :=
  View.cover_of_tiledL (kernelRun1_D (F := F) c i arg2 harg2 arg3 harg3 arg4 harg4 arg5 harg5 arg6 harg6 arg7 harg7 arg8 harg8 arg9 harg9 arg10 harg10 arg11 harg11 hc0 hc1 hc2 hc3 x0 x1 x2 x3 x4 x5 xs0 xr xz).2.1 S1x1024.size (by sl_kernel_rfl) y

/-! ## The carried rows after each point -/

/-- The three scratch rows, whole scoped buffers of the kernel's own. -/
abbrev scM1_0 : Memref sig .tc .vmem S1x1024 .f32 := Memref.whole cc1_scratch0
abbrev scM1_1 : Memref sig .tc .vmem S1x1024 .f32 := Memref.whole cc1_scratch1
abbrev scM1_2 : Memref sig .tc .vmem S1x1024 .f32 := Memref.whole cc1_scratch2

/-- The grid point numbered `n` (mod 12). -/
def pt1 (n : ℕ) : Fin cfg1.N := ⟨n % 12, lt_of_lt_of_eq (Nat.mod_lt n (by decide)) N_1.symm⟩
theorem pt1_val (t : Fin cfg1.N) : pt1 t.val = t :=
  Fin.ext (Nat.mod_eq_of_lt (lt_of_lt_of_eq t.isLt N_1))

/-- The windows' blocks at point `n`, typed by their literal shapes. -/
def b1_0 (c : Dev nD) (n : ℕ) : Vec F S1x1024 .f32 := iblk1 V c 0 (pt1 n)
def b1_1 (c : Dev nD) (n : ℕ) : Vec F S1x1x1024 .f32 := iblk1 V c 1 (pt1 n)
def b1_2 (c : Dev nD) (n : ℕ) : Vec F S1x1024x1024 .f32 := iblk1 V c 2 (pt1 n)
def b1_3 (c : Dev nD) (n : ℕ) : Vec F S1x1024x1024 .f32 := iblk1 V c 3 (pt1 n)
def b1_4 (c : Dev nD) (n : ℕ) : Vec F S1x1x1024 .f32 := iblk1 V c 4 (pt1 n)
def b1_5 (c : Dev nD) (n : ℕ) : Vec F S1x1x1024 .f32 := iblk1 V c 5 (pt1 n)

/-- The reset gate a layer's first point stores, the update gate its second point stores, and what its third point
    stores into the output block and into the input row, from the layer's input row `x` and the blocks at the point. -/
def rAt (c : Dev nD) (x : Vec F S1x1024 .f32) (n : ℕ) : Vec F S1x1024 .f32 :=
  k1_pay9 x (b1_1 V c n) (b1_2 V c n) (b1_4 V c n) (b1_3 V c n) (b1_5 V c n)
def zAt (c : Dev nD) (x : Vec F S1x1024 .f32) (n : ℕ) : Vec F S1x1024 .f32 :=
  k1_pay1 (k1_pay7 x (b1_2 V c n) (b1_4 V c n)) (k1_pay8 (b1_1 V c n) (b1_3 V c n) (b1_5 V c n))
def outOf (c : Dev nD) (x : Vec F S1x1024 .f32) (n : ℕ) : Vec F S1x1x1024 .f32 :=
  k1_pay3 (k1_pay6 (b1_1 V c n)) (k1_pay7 x (b1_2 V c n) (b1_4 V c n)) (k1_pay8 (b1_1 V c n) (b1_3 V c n) (b1_5 V c n))
    (rAt V c x (n - 2)) (zAt V c x (n - 1))
def xOf (c : Dev nD) (x : Vec F S1x1024 .f32) (n : ℕ) : Vec F S1x1024 .f32 :=
  k1_pay4 (k1_pay6 (b1_1 V c n)) (k1_pay7 x (b1_2 V c n) (b1_4 V c n)) (k1_pay8 (b1_1 V c n) (b1_3 V c n) (b1_5 V c n))
    (rAt V c x (n - 2)) (zAt V c x (n - 1))

/-- Layer `l`'s input row: the region's input for the first layer, the layer before's new state after. -/
def xin (c : Dev nD) : ℕ → Vec F S1x1024 .f32
  | 0 => k1_pay5 (b1_0 V c 0)
  | l + 1 => xOf V c (xin c l) (3 * l + 2)

/-- The scoped buffers that are neither a staging buffer of this region nor its scratch, each at some contents, and
    the generator register at some state: untouched by the body. -/
def Rest1 (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r))

/-- The class invariant (every scoped buffer that is no staging buffer at some contents, the generator register at
    some state) with the three scratch rows as memrefs owned at some contents. -/
theorem PhiA1_eq (c : Dev nD) :
    (Pipeline.ΦA spec1 c : sProp 𝕄)
      = iprop(((∃ d, owns (c : Thread nD τ) scM1_0 fullShare d) ∗ (∃ d, owns (c : Thread nD τ) scM1_1 fullShare d) ∗ (∃ d, owns (c : Thread nD τ) scM1_2 fullShare d)
          ∗ (∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  unfold Pipeline.ΦA
  rw [Pipeline.scopedRest_eq_of_list spec1 c [cc1_scratch0, cc1_scratch1, cc1_scratch2, cc0_stg0_0, cc0_stg1_0, cc0_stg2_0, cc0_stg3_0, cc0_stg4_0, cc0_stg5_0, cc0_stg6_0, cc0_stg7_0, cc0_stg8_0, cc2_stg0_0, cc2_stg1_0, cc2_stg1_1, cc2_stg2_0, cc2_stg2_1, cc2_stg3_0, cc2_stg3_1] (by decide) (by decide)]
  simp only [scM1_0, scM1_1, scM1_2, owns_whole]; try rfl

/-- The region invariant before position `n`: before the first point the class invariant; afterwards the input row of the
    layer the position is in, the reset gate once the layer's first point has stored it, the update gate once its second
    point has, the other scratch rows at anything, and the untouched rest. -/
def PhiS (c : Dev nD) (n : ℕ) : sProp 𝕄 :=
  if n = 0 then Pipeline.ΦA spec1 c else
    iprop(owns (c : Thread nD τ) scM1_0 fullShare (xin V c (n / 3))
      ∗ (if n % 3 = 0 then iprop(∃ d, owns (c : Thread nD τ) scM1_1 fullShare d) else owns (c : Thread nD τ) scM1_1 fullShare (rAt V c (xin V c (n / 3)) (3 * (n / 3))))
      ∗ (if n % 3 = 2 then owns (c : Thread nD τ) scM1_2 fullShare (zAt V c (xin V c (n / 3)) (3 * (n / 3) + 1)) else iprop(∃ d, owns (c : Thread nD τ) scM1_2 fullShare d))
      ∗ Rest1 c)

theorem PhiS_zero (c : Dev nD) : PhiS V c 0 = Pipeline.ΦA spec1 c := if_pos rfl
theorem PhiS_g0 (c : Dev nD) (n : ℕ) (h0 : n ≠ 0) (h : n % 3 = 0) : PhiS V c n =
    iprop(owns (c : Thread nD τ) scM1_0 fullShare (xin V c (n / 3)) ∗ (∃ d, owns (c : Thread nD τ) scM1_1 fullShare d)
      ∗ (∃ d, owns (c : Thread nD τ) scM1_2 fullShare d) ∗ Rest1 c) := by
  unfold PhiS; rw [if_neg h0, if_pos h, if_neg (by omega)]
theorem PhiS_g1 (c : Dev nD) (n : ℕ) (h : n % 3 = 1) : PhiS V c n =
    iprop(owns (c : Thread nD τ) scM1_0 fullShare (xin V c (n / 3)) ∗ owns (c : Thread nD τ) scM1_1 fullShare (rAt V c (xin V c (n / 3)) (3 * (n / 3)))
      ∗ (∃ d, owns (c : Thread nD τ) scM1_2 fullShare d) ∗ Rest1 c) := by
  unfold PhiS; rw [if_neg (by omega), if_neg (by omega), if_neg (by omega)]
theorem PhiS_g2 (c : Dev nD) (n : ℕ) (h : n % 3 = 2) : PhiS V c n =
    iprop(owns (c : Thread nD τ) scM1_0 fullShare (xin V c (n / 3)) ∗ owns (c : Thread nD τ) scM1_1 fullShare (rAt V c (xin V c (n / 3)) (3 * (n / 3)))
      ∗ owns (c : Thread nD τ) scM1_2 fullShare (zAt V c (xin V c (n / 3)) (3 * (n / 3) + 1)) ∗ Rest1 c) := by
  unfold PhiS; rw [if_neg (by omega), if_neg (by omega), if_pos h]

/-! ## The region's proof data -/

/-- The arrays as found; after the body each input's buffer at its block, the output's at what the layer's third point
    stores; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outOf V c (xin V c (t.val / 3)) t.val
  Φ t := PhiS V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outOf V c (xin V c (t.val / 3)) t.val := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, -/
def bodyPre1 (c : Dev nD) (t : Fin cfg1.N) : sProp 𝕄 :=
  iprop(PhiS V c t.val ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop(PhiS V c (t.val + 1) ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ (dat1 V c).leavesExact 6 t)

set_option maxHeartbeats 4000000 in
/-- The first point: the input row is copied into `x`, the reset gate stored. -/
theorem sound_body1_A (c : Dev nD) (t : Fin cfg1.N) (h0 : t.val = 0) :
    bodyPre1 V c t ⊢ wp frame (wpE (defs₀ (F := F)) Variants.none c none) Set.univ (bodyAt1 t) (fun _ => bodyPost1 V c t) := by
    unfold bodyPre1 bodyPost1 bodyAt1
    simp only [before1_0, before1_1, before1_2, before1_3, before1_4, before1_5]
    have hb0 : b1_0 V c t.val = iblk1 V c 0 t := by unfold b1_0; rw [pt1_val]
    have hb1 : b1_1 V c t.val = iblk1 V c 1 t := by unfold b1_1; rw [pt1_val]
    have hb2 : b1_2 V c t.val = iblk1 V c 2 t := by unfold b1_2; rw [pt1_val]
    have hb3 : b1_3 V c t.val = iblk1 V c 3 t := by unfold b1_3; rw [pt1_val]
    have hb4 : b1_4 V c t.val = iblk1 V c 4 t := by unfold b1_4; rw [pt1_val]
    have hb5 : b1_5 V c t.val = iblk1 V c 5 t := by unfold b1_5; rw [pt1_val]
    have hc0 : cond1_0 (grid1.coords t) := (hcond1_0 t).mpr h0
    have hc1 : cond1_1 (grid1.coords t) := (hcond1_1 t).mpr (by omega)
    have hc2 : ¬cond1_2 (grid1.coords t) := fun h => by have := (hcond1_2 t).mp h; omega
    have hc3 : ¬cond1_3 (grid1.coords t) := fun h => by have := (hcond1_3 t).mp h; omega
    rw [Dat.leavesExact_idle (dat1 V c) 6 t (idleAt1_6 t hc3) (noFlush1_6 t hc3)]
    rw [PhiS_g1 V c (t.val + 1) (by omega)]
    have e1 : (t.val + 1) / 3 = 0 := by omega
    rw [e1, h0, PhiS_zero, PhiA1_eq]
    iintro ⟨⟨⟨HS0, HS1, ⟨%dz, HS2⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t)).2.2 _ dz Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, ⟨%e0, HS0⟩, ⟨%e1, HS1⟩, HS2⟩
    isplitl [HS0 HS1 HS2 HR Hg]
    · isplitl [HS0]
      · unfold owns; iexists _; isplitr
        swap; · iexact HS0
        ipureintro
        exact (View.read_writes_eq_canon _ _ _ (cover_canonA_x c (grid1.coords t) _ _ _ _ _ _ _ _ _ _ _ _ _ _ _ _ _ _ _ _ hc0 hc1 hc2 hc3 _ _ _ _ _ _)).trans ((canonA_x c (grid1.coords t) _ _ _ _ _ _ _ _ _ _ _ _ _ _ _ _ _ _ _ _ hc0 hc1 hc2 hc3 _ _ _ _ _ _).trans (by rw [h0] at hb0; unfold xin; rw [hb0]))
      isplitl [HS1]
      · unfold owns; iexists _; isplitr
        swap; · iexact HS1
        ipureintro
        exact (View.read_writes_eq_canon _ _ _ (cover_canonA_r c (grid1.coords t) _ _ _ _ _ _ _ _ _ _ _ _ _ _ _ _ _ _ _ _ hc0 hc1 hc2 hc3 _ _ _ _ _ _)).trans ((canonA_r c (grid1.coords t) _ _ _ _ _ _ _ _ _ _ _ _ _ _ _ _ _ _ _ _ hc0 hc1 hc2 hc3 _ _ _ _ _ _).trans (by rw [h0] at hb0 hb1 hb2 hb3 hb4 hb5; unfold rAt xin; simp only [Nat.mul_zero]; rw [hb0, hb1, hb2, hb3, hb4, hb5]))
      isplitl [HS2]; · iexists _; iexact HS2
      unfold Rest1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

set_option maxHeartbeats 4000000 in
/-- A later layer's first point: the reset gate is stored. -/
theorem sound_body1_B (c : Dev nD) (t : Fin cfg1.N) (h0 : t.val ≠ 0) (h3 : t.val % 3 = 0) :
    bodyPre1 V c t ⊢ wp frame (wpE (defs₀ (F := F)) Variants.none c none) Set.univ (bodyAt1 t) (fun _ => bodyPost1 V c t) := by
    unfold bodyPre1 bodyPost1 bodyAt1
    simp only [before1_0, before1_1, before1_2, before1_3, before1_4, before1_5]
    have hb0 : b1_0 V c t.val = iblk1 V c 0 t := by unfold b1_0; rw [pt1_val]
    have hb1 : b1_1 V c t.val = iblk1 V c 1 t := by unfold b1_1; rw [pt1_val]
    have hb2 : b1_2 V c t.val = iblk1 V c 2 t := by unfold b1_2; rw [pt1_val]
    have hb3 : b1_3 V c t.val = iblk1 V c 3 t := by unfold b1_3; rw [pt1_val]
    have hb4 : b1_4 V c t.val = iblk1 V c 4 t := by unfold b1_4; rw [pt1_val]
    have hb5 : b1_5 V c t.val = iblk1 V c 5 t := by unfold b1_5; rw [pt1_val]
    have hc0 : ¬cond1_0 (grid1.coords t) := fun h => h0 ((hcond1_0 t).mp h)
    have hc1 : cond1_1 (grid1.coords t) := (hcond1_1 t).mpr h3
    have hc2 : ¬cond1_2 (grid1.coords t) := fun h => by have := (hcond1_2 t).mp h; omega
    have hc3 : ¬cond1_3 (grid1.coords t) := fun h => by have := (hcond1_3 t).mp h; omega
    rw [Dat.leavesExact_idle (dat1 V c) 6 t (idleAt1_6 t hc3) (noFlush1_6 t hc3)]
    rw [PhiS_g0 V c t.val h0 h3, PhiS_g1 V c (t.val + 1) (by omega)]
    have e1 : (t.val + 1) / 3 = t.val / 3 := by omega
    have e2 : 3 * (t.val / 3) = t.val := by omega
    rw [e1, e2]
    iintro ⟨⟨HS0, ⟨%dr, HS1⟩, ⟨%dz, HS2⟩, HR⟩, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t) (xin V c (t.val / 3))).2 _ dz Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexists _; iexact HS1
    isplitl [HS2]; · iexact HS2
    iintro ⟨H0, H1, H2, H3, H4, H5, H6, HS0, ⟨%e1', HS1⟩, HS2⟩
    isplitl [HS0 HS1 HS2 HR]
    · isplitl [HS0]; · iexact HS0
      isplitl [HS1]
      · unfold owns; iexists _; isplitr
        swap; · iexact HS1
        ipureintro
        exact (View.read_writes_eq_canon _ _ _ (cover_canonB_r c (grid1.coords t) _ _ _ _ _ _ _ _ _ _ _ _ _ _ _ _ _ _ _ _ hc0 hc1 hc2 hc3 _ _ _ _ _ _ _)).trans ((canonB_r c (grid1.coords t) _ _ _ _ _ _ _ _ _ _ _ _ _ _ _ _ _ _ _ _ hc0 hc1 hc2 hc3 _ _ _ _ _ _ _).trans (by unfold rAt; rw [hb1, hb2, hb3, hb4, hb5]))
      isplitl [HS2]; · iexists _; iexact HS2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

set_option maxHeartbeats 4000000 in
/-- A layer's second point: the update gate is stored. -/
theorem sound_body1_C (c : Dev nD) (t : Fin cfg1.N) (h3 : t.val % 3 = 1) :
    bodyPre1 V c t ⊢ wp frame (wpE (defs₀ (F := F)) Variants.none c none) Set.univ (bodyAt1 t) (fun _ => bodyPost1 V c t) := by
    unfold bodyPre1 bodyPost1 bodyAt1
    simp only [before1_0, before1_1, before1_2, before1_3, before1_4, before1_5]
    have hb0 : b1_0 V c t.val = iblk1 V c 0 t := by unfold b1_0; rw [pt1_val]
    have hb1 : b1_1 V c t.val = iblk1 V c 1 t := by unfold b1_1; rw [pt1_val]
    have hb2 : b1_2 V c t.val = iblk1 V c 2 t := by unfold b1_2; rw [pt1_val]
    have hb3 : b1_3 V c t.val = iblk1 V c 3 t := by unfold b1_3; rw [pt1_val]
    have hb4 : b1_4 V c t.val = iblk1 V c 4 t := by unfold b1_4; rw [pt1_val]
    have hb5 : b1_5 V c t.val = iblk1 V c 5 t := by unfold b1_5; rw [pt1_val]
    have hc0 : ¬cond1_0 (grid1.coords t) := fun h => by have := (hcond1_0 t).mp h; omega
    have hc1 : ¬cond1_1 (grid1.coords t) := fun h => by have := (hcond1_1 t).mp h; omega
    have hc2 : cond1_2 (grid1.coords t) := (hcond1_2 t).mpr h3
    have hc3 : ¬cond1_3 (grid1.coords t) := fun h => by have := (hcond1_3 t).mp h; omega
    rw [Dat.leavesExact_idle (dat1 V c) 6 t (idleAt1_6 t hc3) (noFlush1_6 t hc3)]
    rw [PhiS_g1 V c t.val h3, PhiS_g2 V c (t.val + 1) (by omega)]
    have e1 : (t.val + 1) / 3 = t.val / 3 := by omega
    have e2 : 3 * (t.val / 3) + 1 = t.val := by omega
    rw [e1, e2]
    iintro ⟨⟨HS0, HS1, ⟨%dz, HS2⟩, HR⟩, Ho, ⟨%d0, H0⟩, ⟨%d1, H1⟩, ⟨%d2, H2⟩, ⟨%d3, H3⟩, ⟨%d4, H4⟩, ⟨%d5, H5⟩, ⟨%d6, H6⟩⟩
    iapply ((kernelRun1_C c (grid1.coords t) _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t) (xin V c (t.val / 3))).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexists _; iexact HS2
    iintro ⟨H0, H1, H2, H3, H4, H5, H6, HS0, HS1, ⟨%e2', HS2⟩⟩
    isplitl [HS0 HS1 HS2 HR]
    · isplitl [HS0]; · iexact HS0
      isplitl [HS1]; · iexact HS1
      isplitl [HS2]
      · unfold owns; iexists _; isplitr
        swap; · iexact HS2
        ipureintro
        exact (View.read_writes_eq_canon _ _ _ (cover_canonC_z c (grid1.coords t) _ _ _ _ _ _ _ _ _ _ _ _ _ _ _ _ _ _ _ _ hc0 hc1 hc2 hc3 _ _ _ _ _ _ _)).trans ((canonC_z c (grid1.coords t) _ _ _ _ _ _ _ _ _ _ _ _ _ _ _ _ _ _ _ _ hc0 hc1 hc2 hc3 _ _ _ _ _ _ _).trans (by unfold zAt; rw [hb1, hb2, hb3, hb4, hb5]))
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

set_option maxHeartbeats 4000000 in
/-- A layer's third point: the new state is stored into the output block and into the input row. -/
theorem sound_body1_D (c : Dev nD) (t : Fin cfg1.N) (h3 : t.val % 3 = 2) :
    bodyPre1 V c t ⊢ wp frame (wpE (defs₀ (F := F)) Variants.none c none) Set.univ (bodyAt1 t) (fun _ => bodyPost1 V c t) := by
    unfold bodyPre1 bodyPost1 bodyAt1
    simp only [before1_0, before1_1, before1_2, before1_3, before1_4, before1_5]
    have hb0 : b1_0 V c t.val = iblk1 V c 0 t := by unfold b1_0; rw [pt1_val]
    have hb1 : b1_1 V c t.val = iblk1 V c 1 t := by unfold b1_1; rw [pt1_val]
    have hb2 : b1_2 V c t.val = iblk1 V c 2 t := by unfold b1_2; rw [pt1_val]
    have hb3 : b1_3 V c t.val = iblk1 V c 3 t := by unfold b1_3; rw [pt1_val]
    have hb4 : b1_4 V c t.val = iblk1 V c 4 t := by unfold b1_4; rw [pt1_val]
    have hb5 : b1_5 V c t.val = iblk1 V c 5 t := by unfold b1_5; rw [pt1_val]
    have hc0 : ¬cond1_0 (grid1.coords t) := fun h => by have := (hcond1_0 t).mp h; omega
    have hc1 : ¬cond1_1 (grid1.coords t) := fun h => by have := (hcond1_1 t).mp h; omega
    have hc2 : ¬cond1_2 (grid1.coords t) := fun h => by have := (hcond1_2 t).mp h; omega
    have hc3 : cond1_3 (grid1.coords t) := (hcond1_3 t).mpr h3
    rw [show (dat1 V c).leavesExact 6 t = owns (c : Thread nD τ) (st1_6 t) fullShare ((dat1 V c).after 6 t) from by
      unfold Dat.leavesExact; rw [liveAt1_6 t hc3], after1_6]
    rw [PhiS_g2 V c t.val h3, PhiS_g0 V c (t.val + 1) (by omega) (by omega)]
    have e1 : (t.val + 1) / 3 = t.val / 3 + 1 := by omega
    have e2 : 3 * (t.val / 3) = t.val - 2 := by omega
    have e3 : t.val - 2 + 1 = t.val - 1 := by omega
    have e4 : 3 * (t.val / 3) + 2 = t.val := by omega
    rw [e1, e2, e3]
    iintro ⟨⟨HS0, HS1, HS2, HR⟩, Ho, ⟨%d0, H0⟩, ⟨%d1, H1⟩, ⟨%d2, H2⟩, ⟨%d3, H3⟩, ⟨%d4, H4⟩, ⟨%d5, H5⟩, ⟨%d6, H6⟩⟩
    iapply ((kernelRun1_D c (grid1.coords t) _ _ _ _ _ _ _ _ _ _ _ _ _ _ _ _ _ _ _ _ hc0 hc1 hc2 hc3 (iblk1 V c 0 t) (iblk1 V c 1 t) (iblk1 V c 2 t) (iblk1 V c 3 t) (iblk1 V c 4 t) (iblk1 V c 5 t) (xin V c (t.val / 3)) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%e6, H6⟩, ⟨%e0', HS0⟩, HS1, HS2⟩
    isplitl [HS0 HS1 HS2 HR]
    · isplitl [HS0]
      · unfold owns; iexists _; isplitr
        swap; · iexact HS0
        ipureintro
        exact (View.read_writes_eq_canon _ _ _ (cover_canonD_x c (grid1.coords t) _ _ _ _ _ _ _ _ _ _ _ _ _ _ _ _ _ _ _ _ hc0 hc1 hc2 hc3 _ _ _ _ _ _ _ _ _)).trans ((canonD_x c (grid1.coords t) _ _ _ _ _ _ _ _ _ _ _ _ _ _ _ _ _ _ _ _ hc0 hc1 hc2 hc3 _ _ _ _ _ _ _ _ _).trans (by show _ = xOf V c (xin V c (t.val / 3)) (3 * (t.val / 3) + 2); rw [e4]; unfold xOf; rw [hb1, hb2, hb3, hb4, hb5]))
      isplitl [HS1]; · iexists _; iexact HS1
      isplitl [HS2]; · iexists _; iexact HS2
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro
    exact (View.read_writes_eq_canon _ _ _ (cover_canonD_o c (grid1.coords t) _ _ _ _ _ _ _ _ _ _ _ _ _ _ _ _ _ _ _ _ hc0 hc1 hc2 hc3 _ _ _ _ _ _ _ _ _)).trans ((canonD_o c (grid1.coords t) _ _ _ _ _ _ _ _ _ _ _ _ _ _ _ _ _ _ _ _ hc0 hc1 hc2 hc3 _ _ _ _ _ _ _ _ _).trans (by unfold outOf; rw [hb1, hb2, hb3, hb4, hb5]))

/-- The body at any point: by the point's position in its layer. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val = 0
  · exact sound_body1_A V c t h0
  · have h : t.val % 3 = 0 ∨ t.val % 3 = 1 ∨ t.val % 3 = 2 := by omega
    rcases h with h | h | h
    · exact sound_body1_B V c t h0 h
    · exact sound_body1_C V c t h
    · exact sound_body1_D V c t h

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After the last point the invariant gives the class invariant back: the scratch rows' contents are forgotten. -/
theorem hout1 (c : Dev nD) : (dat1 V c).Φ (Fin.last cfg1.N) ⊢ Pipeline.ΦA spec1 c := by
  have hl : (Fin.last cfg1.N).val = 12 := N_1
  show PhiS V c (Fin.last cfg1.N).val ⊢ _
  rw [hl, PhiS_g0 V c 12 (by decide) (by decide), PhiA1_eq]
  unfold Rest1
  iintro ⟨HS0, HS1, HS2, HR, Hg⟩
  isplitl [HS0 HS1 HS2 HR]
  · isplitl [HS0]; · iexists _; iexact HS0
    isplitl [HS1]; · iexact HS1
    isplitl [HS2]; · iexact HS2
    iexact HR
  iexact Hg

end Cert.KernelIdeal.Hand

end
-- ==== Proof.KI.R2.lean ====
import proofs.«145509_j26731876451021_2_alg».proof.Proof.Gen.KernelIdeal.Launch
import proofs.«145509_j26731876451021_2_alg».proof.Proof.Gen.KernelIdeal.Skeleton
import proofs.«145509_j26731876451021_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The output projection's region (the third pallas_call): one point per tile of 3200 output columns.

At tile `t` the body reads the whole input row `x` (window 0, the same block at every point), rows
`3200·t … 3200·t + 3199` of the weight matrix (window 1) and the matching 3200 entries of the bias (window 2), and
stores into the output's tile (window 3) the row-times-matrixᵀ product plus the bias. Nothing is kept between points. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: each staging buffer whole. -/
abbrev r2_x : Rect S1x1024 := Rect.unit (s := S1x1024) ![0, 0] S1x1024.size inb_S1x1024_S1x1024_0_0
abbrev r2_w : Rect S3200x1024 := Rect.unit (s := S3200x1024) ![0, 0] S3200x1024.size inb_S3200x1024_S3200x1024_0_0
abbrev r2_b : Rect S1x3200 := Rect.unit (s := S1x3200) ![0, 0] S1x3200.size inb_S1x3200_S1x3200_0_0

/-- The output tile after the body: its one store, the product-plus-bias of the three input blocks. -/
def out2_3 (x0 : Vec F S1x1024 .f32) (x1 : Vec F S3200x1024 .f32) (x2 : Vec F S1x3200 .f32) : Vec F S1x3200 .f32 :=
  View.canon [⟨r2_b, k2_pay1 (View.ld x0 r2_x) (View.ld x1 r2_w) (View.ld x2 r2_b)⟩]

/-- The one store covers the tile. -/
theorem cover2_3 (p0 : Vec F S1x3200 .f32) (y : S1x3200.Idx) :
    ∃ pc ∈ ([⟨r2_b, p0⟩] : List (View.Piece (Elt F) S1x3200 .f32)), y ∈ pc.1.set :=
  View.cover_of_tiled [⟨r2_b, p0⟩] S1x3200.size (by rfl) y

set_option maxHeartbeats 1000000 in
/-- The body on whole staging memrefs: the inputs keep their contents, the output tile ends at `out2_3` of them. -/
theorem sound_kernel2 (c : Dev nD) (E : Set ℕ) (i : grid2.Coords) (arg1 : Memref sig .tc .vmem S1x1024 .f32) (harg1 : arg1.IsWhole) (arg2 : Memref sig .tc .vmem S3200x1024 .f32) (harg2 : arg2.IsWhole) (arg3 : Memref sig .tc .vmem S1x3200 .f32) (harg3 : arg3.IsWhole) (arg4 : Memref sig .tc .vmem S1x3200 .f32) (harg4 : arg4.IsWhole)
    (x0 : Vec F S1x1024 .f32) (x1 : Vec F S3200x1024 .f32) (x2 : Vec F S1x3200 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__outproj_kernel i arg1 harg1 arg2 harg2 arg3 harg3 arg4 harg4) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data: the arrays as found; after the body each input's buffer at its block, the output's at
    `out2_3` of the point's blocks; the class invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«145509_j26731876451021_2_alg».proof.Proof.KI.R0
import proofs.«145509_j26731876451021_2_alg».proof.Proof.KI.R1
import proofs.«145509_j26731876451021_2_alg».proof.Proof.KI.R2
import proofs.«145509_j26731876451021_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The whole run: host stretches and the three regions in order

The contents of every unscoped buffer at each boundary between two items of the program, folded from the launch memory: a
host stretch applies its operations; a region leaves its windows' arrays at what its write-backs fold to and every other
buffer as it found it. Every weakly fair execution terminates with every unscoped buffer at the last boundary's contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b

/-- At region 0's exit: its arrays at what the pipeline leaves (the inputs as entered, each output's write-backs folded),
    every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b

/-- At region 1's exit: its arrays at what the pipeline leaves (the inputs as entered, each output's write-backs folded),
    every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the third host stretch (the third region's entry). -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b

/-- At region 2's exit: its arrays at what the pipeline leaves (the inputs as entered, each output's write-backs folded),
    every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-- After the last two host stretches (the return). -/
abbrev W7 : Dev nD → Valuation τ sig (Elt F) := fun c => StableHlo.after hostOps3 (W6 m ρ c)
abbrev W8 : Dev nD → Valuation τ sig (Elt F) := fun c => StableHlo.after hostOps3_1 (W7 m ρ c)

/-! ## The arguments end as launched -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := StableHlo.after_of_writes_sub hostOps3_1 _ hostOps3_1_writes (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := StableHlo.after_of_writes_sub hostOps3_1 _ hostOps3_1_writes (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := (W4_arr m ρ c 1).trans (((dat1 (U3 m ρ) c).arrAt_in 1 rfl _).trans (A_eq1 (U3 m ρ) c 1))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := StableHlo.after_of_writes_sub hostOps3_1 _ hostOps3_1_writes (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 4).trans (((dat0 (U1 m ρ) c).arrAt_in 4 rfl _).trans (A_eq0 (U1 m ρ) c 4))
    _ = W0 m ρ c (Proc.devRef .tc main_arg2) := StableHlo.after_of_writes_sub hostOps0 _ hostOps0_writes (by decide)
    _ = m ((c : Thread nD τ).loc main_arg2) := rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := StableHlo.after_of_writes_sub hostOps3_1 _ hostOps3_1_writes (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := StableHlo.after_of_writes_sub hostOps3_1 _ hostOps3_1_writes (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 2).trans (((dat0 (U1 m ρ) c).arrAt_in 2 rfl _).trans (A_eq0 (U1 m ρ) c 2))
    _ = W0 m ρ c (Proc.devRef .tc main_arg4) := StableHlo.after_of_writes_sub hostOps0 _ hostOps0_writes (by decide)
    _ = m ((c : Thread nD τ).loc main_arg4) := rfl
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := StableHlo.after_of_writes_sub hostOps3_1 _ hostOps3_1_writes (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := StableHlo.after_of_writes_sub hostOps3_1 _ hostOps3_1_writes (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 5).trans (((dat0 (U1 m ρ) c).arrAt_in 5 rfl _).trans (A_eq0 (U1 m ρ) c 5))
    _ = W0 m ρ c (Proc.devRef .tc main_arg6) := StableHlo.after_of_writes_sub hostOps0 _ hostOps0_writes (by decide)
    _ = m ((c : Thread nD τ).loc main_arg6) := rfl
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := StableHlo.after_of_writes_sub hostOps3_1 _ hostOps3_1_writes (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := StableHlo.after_of_writes_sub hostOps3_1 _ hostOps3_1_writes (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := StableHlo.after_of_writes_sub hostOps3_1 _ hostOps3_1_writes (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := StableHlo.after_of_writes_sub hostOps3_1 _ hostOps3_1_writes (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := StableHlo.after_of_writes_sub hostOps3_1 _ hostOps3_1_writes (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W8_main_arg12 (c : Dev nD) : W8 m ρ c (Proc.devRef .tc main_arg12) = m ((c : Thread nD τ).loc main_arg12) :=
  calc W8 m ρ c (Proc.devRef .tc main_arg12)
    _ = W7 m ρ c (Proc.devRef .tc main_arg12) := StableHlo.after_of_writes_sub hostOps3_1 _ hostOps3_1_writes (by decide)
    _ = W6 m ρ c (Proc.devRef .tc main_arg12) := StableHlo.after_of_writes_sub hostOps3 _ hostOps3_writes (by decide)
    _ = W5 m ρ c (Proc.devRef .tc main_arg12) := (W6_arr m ρ c 1).trans (((dat2 (U5 m ρ) c).arrAt_in 1 rfl _).trans (A_eq2 (U5 m ρ) c 1))
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl
theorem W8_main_arg13 (c : Dev nD) : W8 m ρ c (Proc.devRef .tc main_arg13) = m ((c : Thread nD τ).loc main_arg13) :=
  calc W8 m ρ c (Proc.devRef .tc main_arg13)
    _ = W7 m ρ c (Proc.devRef .tc main_arg13) := StableHlo.after_of_writes_sub hostOps3_1 _ hostOps3_1_writes (by decide)
    _ = W6 m ρ c (Proc.devRef .tc main_arg13) := StableHlo.after_of_writes_sub hostOps3 _ hostOps3_writes (by decide)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 over the thread state: entered from every unscoped buffer at `W1`, left at `W2`; its arrays are split
    out of the unscoped buffers and put back at what the write-backs leave; the generator register and the scoped rest go
    into the region's invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`; its arrays are split
    out of the unscoped buffers and put back at what the write-backs leave; the generator register and the scoped rest go
    into the region's invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from PhiS_zero (U3 m ρ) c]; unfold Pipeline.ΦA
    iintro ⟨Hp, -, Hr⟩
    isplitl [Hr]; · iexact Hr
    iexact Hp
  hout c := by
    rw [Pipeline.ownSems0_none]
    refine (hout1 (U3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`; its arrays are split
    out of the unscoped buffers and put back at what the write-backs leave; the generator register and the scoped rest go
    into the region's invariant and come back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev msegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)) ]
theorem main_run (c : Dev nD) : main (F := F) c = Pipeline.Seg.run (msegs m ρ) := (main_chain c).trans (by chain_rfl)

set_option backward.isDefEq.respectTransparency.types false in
/-- THE RUN: from any memory with zero counters every weakly fair execution terminates, nothing faulting, with every
    unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W8 m ρ c) ∗ ∃ r, prngReg c r))
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c)
        ⊢ iprop(iprop(StableHlo.held (c : Thread nD τ) (Pipeline.ucRefs τ sig) (W8 m ρ c) ∗ ∃ r, prngReg c r) ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c),
    (h c _ (mem_uc main_arg11 (by decide))).trans (W8_main_arg11 m ρ c),
    (h c _ (mem_uc main_arg12 (by decide))).trans (W8_main_arg12 m ρ c),
    (h c _ (mem_uc main_arg13 (by decide))).trans (W8_main_arg13 m ρ c)⟩) (run m ρ)

end Cert.KernelIdeal.Hand

end
-- ==== Proof.Bridge.Defs.lean ====
import proofs.«145509_j26731876451021_2_alg».proof.Proof.Gen.KernelIdeal.Skeleton
import Idealize.ShloMosaic.Lib.ValueIdx
import Idealize.ShloMosaic.Lib.Pipeline.FrameBody

/-! The kernel's three regions as pure functions of what their blocks hold, at the extended reals.

* attention and combine (first region, one point): the attention weights `awK` — the softmax over the 128 encoder
  positions of `emb·A₁ᵀ + h₀·A₂ᵀ + b`, `A₁` the first 2048 columns and `A₂` the last 1024 columns of the attention matrix — and
  the recurrent input `x0K` — `max(emb·C₁ᵀ + (aw·enc)·C₂ᵀ + c, 0)`, `C₁`, `C₂` the same two column bands of the combine matrix;
* one layer of the gated recurrent unit (second region, three points per layer: reset gate, update gate, candidate and new
  state): `gruK`;
* a block of a re-laid weight or bias array, as the second region's windows cut it: `wBlk`, `bBlk`, `hidBlk`. -/

noncomputable section

namespace Cert.Bridge

open Idealize.ShloMosaic Idealize.ShloMosaic.ValueIdx Cert.KernelIdeal Cert.KernelIdeal.Gen

/-- The first 2048 columns and the last 1024 columns of the [128, 3072] attention matrix. -/
abbrev rA1 : Rect S128x3072 := Rect.unit (s := S128x3072) ![0, 0] S128x2048.size inb_S128x3072_S128x2048_0_0
abbrev rA2 : Rect S128x3072 := Rect.unit (s := S128x3072) ![0, 2048] S128x1024.size inb_S128x3072_S128x1024_0_2048
/-- The first 2048 columns and the last 1024 columns of the [1024, 3072] combine matrix. -/
abbrev rC1 : Rect S1024x3072 := Rect.unit (s := S1024x3072) ![0, 0] S1024x2048.size inb_S1024x3072_S1024x2048_0_0
abbrev rC2 : Rect S1024x3072 := Rect.unit (s := S1024x3072) ![0, 2048] S1024x1024.size inb_S1024x3072_S1024x1024_0_2048

/-- The attention weights, from the embedded tokens, the first layer's state, the attention matrix and its bias row. -/
def awK (emb : Vec Ideal S1x2048 .f32) (h0 : Vec Ideal S1x1024 .f32) (aW : Vec Ideal S128x3072 .f32) (ab2 : Vec Ideal S1x128 .f32) :
    FVec Ideal S1x128 .f32 :=
  k0_pay3 (F := Ideal) emb h0 (View.ld aW rA1) (View.ld aW rA2) ab2

/-- The recurrent unit's first input, from the same and the encoder outputs, the combine matrix and its bias row. -/
def x0K (emb : Vec Ideal S1x2048 .f32) (h0 : Vec Ideal S1x1024 .f32) (aW : Vec Ideal S128x3072 .f32) (ab2 : Vec Ideal S1x128 .f32)
    (enc : Vec Ideal S128x1024 .f32) (cW : Vec Ideal S1024x3072 .f32) (cb2 : Vec Ideal S1x1024 .f32) : FVec Ideal S1x1024 .f32 :=
  k0_pay1 (F := Ideal) (k0_pay4 emb h0 (View.ld aW rA1) (View.ld aW rA2) ab2 enc) (k0_pay5 emb) (k0_pay6 (View.ld cW rC1))
    (constant S1x1024 .f32 0x00000000#32) (View.ld cW rC2) cb2

/-- One layer of the recurrent unit: input `x`, the layer's state block `hb`, the three gate blocks of the input weights
    (`W0 W1 W2`), of the state weights (`U0 U1 U2`) and of the two biases (`b0 b1 b2`, `c0 c1 c2`); the new state
    `(1 - z)·n + z·h` with `r = σ(gi₀ + gh₀)`, `z = σ(gi₁ + gh₁)`, `n = tanh(gi₂ + r·gh₂)`. -/
def gruK (x : Vec Ideal S1x1024 .f32) (hb : Vec Ideal S1x1x1024 .f32)
    (W0 W1 W2 U0 U1 U2 : Vec Ideal S1x1024x1024 .f32) (b0 b1 b2 c0 c1 c2 : Vec Ideal S1x1x1024 .f32) : FVec Ideal S1x1024 .f32 :=
  k1_pay2 (F := Ideal) (k1_pay6 hb) (k1_pay7 x W2 b2) (k1_pay8 hb U2 c2)
    (k1_pay9 x hb W0 b0 U0 c0) (k1_pay1 (k1_pay7 x W1 b1) (k1_pay8 hb U1 c1))

/-- Row block `3·l + g` of a [4, 3072, 1024] weight array re-laid as [12, 1024, 1024]. -/
def wBlk (W : Vec Ideal S4x3072x1024 .f32) (l : Fin 4) (g : Fin 3) : Vec Ideal S1x1024x1024 .f32 :=
  fun y => (shapeCast S12x1024x1024 W shapeCasts_S4x3072x1024_S12x1024x1024 : Vec Ideal S12x1024x1024 .f32)
    (ix3 (⟨3 * l.val + g.val, by omega⟩ : Fin 12) (y 1 : Fin 1024) (y 2 : Fin 1024))

/-- Row `3·l + g` of a [4, 3072] bias array re-laid as [12, 1, 1024]. -/
def bBlk (b : Vec Ideal S4x3072 .f32) (l : Fin 4) (g : Fin 3) : Vec Ideal S1x1x1024 .f32 :=
  fun y => (shapeCast S12x1x1024 b shapeCasts_S4x3072_S12x1x1024 : Vec Ideal S12x1x1024 .f32)
    (ix3 (⟨3 * l.val + g.val, by omega⟩ : Fin 12) (y 1 : Fin 1) (y 2 : Fin 1024))

/-- Layer `l`'s block of the [4, 1, 1024] state array. -/
def hidBlk (hid : Vec Ideal S4x1x1024 .f32) (l : Fin 4) : Vec Ideal S1x1x1024 .f32 :=
  fun y => hid (ix3 l (y 1 : Fin 1) (y 2 : Fin 1024))

/-- The recurrent unit's layer `l` on the whole arrays. -/
def gruLayerK (x : Vec Ideal S1x1024 .f32) (hid : Vec Ideal S4x1x1024 .f32) (Wih Whh : Vec Ideal S4x3072x1024 .f32)
    (bih bhh : Vec Ideal S4x3072 .f32) (l : Fin 4) : FVec Ideal S1x1024 .f32 :=
  gruK x (hidBlk hid l) (wBlk Wih l 0) (wBlk Wih l 1) (wBlk Wih l 2) (wBlk Whh l 0) (wBlk Whh l 1) (wBlk Whh l 2)
    (bBlk bih l 0) (bBlk bih l 1) (bBlk bih l 2) (bBlk bhh l 0) (bBlk bhh l 1) (bBlk bhh l 2)

end Cert.Bridge

end
-- ==== Proof.KI.Val0.lean ====
import proofs.«145509_j26731876451021_2_alg».proof.Proof.KI.R0
import proofs.«145509_j26731876451021_2_alg».proof.Proof.Bridge.Defs
import Idealize.ShloMosaic.Lib.Pipeline.Value
import Idealize.ShloMosaic.Lib.ValueIdx

/-! What the first region leaves in its two output arrays, at the extended reals: the attention weights and the
recurrent unit's first input row as the functions `awK`, `x0K` of the arrays the region finds. Every window's one block
is its whole array (every block index is zero), so a block read is the array and the one write-back fills the output. -/

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand Cert.Bridge

theorem hz2 : (![0, 0] : Fin 2 → Nat) = fun _ => 0 := by funext a; fin_cases a <;> rfl

/-- Every block index of the region is zero. -/
theorem idx0_0_0 : ∀ t : Fin cfg0.N, win0_0.index t (0 : Fin 2) = 0 := (by decide +kernel : ∀ t : Fin grid0.N, win0_0.index t (0 : Fin 2) = 0)
theorem idx0_0_1 : ∀ t : Fin cfg0.N, win0_0.index t (1 : Fin 2) = 0 := (by decide +kernel : ∀ t : Fin grid0.N, win0_0.index t (1 : Fin 2) = 0)
theorem idx0_1_0 : ∀ t : Fin cfg0.N, win0_1.index t (0 : Fin 2) = 0 := (by decide +kernel : ∀ t : Fin grid0.N, win0_1.index t (0 : Fin 2) = 0)
theorem idx0_1_1 : ∀ t : Fin cfg0.N, win0_1.index t (1 : Fin 2) = 0 := (by decide +kernel : ∀ t : Fin grid0.N, win0_1.index t (1 : Fin 2) = 0)
theorem idx0_2_0 : ∀ t : Fin cfg0.N, win0_2.index t (0 : Fin 2) = 0 := (by decide +kernel : ∀ t : Fin grid0.N, win0_2.index t (0 : Fin 2) = 0)
theorem idx0_2_1 : ∀ t : Fin cfg0.N, win0_2.index t (1 : Fin 2) = 0 := (by decide +kernel : ∀ t : Fin grid0.N, win0_2.index t (1 : Fin 2) = 0)
theorem idx0_3_0 : ∀ t : Fin cfg0.N, win0_3.index t (0 : Fin 2) = 0 := (by decide +kernel : ∀ t : Fin grid0.N, win0_3.index t (0 : Fin 2) = 0)
theorem idx0_3_1 : ∀ t : Fin cfg0.N, win0_3.index t (1 : Fin 2) = 0 := (by decide +kernel : ∀ t : Fin grid0.N, win0_3.index t (1 : Fin 2) = 0)
theorem idx0_4_0 : ∀ t : Fin cfg0.N, win0_4.index t (0 : Fin 2) = 0 := (by decide +kernel : ∀ t : Fin grid0.N, win0_4.index t (0 : Fin 2) = 0)
theorem idx0_4_1 : ∀ t : Fin cfg0.N, win0_4.index t (1 : Fin 2) = 0 := (by decide +kernel : ∀ t : Fin grid0.N, win0_4.index t (1 : Fin 2) = 0)
theorem idx0_5_0 : ∀ t : Fin cfg0.N, win0_5.index t (0 : Fin 2) = 0 := (by decide +kernel : ∀ t : Fin grid0.N, win0_5.index t (0 : Fin 2) = 0)
theorem idx0_5_1 : ∀ t : Fin cfg0.N, win0_5.index t (1 : Fin 2) = 0 := (by decide +kernel : ∀ t : Fin grid0.N, win0_5.index t (1 : Fin 2) = 0)
theorem idx0_6_0 : ∀ t : Fin cfg0.N, win0_6.index t (0 : Fin 2) = 0 := (by decide +kernel : ∀ t : Fin grid0.N, win0_6.index t (0 : Fin 2) = 0)
theorem idx0_6_1 : ∀ t : Fin cfg0.N, win0_6.index t (1 : Fin 2) = 0 := (by decide +kernel : ∀ t : Fin grid0.N, win0_6.index t (1 : Fin 2) = 0)
theorem idx0_7_0 : ∀ t : Fin cfg0.N, win0_7.index t (0 : Fin 2) = 0 := (by decide +kernel : ∀ t : Fin grid0.N, win0_7.index t (0 : Fin 2) = 0)
theorem idx0_7_1 : ∀ t : Fin cfg0.N, win0_7.index t (1 : Fin 2) = 0 := (by decide +kernel : ∀ t : Fin grid0.N, win0_7.index t (1 : Fin 2) = 0)
theorem idx0_8_0 : ∀ t : Fin cfg0.N, win0_8.index t (0 : Fin 2) = 0 := (by decide +kernel : ∀ t : Fin grid0.N, win0_8.index t (0 : Fin 2) = 0)
theorem idx0_8_1 : ∀ t : Fin cfg0.N, win0_8.index t (1 : Fin 2) = 0 := (by decide +kernel : ∀ t : Fin grid0.N, win0_8.index t (1 : Fin 2) = 0)

/-- An input's block is its whole array. -/
theorem iblk0_0_whole (V : (c : Dev nD) → (b : Ref sig .tc) → Buf (Elt Ideal) ((c : Thread nD τ).loc b)) (c : Dev nD) (t : Fin cfg0.N) :
    (iblk0 V c 0 t : S1x2048.Idx → Elt Ideal .f32) = (V c main_v7 : S1x2048.Idx → Elt Ideal .f32) := by
  funext y
  show V c main_v7 (((cfg0.win 0).blk t).view.emb y) = V c main_v7 y
  refine congrArg _ ?_
  funext a; apply Fin.ext
  match a with
  | ⟨0, _⟩ => show win0_0.index t (0 : Fin 2) * _ + 1 * (y 0).val = (y 0).val; rw [idx0_0_0 t]; omega
  | ⟨1, _⟩ => show win0_0.index t (1 : Fin 2) * _ + 1 * (y 1).val = (y 1).val; rw [idx0_0_1 t]; omega
theorem iblk0_1_whole (V : (c : Dev nD) → (b : Ref sig .tc) → Buf (Elt Ideal) ((c : Thread nD τ).loc b)) (c : Dev nD) (t : Fin cfg0.N) :
    (iblk0 V c 1 t : S1x1024.Idx → Elt Ideal .f32) = (V c main_v9 : S1x1024.Idx → Elt Ideal .f32) := by
  funext y
  show V c main_v9 (((cfg0.win 1).blk t).view.emb y) = V c main_v9 y
  refine congrArg _ ?_
  funext a; apply Fin.ext
  match a with
  | ⟨0, _⟩ => show win0_1.index t (0 : Fin 2) * _ + 1 * (y 0).val = (y 0).val; rw [idx0_1_0 t]; omega
  | ⟨1, _⟩ => show win0_1.index t (1 : Fin 2) * _ + 1 * (y 1).val = (y 1).val; rw [idx0_1_1 t]; omega
theorem iblk0_2_whole (V : (c : Dev nD) → (b : Ref sig .tc) → Buf (Elt Ideal) ((c : Thread nD τ).loc b)) (c : Dev nD) (t : Fin cfg0.N) :
    (iblk0 V c 2 t : S128x3072.Idx → Elt Ideal .f32) = (V c main_arg4 : S128x3072.Idx → Elt Ideal .f32) := by
  funext y
  show V c main_arg4 (((cfg0.win 2).blk t).view.emb y) = V c main_arg4 y
  refine congrArg _ ?_
  funext a; apply Fin.ext
  match a with
  | ⟨0, _⟩ => show win0_2.index t (0 : Fin 2) * _ + 1 * (y 0).val = (y 0).val; rw [idx0_2_0 t]; omega
  | ⟨1, _⟩ => show win0_2.index t (1 : Fin 2) * _ + 1 * (y 1).val = (y 1).val; rw [idx0_2_1 t]; omega
theorem iblk0_3_whole (V : (c : Dev nD) → (b : Ref sig .tc) → Buf (Elt Ideal) ((c : Thread nD τ).loc b)) (c : Dev nD) (t : Fin cfg0.N) :
    (iblk0 V c 3 t : S1x128.Idx → Elt Ideal .f32) = (V c main_v10 : S1x128.Idx → Elt Ideal .f32) := by
  funext y
  show V c main_v10 (((cfg0.win 3).blk t).view.emb y) = V c main_v10 y
  refine congrArg _ ?_
  funext a; apply Fin.ext
  match a with
  | ⟨0, _⟩ => show win0_3.index t (0 : Fin 2) * _ + 1 * (y 0).val = (y 0).val; rw [idx0_3_0 t]; omega
  | ⟨1, _⟩ => show win0_3.index t (1 : Fin 2) * _ + 1 * (y 1).val = (y 1).val; rw [idx0_3_1 t]; omega
theorem iblk0_4_whole (V : (c : Dev nD) → (b : Ref sig .tc) → Buf (Elt Ideal) ((c : Thread nD τ).loc b)) (c : Dev nD) (t : Fin cfg0.N) :
    (iblk0 V c 4 t : S128x1024.Idx → Elt Ideal .f32) = (V c main_arg2 : S128x1024.Idx → Elt Ideal .f32) := by
  funext y
  show V c main_arg2 (((cfg0.win 4).blk t).view.emb y) = V c main_arg2 y
  refine congrArg _ ?_
  funext a; apply Fin.ext
  match a with
  | ⟨0, _⟩ => show win0_4.index t (0 : Fin 2) * _ + 1 * (y 0).val = (y 0).val; rw [idx0_4_0 t]; omega
  | ⟨1, _⟩ => show win0_4.index t (1 : Fin 2) * _ + 1 * (y 1).val = (y 1).val; rw [idx0_4_1 t]; omega
theorem iblk0_5_whole (V : (c : Dev nD) → (b : Ref sig .tc) → Buf (Elt Ideal) ((c : Thread nD τ).loc b)) (c : Dev nD) (t : Fin cfg0.N) :
    (iblk0 V c 5 t : S1024x3072.Idx → Elt Ideal .f32) = (V c main_arg6 : S1024x3072.Idx → Elt Ideal .f32) := by
  funext y
  show V c main_arg6 (((cfg0.win 5).blk t).view.emb y) = V c main_arg6 y
  refine congrArg _ ?_
  funext a; apply Fin.ext
  match a with
  | ⟨0, _⟩ => show win0_5.index t (0 : Fin 2) * _ + 1 * (y 0).val = (y 0).val; rw [idx0_5_0 t]; omega
  | ⟨1, _⟩ => show win0_5.index t (1 : Fin 2) * _ + 1 * (y 1).val = (y 1).val; rw [idx0_5_1 t]; omega
theorem iblk0_6_whole (V : (c : Dev nD) → (b : Ref sig .tc) → Buf (Elt Ideal) ((c : Thread nD τ).loc b)) (c : Dev nD) (t : Fin cfg0.N) :
    (iblk0 V c 6 t : S1x1024.Idx → Elt Ideal .f32) = (V c main_v11 : S1x1024.Idx → Elt Ideal .f32) := by
  funext y
  show V c main_v11 (((cfg0.win 6).blk t).view.emb y) = V c main_v11 y
  refine congrArg _ ?_
  funext a; apply Fin.ext
  match a with
  | ⟨0, _⟩ => show win0_6.index t (0 : Fin 2) * _ + 1 * (y 0).val = (y 0).val; rw [idx0_6_0 t]; omega
  | ⟨1, _⟩ => show win0_6.index t (1 : Fin 2) * _ + 1 * (y 1).val = (y 1).val; rw [idx0_6_1 t]; omega

/-- The output's one block is its whole array. -/
theorem read_blk0_7 (t : Fin cfg0.N) (G : S1x128.Idx → Elt Ideal .f32) :
    (((cfg0.win 7).blk t).view.read (Elt Ideal) G : S1x128.Idx → Elt Ideal .f32) = G := by
  funext y
  show G (((cfg0.win 7).blk t).view.emb y) = G y
  refine congrArg _ ?_
  funext a; apply Fin.ext
  match a with
  | ⟨0, _⟩ => show win0_7.index t (0 : Fin 2) * _ + 1 * (y 0).val = (y 0).val; rw [idx0_7_0 t]; omega
  | ⟨1, _⟩ => show win0_7.index t (1 : Fin 2) * _ + 1 * (y 1).val = (y 1).val; rw [idx0_7_1 t]; omega
theorem mem_blk0_7 (t : Fin cfg0.N) (i : S1x128.Idx) : i ∈ ((cfg0.win 7).blk t).view.set := by
  have h : i ∈ ((cfg0.win 7).blk t).view.set ↔ ∀ a : Fin 2, win0_7.index t a * S1x128.size a ≤ (i a).val ∧ (i a).val < win0_7.index t a * S1x128.size a + S1x128.size a := by
    show i ∈ ((View.whole main_v12_0).slice (win0_7.rect t)).set ↔ _
    rw [View.set_slice_whole, Rect.mem_set_unit]
    exact Iff.rfl
  rw [h]
  intro a
  match a with
  | ⟨0, _⟩ => show win0_7.index t (0 : Fin 2) * 1 ≤ (i 0).val ∧ (i 0).val < win0_7.index t (0 : Fin 2) * 1 + 1; rw [idx0_7_0 t]; have hi : (i 0).val < 1 := (i 0).isLt; omega
  | ⟨1, _⟩ => show win0_7.index t (1 : Fin 2) * 128 ≤ (i 1).val ∧ (i 1).val < win0_7.index t (1 : Fin 2) * 128 + 128; rw [idx0_7_1 t]; have hi : (i 1).val < 128 := (i 1).isLt; omega
/-- The output's one block is its whole array. -/
theorem read_blk0_8 (t : Fin cfg0.N) (G : S1x1024.Idx → Elt Ideal .f32) :
    (((cfg0.win 8).blk t).view.read (Elt Ideal) G : S1x1024.Idx → Elt Ideal .f32) = G := by
  funext y
  show G (((cfg0.win 8).blk t).view.emb y) = G y
  refine congrArg _ ?_
  funext a; apply Fin.ext
  match a with
  | ⟨0, _⟩ => show win0_8.index t (0 : Fin 2) * _ + 1 * (y 0).val = (y 0).val; rw [idx0_8_0 t]; omega
  | ⟨1, _⟩ => show win0_8.index t (1 : Fin 2) * _ + 1 * (y 1).val = (y 1).val; rw [idx0_8_1 t]; omega
theorem mem_blk0_8 (t : Fin cfg0.N) (i : S1x1024.Idx) : i ∈ ((cfg0.win 8).blk t).view.set := by
  have h : i ∈ ((cfg0.win 8).blk t).view.set ↔ ∀ a : Fin 2, win0_8.index t a * S1x1024.size a ≤ (i a).val ∧ (i a).val < win0_8.index t a * S1x1024.size a + S1x1024.size a := by
    show i ∈ ((View.whole main_v12_1).slice (win0_8.rect t)).set ↔ _
    rw [View.set_slice_whole, Rect.mem_set_unit]
    exact Iff.rfl
  rw [h]
  intro a
  match a with
  | ⟨0, _⟩ => show win0_8.index t (0 : Fin 2) * 1 ≤ (i 0).val ∧ (i 0).val < win0_8.index t (0 : Fin 2) * 1 + 1; rw [idx0_8_0 t]; have hi : (i 0).val < 1 := (i 0).isLt; omega
  | ⟨1, _⟩ => show win0_8.index t (1 : Fin 2) * 1024 ≤ (i 1).val ∧ (i 1).val < win0_8.index t (1 : Fin 2) * 1024 + 1024; rw [idx0_8_1 t]; have hi : (i 1).val < 1024 := (i 1).isLt; omega

variable (V : (c : Dev nD) → (b : Ref sig .tc) → Buf (Elt Ideal) ((c : Thread nD τ).loc b)) (c : Dev nD)

/-- The attention weights' array after the region. -/
theorem arr0_7 : ((dat0 V c).arrAt 7 cfg0.N : S1x128.Idx → Elt Ideal .f32)
    = awK (V c main_v7) (V c main_v9) (V c main_arg4) (V c main_v10) := by
  refine (dat0 V c).arrAt_eq_of_cover 7 (awK (V c main_v7) (V c main_v9) (V c main_arg4) (V c main_v10)) (fun t _ => ?_)
    (fun i => ⟨t0_0, flush0_7 t0_0, mem_blk0_7 t0_0 i⟩)
  show (cfg0.win 7).cut (grid0.coords t) ((dat0 V c).after 7 t) = _
  rw [after0_7, read_blk0_7]
  unfold out0_7
  rw [View.canon_unit_zero hz2]
  simp only [View.ld_unit_zero (S := S1x2048) hz2, View.ld_unit_zero (S := S1x1024) hz2, View.ld_unit_zero (S := S1x128) hz2]
  rw [iblk0_0_whole, iblk0_1_whole, iblk0_2_whole, iblk0_3_whole]
  rfl

/-- The recurrent input's array after the region. -/
theorem arr0_8 : ((dat0 V c).arrAt 8 cfg0.N : S1x1024.Idx → Elt Ideal .f32)
    = x0K (V c main_v7) (V c main_v9) (V c main_arg4) (V c main_v10) (V c main_arg2) (V c main_arg6) (V c main_v11) := by
  refine (dat0 V c).arrAt_eq_of_cover 8 (x0K (V c main_v7) (V c main_v9) (V c main_arg4) (V c main_v10) (V c main_arg2) (V c main_arg6) (V c main_v11)) (fun t _ => ?_)
    (fun i => ⟨t0_0, flush0_8 t0_0, mem_blk0_8 t0_0 i⟩)
  show (cfg0.win 8).cut (grid0.coords t) ((dat0 V c).after 8 t) = _
  rw [after0_8, read_blk0_8]
  unfold out0_8
  rw [View.canon_unit_zero hz2]
  simp only [View.ld_unit_zero (S := S1x2048) hz2, View.ld_unit_zero (S := S1x1024) hz2, View.ld_unit_zero (S := S1x128) hz2, View.ld_unit_zero (S := S128x1024) hz2]
  rw [iblk0_0_whole, iblk0_1_whole, iblk0_2_whole, iblk0_3_whole, iblk0_4_whole, iblk0_5_whole, iblk0_6_whole]
  rfl

end Cert.KernelIdeal.Val

end
-- ==== Proof.Bridge.Defs2.lean ====
import proofs.«145509_j26731876451021_2_alg».proof.Proof.Gen.KernelIdeal.Skeleton
import Idealize.ShloMosaic.Lib.ValueIdx
import Idealize.ShloMosaic.Lib.Pipeline.FrameBody

/-! The kernel's third region (the output projection, twenty tiles of 3200 columns) and its stacked state rows, as pure
functions at the extended reals.

* `oWBlk`, `obBlk`: tile `t`'s 3200 rows of the [64000, 1024] projection matrix and its 3200 entries of the bias, the bias
  re-laid as a [1, 64000] row first;
* `logitsK`: the [1, 64000] row whose tile `t` is the input row times the tile's rows transposed, plus the tile's bias;
* `hidK`: the [4, 1, 1024] array whose layer `l` is the row `h l`. -/

noncomputable section

namespace Cert.Bridge

open Idealize.ShloMosaic Idealize.ShloMosaic.ValueIdx Cert.KernelIdeal Cert.KernelIdeal.Gen

/-- Rows `3200·t … 3200·t + 3199` of the projection matrix. -/
def oWBlk (oW : Vec Ideal S64000x1024 .f32) (t : Fin 20) : Vec Ideal S3200x1024 .f32 :=
  fun y => oW (ix2 (⟨3200 * t.val + (y 0 : Fin 3200).val, by have h1 : (y 0 : Fin 3200).val < 3200 := (y 0 : Fin 3200).isLt; have h2 := t.isLt; omega⟩ : Fin 64000) (y 1 : Fin 1024))

/-- Entries `3200·t … 3200·t + 3199` of the bias, as a row. -/
def obBlk (ob : Vec Ideal S64000 .f32) (t : Fin 20) : Vec Ideal S1x3200 .f32 :=
  fun y => (shapeCast S1x64000 ob shapeCasts_S64000_S1x64000 : Vec Ideal S1x64000 .f32)
    (ix2 (0 : Fin 1) (⟨3200 * t.val + (y 1 : Fin 3200).val, by have h1 : (y 1 : Fin 3200).val < 3200 := (y 1 : Fin 3200).isLt; have h2 := t.isLt; omega⟩ : Fin 64000))

/-- The projected row: column `j` is entry `j mod 3200` of tile `j / 3200`'s product-plus-bias. -/
def logitsK (x : Vec Ideal S1x1024 .f32) (oW : Vec Ideal S64000x1024 .f32) (ob : Vec Ideal S64000 .f32) : Vec Ideal S1x64000 .f32 :=
  fun j => k2_pay1 (F := Ideal) x (oWBlk oW ⟨(j 1 : Fin 64000).val / 3200, by have h1 : (j 1 : Fin 64000).val < 64000 := (j 1 : Fin 64000).isLt; omega⟩) (obBlk ob ⟨(j 1 : Fin 64000).val / 3200, by have h1 : (j 1 : Fin 64000).val < 64000 := (j 1 : Fin 64000).isLt; omega⟩)
    (ix2 (0 : Fin 1) (⟨(j 1 : Fin 64000).val % 3200, Nat.mod_lt _ (by decide)⟩ : Fin 3200))

/-- The four layers' new state rows stacked. -/
def hidK (h : Fin 4 → Vec Ideal S1x1024 .f32) : Vec Ideal S4x1x1024 .f32 :=
  fun j => h (j 0 : Fin 4) (ix2 (0 : Fin 1) (j 2 : Fin 1024))

end Cert.Bridge

end
-- ==== Proof.Bridge.Defs3.lean ====
import proofs.«145509_j26731876451021_2_alg».proof.Proof.Bridge.Defs
import proofs.«145509_j26731876451021_2_alg».proof.Proof.Bridge.Defs2

/-! The kernel's host operations around its regions, and the recurrent unit's chain of layers, as pure functions at the
extended reals: the embedded tokens `embK`, the first and the last state rows `h0K`, `lastK`, the layers' rows `xsK` and the
closing log-softmax `tailK`. -/

noncomputable section

namespace Cert.Bridge

open Idealize.ShloMosaic Idealize.ShloMosaic.ValueIdx Cert.KernelIdeal Cert.KernelIdeal.Gen

/-- The embedded tokens: the rows of the table at the token numbers (a negative number counted from the end), as one row. -/
def embK (ids : (⟨S2, .i32⟩ : BufTy).Contents (Elt Ideal)) (E : (⟨S32000x1024, .f32⟩ : BufTy).Contents (Elt Ideal)) : (⟨S1x2048, .f32⟩ : BufTy).Contents (Elt Ideal) :=
  shapeCast _ (Host.gather gather_S32000x1024_S2x1_S2x1024_1_0_n_n_0_1_11024 E (broadcastInDim S2x1 ![0] bcast_S2_S2x1_0 (select (cmpi .slt ids (broadcastInDim S2 ![] bcast_S_S2 (constantI S_ 32 0#32))) (addi ids (broadcastInDim S2 ![] bcast_S_S2 (constantI S_ 32 32000#32))) ids))) shapeCasts_S2x1024_S1x2048
/-- The first layer's state row. -/
def h0K (hid : (⟨S4x1x1024, .f32⟩ : BufTy).Contents (Elt Ideal)) : (⟨S1x1024, .f32⟩ : BufTy).Contents (Elt Ideal) :=
  shapeCast _ (extractStridedSlice S1x1x1024 ![0, 0, 0] hid slices_S4x1x1024_S1x1x1024_0_0_0) shapeCasts_S1x1x1024_S1x1024
/-- The last layer's new state row, cut out of the stacked rows. -/
def lastK (hn : (⟨S4x1x1024, .f32⟩ : BufTy).Contents (Elt Ideal)) : (⟨S1x1024, .f32⟩ : BufTy).Contents (Elt Ideal) :=
  shapeCast _ (extractStridedSlice S1x1x1024 ![3, 0, 0] hn slices_S4x1x1024_S1x1x1024_3_0_0) shapeCasts_S1x1x1024_S1x1024
/-- The log-softmax over each of the two rows of the projected row re-laid as [2, 32000]. -/
def tailK (z : FVec Ideal S1x64000 .f32) : FVec Ideal S2x32000 .f32 :=
  let y : FVec Ideal S2x32000 .f32 := shapeCast S2x32000 z shapeCasts_S1x64000_S2x32000
  let v5 : FVec Ideal S2x32000 .f32 := subf y (broadcastInDim S2x32000 ![0, 1] bcast_S2x1_S2x32000_0_1 (broadcastInDim S2x1 ![0] bcast_S2_S2x1_0 (maximumf (broadcastInDim S2 ![] bcast_S_S2 (constant (F := Ideal) S_ .f32 0xFF800000#32)) (Host.reduce (FloatOps.maximumf (F := Ideal)) y (constant (F := Ideal) S_ .f32 0xFF800000#32) reducesTo_S2x32000_S2_d1 h_S_))))
  subf v5 (broadcastInDim S2x32000 ![0, 1] bcast_S2x1_S2x32000_0_1 (Host.log (F := Ideal) (broadcastInDim S2x1 ![0] bcast_S2_S2x1_0 (Host.reduceAdd (F := Ideal) (Host.exp (F := Ideal) v5) (constant (F := Ideal) S_ .f32 0x00000000#32) reducesTo_S2x32000_S2_d1 h_S_))))

/-- The layers' input rows: the region's input row, then each layer's new state. -/
def xsK (x0 : S1x1024.Idx → Elt Ideal .f32) (hid : S4x1x1024.Idx → Elt Ideal .f32)
    (Wih Whh : S4x3072x1024.Idx → Elt Ideal .f32) (bih bhh : S4x3072.Idx → Elt Ideal .f32) : ℕ → (S1x1024.Idx → Elt Ideal .f32)
  | 0 => x0
  | l + 1 => if h : l < 4 then gruLayerK (xsK x0 hid Wih Whh bih bhh l) hid Wih Whh bih bhh ⟨l, h⟩ else xsK x0 hid Wih Whh bih bhh l

end Cert.Bridge

end
-- ==== Proof.KI.Val1.lean ====
import proofs.«145509_j26731876451021_2_alg».proof.Proof.KI.R1
import proofs.«145509_j26731876451021_2_alg».proof.Proof.Bridge.Defs
import proofs.«145509_j26731876451021_2_alg».proof.Proof.Bridge.Defs2
import proofs.«145509_j26731876451021_2_alg».proof.Proof.Bridge.Defs3
import Idealize.ShloMosaic.Lib.Pipeline.Value
import Idealize.ShloMosaic.Lib.ValueIdx

/-! What the second region leaves in its output array, at the extended reals: the four layers' new state rows stacked
(`hidK`), layer `l`'s row the recurrent unit's layer function `gruLayerK` of the layer before's row (the region's input row
for the first layer). Point `3·l + g` reads layer `l`'s block of the state array and block `3·l + g` of the re-laid
weights and biases; the third point of each layer writes block `l` of the output back, and the four blocks cover it. -/

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand Cert.Bridge

/-- The block indices, decided over the grid: the input row's are zero; the state's and the output's is the layer number
    on the leading axis; the weights' and biases' is the point number on the leading axis. -/
theorem idx1 : ∀ t : Fin cfg1.N, win1_0.index t (0 : Fin 2) = 0 ∧ win1_0.index t (1 : Fin 2) = 0
    ∧ win1_1.index t (0 : Fin 3) = t.val / 3 ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0
    ∧ win1_5.index t (0 : Fin 3) = t.val ∧ win1_5.index t (1 : Fin 3) = 0 ∧ win1_5.index t (2 : Fin 3) = 0
    ∧ win1_6.index t (0 : Fin 3) = t.val / 3 ∧ win1_6.index t (1 : Fin 3) = 0 ∧ win1_6.index t (2 : Fin 3) = 0 :=
  (by decide +kernel : ∀ t : Fin grid1.N, _)

theorem N1 : cfg1.N = 12 := N_1

variable (V : (c : Dev nD) → (b : Ref sig .tc) → Buf (Elt Ideal) ((c : Thread nD τ).loc b)) (c : Dev nD)

theorem iblk1_0_whole (t : Fin cfg1.N) :
    (iblk1 V c 0 t : S1x1024.Idx → Elt Ideal .f32) = (V c main_v12_1 : S1x1024.Idx → Elt Ideal .f32) := by
  obtain ⟨e0, e1, -⟩ := idx1 t
  funext y
  show V c main_v12_1 (((cfg1.win 0).blk t).view.emb y) = V c main_v12_1 y
  refine congrArg _ ?_
  funext a; apply Fin.ext
  match a with
  | ⟨0, _⟩ => show win1_0.index t (0 : Fin 2) * _ + 1 * (y 0).val = (y 0).val; rw [e0]; omega
  | ⟨1, _⟩ => show win1_0.index t (1 : Fin 2) * _ + 1 * (y 1).val = (y 1).val; rw [e1]; omega

/-- The state block at a point of layer `l`. -/
theorem iblk1_1_eq (t : Fin cfg1.N) (l : Fin 4) (hl : t.val / 3 = l.val) (hid : S4x1x1024.Idx → Elt Ideal .f32)
    (h : (V c main_arg1 : S4x1x1024.Idx → Elt Ideal .f32) = hid) :
    (iblk1 V c 1 t : S1x1x1024.Idx → Elt Ideal .f32) = hidBlk hid l := by
  obtain ⟨-, -, e0, e1, e2, -⟩ := idx1 t
  funext y
  show V c main_arg1 (((cfg1.win 1).blk t).view.emb y) = hid _
  rw [h]
  refine congrArg _ ?_
  funext a; apply Fin.ext
  match a with
  | ⟨0, _⟩ => show win1_1.index t (0 : Fin 3) * 1 + 1 * (y 0).val = l.val; rw [e0]; have hy : (y 0).val < 1 := (y 0).isLt; omega
  | ⟨1, _⟩ => show win1_1.index t (1 : Fin 3) * 1 + 1 * (y 1).val = (y 1).val; rw [e1]; omega
  | ⟨2, _⟩ => show win1_1.index t (2 : Fin 3) * 1024 + 1 * (y 2).val = (y 2).val; rw [e2]; omega

/-- The weight block at point `3·l + g`. -/
theorem iblk1_2_eq (t : Fin cfg1.N) (l : Fin 4) (g : Fin 3) (hl : t.val = 3 * l.val + g.val) (W : S4x3072x1024.Idx → Elt Ideal .f32)
    (h : (V c main_v13 : S12x1024x1024.Idx → Elt Ideal .f32) = shapeCast S12x1024x1024 W shapeCasts_S4x3072x1024_S12x1024x1024) :
    (iblk1 V c 2 t : S1x1024x1024.Idx → Elt Ideal .f32) = wBlk W l g := by
  obtain ⟨-, -, -, -, -, e0, e1, e2, -⟩ := idx1 t
  funext y
  show V c main_v13 (((cfg1.win 2).blk t).view.emb y) = (shapeCast S12x1024x1024 W shapeCasts_S4x3072x1024_S12x1024x1024 : S12x1024x1024.Idx → Elt Ideal .f32) _
  rw [h]
  refine congrArg _ ?_
  funext a; apply Fin.ext
  match a with
  | ⟨0, _⟩ => show win1_2.index t (0 : Fin 3) * 1 + 1 * (y 0).val = 3 * l.val + g.val; rw [e0]; have hy : (y 0).val < 1 := (y 0).isLt; omega
  | ⟨1, _⟩ => show win1_2.index t (1 : Fin 3) * 1024 + 1 * (y 1).val = (y 1).val; rw [e1]; omega
  | ⟨2, _⟩ => show win1_2.index t (2 : Fin 3) * 1024 + 1 * (y 2).val = (y 2).val; rw [e2]; omega

/-- The weight block at point `3·l + g`. -/
theorem iblk1_3_eq (t : Fin cfg1.N) (l : Fin 4) (g : Fin 3) (hl : t.val = 3 * l.val + g.val) (W : S4x3072x1024.Idx → Elt Ideal .f32)
    (h : (V c main_v14 : S12x1024x1024.Idx → Elt Ideal .f32) = shapeCast S12x1024x1024 W shapeCasts_S4x3072x1024_S12x1024x1024) :
    (iblk1 V c 3 t : S1x1024x1024.Idx → Elt Ideal .f32) = wBlk W l g := by
  obtain ⟨-, -, -, -, -, -, -, -, e0, e1, e2, -⟩ := idx1 t
  funext y
  show V c main_v14 (((cfg1.win 3).blk t).view.emb y) = (shapeCast S12x1024x1024 W shapeCasts_S4x3072x1024_S12x1024x1024 : S12x1024x1024.Idx → Elt Ideal .f32) _
  rw [h]
  refine congrArg _ ?_
  funext a; apply Fin.ext
  match a with
  | ⟨0, _⟩ => show win1_3.index t (0 : Fin 3) * 1 + 1 * (y 0).val = 3 * l.val + g.val; rw [e0]; have hy : (y 0).val < 1 := (y 0).isLt; omega
  | ⟨1, _⟩ => show win1_3.index t (1 : Fin 3) * 1024 + 1 * (y 1).val = (y 1).val; rw [e1]; omega
  | ⟨2, _⟩ => show win1_3.index t (2 : Fin 3) * 1024 + 1 * (y 2).val = (y 2).val; rw [e2]; omega

/-- The bias block at point `3·l + g`. -/
theorem iblk1_4_eq (t : Fin cfg1.N) (l : Fin 4) (g : Fin 3) (hl : t.val = 3 * l.val + g.val) (b : S4x3072.Idx → Elt Ideal .f32)
    (h : (V c main_v15 : S12x1x1024.Idx → Elt Ideal .f32) = shapeCast S12x1x1024 b shapeCasts_S4x3072_S12x1x1024) :
    (iblk1 V c 4 t : S1x1x1024.Idx → Elt Ideal .f32) = bBlk b l g := by
  obtain ⟨-, -, -, -, -, -, -, -, -, -, -, e0, e1, e2, -⟩ := idx1 t
  funext y
  show V c main_v15 (((cfg1.win 4).blk t).view.emb y) = (shapeCast S12x1x1024 b shapeCasts_S4x3072_S12x1x1024 : S12x1x1024.Idx → Elt Ideal .f32) _
  rw [h]
  refine congrArg _ ?_
  funext a; apply Fin.ext
  match a with
  | ⟨0, _⟩ => show win1_4.index t (0 : Fin 3) * 1 + 1 * (y 0).val = 3 * l.val + g.val; rw [e0]; have hy : (y 0).val < 1 := (y 0).isLt; omega
  | ⟨1, _⟩ => show win1_4.index t (1 : Fin 3) * 1 + 1 * (y 1).val = (y 1).val; rw [e1]; omega
  | ⟨2, _⟩ => show win1_4.index t (2 : Fin 3) * 1024 + 1 * (y 2).val = (y 2).val; rw [e2]; omega

/-- The bias block at point `3·l + g`. -/
theorem iblk1_5_eq (t : Fin cfg1.N) (l : Fin 4) (g : Fin 3) (hl : t.val = 3 * l.val + g.val) (b : S4x3072.Idx → Elt Ideal .f32)
    (h : (V c main_v16 : S12x1x1024.Idx → Elt Ideal .f32) = shapeCast S12x1x1024 b shapeCasts_S4x3072_S12x1x1024) :
    (iblk1 V c 5 t : S1x1x1024.Idx → Elt Ideal .f32) = bBlk b l g := by
  obtain ⟨-, -, -, -, -, -, -, -, -, -, -, -, -, -, e0, e1, e2, -⟩ := idx1 t
  funext y
  show V c main_v16 (((cfg1.win 5).blk t).view.emb y) = (shapeCast S12x1x1024 b shapeCasts_S4x3072_S12x1x1024 : S12x1x1024.Idx → Elt Ideal .f32) _
  rw [h]
  refine congrArg _ ?_
  funext a; apply Fin.ext
  match a with
  | ⟨0, _⟩ => show win1_5.index t (0 : Fin 3) * 1 + 1 * (y 0).val = 3 * l.val + g.val; rw [e0]; have hy : (y 0).val < 1 := (y 0).isLt; omega
  | ⟨1, _⟩ => show win1_5.index t (1 : Fin 3) * 1 + 1 * (y 1).val = (y 1).val; rw [e1]; omega
  | ⟨2, _⟩ => show win1_5.index t (2 : Fin 3) * 1024 + 1 * (y 2).val = (y 2).val; rw [e2]; omega

/-- The region's arrays, as the values the host side gives them. -/
structure Finds (x0 : S1x1024.Idx → Elt Ideal .f32) (hid : S4x1x1024.Idx → Elt Ideal .f32)
    (Wih Whh : S4x3072x1024.Idx → Elt Ideal .f32) (bih bhh : S4x3072.Idx → Elt Ideal .f32) : Prop where
  hx : (V c main_v12_1 : S1x1024.Idx → Elt Ideal .f32) = x0
  hh : (V c main_arg1 : S4x1x1024.Idx → Elt Ideal .f32) = hid
  hW : (V c main_v13 : S12x1024x1024.Idx → Elt Ideal .f32) = shapeCast S12x1024x1024 Wih shapeCasts_S4x3072x1024_S12x1024x1024
  hU : (V c main_v14 : S12x1024x1024.Idx → Elt Ideal .f32) = shapeCast S12x1024x1024 Whh shapeCasts_S4x3072x1024_S12x1024x1024
  hb : (V c main_v15 : S12x1x1024.Idx → Elt Ideal .f32) = shapeCast S12x1x1024 bih shapeCasts_S4x3072_S12x1x1024
  hc : (V c main_v16 : S12x1x1024.Idx → Elt Ideal .f32) = shapeCast S12x1x1024 bhh shapeCasts_S4x3072_S12x1x1024

variable {x0 : S1x1024.Idx → Elt Ideal .f32} {hid : S4x1x1024.Idx → Elt Ideal .f32}
  {Wih Whh : S4x3072x1024.Idx → Elt Ideal .f32} {bih bhh : S4x3072.Idx → Elt Ideal .f32}

/-- The blocks at point `3·l + g`. -/
theorem pt1_eq (l : Fin 4) (g : Fin 3) : (pt1 (3 * l.val + g.val)).val = 3 * l.val + g.val := by
  show (3 * l.val + g.val) % 12 = _
  have := l.isLt; have := g.isLt; omega
theorem b1_1_eq (F' : Finds V c x0 hid Wih Whh bih bhh) (l : Fin 4) (g : Fin 3) : b1_1 V c (3 * l.val + g.val) = hidBlk hid l := by
  unfold b1_1; exact iblk1_1_eq V c _ l (by rw [pt1_eq]; have := g.isLt; omega) hid F'.hh
theorem b1_2_eq (F' : Finds V c x0 hid Wih Whh bih bhh) (l : Fin 4) (g : Fin 3) : b1_2 V c (3 * l.val + g.val) = wBlk Wih l g := by
  unfold b1_2; exact iblk1_2_eq V c _ l g (pt1_eq l g) Wih F'.hW
theorem b1_3_eq (F' : Finds V c x0 hid Wih Whh bih bhh) (l : Fin 4) (g : Fin 3) : b1_3 V c (3 * l.val + g.val) = wBlk Whh l g := by
  unfold b1_3; exact iblk1_3_eq V c _ l g (pt1_eq l g) Whh F'.hU
theorem b1_4_eq (F' : Finds V c x0 hid Wih Whh bih bhh) (l : Fin 4) (g : Fin 3) : b1_4 V c (3 * l.val + g.val) = bBlk bih l g := by
  unfold b1_4; exact iblk1_4_eq V c _ l g (pt1_eq l g) bih F'.hb
theorem b1_5_eq (F' : Finds V c x0 hid Wih Whh bih bhh) (l : Fin 4) (g : Fin 3) : b1_5 V c (3 * l.val + g.val) = bBlk bhh l g := by
  unfold b1_5; exact iblk1_5_eq V c _ l g (pt1_eq l g) bhh F'.hc

/-- What a layer's third point stores, before its re-laying into the output block or the input row: the layer function. -/
theorem layer_eq (F' : Finds V c x0 hid Wih Whh bih bhh) (l : Fin 4) (x : S1x1024.Idx → Elt Ideal .f32) :
    k1_pay2 (F := Ideal) (k1_pay6 (b1_1 V c (3 * l.val + 2))) (k1_pay7 x (b1_2 V c (3 * l.val + 2)) (b1_4 V c (3 * l.val + 2)))
      (k1_pay8 (b1_1 V c (3 * l.val + 2)) (b1_3 V c (3 * l.val + 2)) (b1_5 V c (3 * l.val + 2)))
      (rAt V c x (3 * l.val + 2 - 2)) (zAt V c x (3 * l.val + 2 - 1)) = gruLayerK x hid Wih Whh bih bhh l := by
  have e0 : 3 * l.val + 2 - 2 = 3 * l.val + (0 : Fin 3).val := by show _ = 3 * l.val + 0; omega
  have e1 : 3 * l.val + 2 - 1 = 3 * l.val + (1 : Fin 3).val := by show _ = 3 * l.val + 1; omega
  have e2 : 3 * l.val + 2 = 3 * l.val + (2 : Fin 3).val := rfl
  unfold rAt zAt
  rw [e0, e1, e2]
  simp only [b1_1_eq V c F', b1_2_eq V c F', b1_3_eq V c F', b1_4_eq V c F', b1_5_eq V c F']
  rfl

theorem xin_eq (F' : Finds V c x0 hid Wih Whh bih bhh) : ∀ l : ℕ, l ≤ 4 → xin V c l = xsK x0 hid Wih Whh bih bhh l
  | 0, _ => by
    show k1_pay5 (b1_0 V c 0) = x0
    unfold k1_pay5 b1_0
    dsimp only
    simp only [shapeCast_self]
    rw [iblk1_0_whole, F'.hx]
  | l + 1, hl => by
    have hl' : l < 4 := by omega
    show xOf V c (xin V c l) (3 * l + 2) = _
    rw [xin_eq F' l (by omega)]
    show _ = (if h : l < 4 then gruLayerK (xsK x0 hid Wih Whh bih bhh l) hid Wih Whh bih bhh ⟨l, h⟩ else xsK x0 hid Wih Whh bih bhh l)
    rw [dif_pos hl']
    unfold xOf k1_pay4
    rw [shapeCast_self]
    exact layer_eq V c F' ⟨l, hl'⟩ _

theorem mem_blk1_6 (t : Fin cfg1.N) (i : S4x1x1024.Idx) :
    i ∈ ((cfg1.win 6).blk t).view.set ↔ ∀ a : Fin 3, win1_6.index t a * S1x1x1024.size a ≤ (i a).val ∧ (i a).val < win1_6.index t a * S1x1x1024.size a + S1x1x1024.size a := by
  show i ∈ ((View.whole main_v17).slice (win1_6.rect t)).set ↔ _
  rw [View.set_slice_whole, Rect.mem_set_unit]
  exact Iff.rfl

/-- The output array after the region: the layers' new state rows stacked. -/
theorem arr1_6 (F' : Finds V c x0 hid Wih Whh bih bhh) :
    ((dat1 V c).arrAt 6 cfg1.N : S4x1x1024.Idx → Elt Ideal .f32) = hidK (fun l : Fin 4 => xsK x0 hid Wih Whh bih bhh (l.val + 1)) := by
  refine (dat1 V c).arrAt_eq_of_cover 6 (hidK (fun l : Fin 4 => xsK x0 hid Wih Whh bih bhh (l.val + 1))) (fun t hf => ?_) (fun i => ?_)
  · have h3 : t.val % 3 = 2 := (flush1_6 t).mp hf
    have ht : t.val < 12 := lt_of_lt_of_eq t.isLt N1
    have hl : t.val / 3 < 4 := by omega
    have ht2 : t.val = 3 * (t.val / 3) + 2 := by omega
    obtain ⟨-, -, -, -, -, -, -, -, -, -, -, -, -, -, -, -, -, e0, e1, e2⟩ := idx1 t
    show (cfg1.win 6).cut (grid1.coords t) ((dat1 V c).after 6 t) = _
    rw [after1_6, xin_eq V c F' _ (by omega)]
    refine funext fun (y : S1x1x1024.Idx) => ?_
    show _ = hidK (fun l : Fin 4 => xsK x0 hid Wih Whh bih bhh (l.val + 1)) (((cfg1.win 6).blk t).view.emb y)
    have hemb : ((cfg1.win 6).blk t).view.emb y = (ix3 (⟨t.val / 3, hl⟩ : Fin 4) (0 : Fin 1) (y 2 : Fin 1024) : S4x1x1024.Idx) := by
      funext a; apply Fin.ext
      match a with
      | ⟨0, _⟩ => show win1_6.index t (0 : Fin 3) * 1 + 1 * (y 0).val = t.val / 3; rw [e0]; have hy : (y 0).val < 1 := (y 0).isLt; omega
      | ⟨1, _⟩ => show win1_6.index t (1 : Fin 3) * 1 + 1 * (y 1).val = 0; rw [e1]; have hy : (y 1).val < 1 := (y 1).isLt; omega
      | ⟨2, _⟩ => show win1_6.index t (2 : Fin 3) * 1024 + 1 * (y 2).val = (y 2).val; rw [e2]; omega
    rw [hemb]
    show _ = xsK x0 hid Wih Whh bih bhh (t.val / 3 + 1) (ix2 (0 : Fin 1) (y 2 : Fin 1024))
    show _ = (if h : t.val / 3 < 4 then gruLayerK (xsK x0 hid Wih Whh bih bhh (t.val / 3)) hid Wih Whh bih bhh ⟨t.val / 3, h⟩ else _) _
    rw [dif_pos hl, ← layer_eq V c F' ⟨t.val / 3, hl⟩ _]
    unfold outOf k1_pay3
    show shapeCast S1x1x1024 _ shapeCasts_S1x1024_S1x1x1024 y = _
    rw [shapeCast_addUnit_apply ![1, 1024] _ shapeCasts_S1x1024_S1x1x1024 y]
    show k1_pay2 _ _ _ _ _ _ = k1_pay2 _ _ _ _ _ _
    have hv : (3 * (⟨t.val / 3, hl⟩ : Fin 4).val + 2) = t.val := ht2.symm
    rw [hv]
    refine congrArg _ ?_
    funext a
    match a with
    | ⟨0, _⟩ => exact Fin.ext (by show (y 1).val = 0; have hy : (y 1).val < 1 := (y 1).isLt; omega)
    | ⟨1, _⟩ => rfl
  · have hi0 : (i 0).val < 4 := (i 0).isLt
    have hi1 : (i 1).val < 1 := (i 1).isLt
    have hi2 : (i 2).val < 1024 := (i 2).isLt
    have hlt : 3 * (i 0).val + 2 < cfg1.N := lt_of_lt_of_eq (by omega) N1.symm
    refine ⟨⟨3 * (i 0).val + 2, hlt⟩, (flush1_6 _).mpr (by show (3 * (i 0).val + 2) % 3 = 2; omega), ?_⟩
    rw [mem_blk1_6]
    obtain ⟨-, -, -, -, -, -, -, -, -, -, -, -, -, -, -, -, -, e0, e1, e2⟩ := idx1 ⟨3 * (i 0).val + 2, hlt⟩
    intro a
    match a with
    | ⟨0, _⟩ => show win1_6.index _ (0 : Fin 3) * 1 ≤ (i 0).val ∧ (i 0).val < win1_6.index _ (0 : Fin 3) * 1 + 1; rw [e0]; show (3 * (i 0).val + 2) / 3 * 1 ≤ (i 0).val ∧ (i 0).val < (3 * (i 0).val + 2) / 3 * 1 + 1; omega
    | ⟨1, _⟩ => show win1_6.index _ (1 : Fin 3) * 1 ≤ (i 1).val ∧ (i 1).val < win1_6.index _ (1 : Fin 3) * 1 + 1; rw [e1]; omega
    | ⟨2, _⟩ => show win1_6.index _ (2 : Fin 3) * 1024 ≤ (i 2).val ∧ (i 2).val < win1_6.index _ (2 : Fin 3) * 1024 + 1024; rw [e2]; omega

end Cert.KernelIdeal.Val

end
-- ==== Proof.KI.Val2.lean ====
import proofs.«145509_j26731876451021_2_alg».proof.Proof.KI.R2
import proofs.«145509_j26731876451021_2_alg».proof.Proof.Bridge.Defs2
import Idealize.ShloMosaic.Lib.Pipeline.Value
import Idealize.ShloMosaic.Lib.ValueIdx

/-! What the third region leaves in its output array, at the extended reals: the projected row `logitsK` of the input row,
the projection matrix and the bias. Tile `t` reads the whole input row (block index zero), rows `3200·t …` of the matrix and
entries `3200·t …` of the bias row, and writes columns `3200·t …` of the output; the twenty tiles cover it. -/

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand Cert.Bridge

theorem hz2' : (![0, 0] : Fin 2 → Nat) = fun _ => 0 := by funext a; fin_cases a <;> rfl

/-- The block indices, decided over the grid: the input row's are zero; the matrix's is the tile number on the row axis;
    the bias's and the output's are the tile number on the column axis. -/
theorem idx2 : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

variable (V : (c : Dev nD) → (b : Ref sig .tc) → Buf (Elt Ideal) ((c : Thread nD τ).loc b)) (c : Dev nD)

theorem iblk2_0_whole (t : Fin cfg2.N) :
    (iblk2 V c 0 t : S1x1024.Idx → Elt Ideal .f32) = (V c main_v19 : S1x1024.Idx → Elt Ideal .f32) := by
  obtain ⟨e0, e1, -⟩ := idx2 t
  funext y
  show V c main_v19 (((cfg2.win 0).blk t).view.emb y) = V c main_v19 y
  refine congrArg _ ?_
  funext a; apply Fin.ext
  match a with
  | ⟨0, _⟩ => show win2_0.index t (0 : Fin 2) * _ + 1 * (y 0).val = (y 0).val; rw [e0]; omega
  | ⟨1, _⟩ => show win2_0.index t (1 : Fin 2) * _ + 1 * (y 1).val = (y 1).val; rw [e1]; omega

theorem N2 : cfg2.N = 20 := N_2

/-- Tile `t`'s block of the matrix and of the bias row, as the functions `oWBlk`, `obBlk` of the arrays. -/
theorem iblk2_1_eq (t : Fin cfg2.N) (oW : S64000x1024.Idx → Elt Ideal .f32) (h : (V c main_arg12 : S64000x1024.Idx → Elt Ideal .f32) = oW) :
    (iblk2 V c 1 t : S3200x1024.Idx → Elt Ideal .f32) = oWBlk oW ⟨t.val, lt_of_lt_of_eq t.isLt N2⟩ := by
  obtain ⟨-, -, e0, e1, -⟩ := idx2 t
  funext y
  show V c main_arg12 (((cfg2.win 1).blk t).view.emb y) = oW _
  rw [h]
  refine congrArg _ ?_
  funext a; apply Fin.ext
  match a with
  | ⟨0, _⟩ => show win2_1.index t (0 : Fin 2) * 3200 + 1 * (y 0).val = 3200 * t.val + (y 0).val; rw [e0]; omega
  | ⟨1, _⟩ => show win2_1.index t (1 : Fin 2) * 1024 + 1 * (y 1).val = (y 1).val; rw [e1]; omega

theorem iblk2_2_eq (t : Fin cfg2.N) (ob : S64000.Idx → Elt Ideal .f32)
    (h : (V c main_v20 : S1x64000.Idx → Elt Ideal .f32) = shapeCast S1x64000 ob shapeCasts_S64000_S1x64000) :
    (iblk2 V c 2 t : S1x3200.Idx → Elt Ideal .f32) = obBlk ob ⟨t.val, lt_of_lt_of_eq t.isLt N2⟩ := by
  obtain ⟨-, -, -, -, e0, e1, -⟩ := idx2 t
  funext y
  show V c main_v20 (((cfg2.win 2).blk t).view.emb y) = (shapeCast S1x64000 ob shapeCasts_S64000_S1x64000 : S1x64000.Idx → Elt Ideal .f32) _
  rw [h]
  refine congrArg _ ?_
  funext a; apply Fin.ext
  match a with
  | ⟨0, _⟩ => show win2_2.index t (0 : Fin 2) * 1 + 1 * (y 0).val = 0; rw [e0]; have hy : (y 0).val < 1 := (y 0).isLt; omega
  | ⟨1, _⟩ => show win2_2.index t (1 : Fin 2) * 3200 + 1 * (y 1).val = 3200 * t.val + (y 1).val; rw [e1]; omega

theorem mem_blk2_3 (t : Fin cfg2.N) (i : S1x64000.Idx) :
    i ∈ ((cfg2.win 3).blk t).view.set ↔ ∀ a : Fin 2, win2_3.index t a * S1x3200.size a ≤ (i a).val ∧ (i a).val < win2_3.index t a * S1x3200.size a + S1x3200.size a := by
  show i ∈ ((View.whole main_v21).slice (win2_3.rect t)).set ↔ _
  rw [View.set_slice_whole, Rect.mem_set_unit]
  exact Iff.rfl

/-- The output array after the region. -/
theorem arr2_3 (x : S1x1024.Idx → Elt Ideal .f32) (oW : S64000x1024.Idx → Elt Ideal .f32) (ob : S64000.Idx → Elt Ideal .f32)
    (hx : (V c main_v19 : S1x1024.Idx → Elt Ideal .f32) = x) (hW : (V c main_arg12 : S64000x1024.Idx → Elt Ideal .f32) = oW)
    (hb : (V c main_v20 : S1x64000.Idx → Elt Ideal .f32) = shapeCast S1x64000 ob shapeCasts_S64000_S1x64000) :
    ((dat2 V c).arrAt 3 cfg2.N : S1x64000.Idx → Elt Ideal .f32) = logitsK x oW ob := by
  refine (dat2 V c).arrAt_eq_of_cover 3 (logitsK x oW ob) (fun t _ => ?_) (fun i => ?_)
  · show (cfg2.win 3).cut (grid2.coords t) ((dat2 V c).after 3 t) = _
    rw [after2_3]
    unfold out2_3
    rw [View.canon_unit_zero hz2']
    simp only [View.ld_unit_zero (S := S1x1024) hz2', View.ld_unit_zero (S := S3200x1024) hz2', View.ld_unit_zero (S := S1x3200) hz2']
    rw [iblk2_0_whole, iblk2_1_eq V c t oW hW, iblk2_2_eq V c t ob hb, hx]
    obtain ⟨-, -, -, -, -, -, e0, e1⟩ := idx2 t
    have ht : t.val < 20 := lt_of_lt_of_eq t.isLt N2
    refine funext fun (y : S1x3200.Idx) => ?_
    show _ = logitsK x oW ob (((cfg2.win 3).blk t).view.emb y)
    have hy0 : (y 0).val = 0 := by have h : (y 0).val < 1 := (y 0).isLt; omega
    have hy1 : (y 1 : Fin 3200).val < 3200 := (y 1 : Fin 3200).isLt
    have hemb : ((cfg2.win 3).blk t).view.emb y = (ix2 (0 : Fin 1) (⟨3200 * t.val + (y 1 : Fin 3200).val, by omega⟩ : Fin 64000) : S1x64000.Idx) := by
      funext a; apply Fin.ext
      match a with
      | ⟨0, _⟩ => show win2_3.index t (0 : Fin 2) * 1 + 1 * (y 0).val = 0; rw [e0]; omega
      | ⟨1, _⟩ => show win2_3.index t (1 : Fin 2) * 3200 + 1 * (y 1).val = 3200 * t.val + (y 1).val; rw [e1]; omega
    rw [hemb]
    unfold logitsK
    have hd : (3200 * t.val + (y 1 : Fin 3200).val) / 3200 = t.val := by omega
    have hm : (3200 * t.val + (y 1 : Fin 3200).val) % 3200 = (y 1 : Fin 3200).val := by omega
    have hq : (⟨((ix2 (0 : Fin 1) (⟨3200 * t.val + (y 1 : Fin 3200).val, by omega⟩ : Fin 64000) : S1x64000.Idx) 1 : Fin 64000).val / 3200, by
        have h1 : ((ix2 (0 : Fin 1) (⟨3200 * t.val + (y 1 : Fin 3200).val, by omega⟩ : Fin 64000) : S1x64000.Idx) 1 : Fin 64000).val < 64000 := Fin.isLt _; omega⟩ : Fin 20) = ⟨t.val, ht⟩ := Fin.ext hd
    have hr : (⟨((ix2 (0 : Fin 1) (⟨3200 * t.val + (y 1 : Fin 3200).val, by omega⟩ : Fin 64000) : S1x64000.Idx) 1 : Fin 64000).val % 3200, Nat.mod_lt _ (by decide)⟩ : Fin 3200) = (y 1 : Fin 3200) := Fin.ext hm
    rw [hq, hr]
    refine congrArg _ ?_
    funext a
    match a with
    | ⟨0, _⟩ => exact Fin.ext (by show (y 0).val = 0; exact hy0)
    | ⟨1, _⟩ => rfl
  · have hi0 : (i 0).val < 1 := (i 0).isLt
    have hi1 : (i 1).val < 64000 := (i 1).isLt
    refine ⟨⟨(i 1).val / 3200, lt_of_lt_of_eq (by omega) N2.symm⟩, flush2_3 _, ?_⟩
    rw [mem_blk2_3]
    obtain ⟨-, -, -, -, -, -, e0, e1⟩ := idx2 ⟨(i 1).val / 3200, lt_of_lt_of_eq (by omega) N2.symm⟩
    intro a
    match a with
    | ⟨0, _⟩ => show win2_3.index _ (0 : Fin 2) * 1 ≤ (i 0).val ∧ (i 0).val < win2_3.index _ (0 : Fin 2) * 1 + 1; rw [e0]; omega
    | ⟨1, _⟩ => show win2_3.index _ (1 : Fin 2) * 3200 ≤ (i 1).val ∧ (i 1).val < win2_3.index _ (1 : Fin 2) * 3200 + 3200; rw [e1]; show (i 1).val / 3200 * 3200 ≤ (i 1).val ∧ (i 1).val < (i 1).val / 3200 * 3200 + 3200; omega

end Cert.KernelIdeal.Val

end
-- ==== Proof.KI.ValRun.lean ====
import proofs.«145509_j26731876451021_2_alg».proof.Proof.KI.Run
import proofs.«145509_j26731876451021_2_alg».proof.Proof.KI.Val0
import proofs.«145509_j26731876451021_2_alg».proof.Proof.KI.Val1
import proofs.«145509_j26731876451021_2_alg».proof.Proof.KI.Val2
import Idealize.ShloMosaic.Lib.StableHlo.Run
import Idealize.ShloMosaic.Lib.Pipeline.Value
import Idealize.ShloMosaic.Lib.ValueIdx

/-! The idealized kernel's three results as functions of its fourteen arguments, at the extended reals: the fold of the
buffer contents through the program read at the result buffers. The host stretches' values are their operations' terms; the
regions' output arrays are `awK`, `x0K`, the stacked layer rows `hidK` and the projected row `logitsK`; the last host stretch
is the log-softmax of the projected row re-laid as two rows. -/

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat Cfg Window)
open Cert.KernelIdeal Cert.KernelIdeal.Gen Cert.KernelIdeal.Hand Cert.Bridge

variable (m : (ℓ : Loc nD τ sig) → Buf (Elt Ideal) ℓ) (ρ : Dev nD → PrngReg) (c : Dev nD)

/-- The argument arrays. -/
abbrev A (b : Ref sig .tc) : Buf (Elt Ideal) ((c : Thread nD τ).loc b) := m ((c : Thread nD τ).loc b)

/-! ## The first host stretch and the first region -/

theorem U1_of (b : Ref sig .tc) (h : b ∉ hostOps0_W) : U1 m ρ c b = A m c b :=
  StableHlo.after_of_writes_sub hostOps0 _ hostOps0_writes h
theorem U1_v7 : (U1 m ρ c main_v7 : (⟨S1x2048, .f32⟩ : BufTy).Contents (Elt Ideal)) = embK (A m c main_arg0) (A m c main_arg3) := by
  dsimp only [U1, W1, hostOps0]; after_results; rfl
theorem U1_v9 : (U1 m ρ c main_v9 : (⟨S1x1024, .f32⟩ : BufTy).Contents (Elt Ideal)) = h0K (A m c main_arg1) := by
  dsimp only [U1, W1, hostOps0]; after_results; rfl
theorem U1_v10 : (U1 m ρ c main_v10 : (⟨S1x128, .f32⟩ : BufTy).Contents (Elt Ideal)) = shapeCast S1x128 (A m c main_arg5) shapeCasts_S128_S1x128 := by
  dsimp only [U1, W1, hostOps0]; after_results; rfl
theorem U1_v11 : (U1 m ρ c main_v11 : (⟨S1x1024, .f32⟩ : BufTy).Contents (Elt Ideal)) = shapeCast S1x1024 (A m c main_arg7) shapeCasts_S1024_S1x1024 := by
  dsimp only [U1, W1, hostOps0]; after_results; rfl

/-- The attention weights. -/
def awV : (⟨S1x128, .f32⟩ : BufTy).Contents (Elt Ideal) :=
  awK (embK (A m c main_arg0) (A m c main_arg3)) (h0K (A m c main_arg1)) (A m c main_arg4) (shapeCast S1x128 (A m c main_arg5) shapeCasts_S128_S1x128)
/-- The recurrent unit's first input row. -/
def x0V : (⟨S1x1024, .f32⟩ : BufTy).Contents (Elt Ideal) :=
  x0K (embK (A m c main_arg0) (A m c main_arg3)) (h0K (A m c main_arg1)) (A m c main_arg4) (shapeCast S1x128 (A m c main_arg5) shapeCasts_S128_S1x128)
    (A m c main_arg2) (A m c main_arg6) (shapeCast S1x1024 (A m c main_arg7) shapeCasts_S1024_S1x1024)

theorem W2_v12_0 : (W2 m ρ c (Proc.devRef .tc main_v12_0) : (⟨S1x128, .f32⟩ : BufTy).Contents (Elt Ideal)) = awV m c := by
  refine (W2_arr m ρ c 7).trans ((arr0_7 (U1 m ρ) c).trans ?_)
  unfold awV
  rw [U1_v7, U1_v9, U1_v10, U1_of m ρ c main_arg4 (by decide)]
theorem W2_v12_1 : (W2 m ρ c (Proc.devRef .tc main_v12_1) : (⟨S1x1024, .f32⟩ : BufTy).Contents (Elt Ideal)) = x0V m c := by
  refine (W2_arr m ρ c 8).trans ((arr0_8 (U1 m ρ) c).trans ?_)
  unfold x0V
  rw [U1_v7, U1_v9, U1_v10, U1_v11, U1_of m ρ c main_arg4 (by decide), U1_of m ρ c main_arg2 (by decide), U1_of m ρ c main_arg6 (by decide)]

/-- A buffer no window of the first region holds and the first stretch does not write is as launched after both. -/
theorem W2_of (b : Ref sig .tc) (h0 : b ∉ hostOps0_W) (h : ∀ w, Pipeline.arrRef spec0 w ≠ b) :
    W2 m ρ c (Proc.devRef .tc b) = A m c b :=
  (W2_of_ne m ρ c b h).trans (U1_of m ρ c b h0)

/-! ## The second host stretch and the second region -/

theorem U3_of (b : Ref sig .tc) (h : b ∉ hostOps1_W) : U3 m ρ c b = W2 m ρ c (Proc.devRef .tc b) :=
  StableHlo.after_of_writes_sub hostOps1 _ hostOps1_writes h
theorem U3_v13 : (U3 m ρ c main_v13 : (⟨S12x1024x1024, .f32⟩ : BufTy).Contents (Elt Ideal)) = shapeCast S12x1024x1024 (A m c main_arg8) shapeCasts_S4x3072x1024_S12x1024x1024 := by
  have e : (U3 m ρ c main_v13 : (⟨S12x1024x1024, .f32⟩ : BufTy).Contents (Elt Ideal)) = shapeCast S12x1024x1024 (W2 m ρ c (Proc.devRef .tc main_arg8)) shapeCasts_S4x3072x1024_S12x1024x1024 := by
    dsimp only [U3, W3, hostOps1]; after_results; rfl
  rw [e, W2_of m ρ c main_arg8 (by decide) (by decide)]
theorem U3_v14 : (U3 m ρ c main_v14 : (⟨S12x1024x1024, .f32⟩ : BufTy).Contents (Elt Ideal)) = shapeCast S12x1024x1024 (A m c main_arg9) shapeCasts_S4x3072x1024_S12x1024x1024 := by
  have e : (U3 m ρ c main_v14 : (⟨S12x1024x1024, .f32⟩ : BufTy).Contents (Elt Ideal)) = shapeCast S12x1024x1024 (W2 m ρ c (Proc.devRef .tc main_arg9)) shapeCasts_S4x3072x1024_S12x1024x1024 := by
    dsimp only [U3, W3, hostOps1]; after_results; rfl
  rw [e, W2_of m ρ c main_arg9 (by decide) (by decide)]
theorem U3_v15 : (U3 m ρ c main_v15 : (⟨S12x1x1024, .f32⟩ : BufTy).Contents (Elt Ideal)) = shapeCast S12x1x1024 (A m c main_arg10) shapeCasts_S4x3072_S12x1x1024 := by
  have e : (U3 m ρ c main_v15 : (⟨S12x1x1024, .f32⟩ : BufTy).Contents (Elt Ideal)) = shapeCast S12x1x1024 (W2 m ρ c (Proc.devRef .tc main_arg10)) shapeCasts_S4x3072_S12x1x1024 := by
    dsimp only [U3, W3, hostOps1]; after_results; rfl
  rw [e, W2_of m ρ c main_arg10 (by decide) (by decide)]
theorem U3_v16 : (U3 m ρ c main_v16 : (⟨S12x1x1024, .f32⟩ : BufTy).Contents (Elt Ideal)) = shapeCast S12x1x1024 (A m c main_arg11) shapeCasts_S4x3072_S12x1x1024 := by
  have e : (U3 m ρ c main_v16 : (⟨S12x1x1024, .f32⟩ : BufTy).Contents (Elt Ideal)) = shapeCast S12x1x1024 (W2 m ρ c (Proc.devRef .tc main_arg11)) shapeCasts_S4x3072_S12x1x1024 := by
    dsimp only [U3, W3, hostOps1]; after_results; rfl
  rw [e, W2_of m ρ c main_arg11 (by decide) (by decide)]

theorem finds1 : Finds (U3 m ρ) c (x0V m c) (A m c main_arg1) (A m c main_arg8) (A m c main_arg9) (A m c main_arg10) (A m c main_arg11) where
  hx := (U3_of m ρ c main_v12_1 (by decide)).trans (W2_v12_1 m ρ c)
  hh := (U3_of m ρ c main_arg1 (by decide)).trans (W2_of m ρ c main_arg1 (by decide) (by decide))
  hW := U3_v13 m ρ c
  hU := U3_v14 m ρ c
  hb := U3_v15 m ρ c
  hc := U3_v16 m ρ c

/-- The layers' rows: the first input row, then each layer's new state. -/
def xsV (l : ℕ) : (⟨S1x1024, .f32⟩ : BufTy).Contents (Elt Ideal) :=
  xsK (x0V m c) (A m c main_arg1) (A m c main_arg8) (A m c main_arg9) (A m c main_arg10) (A m c main_arg11) l
/-- The stacked new state rows. -/
def hidV : (⟨S4x1x1024, .f32⟩ : BufTy).Contents (Elt Ideal) := hidK (fun l : Fin 4 => xsV m c (l.val + 1))

theorem W4_v17 : (W4 m ρ c (Proc.devRef .tc main_v17) : (⟨S4x1x1024, .f32⟩ : BufTy).Contents (Elt Ideal)) = hidV m c :=
  (W4_arr m ρ c 6).trans (arr1_6 (U3 m ρ) c (finds1 m ρ c))

/-! ## The third host stretch and the third region -/

theorem W4_of (b : Ref sig .tc) (h0 : b ∉ hostOps0_W) (h1 : b ∉ hostOps1_W) (h : ∀ w, Pipeline.arrRef spec0 w ≠ b) (h' : ∀ w, Pipeline.arrRef spec1 w ≠ b) :
    W4 m ρ c (Proc.devRef .tc b) = A m c b :=
  (W4_of_ne m ρ c b h').trans ((U3_of m ρ c b h1).trans (W2_of m ρ c b h0 h))
theorem U5_of (b : Ref sig .tc) (h : b ∉ hostOps2_W) : U5 m ρ c b = W4 m ρ c (Proc.devRef .tc b) :=
  StableHlo.after_of_writes_sub hostOps2 _ hostOps2_writes h
theorem U5_v19 : (U5 m ρ c main_v19 : (⟨S1x1024, .f32⟩ : BufTy).Contents (Elt Ideal)) = lastK (hidV m c) := by
  have e : (U5 m ρ c main_v19 : (⟨S1x1024, .f32⟩ : BufTy).Contents (Elt Ideal)) = lastK (W4 m ρ c (Proc.devRef .tc main_v17)) := by
    dsimp only [U5, W5, hostOps2]; after_results; rfl
  rw [e, W4_v17]
theorem U5_v20 : (U5 m ρ c main_v20 : (⟨S1x64000, .f32⟩ : BufTy).Contents (Elt Ideal)) = shapeCast S1x64000 (A m c main_arg13) shapeCasts_S64000_S1x64000 := by
  have e : (U5 m ρ c main_v20 : (⟨S1x64000, .f32⟩ : BufTy).Contents (Elt Ideal)) = shapeCast S1x64000 (W4 m ρ c (Proc.devRef .tc main_arg13)) shapeCasts_S64000_S1x64000 := by
    dsimp only [U5, W5, hostOps2]; after_results; rfl
  rw [e, W4_of m ρ c main_arg13 (by decide) (by decide) (by decide) (by decide)]

/-- The last layer's row cut out of the stack is the fourth row. -/
theorem lastK_hidK (h : Fin 4 → (S1x1024.Idx → Elt Ideal .f32)) : lastK (hidK h) = h 3 := by
  funext j
  unfold lastK
  rw [shapeCast_dropUnit_apply ![1, 1024] _ shapeCasts_S1x1x1024_S1x1024 j]
  rw [extractStridedSlice_apply ![3, 0, 0] (hidK h) slices_S4x1x1024_S1x1x1024_3_0_0 _ (ix3 (3 : Fin 4) (0 : Fin 1) (j 1 : Fin 1024))
    (fun a => by match a with
      | ⟨0, _⟩ => rfl
      | ⟨1, _⟩ => show (0 : ℕ) = 0 + (j 0).val; have hj : (j 0).val < 1 := (j 0).isLt; omega
      | ⟨2, _⟩ => show (j 1).val = 0 + (j 1).val; omega)]
  show h 3 (ix2 (0 : Fin 1) (j 1 : Fin 1024)) = h 3 j
  refine congrArg _ ?_
  funext a
  match a with
  | ⟨0, _⟩ => exact Fin.ext (by show (0 : ℕ) = (j 0).val; have hj : (j 0).val < 1 := (j 0).isLt; omega)
  | ⟨1, _⟩ => rfl

/-- The projected row. -/
def logitsV : (⟨S1x64000, .f32⟩ : BufTy).Contents (Elt Ideal) := logitsK (xsV m c 4) (A m c main_arg12) (A m c main_arg13)

theorem W6_v21 : (W6 m ρ c (Proc.devRef .tc main_v21) : (⟨S1x64000, .f32⟩ : BufTy).Contents (Elt Ideal)) = logitsV m c := by
  refine (W6_arr m ρ c 3).trans (arr2_3 (U5 m ρ) c (xsV m c 4) (A m c main_arg12) (A m c main_arg13) ?_ ?_ (U5_v20 m ρ c))
  · rw [U5_v19]; unfold hidV; rw [lastK_hidK]; rfl
  · exact (U5_of m ρ c main_arg12 (by decide)).trans (W4_of m ρ c main_arg12 (by decide) (by decide) (by decide) (by decide))

/-! ## The results -/

set_option maxRecDepth 200000 in
theorem W8_v23 : (W8 m ρ c (Proc.devRef .tc main_v23) : (⟨S2x32000, .f32⟩ : BufTy).Contents (Elt Ideal)) = tailK (logitsV m c) := by
  have e : (W8 m ρ c (Proc.devRef .tc main_v23) : (⟨S2x32000, .f32⟩ : BufTy).Contents (Elt Ideal)) = tailK (W6 m ρ c (Proc.devRef .tc main_v21)) := by
    dsimp only [W8, W7, hostOps3_1, hostOps3]; after_results; rfl
  rw [e, W6_v21]
theorem W8_v17 : (W8 m ρ c (Proc.devRef .tc main_v17) : (⟨S4x1x1024, .f32⟩ : BufTy).Contents (Elt Ideal)) = hidV m c :=
  calc W8 m ρ c (Proc.devRef .tc main_v17)
    _ = W7 m ρ c (Proc.devRef .tc main_v17) := StableHlo.after_of_writes_sub hostOps3_1 _ hostOps3_1_writes (by decide)
    _ = W6 m ρ c (Proc.devRef .tc main_v17) := StableHlo.after_of_writes_sub hostOps3 _ hostOps3_writes (by decide)
    _ = W5 m ρ c (Proc.devRef .tc main_v17) := W6_of_ne m ρ c main_v17 (by decide)
    _ = W4 m ρ c (Proc.devRef .tc main_v17) := StableHlo.after_of_writes_sub hostOps2 _ hostOps2_writes (by decide)
    _ = hidV m c := W4_v17 m ρ c
theorem W8_v12_0 : (W8 m ρ c (Proc.devRef .tc main_v12_0) : (⟨S1x128, .f32⟩ : BufTy).Contents (Elt Ideal)) = awV m c :=
  calc W8 m ρ c (Proc.devRef .tc main_v12_0)
    _ = W7 m ρ c (Proc.devRef .tc main_v12_0) := StableHlo.after_of_writes_sub hostOps3_1 _ hostOps3_1_writes (by decide)
    _ = W6 m ρ c (Proc.devRef .tc main_v12_0) := StableHlo.after_of_writes_sub hostOps3 _ hostOps3_writes (by decide)
    _ = W5 m ρ c (Proc.devRef .tc main_v12_0) := W6_of_ne m ρ c main_v12_0 (by decide)
    _ = W4 m ρ c (Proc.devRef .tc main_v12_0) := StableHlo.after_of_writes_sub hostOps2 _ hostOps2_writes (by decide)
    _ = W3 m ρ c (Proc.devRef .tc main_v12_0) := W4_of_ne m ρ c main_v12_0 (by decide)
    _ = W2 m ρ c (Proc.devRef .tc main_v12_0) := StableHlo.after_of_writes_sub hostOps1 _ hostOps1_writes (by decide)
    _ = awV m c := W2_v12_0 m ρ c

/-- THE VALUE RUN: every weakly fair execution terminates with the three results at these functions of the arguments and
    the arguments unchanged. -/
theorem run : θ_run defs (onTc (τ := τ) (main (F := Ideal))) ⟨m, fun _ => 0, ρ⟩ (fun r => ∀ c : Dev nD,
      r.2.mem ((c.tc : Thread nD τ).loc main_v23) = tailK (logitsV m c)
      ∧ r.2.mem ((c.tc : Thread nD τ).loc main_v17) = hidV m c
      ∧ r.2.mem ((c.tc : Thread nD τ).loc main_v12_0) = awV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c _ (mem_uc main_v23 (by decide))).trans (W8_v23 m ρ c),
    (h c _ (mem_uc main_v17 (by decide))).trans (W8_v17 m ρ c),
    (h c _ (mem_uc main_v12_0 (by decide))).trans (W8_v12_0 m ρ c),
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c),
    (h c _ (mem_uc main_arg11 (by decide))).trans (W8_main_arg11 m ρ c),
    (h c _ (mem_uc main_arg12 (by decide))).trans (W8_main_arg12 m ρ c),
    (h c _ (mem_uc main_arg13 (by decide))).trans (W8_main_arg13 m ρ c)⟩) (Hand.run m ρ)

end Cert.KernelIdeal.Val

end
-- ==== Proof.LibLaneMax.lean ====
/-
  General lemmas: a maximum along the last axis of a matrix, and a one-row matrix broadcast over rows, read at an index.

  * `laneMax_ab_apply`: at the ideal values the f32 lane maximum of an `[a, b]` matrix (a
    `vector.multi_reduction <maximumf>` over axis 1 into `[a]`, from the maximum's neutral word) is, at row `p`, the
    fold of `max` from that word's value over the row's entries `v (p, k)`.
  * `broadcastTo_1b_ab_apply`: a one-row matrix `[1, b]` broadcast to `[a, b]` reads, at `(p, q)`, the row's entry `q`.
  * `fold_max_absorb`: the value a fold of `max` starts from is below the fold, so taking `max` with it again changes
    nothing.
-/
import Idealize.ShloMosaic.Lib.Pipeline.Value
import Idealize.ShloMosaic.Lib.ValueIdx
import Idealize.ShloMosaic.PureOps.Ideal.Laws

noncomputable section

namespace Idealize.ShloMosaic.ValueIdx

open Idealize.ShloMosaic

/-- A one-row matrix broadcast over `a` rows reads, at (p, q), the row's entry q. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- At the ideal values an f32 lane maximum of an `[a, b]` matrix is, at row `p`, the fold of `max` over the row's
    entries from the accumulator word's value. -/
theorem laneMax_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin b)).fold max (Ideal.ofBits .f32 acc) (fun k => v (ix2 p k)) :=
  (Ideal.multiReduction_maximumf_single v acc h hφ hacc (ix1 p)).trans
    (congrArg (fun f => (Finset.univ : Finset (Fin b)).fold max (Ideal.ofBits .f32 acc) f)
      (funext fun k => congrArg v (funext fun ax => Fin.ext (by
        match ax with
        | ⟨0, _⟩ => rfl
        | ⟨1, _⟩ => rfl))))

/-- A fold of `max` absorbs the value it starts from. -/
theorem fold_max_absorb {ι : Type} (s : Finset ι) (b : EReal) (f : ι → EReal) :
    max b (s.fold max b f) = s.fold max b f :=
  max_eq_right (Finset.le_fold_max b |>.mpr (Or.inl le_rfl))

end Idealize.ShloMosaic.ValueIdx

end
-- ==== Proof.LibHostRows.lean ====
/-
  General lemmas: the host's keepdims row reductions and scalar / column broadcasts of a matrix `[a, b]`, read at an
  index.

  * `broadcastInDim_rank0_apply`: a rank-0 array broadcast to any shape reads its one element everywhere;
  * `broadcastInDim_a_a1_apply`: a vector `[a]` made the column `[a, 1]` reads, at `(p, u)`, the vector at `p`;
  * `broadcastInDim_a1_ab_apply`: a column `[a, 1]` broadcast to `[a, b]` reads, at `(p, c)`, the column at `(p, 0)`;
  * `hostRowMax_apply`: at the ideal values the host's `reduce` with a `maximum` body over axis 1 of an `[a, b]` matrix
    is, at row `p`, the fold of `max` from the initial value over the row's entries;
  * `hostRowSum_apply`: the host's float sum over axis 1 is, at row `p`, the initial value plus the sum of the row's
    entries.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- A rank-0 array broadcast to any shape reads its one element everywhere. -/
theorem broadcastInDim_rank0_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun ax => ax.elim0)

/-- A vector `[a]` made the column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column `[a, 1]` broadcast to `[a, b]` reads, at `(p, c)`, the column's entry in row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The reduced row index `p` with column `k` put back is `(p, k)`. -/
theorem lift_row {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) :=
  funext fun ax => Fin.ext (by
    match ax with
    | ⟨0, _⟩ => rfl
    | ⟨1, _⟩ => rfl)

/-- The host's `reduce` with a `maximum` body over the columns, at row `p`: the fold of `max` over the row from the
    initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x _ h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- The host's float sum over the columns, at row `p`: the initial value plus the sum of the row. -/
theorem hostRowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  refine congrArg (_ + ·) (Finset.sum_congr rfl fun k _ => ?_)
  exact congrArg x (lift_row h p k)

end Idealize.ShloMosaic.ValueIdx

end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.Bridge.Softmax.lean ====
import proofs.«145509_j26731876451021_2_alg».proof.Proof.Bridge.Defs
import proofs.«145509_j26731876451021_2_alg».proof.Proof.LibLaneMax
import proofs.«145509_j26731876451021_2_alg».proof.Proof.LibHostRows
import proofs.«145509_j26731876451021_2_alg».proof.Proof.LibKeepdims

/-! The softmax of a one-row matrix `[1, 128]`, as the kernel computes it (lane reductions, a cast `[1] → [1, 1]` and a
    broadcast `[1, 1] → [1, 128]`) and as the reference computes it (host reductions and two broadcasts), both read at an
    index at the extended reals as one function `smx` of the row: `exp (L q - M) / Σ k, exp (L k - M)`, `M` the fold of
    `max` over the row from `-∞`'s word. -/

noncomputable section

open scoped BigOperators

namespace Cert.Bridge

open Idealize.ShloMosaic Idealize.ShloMosaic.ValueIdx Cert.KernelIdeal Cert.KernelIdeal.Gen

/-- The softmax of a row of extended reals at position `q`. -/
def smx (L : Fin 128 → EReal) (q : Fin 128) : EReal :=
  Ideal.div (Ideal.exp (L q - (Finset.univ : Finset (Fin 128)).fold max (Ideal.ofBits .f32 0xFF800000#32) L))
    (∑ k : Fin 128, Ideal.exp (L k - (Finset.univ : Finset (Fin 128)).fold max (Ideal.ofBits .f32 0xFF800000#32) L))

/-! ## The kernel's side -/

/-- The row maximum, kept as a column and broadcast back over the row. -/
def rowMaxK (L : FVec Ideal S1x128 .f32) : FVec Ideal S1x128 .f32 :=
  broadcastTo S1x128
    (shapeCast S1x1
      (maximumf (broadcast S1 (Scalar.ofBits (F := Ideal) .f32 0xFF800000#32))
        (multiReduction .maximumf [1] S1 L 0xFF800000#32 reduces_S1x128_S1 (.inl rfl) rfl))
      shapeCasts_S1_S1x1)
    broadcasts_S1x1_S1x128

/-- The row sum, kept as a column and broadcast back over the row. -/
def rowSumK (E : FVec Ideal S1x128 .f32) : FVec Ideal S1x128 .f32 :=
  broadcastTo S1x128
    (shapeCast S1x1 (multiReduction .add [1] S1 E 0x00000000#32 reduces_S1x128_S1 (.inl rfl) rfl) shapeCasts_S1_S1x1)
    broadcasts_S1x1_S1x128

/-- The kernel's softmax of the logits. -/
def softK (L : FVec Ideal S1x128 .f32) : FVec Ideal S1x128 .f32 :=
  divf (exp (subf L (rowMaxK L))) (rowSumK (exp (subf L (rowMaxK L))))

theorem rowMaxK_apply (L : FVec Ideal S1x128 .f32) (p : Fin 1) (k : Fin 128) :
    rowMaxK L (ix2 p k)
      = (Finset.univ : Finset (Fin 128)).fold max (Ideal.ofBits .f32 0xFF800000#32) (fun k => L (ix2 p k)) :=
  (broadcastTo_a1_ab_apply _ broadcasts_S1x1_S1x128 p k).trans <|
    (shapeCast_a_a1_apply _ shapeCasts_S1_S1x1 p 0).trans <|
      (congrArg (max (Ideal.ofBits .f32 0xFF800000#32))
        (laneMax_ab_apply L 0xFF800000#32 reduces_S1x128_S1 (.inl rfl) rfl p)).trans
        (fold_max_absorb _ _ _)

theorem rowSumK_apply (E : FVec Ideal S1x128 .f32) (p : Fin 1) (k : Fin 128) :
    rowSumK E (ix2 p k) = ∑ k : Fin 128, E (ix2 p k) :=
  (broadcastTo_a1_ab_apply _ broadcasts_S1x1_S1x128 p k).trans <|
    (shapeCast_a_a1_apply _ shapeCasts_S1_S1x1 p 0).trans <|
      laneSum_ab_apply E 0x00000000#32 reduces_S1x128_S1 (.inl rfl) rfl p

theorem softK_apply (L : FVec Ideal S1x128 .f32) (p : Fin 1) (q : Fin 128) :
    softK L (ix2 p q) = smx (fun k => L (ix2 p k)) q := by
  show Ideal.div (Ideal.exp (L (ix2 p q) - rowMaxK L (ix2 p q))) (rowSumK (exp (subf L (rowMaxK L))) (ix2 p q)) = _
  rw [rowSumK_apply, rowMaxK_apply]
  unfold smx
  refine congrArg _ (Finset.sum_congr rfl fun k _ => ?_)
  show Ideal.exp (L (ix2 p k) - rowMaxK L (ix2 p k)) = _
  rw [rowMaxK_apply]

/-! ## The reference's side -/

section Host
variable (hred : S1x128.ReducesTo [1] S1) (hS : 0 < S_.numel)
  (hb0 : S_.BroadcastsInDim S1 (![] : Fin 0 → Fin S1.rank))
  (hb1 : S1.BroadcastsInDim S1x1 (![0] : Fin 1 → Fin S1x1.rank))
  (hb2 : S1x1.BroadcastsInDim S1x128 (![0, 1] : Fin 2 → Fin S1x128.rank))

/-- The host's row maximum from `-∞`, taken once more against `-∞`, broadcast back over the row. -/
def rowMaxR (L : FVec Ideal S1x128 .f32) : FVec Ideal S1x128 .f32 :=
  broadcastInDim S1x128 ![0, 1] hb2
    (broadcastInDim S1x1 ![0] hb1
      (maximumf (broadcastInDim S1 ![] hb0 (constant (F := Ideal) S_ .f32 0xFF800000#32))
        (Host.reduce FloatOps.maximumf L (constant (F := Ideal) S_ .f32 0xFF800000#32) hred hS)))

/-- The host's row sum from zero, broadcast back over the row. -/
def rowSumR (E : FVec Ideal S1x128 .f32) : FVec Ideal S1x128 .f32 :=
  broadcastInDim S1x128 ![0, 1] hb2
    (broadcastInDim S1x1 ![0] hb1 (Host.reduceAdd E (constant (F := Ideal) S_ .f32 0x00000000#32) hred hS))

/-- The reference's softmax of the logits. -/
def softR (L : FVec Ideal S1x128 .f32) : FVec Ideal S1x128 .f32 :=
  Host.divf (Host.exp (subf L (rowMaxR hred hS hb0 hb1 hb2 L)))
    (rowSumR hred hS hb1 hb2 (Host.exp (subf L (rowMaxR hred hS hb0 hb1 hb2 L))))

theorem rowMaxR_apply (L : FVec Ideal S1x128 .f32) (p : Fin 1) (k : Fin 128) :
    rowMaxR hred hS hb0 hb1 hb2 L (ix2 p k)
      = (Finset.univ : Finset (Fin 128)).fold max (Ideal.ofBits .f32 0xFF800000#32) (fun k => L (ix2 p k)) :=
  (broadcastInDim_a1_ab_apply _ hb2 p k).trans <|
    (broadcastInDim_a_a1_apply _ hb1 p 0).trans <|
      (congrArg₂ max (broadcastInDim_rank0_apply (constant (F := Ideal) S_ .f32 0xFF800000#32) hb0 (ix1 p))
        (hostRowMax_apply L (constant (F := Ideal) S_ .f32 0xFF800000#32) hred (by decide) hS p)).trans
        (fold_max_absorb _ _ _)

theorem rowSumR_apply (E : FVec Ideal S1x128 .f32) (p : Fin 1) (k : Fin 128) :
    rowSumR hred hS hb1 hb2 E (ix2 p k) = ∑ k : Fin 128, E (ix2 p k) :=
  (broadcastInDim_a1_ab_apply _ hb2 p k).trans <|
    (broadcastInDim_a_a1_apply _ hb1 p 0).trans <|
      (hostRowSum_apply E (constant (F := Ideal) S_ .f32 0x00000000#32) hred (by decide) hS p).trans
        (by show Ideal.ofBits .f32 0x00000000#32 + _ = _; rw [Ideal.ofBits_zero_f32, zero_add])

theorem softR_apply (L : FVec Ideal S1x128 .f32) (p : Fin 1) (q : Fin 128) :
    softR hred hS hb0 hb1 hb2 L (ix2 p q) = smx (fun k => L (ix2 p k)) q := by
  show Ideal.div (Ideal.exp (L (ix2 p q) - rowMaxR hred hS hb0 hb1 hb2 L (ix2 p q)))
    (rowSumR hred hS hb1 hb2 (Host.exp (subf L (rowMaxR hred hS hb0 hb1 hb2 L))) (ix2 p q)) = _
  rw [rowSumR_apply, rowMaxR_apply]
  unfold smx
  refine congrArg _ (Finset.sum_congr rfl fun k _ => ?_)
  show Ideal.exp (L (ix2 p k) - rowMaxR hred hS hb0 hb1 hb2 L (ix2 p k)) = _
  rw [rowMaxR_apply]

/-- The two softmaxes are one function of the logits. -/
theorem softK_eq_softR (L : FVec Ideal S1x128 .f32) : softK L = softR hred hS hb0 hb1 hb2 L := by
  funext j
  obtain ⟨p, q, rfl⟩ : ∃ (p : Fin 1) (q : Fin 128), j = ix2 p q := ⟨j 0, j 1, eq_ix2 j⟩
  rw [softK_apply, softR_apply]

end Host

end Cert.Bridge

end
-- ==== Proof.Bridge.MatRow.lean ====
import proofs.«145509_j26731876451021_2_alg».proof.Proof.Bridge.Defs
import Idealize.ShloMosaic.Lib.ValueIdx
import Idealize.ShloMosaic.PureOps.Ideal.Laws

/-! A row vector times a matrix, read at an index at the extended reals: the contraction into a zero accumulator is the
    sum of the products over the contracted coordinate, for a matrix contracted on its last axis (`x · Wᵀ`) and for one
    contracted on its first (`x · W`). Then the five contractions of the attention-and-combine region. -/

noncomputable section

open scoped BigOperators

namespace Cert.Bridge

open Idealize.ShloMosaic Idealize.ShloMosaic.ValueIdx Cert.KernelIdeal Cert.KernelIdeal.Gen

/-- `x[1,K] · W[N,K]ᵀ` into a zero accumulator, at `(p, q)`: `Σ k, x (p, k) · W (q, k)`. The four hypotheses say which
    coordinate of the result index or of the contraction index each operand axis reads. -/
theorem matmul_rowT_apply {K N : ℕ} {φ₁ φ₂ : FTy} (D : DotDims ⟨2, ![1, K]⟩ ⟨2, ![N, K]⟩ ⟨2, ![1, N]⟩)
    (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (x : FVec Ideal ⟨2, ![1, K]⟩ φ₁) (W : FVec Ideal ⟨2, ![N, K]⟩ φ₂) (p : Fin 1) (q : Fin N) :
    FloatOps.matmul D none x W (constant (F := Ideal) ⟨2, ![1, N]⟩ .f32 0x00000000#32) (ix2 p q)
      = ∑ k : Fin K, x (ix2 p k) * W (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

/-- `x[1,K] · W[K,N]` into a zero accumulator, at `(p, q)`: `Σ k, x (p, k) · W (k, q)`. -/
theorem matmul_row_apply {K N : ℕ} {φ₁ φ₂ : FTy} (D : DotDims ⟨2, ![1, K]⟩ ⟨2, ![K, N]⟩ ⟨2, ![1, N]⟩)
    (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : FVec Ideal ⟨2, ![1, K]⟩ φ₁) (W : FVec Ideal ⟨2, ![K, N]⟩ φ₂) (p : Fin 1) (q : Fin N) :
    FloatOps.matmul D none x W (constant (F := Ideal) ⟨2, ![1, N]⟩ .f32 0x00000000#32) (ix2 p q)
      = ∑ k : Fin K, x (ix2 p k) * W (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- The embedded tokens against the first band of the attention matrix. -/
theorem mm_S1x2048_S128x2048 (x : FVec Ideal S1x2048 .bf16) (W : FVec Ideal S128x2048 .bf16) (p : Fin 1) (q : Fin 128) :
    matmul dot_S1x2048_S128x2048_S1x128_1_1_0_0_n_n none x W (constant (F := Ideal) S1x128 .f32 0x00000000#32) (ix2 p q)
      = ∑ k : Fin 2048, x (ix2 p k) * W (ix2 q k) :=
  matmul_rowT_apply dot_S1x2048_S128x2048_S1x128_1_1_0_0_n_n rfl rfl
    (fun i q => by
      unfold DotDims.lhsIdx
      rw [dif_neg (show ¬(0 : Fin S1x2048.rank) ∈ dot_S1x2048_S128x2048_S1x128_1_1_0_0_n_n.lhsBatch by decide),
        dif_pos (show (0 : Fin S1x2048.rank) ∈ dot_S1x2048_S128x2048_S1x128_1_1_0_0_n_n.lhsNonContracting by decide)]
      rfl)
    (fun i q => dot_S1x2048_S128x2048_S1x128_1_1_0_0_n_n.lhsIdx_val_of_single rfl i q)
    (fun i q => by
      unfold DotDims.rhsIdx
      rw [dif_neg (show ¬(0 : Fin S128x2048.rank) ∈ dot_S1x2048_S128x2048_S1x128_1_1_0_0_n_n.rhsBatch by decide),
        dif_pos (show (0 : Fin S128x2048.rank) ∈ dot_S1x2048_S128x2048_S1x128_1_1_0_0_n_n.rhsNonContracting by decide)]
      rfl)
    (fun i q => dot_S1x2048_S128x2048_S1x128_1_1_0_0_n_n.rhsIdx_val_of_single rfl i q)
    x W p q

/-- The first layer's state against the second band of the attention matrix. -/
theorem mm_S1x1024_S128x1024 (x : FVec Ideal S1x1024 .bf16) (W : FVec Ideal S128x1024 .bf16) (p : Fin 1) (q : Fin 128) :
    matmul dot_S1x1024_S128x1024_S1x128_1_1_0_0_n_n none x W (constant (F := Ideal) S1x128 .f32 0x00000000#32) (ix2 p q)
      = ∑ k : Fin 1024, x (ix2 p k) * W (ix2 q k) :=
  matmul_rowT_apply dot_S1x1024_S128x1024_S1x128_1_1_0_0_n_n rfl rfl
    (fun i q => by
      unfold DotDims.lhsIdx
      rw [dif_neg (show ¬(0 : Fin S1x1024.rank) ∈ dot_S1x1024_S128x1024_S1x128_1_1_0_0_n_n.lhsBatch by decide),
        dif_pos (show (0 : Fin S1x1024.rank) ∈ dot_S1x1024_S128x1024_S1x128_1_1_0_0_n_n.lhsNonContracting by decide)]
      rfl)
    (fun i q => dot_S1x1024_S128x1024_S1x128_1_1_0_0_n_n.lhsIdx_val_of_single rfl i q)
    (fun i q => by
      unfold DotDims.rhsIdx
      rw [dif_neg (show ¬(0 : Fin S128x1024.rank) ∈ dot_S1x1024_S128x1024_S1x128_1_1_0_0_n_n.rhsBatch by decide),
        dif_pos (show (0 : Fin S128x1024.rank) ∈ dot_S1x1024_S128x1024_S1x128_1_1_0_0_n_n.rhsNonContracting by decide)]
      rfl)
    (fun i q => dot_S1x1024_S128x1024_S1x128_1_1_0_0_n_n.rhsIdx_val_of_single rfl i q)
    x W p q

/-- The attention weights against the encoder outputs. -/
theorem mm_S1x128_S128x1024 (x : FVec Ideal S1x128 .bf16) (W : FVec Ideal S128x1024 .bf16) (p : Fin 1) (q : Fin 1024) :
    matmul dot_S1x128_S128x1024_S1x1024_1_0_0_1_n_n none x W (constant (F := Ideal) S1x1024 .f32 0x00000000#32) (ix2 p q)
      = ∑ k : Fin 128, x (ix2 p k) * W (ix2 k q) :=
  matmul_row_apply dot_S1x128_S128x1024_S1x1024_1_0_0_1_n_n rfl rfl
    (fun i q => by
      unfold DotDims.lhsIdx
      rw [dif_neg (show ¬(0 : Fin S1x128.rank) ∈ dot_S1x128_S128x1024_S1x1024_1_0_0_1_n_n.lhsBatch by decide),
        dif_pos (show (0 : Fin S1x128.rank) ∈ dot_S1x128_S128x1024_S1x1024_1_0_0_1_n_n.lhsNonContracting by decide)]
      rfl)
    (fun i q => dot_S1x128_S128x1024_S1x1024_1_0_0_1_n_n.lhsIdx_val_of_single rfl i q)
    (fun i q => dot_S1x128_S128x1024_S1x1024_1_0_0_1_n_n.rhsIdx_val_of_single rfl i q)
    (fun i q => by
      unfold DotDims.rhsIdx
      rw [dif_neg (show ¬(1 : Fin S128x1024.rank) ∈ dot_S1x128_S128x1024_S1x1024_1_0_0_1_n_n.rhsBatch by decide),
        dif_pos (show (1 : Fin S128x1024.rank) ∈ dot_S1x128_S128x1024_S1x1024_1_0_0_1_n_n.rhsNonContracting by decide)]
      rfl)
    x W p q

/-- The embedded tokens against the first band of the combine matrix. -/
theorem mm_S1x2048_S1024x2048 (x : FVec Ideal S1x2048 .bf16) (W : FVec Ideal S1024x2048 .bf16) (p : Fin 1) (q : Fin 1024) :
    matmul dot_S1x2048_S1024x2048_S1x1024_1_1_0_0_n_n none x W (constant (F := Ideal) S1x1024 .f32 0x00000000#32) (ix2 p q)
      = ∑ k : Fin 2048, x (ix2 p k) * W (ix2 q k) :=
  matmul_rowT_apply dot_S1x2048_S1024x2048_S1x1024_1_1_0_0_n_n rfl rfl
    (fun i q => by
      unfold DotDims.lhsIdx
      rw [dif_neg (show ¬(0 : Fin S1x2048.rank) ∈ dot_S1x2048_S1024x2048_S1x1024_1_1_0_0_n_n.lhsBatch by decide),
        dif_pos (show (0 : Fin S1x2048.rank) ∈ dot_S1x2048_S1024x2048_S1x1024_1_1_0_0_n_n.lhsNonContracting by decide)]
      rfl)
    (fun i q => dot_S1x2048_S1024x2048_S1x1024_1_1_0_0_n_n.lhsIdx_val_of_single rfl i q)
    (fun i q => by
      unfold DotDims.rhsIdx
      rw [dif_neg (show ¬(0 : Fin S1024x2048.rank) ∈ dot_S1x2048_S1024x2048_S1x1024_1_1_0_0_n_n.rhsBatch by decide),
        dif_pos (show (0 : Fin S1024x2048.rank) ∈ dot_S1x2048_S1024x2048_S1x1024_1_1_0_0_n_n.rhsNonContracting by decide)]
      rfl)
    (fun i q => dot_S1x2048_S1024x2048_S1x1024_1_1_0_0_n_n.rhsIdx_val_of_single rfl i q)
    x W p q

/-- The applied attention against the second band of the combine matrix. -/
theorem mm_S1x1024_S1024x1024 (x : FVec Ideal S1x1024 .bf16) (W : FVec Ideal S1024x1024 .bf16) (p : Fin 1) (q : Fin 1024) :
    matmul dot_S1x1024_S1024x1024_S1x1024_1_1_0_0_n_n none x W (constant (F := Ideal) S1x1024 .f32 0x00000000#32) (ix2 p q)
      = ∑ k : Fin 1024, x (ix2 p k) * W (ix2 q k) :=
  matmul_rowT_apply dot_S1x1024_S1024x1024_S1x1024_1_1_0_0_n_n rfl rfl
    (fun i q => by
      unfold DotDims.lhsIdx
      rw [dif_neg (show ¬(0 : Fin S1x1024.rank) ∈ dot_S1x1024_S1024x1024_S1x1024_1_1_0_0_n_n.lhsBatch by decide),
        dif_pos (show (0 : Fin S1x1024.rank) ∈ dot_S1x1024_S1024x1024_S1x1024_1_1_0_0_n_n.lhsNonContracting by decide)]
      rfl)
    (fun i q => dot_S1x1024_S1024x1024_S1x1024_1_1_0_0_n_n.lhsIdx_val_of_single rfl i q)
    (fun i q => by
      unfold DotDims.rhsIdx
      rw [dif_neg (show ¬(0 : Fin S1024x1024.rank) ∈ dot_S1x1024_S1024x1024_S1x1024_1_1_0_0_n_n.rhsBatch by decide),
        dif_pos (show (0 : Fin S1024x1024.rank) ∈ dot_S1x1024_S1024x1024_S1x1024_1_1_0_0_n_n.rhsNonContracting by decide)]
      rfl)
    (fun i q => dot_S1x1024_S1024x1024_S1x1024_1_1_0_0_n_n.rhsIdx_val_of_single rfl i q)
    x W p q

end Cert.Bridge

end
-- ==== Proof.Bridge.SplitSum.lean ====
import proofs.«145509_j26731876451021_2_alg».proof.Proof.Bridge.Defs
import Idealize.ShloMosaic.Lib.Pipeline.Value
import Idealize.ShloMosaic.Lib.ValueIdx

/-! A sum over an index range cut in two, a two-piece concatenation of row vectors read at an index of either piece,
    and a column band of a matrix read at an index. -/

noncomputable section

open scoped BigOperators

namespace Cert.Bridge

open Idealize.ShloMosaic Idealize.ShloMosaic.ValueIdx Cert.KernelIdeal Cert.KernelIdeal.Gen

/-- A sum over `c = a + b` indices is the sum over the first `a` plus the sum over the last `b`: only associativity
    and commutativity of the addition are used. -/
theorem sum_fin_split {M : Type*} [AddCommMonoid M] (a b c : ℕ) (h : a + b = c) (f : Fin c → M) :
    ∑ k, f k = ∑ k : Fin a, f ⟨k.val, by omega⟩ + ∑ k : Fin b, f ⟨a + k.val, by omega⟩ := by
  subst h
  exact Fin.sum_univ_add f

/-- The row `[x₁ | x₂]` of length 2048 + 1024 reads `x₁` at a position below 2048 … -/
theorem cat_left {α : Type} (x₁ : (⟨2, ![1, 2048]⟩ : Shape).Idx → α) (x₂ : (⟨2, ![1, 1024]⟩ : Shape).Idx → α)
    (h : Shape.Concatenates [(⟨2, ![1, 2048]⟩ : Shape), ⟨2, ![1, 1024]⟩] ⟨2, ![1, 3072]⟩ 1) (p : Fin 1) (k : Fin 2048) :
    concatenate ⟨2, ![1, 3072]⟩ 1 [⟨⟨2, ![1, 2048]⟩, x₁⟩, ⟨⟨2, ![1, 1024]⟩, x₂⟩] h (ix2 p (⟨k.val, by omega⟩ : Fin 3072))
      = x₁ (ix2 p k) :=
  concatenate_pair_apply_left 1 x₁ x₂ h _ rfl (ix2 p k) (fun b => by
    match b with
    | ⟨0, _⟩ => rfl
    | ⟨1, _⟩ => rfl)

/-- … and `x₂` at a position 2048 + k. -/
theorem cat_right {α : Type} (x₁ : (⟨2, ![1, 2048]⟩ : Shape).Idx → α) (x₂ : (⟨2, ![1, 1024]⟩ : Shape).Idx → α)
    (h : Shape.Concatenates [(⟨2, ![1, 2048]⟩ : Shape), ⟨2, ![1, 1024]⟩] ⟨2, ![1, 3072]⟩ 1) (p : Fin 1) (k : Fin 1024) :
    concatenate ⟨2, ![1, 3072]⟩ 1 [⟨⟨2, ![1, 2048]⟩, x₁⟩, ⟨⟨2, ![1, 1024]⟩, x₂⟩] h (ix2 p (⟨2048 + k.val, by omega⟩ : Fin 3072))
      = x₂ (ix2 p k) :=
  concatenate_pair_apply_right 1 x₁ x₂ h _ rfl rfl (ix2 p k)
    (fun b hb => by
      match b with
      | ⟨0, _⟩ => rfl
      | ⟨1, _⟩ => exact absurd rfl hb)
    (by show k.val + 2048 = 2048 + k.val; omega)

/-- The first 2048 columns of the attention matrix: entry (q, k) is the matrix at (q, k). -/
theorem ld_rA1 (aW : Vec Ideal S128x3072 .f32) (q : Fin 128) (k : Fin 2048) :
    View.ld aW rA1 (ix2 q k) = aW (ix2 q (⟨k.val, by omega⟩ : Fin 3072)) :=
  congrArg aW (funext fun a => Fin.ext (by
    match a with
    | ⟨0, _⟩ => show 0 + 1 * q.val = q.val; omega
    | ⟨1, _⟩ => show 0 + 1 * k.val = k.val; omega))

/-- Its last 1024 columns: entry (q, k) is the matrix at (q, 2048 + k). -/
theorem ld_rA2 (aW : Vec Ideal S128x3072 .f32) (q : Fin 128) (k : Fin 1024) :
    View.ld aW rA2 (ix2 q k) = aW (ix2 q (⟨2048 + k.val, by omega⟩ : Fin 3072)) :=
  congrArg aW (funext fun a => Fin.ext (by
    match a with
    | ⟨0, _⟩ => show 0 + 1 * q.val = q.val; omega
    | ⟨1, _⟩ => show 2048 + 1 * k.val = 2048 + k.val; omega))

/-- The first 2048 columns of the combine matrix. -/
theorem ld_rC1 (cW : Vec Ideal S1024x3072 .f32) (q : Fin 1024) (k : Fin 2048) :
    View.ld cW rC1 (ix2 q k) = cW (ix2 q (⟨k.val, by omega⟩ : Fin 3072)) :=
  congrArg cW (funext fun a => Fin.ext (by
    match a with
    | ⟨0, _⟩ => show 0 + 1 * q.val = q.val; omega
    | ⟨1, _⟩ => show 0 + 1 * k.val = k.val; omega))

/-- Its last 1024 columns. -/
theorem ld_rC2 (cW : Vec Ideal S1024x3072 .f32) (q : Fin 1024) (k : Fin 1024) :
    View.ld cW rC2 (ix2 q k) = cW (ix2 q (⟨2048 + k.val, by omega⟩ : Fin 3072)) :=
  congrArg cW (funext fun a => Fin.ext (by
    match a with
    | ⟨0, _⟩ => show 0 + 1 * q.val = q.val; omega
    | ⟨1, _⟩ => show 2048 + 1 * k.val = 2048 + k.val; omega))

end Cert.Bridge

end
-- ==== Proof.Bridge.AttnLogits.lean ====
import proofs.«145509_j26731876451021_2_alg».proof.Proof.Bridge.Softmax
import proofs.«145509_j26731876451021_2_alg».proof.Proof.Bridge.MatRow
import proofs.«145509_j26731876451021_2_alg».proof.Proof.Bridge.SplitSum

/-! The kernel's attention weights are the softmax of its logits `emb·A₁ᵀ + h₀·A₂ᵀ + b`, and the logits at an index are
    two sums over the two bands' columns plus the bias. -/

noncomputable section

open scoped BigOperators

namespace Cert.Bridge

open Idealize.ShloMosaic Idealize.ShloMosaic.ValueIdx Cert.KernelIdeal Cert.KernelIdeal.Gen

/-- The kernel's logits, from the embedded tokens, the state, the two column bands and the bias row. -/
def attnLogitsK (emb : Vec Ideal S1x2048 .f32) (h0 : Vec Ideal S1x1024 .f32) (A1 : Vec Ideal S128x2048 .f32)
    (A2 : Vec Ideal S128x1024 .f32) (b : Vec Ideal S1x128 .f32) : FVec Ideal S1x128 .f32 :=
  addf
    (addf
      (matmul dot_S1x2048_S128x2048_S1x128_1_1_0_0_n_n none (truncf .bf16 (k0_pay2 (F := Ideal) emb) bitsLt_bf16_f32)
        (truncf .bf16 A1 bitsLt_bf16_f32) (constant (F := Ideal) S1x128 .f32 0x00000000#32))
      (matmul dot_S1x1024_S128x1024_S1x128_1_1_0_0_n_n none
        (truncf .bf16 (shapeCast S1x1024 h0 shapeCasts_S1x1024_S1x1024) bitsLt_bf16_f32)
        (truncf .bf16 A2 bitsLt_bf16_f32) (constant (F := Ideal) S1x128 .f32 0x00000000#32)))
    (shapeCast S1x128 b shapeCasts_S1x128_S1x128)

/-- The kernel's attention weights are the softmax of its logits. -/
theorem k0_pay3_eq (emb : Vec Ideal S1x2048 .f32) (h0 : Vec Ideal S1x1024 .f32) (A1 : Vec Ideal S128x2048 .f32)
    (A2 : Vec Ideal S128x1024 .f32) (b : Vec Ideal S1x128 .f32) :
    k0_pay3 (F := Ideal) emb h0 A1 A2 b = softK (attnLogitsK emb h0 A1 A2 b) := rfl

/-- The logits at `(p, q)`. -/
theorem attnLogitsK_apply (emb : Vec Ideal S1x2048 .f32) (h0 : Vec Ideal S1x1024 .f32) (A1 : Vec Ideal S128x2048 .f32)
    (A2 : Vec Ideal S128x1024 .f32) (b : Vec Ideal S1x128 .f32) (p : Fin 1) (q : Fin 128) :
    attnLogitsK emb h0 A1 A2 b (ix2 p q)
      = (∑ k : Fin 2048, emb (ix2 p k) * A1 (ix2 q k) + ∑ k : Fin 1024, h0 (ix2 p k) * A2 (ix2 q k)) + b (ix2 p q) := by
  unfold attnLogitsK k0_pay2
  simp only [shapeCast_self]
  rw [addf_apply, addf_apply, mm_S1x2048_S128x2048, mm_S1x1024_S128x1024]
  rfl

end Cert.Bridge

end
-- ==== Proof.Bridge.Comb.lean ====
import proofs.«145509_j26731876451021_2_alg».proof.Proof.Bridge.Defs
import proofs.«145509_j26731876451021_2_alg».proof.Proof.Bridge.MatRow
import Idealize.ShloMosaic.Lib.Pipeline.Value

/-! The kernel's applied attention `aw · enc` and its recurrent input `max(emb·C₁ᵀ + att·C₂ᵀ + c, 0)`, as functions of the
    attention weights, read at an index. -/

noncomputable section

open scoped BigOperators

namespace Cert.Bridge

open Idealize.ShloMosaic Idealize.ShloMosaic.ValueIdx Cert.KernelIdeal Cert.KernelIdeal.Gen

/-- The applied attention: the attention weights `[1, 128]` times the encoder outputs `[128, 1024]`. -/
def attnK (aw : FVec Ideal S1x128 .f32) (enc : Vec Ideal S128x1024 .f32) : FVec Ideal S1x1024 .f32 :=
  matmul dot_S1x128_S128x1024_S1x1024_1_0_0_1_n_n none (truncf .bf16 aw bitsLt_bf16_f32) (truncf .bf16 enc bitsLt_bf16_f32)
    (constant (F := Ideal) S1x1024 .f32 0x00000000#32)

theorem attnK_apply (aw : FVec Ideal S1x128 .f32) (enc : Vec Ideal S128x1024 .f32) (p : Fin 1) (c : Fin 1024) :
    attnK aw enc (ix2 p c) = ∑ m : Fin 128, aw (ix2 p m) * enc (ix2 m c) := by
  unfold attnK
  rw [mm_S1x128_S128x1024]
  rfl

/-- The recurrent input from the embedded tokens, the applied attention, the combine matrix's two bands and its bias row. -/
def combK (emb : Vec Ideal S1x2048 .f32) (att : FVec Ideal S1x1024 .f32) (C1 : Vec Ideal S1024x2048 .f32)
    (C2 : Vec Ideal S1024x1024 .f32) (c : Vec Ideal S1x1024 .f32) : FVec Ideal S1x1024 .f32 :=
  maximumf
    (addf
      (addf
        (matmul dot_S1x2048_S1024x2048_S1x1024_1_1_0_0_n_n none (truncf .bf16 (k0_pay2 (F := Ideal) emb) bitsLt_bf16_f32)
          (truncf .bf16 C1 bitsLt_bf16_f32) (constant (F := Ideal) S1x1024 .f32 0x00000000#32))
        (matmul dot_S1x1024_S1024x1024_S1x1024_1_1_0_0_n_n none (truncf .bf16 att bitsLt_bf16_f32)
          (truncf .bf16 C2 bitsLt_bf16_f32) (constant (F := Ideal) S1x1024 .f32 0x00000000#32)))
      (shapeCast S1x1024 c shapeCasts_S1x1024_S1x1024))
    (broadcast S1x1024 (Scalar.ofBits (F := Ideal) .f32 0x00000000#32))

/-- The kernel's recurrent input is `combK` of its applied attention, which is `attnK` of its attention weights. -/
theorem x0K_eq (emb : Vec Ideal S1x2048 .f32) (h0 : Vec Ideal S1x1024 .f32) (aW : Vec Ideal S128x3072 .f32)
    (ab2 : Vec Ideal S1x128 .f32) (enc : Vec Ideal S128x1024 .f32) (cW : Vec Ideal S1024x3072 .f32)
    (cb2 : Vec Ideal S1x1024 .f32) :
    x0K emb h0 aW ab2 enc cW cb2
      = combK emb (attnK (awK emb h0 aW ab2) enc) (View.ld cW rC1) (View.ld cW rC2) cb2 := rfl

theorem combK_apply (emb : Vec Ideal S1x2048 .f32) (att : FVec Ideal S1x1024 .f32) (C1 : Vec Ideal S1024x2048 .f32)
    (C2 : Vec Ideal S1024x1024 .f32) (c : Vec Ideal S1x1024 .f32) (p : Fin 1) (q : Fin 1024) :
    combK emb att C1 C2 c (ix2 p q)
      = max ((∑ k : Fin 2048, emb (ix2 p k) * C1 (ix2 q k) + ∑ k : Fin 1024, att (ix2 p k) * C2 (ix2 q k)) + c (ix2 p q)) 0 := by
  unfold combK k0_pay2
  simp only [shapeCast_self]
  rw [maximumf_apply, addf_apply, addf_apply, mm_S1x2048_S1024x2048, mm_S1x1024_S1024x1024, broadcast_apply]
  show max _ (Ideal.ofBits .f32 0x00000000#32) = _
  rw [Ideal.ofBits_zero_f32]
  rfl

end Cert.Bridge

end
-- ==== Proof.Bridge.RefRead.lean ====
import proofs.«145509_j26731876451021_2_alg».proof.Proof.RefReadP
import proofs.«145509_j26731876451021_2_alg».proof.Proof.Bridge.SplitSum

/-! The reference's logits, applied attention and recurrent input read at an index: the one contraction over the 3072
    joined columns cut into the contraction over the first 2048 and the one over the last 1024. -/

noncomputable section

open scoped BigOperators

namespace Cert.Bridge

open Idealize.ShloMosaic Idealize.ShloMosaic.ValueIdx Cert.ReferenceIdeal Cert.ReferenceIdeal.Gen

variable (ids : (⟨S2, .i32⟩ : BufTy).Contents (Elt Ideal)) (hid : (⟨S4x1x1024, .f32⟩ : BufTy).Contents (Elt Ideal)) (enc : (⟨S128x1024, .f32⟩ : BufTy).Contents (Elt Ideal))
  (E : (⟨S32000x1024, .f32⟩ : BufTy).Contents (Elt Ideal)) (aW : (⟨S128x3072, .f32⟩ : BufTy).Contents (Elt Ideal)) (ab : (⟨S128, .f32⟩ : BufTy).Contents (Elt Ideal))
  (cW : (⟨S1024x3072, .f32⟩ : BufTy).Contents (Elt Ideal)) (cb : (⟨S1024, .f32⟩ : BufTy).Contents (Elt Ideal))

/-- The reference's logits at `(p, q)`: the embedded tokens against the first 2048 columns of row `q` of the attention
    matrix, the state against its last 1024, and the bias at `q`. -/
theorem v14_apply' (p : Fin 1) (q : Fin 128) :
    Read.val_main_v14 (F := Ideal) ids hid E aW ab (ix2 p q)
      = (∑ k : Fin 2048, Read.val_main_v7 (F := Ideal) ids E (ix2 p k) * aW (ix2 q (⟨k.val, by omega⟩ : Fin 3072))
          + ∑ k : Fin 1024, Read.val_main_v9 (F := Ideal) hid (ix2 p k) * aW (ix2 q (⟨2048 + k.val, by omega⟩ : Fin 3072)))
        + ab (ix1 q) := by
  rw [Read.val_main_v14_apply, Read.val_main_v12_apply, Read.val_main_v13_apply, Ideal.addf_def,
    sum_fin_split 2048 1024 3072 rfl]
  refine congrArg₂ (· + ·) (congrArg₂ (· + ·) (Finset.sum_congr rfl fun k _ => ?_) (Finset.sum_congr rfl fun k _ => ?_))
    (congrArg ab (funext fun a => by match a with | ⟨0, _⟩ => rfl))
  · have el : Read.lidx_main_v12 (ix2 p q) (⟨k.val, by omega⟩ : Fin 3072) = ix2 p (⟨k.val, by omega⟩ : Fin 3072) :=
      funext fun a => by match a with | ⟨0, _⟩ => rfl | ⟨1, _⟩ => rfl
    have er : Read.idx_main_v11 (Read.ridx_main_v12 (ix2 p q) (⟨k.val, by omega⟩ : Fin 3072))
        = ix2 q (⟨k.val, by omega⟩ : Fin 3072) :=
      funext fun a => by match a with | ⟨0, _⟩ => rfl | ⟨1, _⟩ => rfl
    rw [Read.val_main_v11_apply, el, er]
    exact congrArg (· * _) (cat_left _ _ concatenates_S1x2048_S1x1024_S1x3072_d1 p k)
  · have el : Read.lidx_main_v12 (ix2 p q) (⟨2048 + k.val, by omega⟩ : Fin 3072)
        = ix2 p (⟨2048 + k.val, by omega⟩ : Fin 3072) :=
      funext fun a => by match a with | ⟨0, _⟩ => rfl | ⟨1, _⟩ => rfl
    have er : Read.idx_main_v11 (Read.ridx_main_v12 (ix2 p q) (⟨2048 + k.val, by omega⟩ : Fin 3072))
        = ix2 q (⟨2048 + k.val, by omega⟩ : Fin 3072) :=
      funext fun a => by match a with | ⟨0, _⟩ => rfl | ⟨1, _⟩ => rfl
    rw [Read.val_main_v11_apply, el, er]
    exact congrArg (· * _) (cat_right _ _ concatenates_S1x2048_S1x1024_S1x3072_d1 p k)

/-- The reference's applied attention at `(p, c)`: the attention weights against column `c` of the encoder outputs. -/
theorem v26_apply' (p : Fin 1) (c : Fin 1024) :
    Read.val_main_v26 (F := Ideal) ids hid enc E aW ab (ix2 p c)
      = ∑ m : Fin 128, Read.val_main_v25 (F := Ideal) ids hid E aW ab (ix2 p m) * enc (ix2 m c) := by
  rw [Read.val_main_v26_apply]
  refine Finset.sum_congr rfl fun m _ => ?_
  have el : Read.lidx_main_v26 (ix2 p c) m = ix2 p m :=
    funext fun a => by match a with | ⟨0, _⟩ => rfl | ⟨1, _⟩ => rfl
  have er : Read.ridx_main_v26 (ix2 p c) m = ix2 m c :=
    funext fun a => by match a with | ⟨0, _⟩ => rfl | ⟨1, _⟩ => rfl
  rw [el, er]

/-- The reference's recurrent input at `(p, q)`. -/
theorem v32_apply' (p : Fin 1) (q : Fin 1024) :
    Read.val_main_v32 (F := Ideal) ids hid enc E aW ab cW cb (ix2 p q)
      = max ((∑ k : Fin 2048, Read.val_main_v7 (F := Ideal) ids E (ix2 p k) * cW (ix2 q (⟨k.val, by omega⟩ : Fin 3072))
          + ∑ k : Fin 1024, Read.val_main_v26 (F := Ideal) ids hid enc E aW ab (ix2 p k)
              * cW (ix2 q (⟨2048 + k.val, by omega⟩ : Fin 3072)))
        + cb (ix1 q)) 0 := by
  rw [Read.val_main_v32_apply, Read.val_main_v31_apply, Read.val_main_v29_apply, Read.val_main_v30_apply,
    Read.val_main_call0_v0_apply, Read.val_main_call0_cst_apply, Ideal.maximumf_def, Ideal.addf_def, Ideal.ofBits_def,
    Ideal.ofBits_zero_f32, sum_fin_split 2048 1024 3072 rfl]
  refine congrArg (max · 0) (congrArg₂ (· + ·)
    (congrArg₂ (· + ·) (Finset.sum_congr rfl fun k _ => ?_) (Finset.sum_congr rfl fun k _ => ?_))
    (congrArg cb (funext fun a => by match a with | ⟨0, _⟩ => rfl)))
  · have el : Read.lidx_main_v29 (ix2 p q) (⟨k.val, by omega⟩ : Fin 3072) = ix2 p (⟨k.val, by omega⟩ : Fin 3072) :=
      funext fun a => by match a with | ⟨0, _⟩ => rfl | ⟨1, _⟩ => rfl
    have er : Read.idx_main_v28 (Read.ridx_main_v29 (ix2 p q) (⟨k.val, by omega⟩ : Fin 3072))
        = ix2 q (⟨k.val, by omega⟩ : Fin 3072) :=
      funext fun a => by match a with | ⟨0, _⟩ => rfl | ⟨1, _⟩ => rfl
    rw [Read.val_main_v28_apply, el, er]
    exact congrArg (· * _) (cat_left _ _ concatenates_S1x2048_S1x1024_S1x3072_d1 p k)
  · have el : Read.lidx_main_v29 (ix2 p q) (⟨2048 + k.val, by omega⟩ : Fin 3072)
        = ix2 p (⟨2048 + k.val, by omega⟩ : Fin 3072) :=
      funext fun a => by match a with | ⟨0, _⟩ => rfl | ⟨1, _⟩ => rfl
    have er : Read.idx_main_v28 (Read.ridx_main_v29 (ix2 p q) (⟨2048 + k.val, by omega⟩ : Fin 3072))
        = ix2 q (⟨2048 + k.val, by omega⟩ : Fin 3072) :=
      funext fun a => by match a with | ⟨0, _⟩ => rfl | ⟨1, _⟩ => rfl
    rw [Read.val_main_v28_apply, el, er]
    exact congrArg (· * _) (cat_right _ _ concatenates_S1x2048_S1x1024_S1x3072_d1 p k)

end Cert.Bridge

end
-- ==== Proof.Bridge.RowCast.lean ====
import Idealize.ShloMosaic.Lib.Pipeline.Value
import Idealize.ShloMosaic.Lib.ValueIdx

/-! A vector `[a]` cast to the one-row matrix `[1, a]`, read at an index. -/

noncomputable section

open scoped BigOperators

namespace Cert.Bridge

open Idealize.ShloMosaic Idealize.ShloMosaic.ValueIdx

/-- A vector `[a]` cast to `[1, a]` reads, at `(p, q)`, the vector at `q`. -/
theorem shapeCast_a_1a_apply {α : Type} {a : ℕ} (x : (⟨1, ![a]⟩ : Shape).Idx → α)
    (h : (⟨1, ![a]⟩ : Shape).ShapeCasts ⟨2, ![1, a]⟩) (p : Fin 1) (q : Fin a) :
    shapeCast ⟨2, ![1, a]⟩ x h (ix2 p q) = x (ix1 q) :=
  shapeCast_apply x h _ _ (by
    have hp : p.val = 0 := by omega
    rw [Shape.rowMajor_val_two, Shape.rowMajor_val_one]
    show q.val = p.val * a + q.val
    rw [hp, Nat.zero_mul, Nat.zero_add])

end Cert.Bridge

end
-- ==== Proof.Bridge.Attn.lean ====
import proofs.«145509_j26731876451021_2_alg».proof.Proof.Bridge.AttnLogits
import proofs.«145509_j26731876451021_2_alg».proof.Proof.Bridge.Comb
import proofs.«145509_j26731876451021_2_alg».proof.Proof.Bridge.RefRead
import proofs.«145509_j26731876451021_2_alg».proof.Proof.Bridge.RowCast

/-! The kernel's first region against the reference: the attention weights `awK` are the reference's softmax of its
    logits, and the recurrent input `x0K` is the reference's rectified combine. The reference contracts the joined row
    `[emb | h₀]` (resp. `[emb | att]`) against all 3072 columns at once; the kernel contracts the two parts against the two
    column bands and adds. A sum over 3072 indices is the sum over the first 2048 plus the sum over the last 1024. -/

noncomputable section

open scoped BigOperators

namespace Cert.Bridge

open Idealize.ShloMosaic Idealize.ShloMosaic.ValueIdx Cert.KernelIdeal Cert.KernelIdeal.Gen

/-- The kernel's logits are the reference's. -/
theorem logits_eq (ids : (⟨S2, .i32⟩ : BufTy).Contents (Elt Ideal)) (hid : (⟨S4x1x1024, .f32⟩ : BufTy).Contents (Elt Ideal))
    (E : (⟨S32000x1024, .f32⟩ : BufTy).Contents (Elt Ideal)) (aW : (⟨S128x3072, .f32⟩ : BufTy).Contents (Elt Ideal))
    (ab : (⟨S128, .f32⟩ : BufTy).Contents (Elt Ideal)) :
    attnLogitsK (Cert.ReferenceIdeal.Read.val_main_v7 (F := Ideal) ids E) (Cert.ReferenceIdeal.Read.val_main_v9 (F := Ideal) hid) (View.ld aW rA1) (View.ld aW rA2)
        (shapeCast S1x128 ab shapeCasts_S128_S1x128)
      = Cert.ReferenceIdeal.Read.val_main_v14 (F := Ideal) ids hid E aW ab := by
  funext j
  obtain ⟨p, q, rfl⟩ : ∃ (p : Fin 1) (q : Fin 128), j = ix2 p q := ⟨j 0, j 1, eq_ix2 j⟩
  rw [attnLogitsK_apply, v14_apply']
  refine congrArg₂ (· + ·)
    (congrArg₂ (· + ·) (Finset.sum_congr rfl fun k _ => ?_) (Finset.sum_congr rfl fun k _ => ?_)) ?_
  · rw [ld_rA1]
  · rw [ld_rA2]
  · exact shapeCast_a_1a_apply ab shapeCasts_S128_S1x128 p q

/-- The reference's attention weights are its softmax of its logits. -/
theorem v25_eq_softR (ids : (⟨S2, .i32⟩ : BufTy).Contents (Elt Ideal)) (hid : (⟨S4x1x1024, .f32⟩ : BufTy).Contents (Elt Ideal))
    (E : (⟨S32000x1024, .f32⟩ : BufTy).Contents (Elt Ideal)) (aW : (⟨S128x3072, .f32⟩ : BufTy).Contents (Elt Ideal))
    (ab : (⟨S128, .f32⟩ : BufTy).Contents (Elt Ideal)) :
    Cert.ReferenceIdeal.Read.val_main_v25 (F := Ideal) ids hid E aW ab
      = softR Cert.ReferenceIdeal.Gen.reducesTo_S1x128_S1_d1 Cert.ReferenceIdeal.Gen.h_S_ Cert.ReferenceIdeal.Gen.bcast_S_S1
          Cert.ReferenceIdeal.Gen.bcast_S1_S1x1_0 Cert.ReferenceIdeal.Gen.bcast_S1x1_S1x128_0_1
          (Cert.ReferenceIdeal.Read.val_main_v14 (F := Ideal) ids hid E aW ab) := rfl

/-- The attention weights. -/
theorem aw_eq (ids : (⟨S2, .i32⟩ : BufTy).Contents (Elt Ideal)) (hid : (⟨S4x1x1024, .f32⟩ : BufTy).Contents (Elt Ideal))
    (E : (⟨S32000x1024, .f32⟩ : BufTy).Contents (Elt Ideal)) (aW : (⟨S128x3072, .f32⟩ : BufTy).Contents (Elt Ideal))
    (ab : (⟨S128, .f32⟩ : BufTy).Contents (Elt Ideal)) :
    awK (Cert.ReferenceIdeal.Read.val_main_v7 (F := Ideal) ids E) (Cert.ReferenceIdeal.Read.val_main_v9 (F := Ideal) hid) aW
        (shapeCast S1x128 ab shapeCasts_S128_S1x128)
      = Cert.ReferenceIdeal.Read.val_main_v25 (F := Ideal) ids hid E aW ab := by
  unfold awK
  rw [k0_pay3_eq, logits_eq, v25_eq_softR]
  exact softK_eq_softR _ _ _ _ _ _

/-- The kernel's applied attention, of the reference's attention weights, is the reference's. -/
theorem attn_eq (ids : (⟨S2, .i32⟩ : BufTy).Contents (Elt Ideal)) (hid : (⟨S4x1x1024, .f32⟩ : BufTy).Contents (Elt Ideal))
    (enc : (⟨S128x1024, .f32⟩ : BufTy).Contents (Elt Ideal)) (E : (⟨S32000x1024, .f32⟩ : BufTy).Contents (Elt Ideal))
    (aW : (⟨S128x3072, .f32⟩ : BufTy).Contents (Elt Ideal)) (ab : (⟨S128, .f32⟩ : BufTy).Contents (Elt Ideal)) :
    attnK (Cert.ReferenceIdeal.Read.val_main_v25 (F := Ideal) ids hid E aW ab) enc
      = Cert.ReferenceIdeal.Read.val_main_v26 (F := Ideal) ids hid enc E aW ab := by
  funext j
  obtain ⟨p, c, rfl⟩ : ∃ (p : Fin 1) (c : Fin 1024), j = ix2 p c := ⟨j 0, j 1, eq_ix2 j⟩
  rw [attnK_apply, v26_apply']

/-- The recurrent unit's first input. -/
theorem x0_eq (ids : (⟨S2, .i32⟩ : BufTy).Contents (Elt Ideal)) (hid : (⟨S4x1x1024, .f32⟩ : BufTy).Contents (Elt Ideal))
    (enc : (⟨S128x1024, .f32⟩ : BufTy).Contents (Elt Ideal)) (E : (⟨S32000x1024, .f32⟩ : BufTy).Contents (Elt Ideal))
    (aW : (⟨S128x3072, .f32⟩ : BufTy).Contents (Elt Ideal)) (ab : (⟨S128, .f32⟩ : BufTy).Contents (Elt Ideal))
    (cW : (⟨S1024x3072, .f32⟩ : BufTy).Contents (Elt Ideal)) (cb : (⟨S1024, .f32⟩ : BufTy).Contents (Elt Ideal)) :
    x0K (Cert.ReferenceIdeal.Read.val_main_v7 (F := Ideal) ids E) (Cert.ReferenceIdeal.Read.val_main_v9 (F := Ideal) hid) aW
        (shapeCast S1x128 ab shapeCasts_S128_S1x128) enc cW
        (shapeCast S1x1024 cb shapeCasts_S1024_S1x1024)
      = Cert.ReferenceIdeal.Read.val_main_v32 (F := Ideal) ids hid enc E aW ab cW cb := by
  rw [x0K_eq, aw_eq, attn_eq]
  funext j
  obtain ⟨p, q, rfl⟩ : ∃ (p : Fin 1) (q : Fin 1024), j = ix2 p q := ⟨j 0, j 1, eq_ix2 j⟩
  rw [combK_apply, v32_apply']
  refine congrArg (max · 0) (congrArg₂ (· + ·)
    (congrArg₂ (· + ·) (Finset.sum_congr rfl fun k _ => ?_) (Finset.sum_congr rfl fun k _ => ?_)) ?_)
  · rw [ld_rC1]
  · rw [ld_rC2]
  · exact shapeCast_a_1a_apply cb shapeCasts_S1024_S1x1024 p q

end Cert.Bridge

end
-- ==== Proof.Bridge.GruCell.lean ====
import Idealize.ShloMosaic.Lib.ValueIdx
import Idealize.ShloMosaic.Lib.IdealHost

/-! One element of a gated-recurrent-unit layer, on the extended reals.

`gruPre x W b l z c`: a gate pre-activation, `Σ_k x(z, k) · W(l, c, k) + b(l, c)`, row `c` of layer `l`'s [3072, 1024]
weight block against the input row, plus the bias. `gruCell`: the new state from the six pre-activations (input and state
side of the reset, update and candidate gates) and the old state `h`:
`(1 - z)·n + z·h` with `r = σ(gi₀ + gh₀)`, `z = σ(gi₁ + gh₁)`, `n = tanh(gi₂ + r·gh₂)`, `σ x = 1 / (1 + e⁻ˣ)`. -/

noncomputable section

open scoped BigOperators

namespace Cert.Bridge

open Idealize.ShloMosaic Idealize.ShloMosaic.ValueIdx

/-- Column `g·1024 + q` of a [·, 3072] row: gate `g`'s column `q`. -/
abbrev gcol (g : Fin 3) (q : Fin 1024) : Fin 3072 := ⟨g.val * 1024 + q.val, by omega⟩

/-- A gate pre-activation: row `c` of layer `l`'s weights against the input row `x(z, ·)`, plus the bias. -/
def gruPre (x : (⟨2, ![1, 1024]⟩ : Shape).Idx → EReal) (W : (⟨3, ![4, 3072, 1024]⟩ : Shape).Idx → EReal)
    (b : (⟨2, ![4, 3072]⟩ : Shape).Idx → EReal) (l : Fin 4) (z : Fin 1) (c : Fin 3072) : EReal :=
  (∑ k : Fin 1024, x (ix2 z k) * W (ix3 l c k)) + b (ix2 l c)

/-- The new state from the six pre-activations and the old state. -/
def gruCell (gi0 gh0 gi1 gh1 gi2 gh2 h : EReal) : EReal :=
  (1 - Ideal.logistic (gi1 + gh1)) * Ideal.tanh (gi2 + Ideal.logistic (gi0 + gh0) * gh2) + Ideal.logistic (gi1 + gh1) * h

/-- The whole layer at column `q`: the cell on the three gates' columns `q`, `1024 + q`, `2048 + q`, the state side's
    input row being the old state itself. -/
def gruSpec (x : (⟨2, ![1, 1024]⟩ : Shape).Idx → EReal) (hid : (⟨3, ![4, 1, 1024]⟩ : Shape).Idx → EReal)
    (Wih Whh : (⟨3, ![4, 3072, 1024]⟩ : Shape).Idx → EReal) (bih bhh : (⟨2, ![4, 3072]⟩ : Shape).Idx → EReal)
    (l : Fin 4) (z : Fin 1) (q : Fin 1024) : EReal :=
  gruCell (gruPre x Wih bih l z (gcol 0 q)) (gruPre (fun j => hid (ix3 l (j 0) (j 1))) Whh bhh l z (gcol 0 q))
    (gruPre x Wih bih l z (gcol 1 q)) (gruPre (fun j => hid (ix3 l (j 0) (j 1))) Whh bhh l z (gcol 1 q))
    (gruPre x Wih bih l z (gcol 2 q)) (gruPre (fun j => hid (ix3 l (j 0) (j 1))) Whh bhh l z (gcol 2 q))
    (hid (ix3 l z q))

end Cert.Bridge

end
-- ==== Proof.Bridge.GruK.lean ====
import proofs.«145509_j26731876451021_2_alg».proof.Proof.Bridge.Defs
import proofs.«145509_j26731876451021_2_alg».proof.Proof.Bridge.GruCell
import Idealize.ShloMosaic.Lib.Pipeline.Value
import Idealize.ShloMosaic.PureOps.Ideal.Laws

/-! The kernel's recurrent-unit layer read at an index.

A [4, 3072, 1024] array re-laid as [12, 1024, 1024] keeps every element's row-major position, so element
`(3·l + g, q, k)` of the re-laid array is element `(l, g·1024 + q, k)` of the original: both sit at position
`((3·l + g)·1024 + q)·1024 + k = (l·3072 + g·1024 + q)·1024 + k`. Likewise a [4, 3072] array re-laid as
[12, 1, 1024]: element `(3·l + g, 0, q)` is element `(l, g·1024 + q)`.

A gate's pre-activation is the product of the [1, 1024] input row with the transposed [1024, 1024] block, into a zero
accumulator, plus the bias block: at column `q` the sum over `k` of `x(0, k) · W(l, g·1024 + q, k)`, plus
`b(l, g·1024 + q)` — `gruPre`. The rest of the layer is elementwise: `gruCell`. -/

noncomputable section

open scoped BigOperators

namespace Cert.Bridge

open Idealize.ShloMosaic Idealize.ShloMosaic.ValueIdx Cert.KernelIdeal Cert.KernelIdeal.Gen

/-! ## Blocks of the re-laid arrays -/

/-- Block `3·l + g` of the re-laid weight array at `(0, q, k)` is the original at `(l, g·1024 + q, k)`. -/
theorem wBlk_apply (W : Vec Ideal S4x3072x1024 .f32) (l : Fin 4) (g : Fin 3) (q k : Fin 1024) (z : Fin 1) :
    wBlk W l g (ix3 z q k) = W (ix3 l (gcol g q) k) := by
  unfold wBlk
  refine shapeCast_apply W shapeCasts_S4x3072x1024_S12x1024x1024 _ (ix3 l (gcol g q) k) ?_
  rw [Shape.rowMajor_val_three, Shape.rowMajor_val_three]
  show (l.val * 3072 + (g.val * 1024 + q.val)) * 1024 + k.val = ((3 * l.val + g.val) * 1024 + q.val) * 1024 + k.val
  omega

/-- Row `3·l + g` of the re-laid bias array at `(0, 0, q)` is the original at `(l, g·1024 + q)`. -/
theorem bBlk_apply (b : Vec Ideal S4x3072 .f32) (l : Fin 4) (g : Fin 3) (q : Fin 1024) (z z' : Fin 1) :
    bBlk b l g (ix3 z z' q) = b (ix2 l (gcol g q)) := by
  unfold bBlk
  refine shapeCast_apply b shapeCasts_S4x3072_S12x1x1024 _ (ix2 l (gcol g q)) ?_
  rw [Shape.rowMajor_val_two, Shape.rowMajor_val_three]
  have hz : z'.val = 0 := by omega
  show l.val * 3072 + (g.val * 1024 + q.val) = ((3 * l.val + g.val) * 1 + z'.val) * 1024 + q.val
  omega

/-- Layer `l`'s block of the state array at `(0, 0, q)` is the array at `(l, 0, q)`. -/
theorem hidBlk_apply (hid : Vec Ideal S4x1x1024 .f32) (l : Fin 4) (q : Fin 1024) (z z' : Fin 1) :
    hidBlk hid l (ix3 z z' q) = hid (ix3 l z' q) := rfl

/-! ## The product of a row with a transposed square block, at a column -/

/-- The dimension numbers of the kernel's products: [1, 1024] × [1024, 1024]ᵀ, contracting axis 1 with axis 1. -/
abbrev gruDK : DotDims S1x1024 S1024x1024 S1x1024 := dot_S1x1024_S1024x1024_S1x1024_1_1_0_0_n_n

theorem gruDK_lhs0 (i : S1x1024.Idx) (c : gruDK.contr.Idx) : (gruDK.lhsIdx i c 0).val = (i 0).val := by
  unfold DotDims.lhsIdx
  rw [dif_neg (show ¬(0 : Fin S1x1024.rank) ∈ gruDK.lhsBatch by decide), dif_pos (show (0 : Fin S1x1024.rank) ∈ gruDK.lhsNonContracting by decide)]
  rfl
theorem gruDK_lhs1 (i : S1x1024.Idx) (c : gruDK.contr.Idx) : (gruDK.lhsIdx i c 1).val = (c ⟨0, by decide⟩).val :=
  gruDK.lhsIdx_val_of_single rfl i c
theorem gruDK_rhs0 (i : S1x1024.Idx) (c : gruDK.contr.Idx) : (gruDK.rhsIdx i c 0).val = (i 1).val := by
  unfold DotDims.rhsIdx
  rw [dif_neg (show ¬(0 : Fin S1024x1024.rank) ∈ gruDK.rhsBatch by decide), dif_pos (show (0 : Fin S1024x1024.rank) ∈ gruDK.rhsNonContracting by decide)]
  rfl
theorem gruDK_rhs1 (i : S1x1024.Idx) (c : gruDK.contr.Idx) : (gruDK.rhsIdx i c 1).val = (c ⟨0, by decide⟩).val :=
  gruDK.rhsIdx_val_of_single rfl i c

/-- The product into a zero accumulator at column `q`: the sum over `k` of `u(z, k) · M(q, k)`. -/
theorem gruMatK_apply (u : FVec Ideal S1x1024 .bf16) (M : FVec Ideal S1024x1024 .bf16) (z : Fin 1) (q : Fin 1024) :
    matmul (F := Ideal) gruDK none u M (constant S1x1024 .f32 0x00000000#32) (ix2 z q)
      = ∑ k : Fin 1024, u (ix2 z k) * M (ix2 q k) := by
  simp only [matmul]
  rw [Ideal.matmul_constant_zero_apply, ← Equiv.sum_comp (contrEquiv1 gruDK 1024 rfl rfl).symm]
  refine Finset.sum_congr rfl fun k _ => ?_
  have hk := contrEquiv1_symm_val gruDK 1024 rfl rfl k
  have el : gruDK.lhsIdx (ix2 z q) ((contrEquiv1 gruDK 1024 rfl rfl).symm k) = ix2 z k := funext fun a => Fin.ext (by
    match a with
    | ⟨0, _⟩ => exact gruDK_lhs0 _ _
    | ⟨1, _⟩ => exact (gruDK_lhs1 _ _).trans hk)
  have er : gruDK.rhsIdx (ix2 z q) ((contrEquiv1 gruDK 1024 rfl rfl).symm k) = ix2 q k := funext fun a => Fin.ext (by
    match a with
    | ⟨0, _⟩ => exact gruDK_rhs0 _ _
    | ⟨1, _⟩ => exact (gruDK_rhs1 _ _).trans hk)
  rw [el, er]

/-! ## The payloads at an index -/

/-- The state row: the [1, 1, 1024] block read as [1, 1024]. -/
theorem k1_pay6_apply (hb : Vec Ideal S1x1x1024 .f32) (z : Fin 1) (q : Fin 1024) :
    k1_pay6 (F := Ideal) hb (ix2 z q) = hb (ix3 0 z q) := by
  unfold k1_pay6
  refine shapeCast_apply hb shapeCasts_S1x1x1024_S1x1024 _ (ix3 0 z q) ?_
  rw [Shape.rowMajor_val_three, Shape.rowMajor_val_two]
  show (0 * 1 + z.val) * 1024 + q.val = z.val * 1024 + q.val
  omega

/-- A gate's input-side pre-activation at column `q`, from the blocks. -/
theorem k1_pay7_apply (x : Vec Ideal S1x1024 .f32) (Wb : Vec Ideal S1x1024x1024 .f32) (bb : Vec Ideal S1x1x1024 .f32)
    (z : Fin 1) (q : Fin 1024) :
    k1_pay7 (F := Ideal) x Wb bb (ix2 z q) = (∑ k : Fin 1024, x (ix2 z k) * Wb (ix3 0 q k)) + bb (ix3 0 z q) := by
  unfold k1_pay7
  show matmul (F := Ideal) gruDK none (truncf .bf16 x bitsLt_bf16_f32)
      (truncf .bf16 (shapeCast S1024x1024 Wb shapeCasts_S1x1024x1024_S1024x1024) bitsLt_bf16_f32)
      (constant S1x1024 .f32 0x00000000#32) (ix2 z q)
    + shapeCast S1x1024 bb shapeCasts_S1x1x1024_S1x1024 (ix2 z q) = _
  rw [gruMatK_apply]
  congr 1
  · refine Finset.sum_congr rfl fun k _ => ?_
    show x (ix2 z k) * shapeCast S1024x1024 Wb shapeCasts_S1x1024x1024_S1024x1024 (ix2 q k) = _
    rw [shapeCast_apply Wb shapeCasts_S1x1024x1024_S1024x1024 (ix2 q k) (ix3 0 q k) (by
      rw [Shape.rowMajor_val_three, Shape.rowMajor_val_two]
      show (0 * 1024 + q.val) * 1024 + k.val = q.val * 1024 + k.val
      omega)]
  · refine shapeCast_apply bb shapeCasts_S1x1x1024_S1x1024 _ (ix3 0 z q) ?_
    rw [Shape.rowMajor_val_three, Shape.rowMajor_val_two]
    show (0 * 1 + z.val) * 1024 + q.val = z.val * 1024 + q.val
    omega

/-- Gate `g`'s input-side pre-activation of layer `l`, from the whole arrays. -/
theorem k1_pay7_blk (x : Vec Ideal S1x1024 .f32) (W : Vec Ideal S4x3072x1024 .f32) (b : Vec Ideal S4x3072 .f32)
    (l : Fin 4) (g : Fin 3) (z : Fin 1) (q : Fin 1024) :
    k1_pay7 (F := Ideal) x (wBlk W l g) (bBlk b l g) (ix2 z q) = gruPre x W b l z (gcol g q) := by
  rw [k1_pay7_apply, bBlk_apply]
  unfold gruPre
  congr 1
  exact Finset.sum_congr rfl fun k _ => by rw [wBlk_apply]

/-- Gate `g`'s state-side pre-activation of layer `l`: the same with the layer's old state as the input row. -/
theorem k1_pay8_blk (hid : Vec Ideal S4x1x1024 .f32) (U : Vec Ideal S4x3072x1024 .f32) (c : Vec Ideal S4x3072 .f32)
    (l : Fin 4) (g : Fin 3) (z : Fin 1) (q : Fin 1024) :
    k1_pay8 (F := Ideal) (hidBlk hid l) (wBlk U l g) (bBlk c l g) (ix2 z q)
      = gruPre (fun j => hid (ix3 l (j 0) (j 1))) U c l z (gcol g q) := by
  show k1_pay7 (F := Ideal) (k1_pay6 (hidBlk hid l)) (wBlk U l g) (bBlk c l g) (ix2 z q) = _
  rw [k1_pay7_apply, bBlk_apply]
  unfold gruPre
  congr 1
  refine Finset.sum_congr rfl fun k _ => ?_
  rw [wBlk_apply, k1_pay6_apply, hidBlk_apply]

/-! ## The layer -/

/-- The layer's elementwise part: the cell on the six pre-activations and the state row. -/
theorem gruK_apply (x : Vec Ideal S1x1024 .f32) (hb : Vec Ideal S1x1x1024 .f32)
    (W0 W1 W2 U0 U1 U2 : Vec Ideal S1x1024x1024 .f32) (b0 b1 b2 c0 c1 c2 : Vec Ideal S1x1x1024 .f32) (i : S1x1024.Idx) :
    gruK x hb W0 W1 W2 U0 U1 U2 b0 b1 b2 c0 c1 c2 i
      = gruCell (k1_pay7 (F := Ideal) x W0 b0 i) (k1_pay8 (F := Ideal) hb U0 c0 i) (k1_pay7 (F := Ideal) x W1 b1 i)
          (k1_pay8 (F := Ideal) hb U1 c1 i) (k1_pay7 (F := Ideal) x W2 b2 i) (k1_pay8 (F := Ideal) hb U2 c2 i)
          (k1_pay6 (F := Ideal) hb i) := by
  unfold gruK k1_pay2 k1_pay9 k1_pay1 gruCell
  dsimp only
  rw [shapeCast_self, shapeCast_self, ← Ideal.ofBits_one_f32]
  rfl

/-- The kernel's layer `l` at column `q`. -/
theorem gruLayerK_apply (x : Vec Ideal S1x1024 .f32) (hid : Vec Ideal S4x1x1024 .f32) (Wih Whh : Vec Ideal S4x3072x1024 .f32)
    (bih bhh : Vec Ideal S4x3072 .f32) (l : Fin 4) (z : Fin 1) (q : Fin 1024) :
    gruLayerK x hid Wih Whh bih bhh l (ix2 z q) = gruSpec x hid Wih Whh bih bhh l z q := by
  unfold gruLayerK gruSpec
  rw [gruK_apply, k1_pay7_blk, k1_pay7_blk, k1_pay7_blk, k1_pay8_blk, k1_pay8_blk, k1_pay8_blk, k1_pay6_apply, hidBlk_apply]

end Cert.Bridge

end
-- ==== Proof.Bridge.GruRef.lean ====
import proofs.«145509_j26731876451021_2_alg».proof.Proof.Gen.ReferenceIdeal
import proofs.«145509_j26731876451021_2_alg».proof.Proof.Bridge.GruCell
import Idealize.ShloMosaic.Lib.Pipeline.Value
import Idealize.ShloMosaic.PureOps.Ideal.Laws

/-! The reference's recurrent-unit layer as one function of the layer number, read at an index.

Layer `l` of the reference slices row `l` of the [4, 3072, 1024] weights, reads it as [3072, 1024], transposes it,
multiplies the [1, 1024] input row by it and adds row `l` of the [4, 3072] bias: entry `c` of the [1, 3072] result is
the sum over `k` of `x(0, k) · W(l, c, k)`, plus `b(l, c)` — `gruPre`. The three column bands `[g·1024, (g+1)·1024)`
of the input-side and the state-side results are the gates' pre-activations; the rest is elementwise, with the
logistic function spelt `1 / (1 + e⁻ˣ)`: `gruCell`. -/

noncomputable section

open scoped BigOperators

namespace Cert.Bridge

open Idealize.ShloMosaic Idealize.ShloMosaic.ValueIdx Cert.ReferenceIdeal Cert.ReferenceIdeal.Gen

/-! ## The layer as a function of its number -/

/-- Row `l` of a [4, 3072, 1024] array is a [1, 3072, 1024] block of it. -/
theorem gruSlW (l : Fin 4) : S4x3072x1024.Slices ![l.val, 0, 0] S1x3072x1024 :=
  ⟨rfl, fun a => by
    match a with
    | ⟨0, _⟩ => show l.val + 1 ≤ 4; omega
    | ⟨1, _⟩ => show 0 + 3072 ≤ 3072; omega
    | ⟨2, _⟩ => show 0 + 1024 ≤ 1024; omega⟩
/-- Row `l` of a [4, 3072] array is a [1, 3072] block of it. -/
theorem gruSlB (l : Fin 4) : S4x3072.Slices ![l.val, 0] S1x3072 :=
  ⟨rfl, fun a => by
    match a with
    | ⟨0, _⟩ => show l.val + 1 ≤ 4; omega
    | ⟨1, _⟩ => show 0 + 3072 ≤ 3072; omega⟩
/-- Row `l` of a [4, 1, 1024] array is a [1, 1, 1024] block of it. -/
theorem gruSlH (l : Fin 4) : S4x1x1024.Slices ![l.val, 0, 0] S1x1x1024 :=
  ⟨rfl, fun a => by
    match a with
    | ⟨0, _⟩ => show l.val + 1 ≤ 4; omega
    | ⟨1, _⟩ => show 0 + 1 ≤ 1; omega
    | ⟨2, _⟩ => show 0 + 1024 ≤ 1024; omega⟩

/-- The [1, 3072] row of pre-activations: the input row times layer `l`'s transposed weights, plus its bias row. -/
def gruRefPre (W : FVec Ideal S4x3072x1024 .f32) (b : FVec Ideal S4x3072 .f32) (l : Fin 4) (v : FVec Ideal S1x1024 .f32) :
    FVec Ideal S1x3072 .f32 :=
  addf (Host.dotGeneral (F := Ideal) dot_S1x1024_S1024x3072_S1x3072_1_0_0_1_n_n none v
      (transpose S1024x3072 [1, 0]
        (shapeCast S3072x1024 (extractStridedSlice S1x3072x1024 ![l.val, 0, 0] W (gruSlW l)) shapeCasts_S1x3072x1024_S3072x1024)
        transposes_S3072x1024_S1024x3072_1_0))
    (broadcastInDim S1x3072 ![1] bcast_S3072_S1x3072_1
      (shapeCast S3072 (extractStridedSlice S1x3072 ![l.val, 0] b (gruSlB l)) shapeCasts_S1x3072_S3072))

/-- Layer `l`'s old state as a [1, 1024] row. -/
def gruRefH (hid : FVec Ideal S4x1x1024 .f32) (l : Fin 4) : FVec Ideal S1x1024 .f32 :=
  shapeCast S1x1024 (extractStridedSlice S1x1x1024 ![l.val, 0, 0] hid (gruSlH l)) shapeCasts_S1x1x1024_S1x1024

/-- The constant one, as the reference broadcasts it. -/
def gruRefOne : FVec Ideal S1x1024 .f32 :=
  broadcastInDim S1x1024 ![] bcast_S_S1x1024 (constant (F := Ideal) S_ .f32 0x3F800000#32)

/-- The logistic function as the reference spells it. -/
def gruRefSigmoid (s : FVec Ideal S1x1024 .f32) : FVec Ideal S1x1024 .f32 :=
  Host.divf (F := Ideal) gruRefOne (addf gruRefOne (Host.exp (F := Ideal) (Host.negf (F := Ideal) s)))

/-- The elementwise part: from the two [1, 3072] rows of pre-activations and the old state to the new state. -/
def gruRefCombine (gi gh : FVec Ideal S1x3072 .f32) (h : FVec Ideal S1x1024 .f32) : FVec Ideal S1x1024 .f32 :=
  addf
    (mulf
      (subf gruRefOne
        (gruRefSigmoid (addf (extractStridedSlice S1x1024 ![0, 1024] gi slices_S1x3072_S1x1024_0_1024)
          (extractStridedSlice S1x1024 ![0, 1024] gh slices_S1x3072_S1x1024_0_1024))))
      (Host.tanh (F := Ideal)
        (addf (extractStridedSlice S1x1024 ![0, 2048] gi slices_S1x3072_S1x1024_0_2048)
          (mulf
            (gruRefSigmoid (addf (extractStridedSlice S1x1024 ![0, 0] gi slices_S1x3072_S1x1024_0_0)
              (extractStridedSlice S1x1024 ![0, 0] gh slices_S1x3072_S1x1024_0_0)))
            (extractStridedSlice S1x1024 ![0, 2048] gh slices_S1x3072_S1x1024_0_2048)))))
    (mulf
      (gruRefSigmoid (addf (extractStridedSlice S1x1024 ![0, 1024] gi slices_S1x3072_S1x1024_0_1024)
        (extractStridedSlice S1x1024 ![0, 1024] gh slices_S1x3072_S1x1024_0_1024)))
      h)

/-- The reference's layer `l`: input row `x`, the state, weight and bias arrays. -/
def refLayer (l : Fin 4) (x : FVec Ideal S1x1024 .f32) (hid : FVec Ideal S4x1x1024 .f32)
    (Wih Whh : FVec Ideal S4x3072x1024 .f32) (bih bhh : FVec Ideal S4x3072 .f32) : FVec Ideal S1x1024 .f32 :=
  gruRefCombine (gruRefPre Wih bih l x) (gruRefPre Whh bhh l (gruRefH hid l)) (gruRefH hid l)

/-! ## The product of a row with a [1024, 3072] matrix, at a column -/

/-- The dimension numbers of the reference's products: [1, 1024] × [1024, 3072], contracting axis 1 with axis 0. -/
abbrev gruDR : DotDims S1x1024 S1024x3072 S1x3072 := dot_S1x1024_S1024x3072_S1x3072_1_0_0_1_n_n

theorem gruDR_lhs0 (i : S1x3072.Idx) (c : gruDR.contr.Idx) : (gruDR.lhsIdx i c 0).val = (i 0).val := by
  unfold DotDims.lhsIdx
  rw [dif_neg (show ¬(0 : Fin S1x1024.rank) ∈ gruDR.lhsBatch by decide), dif_pos (show (0 : Fin S1x1024.rank) ∈ gruDR.lhsNonContracting by decide)]
  rfl
theorem gruDR_lhs1 (i : S1x3072.Idx) (c : gruDR.contr.Idx) : (gruDR.lhsIdx i c 1).val = (c ⟨0, by decide⟩).val :=
  gruDR.lhsIdx_val_of_single rfl i c
theorem gruDR_rhs0 (i : S1x3072.Idx) (c : gruDR.contr.Idx) : (gruDR.rhsIdx i c 0).val = (c ⟨0, by decide⟩).val :=
  gruDR.rhsIdx_val_of_single rfl i c
theorem gruDR_rhs1 (i : S1x3072.Idx) (c : gruDR.contr.Idx) : (gruDR.rhsIdx i c 1).val = (i 1).val := by
  unfold DotDims.rhsIdx
  rw [dif_neg (show ¬(1 : Fin S1024x3072.rank) ∈ gruDR.rhsBatch by decide), dif_pos (show (1 : Fin S1024x3072.rank) ∈ gruDR.rhsNonContracting by decide)]
  rfl

/-- The host's product at column `c`: the sum over `k` of `v(z, k) · T(k, c)`. -/
theorem gruDotR_apply (v : FVec Ideal S1x1024 .f32) (T : FVec Ideal S1024x3072 .f32) (z : Fin 1) (c : Fin 3072) :
    Host.dotGeneral (F := Ideal) gruDR none v T (ix2 z c) = ∑ k : Fin 1024, v (ix2 z k) * T (ix2 k c) := by
  simp only [Host.dotGeneral]
  rw [Ideal.dotGeneral_apply, ← Equiv.sum_comp (contrEquiv1 gruDR 1024 rfl rfl).symm]
  refine Finset.sum_congr rfl fun k _ => ?_
  have hk := contrEquiv1_symm_val gruDR 1024 rfl rfl k
  have el : gruDR.lhsIdx (ix2 z c) ((contrEquiv1 gruDR 1024 rfl rfl).symm k) = ix2 z k := funext fun a => Fin.ext (by
    match a with
    | ⟨0, _⟩ => exact gruDR_lhs0 _ _
    | ⟨1, _⟩ => exact (gruDR_lhs1 _ _).trans hk)
  have er : gruDR.rhsIdx (ix2 z c) ((contrEquiv1 gruDR 1024 rfl rfl).symm k) = ix2 k c := funext fun a => Fin.ext (by
    match a with
    | ⟨0, _⟩ => exact (gruDR_rhs0 _ _).trans hk
    | ⟨1, _⟩ => exact gruDR_rhs1 _ _)
  rw [el, er]

/-! ## The pieces at an index -/

/-- Row `l` of the weights, read as [3072, 1024] and transposed, at `(k, c)`: the weights at `(l, c, k)`. -/
theorem gruRefW_apply (W : FVec Ideal S4x3072x1024 .f32) (l : Fin 4) (k : Fin 1024) (c : Fin 3072) :
    transpose S1024x3072 [1, 0]
        (shapeCast S3072x1024 (extractStridedSlice S1x3072x1024 ![l.val, 0, 0] W (gruSlW l)) shapeCasts_S1x3072x1024_S3072x1024)
        transposes_S3072x1024_S1024x3072_1_0 (ix2 k c)
      = W (ix3 l c k) := by
  refine (transpose_apply [1, 0] _ transposes_S3072x1024_S1024x3072_1_0 (ix2 k c) (ix2 c k) (fun b => by
    match b with
    | ⟨0, _⟩ => rfl
    | ⟨1, _⟩ => rfl)).trans ?_
  refine (shapeCast_apply _ shapeCasts_S1x3072x1024_S3072x1024 (ix2 c k) (ix3 (0 : Fin 1) c k) (by
    rw [Shape.rowMajor_val_three, Shape.rowMajor_val_two]
    show (0 * 3072 + c.val) * 1024 + k.val = c.val * 1024 + k.val
    omega)).trans ?_
  exact extractStridedSlice_apply ![l.val, 0, 0] W (gruSlW l) (ix3 (0 : Fin 1) c k) (ix3 l c k) (fun a => by
    match a with
    | ⟨0, _⟩ => show l.val = l.val + 0; omega
    | ⟨1, _⟩ => show c.val = 0 + c.val; omega
    | ⟨2, _⟩ => show k.val = 0 + k.val; omega)

/-- Row `l` of the bias, broadcast to [1, 3072], at `(z, c)`: the bias at `(l, c)`. -/
theorem gruRefB_apply (b : FVec Ideal S4x3072 .f32) (l : Fin 4) (z : Fin 1) (c : Fin 3072) :
    broadcastInDim S1x3072 ![1] bcast_S3072_S1x3072_1
        (shapeCast S3072 (extractStridedSlice S1x3072 ![l.val, 0] b (gruSlB l)) shapeCasts_S1x3072_S3072) (ix2 z c)
      = b (ix2 l c) := by
  refine (broadcastInDim_apply _ bcast_S3072_S1x3072_1 _ (ix2 z c) (ix1 c) (fun a => by
    match a with
    | ⟨0, _⟩ => show c.val = if (3072 : Nat) = 1 then 0 else c.val; rw [if_neg (by decide)])).trans ?_
  refine (shapeCast_apply _ shapeCasts_S1x3072_S3072 (ix1 c) (ix2 (0 : Fin 1) c) (by
    rw [Shape.rowMajor_val_two, Shape.rowMajor_val_one]
    show 0 * 3072 + c.val = c.val
    omega)).trans ?_
  exact extractStridedSlice_apply ![l.val, 0] b (gruSlB l) (ix2 (0 : Fin 1) c) (ix2 l c) (fun a => by
    match a with
    | ⟨0, _⟩ => show l.val = l.val + 0; omega
    | ⟨1, _⟩ => show c.val = 0 + c.val; omega)

/-- The row of pre-activations at column `c`. -/
theorem gruRefPre_apply (W : FVec Ideal S4x3072x1024 .f32) (b : FVec Ideal S4x3072 .f32) (l : Fin 4) (v : FVec Ideal S1x1024 .f32)
    (z : Fin 1) (c : Fin 3072) : gruRefPre W b l v (ix2 z c) = gruPre v W b l z c := by
  unfold gruRefPre gruPre
  rw [addf_apply, gruRefB_apply]
  congr 1
  refine (gruDotR_apply v _ z c).trans (Finset.sum_congr rfl fun k _ => ?_)
  rw [gruRefW_apply]

/-- The old state's row at column `q`. -/
theorem gruRefH_apply (hid : FVec Ideal S4x1x1024 .f32) (l : Fin 4) (z : Fin 1) (q : Fin 1024) :
    gruRefH hid l (ix2 z q) = hid (ix3 l z q) := by
  unfold gruRefH
  refine (shapeCast_apply _ shapeCasts_S1x1x1024_S1x1024 (ix2 z q) (ix3 (0 : Fin 1) z q) (by
    rw [Shape.rowMajor_val_three, Shape.rowMajor_val_two]
    show (0 * 1 + z.val) * 1024 + q.val = z.val * 1024 + q.val
    omega)).trans ?_
  exact extractStridedSlice_apply ![l.val, 0, 0] hid (gruSlH l) (ix3 (0 : Fin 1) z q) (ix3 l z q) (fun a => by
    match a with
    | ⟨0, _⟩ => show l.val = l.val + 0; omega
    | ⟨1, _⟩ => show z.val = 0 + z.val; omega
    | ⟨2, _⟩ => show q.val = 0 + q.val; omega)

/-- The old state's row is the state array's row `l`. -/
theorem gruRefH_eq (hid : FVec Ideal S4x1x1024 .f32) (l : Fin 4) : gruRefH hid l = fun j => hid (ix3 l (j 0) (j 1)) := by
  funext j
  obtain ⟨z, q, rfl⟩ : ∃ (z : Fin 1) (q : Fin 1024), j = ix2 z q := ⟨j 0, j 1, eq_ix2 j⟩
  exact gruRefH_apply hid l z q

/-- Gate `g`'s band of a [1, 3072] row at column `q`: the row at column `g·1024 + q`. -/
theorem gruBand0_apply (p : FVec Ideal S1x3072 .f32) (z : Fin 1) (q : Fin 1024) :
    extractStridedSlice S1x1024 ![0, 0] p slices_S1x3072_S1x1024_0_0 (ix2 z q) = p (ix2 z (gcol 0 q)) :=
  extractStridedSlice_apply ![0, 0] p slices_S1x3072_S1x1024_0_0 (ix2 z q) (ix2 z (gcol 0 q)) (fun a => by
    match a with
    | ⟨0, _⟩ => show z.val = 0 + z.val; omega
    | ⟨1, _⟩ => show 0 * 1024 + q.val = 0 + q.val; omega)
theorem gruBand1_apply (p : FVec Ideal S1x3072 .f32) (z : Fin 1) (q : Fin 1024) :
    extractStridedSlice S1x1024 ![0, 1024] p slices_S1x3072_S1x1024_0_1024 (ix2 z q) = p (ix2 z (gcol 1 q)) :=
  extractStridedSlice_apply ![0, 1024] p slices_S1x3072_S1x1024_0_1024 (ix2 z q) (ix2 z (gcol 1 q)) (fun a => by
    match a with
    | ⟨0, _⟩ => show z.val = 0 + z.val; omega
    | ⟨1, _⟩ => show 1 * 1024 + q.val = 1024 + q.val; omega)
theorem gruBand2_apply (p : FVec Ideal S1x3072 .f32) (z : Fin 1) (q : Fin 1024) :
    extractStridedSlice S1x1024 ![0, 2048] p slices_S1x3072_S1x1024_0_2048 (ix2 z q) = p (ix2 z (gcol 2 q)) :=
  extractStridedSlice_apply ![0, 2048] p slices_S1x3072_S1x1024_0_2048 (ix2 z q) (ix2 z (gcol 2 q)) (fun a => by
    match a with
    | ⟨0, _⟩ => show z.val = 0 + z.val; omega
    | ⟨1, _⟩ => show 2 * 1024 + q.val = 2048 + q.val; omega)

/-- The reference's spelling of the logistic function at an index is the logistic function. -/
theorem gruRefSigmoid_apply (s : FVec Ideal S1x1024 .f32) (i : S1x1024.Idx) : gruRefSigmoid s i = Ideal.logistic (s i) := by
  show Ideal.div (Ideal.ofBits .f32 0x3F800000#32) (Ideal.ofBits .f32 0x3F800000#32 + Ideal.exp (-(s i))) = _
  rw [Ideal.ofBits_one_f32]
  rfl

/-- The elementwise part at column `q`: the cell on the three bands. -/
theorem gruRefCombine_apply (gi gh : FVec Ideal S1x3072 .f32) (h : FVec Ideal S1x1024 .f32) (z : Fin 1) (q : Fin 1024) :
    gruRefCombine gi gh h (ix2 z q)
      = gruCell (gi (ix2 z (gcol 0 q))) (gh (ix2 z (gcol 0 q))) (gi (ix2 z (gcol 1 q))) (gh (ix2 z (gcol 1 q)))
          (gi (ix2 z (gcol 2 q))) (gh (ix2 z (gcol 2 q))) (h (ix2 z q)) := by
  unfold gruRefCombine gruCell
  rw [addf_apply, mulf_apply, mulf_apply, subf_apply, gruRefSigmoid_apply, addf_apply, gruBand1_apply, gruBand1_apply]
  show (Ideal.ofBits .f32 0x3F800000#32 - _) * Ideal.tanh
      (extractStridedSlice S1x1024 ![0, 2048] gi slices_S1x3072_S1x1024_0_2048 (ix2 z q)
        + gruRefSigmoid (addf (extractStridedSlice S1x1024 ![0, 0] gi slices_S1x3072_S1x1024_0_0)
            (extractStridedSlice S1x1024 ![0, 0] gh slices_S1x3072_S1x1024_0_0)) (ix2 z q)
          * extractStridedSlice S1x1024 ![0, 2048] gh slices_S1x3072_S1x1024_0_2048 (ix2 z q)) + _ = _
  rw [gruRefSigmoid_apply, addf_apply, gruBand0_apply, gruBand0_apply, gruBand2_apply, gruBand2_apply, Ideal.ofBits_one_f32]

/-- The reference's layer `l` at column `q`. -/
theorem refLayer_apply (l : Fin 4) (x : FVec Ideal S1x1024 .f32) (hid : FVec Ideal S4x1x1024 .f32)
    (Wih Whh : FVec Ideal S4x3072x1024 .f32) (bih bhh : FVec Ideal S4x3072 .f32) (z : Fin 1) (q : Fin 1024) :
    refLayer l x hid Wih Whh bih bhh (ix2 z q) = gruSpec x hid Wih Whh bih bhh l z q := by
  unfold refLayer gruSpec
  rw [gruRefCombine_apply, gruRefPre_apply, gruRefPre_apply, gruRefPre_apply, gruRefPre_apply, gruRefPre_apply, gruRefPre_apply, gruRefH_apply,
    gruRefH_eq]

end Cert.Bridge

end
-- ==== Proof.Bridge.Gru.lean ====
import proofs.«145509_j26731876451021_2_alg».proof.Proof.RefReadP
import proofs.«145509_j26731876451021_2_alg».proof.Proof.Bridge.GruK
import proofs.«145509_j26731876451021_2_alg».proof.Proof.Bridge.GruRef

/-! The four layers of the gated recurrent unit: the reference's operations against the kernel's second region.

Each layer of the reference is the same forty-six operations, with the layer number in the slice offsets and the previous
layer's result as the input row: `refLayer l`. At every column both `refLayer l` and the kernel's layer `l` are the cell
`gruSpec` on the same six pre-activations and the same old state, so the two are one function. -/

noncomputable section

namespace Cert.Bridge

open Idealize.ShloMosaic Idealize.ShloMosaic.ValueIdx Cert.ReferenceIdeal Cert.ReferenceIdeal.Gen

/-- The reference's layer `l` and the kernel's layer `l` are one function of the input row and the arrays. -/
theorem refLayer_eq (l : Fin 4) (x : FVec Ideal S1x1024 .f32) (hid : FVec Ideal S4x1x1024 .f32)
    (Wih Whh : FVec Ideal S4x3072x1024 .f32) (bih bhh : FVec Ideal S4x3072 .f32) :
    refLayer l x hid Wih Whh bih bhh = gruLayerK x hid Wih Whh bih bhh l := by
  funext i
  obtain ⟨z, q, rfl⟩ : ∃ (z : Fin 1) (q : Fin 1024), i = ix2 z q := ⟨i 0, i 1, eq_ix2 i⟩
  rw [refLayer_apply]
  exact (gruLayerK_apply x hid Wih Whh bih bhh l z q).symm

/-- Layer 0 of the reference is `refLayer 0` of the combined input row: the same operations in the same order. -/
theorem layer0_ref (x0 : (⟨S2, .i32⟩ : BufTy).Contents (Elt Ideal)) (x1 : (⟨S4x1x1024, .f32⟩ : BufTy).Contents (Elt Ideal)) (x2 : (⟨S128x1024, .f32⟩ : BufTy).Contents (Elt Ideal)) (x3 : (⟨S32000x1024, .f32⟩ : BufTy).Contents (Elt Ideal)) (x4 : (⟨S128x3072, .f32⟩ : BufTy).Contents (Elt Ideal)) (x5 : (⟨S128, .f32⟩ : BufTy).Contents (Elt Ideal)) (x6 : (⟨S1024x3072, .f32⟩ : BufTy).Contents (Elt Ideal)) (x7 : (⟨S1024, .f32⟩ : BufTy).Contents (Elt Ideal)) (x8 x9 : (⟨S4x3072x1024, .f32⟩ : BufTy).Contents (Elt Ideal)) (x10 x11 : (⟨S4x3072, .f32⟩ : BufTy).Contents (Elt Ideal)) :
    Read.val_main_v78 x0 x1 x2 x3 x4 x5 x6 x7 x8 x9 x10 x11 = refLayer 0 (Read.val_main_v32 x0 x1 x2 x3 x4 x5 x6 x7) x1 x8 x9 x10 x11 := by
  unfold Read.val_main_v78 Read.val_main_v77 Read.val_main_v76 Read.val_main_v75 Read.val_main_v74 Read.val_main_v73
    Read.val_main_v72 Read.val_main_v71 Read.val_main_v70 Read.val_main_v69 Read.val_main_v68 Read.val_main_v67
    Read.val_main_v66 Read.val_main_v65 Read.val_main_v64 Read.val_main_v63 Read.val_main_v62 Read.val_main_v61
    Read.val_main_v60 Read.val_main_v59 Read.val_main_v58 Read.val_main_v57 Read.val_main_v56 Read.val_main_v55
    Read.val_main_v54 Read.val_main_v53 Read.val_main_v52 Read.val_main_v51 Read.val_main_v50 Read.val_main_v49
    Read.val_main_v48 Read.val_main_v47 Read.val_main_v46 Read.val_main_v45 Read.val_main_v44 Read.val_main_v43
    Read.val_main_v42 Read.val_main_v41 Read.val_main_v40 Read.val_main_v39 Read.val_main_v38 Read.val_main_v37
    Read.val_main_v36 Read.val_main_v35 Read.val_main_v34 Read.val_main_v33 Read.val_main_cst_3 Read.val_main_cst_4
    Read.val_main_cst_5 Read.val_main_cst_6 Read.val_main_cst_7
  generalize Read.val_main_v32 x0 x1 x2 x3 x4 x5 x6 x7 = x
  rfl

/-- Layer 0 of the reference is the kernel's layer 0. -/
theorem layer0_eq (x0 : (⟨S2, .i32⟩ : BufTy).Contents (Elt Ideal)) (x1 : (⟨S4x1x1024, .f32⟩ : BufTy).Contents (Elt Ideal)) (x2 : (⟨S128x1024, .f32⟩ : BufTy).Contents (Elt Ideal)) (x3 : (⟨S32000x1024, .f32⟩ : BufTy).Contents (Elt Ideal)) (x4 : (⟨S128x3072, .f32⟩ : BufTy).Contents (Elt Ideal)) (x5 : (⟨S128, .f32⟩ : BufTy).Contents (Elt Ideal)) (x6 : (⟨S1024x3072, .f32⟩ : BufTy).Contents (Elt Ideal)) (x7 : (⟨S1024, .f32⟩ : BufTy).Contents (Elt Ideal)) (x8 x9 : (⟨S4x3072x1024, .f32⟩ : BufTy).Contents (Elt Ideal)) (x10 x11 : (⟨S4x3072, .f32⟩ : BufTy).Contents (Elt Ideal)) :
    Read.val_main_v78 x0 x1 x2 x3 x4 x5 x6 x7 x8 x9 x10 x11 = gruLayerK (Read.val_main_v32 x0 x1 x2 x3 x4 x5 x6 x7) x1 x8 x9 x10 x11 0 :=
  (layer0_ref x0 x1 x2 x3 x4 x5 x6 x7 x8 x9 x10 x11).trans (refLayer_eq 0 _ x1 x8 x9 x10 x11)

/-- Layer 1 of the reference is `refLayer 1` of layer 0's result: the same operations in the same order. -/
theorem layer1_ref (x0 : (⟨S2, .i32⟩ : BufTy).Contents (Elt Ideal)) (x1 : (⟨S4x1x1024, .f32⟩ : BufTy).Contents (Elt Ideal)) (x2 : (⟨S128x1024, .f32⟩ : BufTy).Contents (Elt Ideal)) (x3 : (⟨S32000x1024, .f32⟩ : BufTy).Contents (Elt Ideal)) (x4 : (⟨S128x3072, .f32⟩ : BufTy).Contents (Elt Ideal)) (x5 : (⟨S128, .f32⟩ : BufTy).Contents (Elt Ideal)) (x6 : (⟨S1024x3072, .f32⟩ : BufTy).Contents (Elt Ideal)) (x7 : (⟨S1024, .f32⟩ : BufTy).Contents (Elt Ideal)) (x8 x9 : (⟨S4x3072x1024, .f32⟩ : BufTy).Contents (Elt Ideal)) (x10 x11 : (⟨S4x3072, .f32⟩ : BufTy).Contents (Elt Ideal)) :
    Read.val_main_v124 x0 x1 x2 x3 x4 x5 x6 x7 x8 x9 x10 x11 = refLayer 1 (Read.val_main_v78 x0 x1 x2 x3 x4 x5 x6 x7 x8 x9 x10 x11) x1 x8 x9 x10 x11 := by
  unfold Read.val_main_v124 Read.val_main_v123 Read.val_main_v122 Read.val_main_v121 Read.val_main_v120 Read.val_main_v119
    Read.val_main_v118 Read.val_main_v117 Read.val_main_v116 Read.val_main_v115 Read.val_main_v114 Read.val_main_v113
    Read.val_main_v112 Read.val_main_v111 Read.val_main_v110 Read.val_main_v109 Read.val_main_v108 Read.val_main_v107
    Read.val_main_v106 Read.val_main_v105 Read.val_main_v104 Read.val_main_v103 Read.val_main_v102 Read.val_main_v101
    Read.val_main_v100 Read.val_main_v99 Read.val_main_v98 Read.val_main_v97 Read.val_main_v96 Read.val_main_v95
    Read.val_main_v94 Read.val_main_v93 Read.val_main_v92 Read.val_main_v91 Read.val_main_v90 Read.val_main_v89
    Read.val_main_v88 Read.val_main_v87 Read.val_main_v86 Read.val_main_v85 Read.val_main_v84 Read.val_main_v83
    Read.val_main_v82 Read.val_main_v81 Read.val_main_v80 Read.val_main_v79 Read.val_main_cst_8 Read.val_main_cst_9
    Read.val_main_cst_10 Read.val_main_cst_11 Read.val_main_cst_12
  generalize Read.val_main_v78 x0 x1 x2 x3 x4 x5 x6 x7 x8 x9 x10 x11 = x
  rfl

/-- Layer 1 of the reference is the kernel's layer 1. -/
theorem layer1_eq (x0 : (⟨S2, .i32⟩ : BufTy).Contents (Elt Ideal)) (x1 : (⟨S4x1x1024, .f32⟩ : BufTy).Contents (Elt Ideal)) (x2 : (⟨S128x1024, .f32⟩ : BufTy).Contents (Elt Ideal)) (x3 : (⟨S32000x1024, .f32⟩ : BufTy).Contents (Elt Ideal)) (x4 : (⟨S128x3072, .f32⟩ : BufTy).Contents (Elt Ideal)) (x5 : (⟨S128, .f32⟩ : BufTy).Contents (Elt Ideal)) (x6 : (⟨S1024x3072, .f32⟩ : BufTy).Contents (Elt Ideal)) (x7 : (⟨S1024, .f32⟩ : BufTy).Contents (Elt Ideal)) (x8 x9 : (⟨S4x3072x1024, .f32⟩ : BufTy).Contents (Elt Ideal)) (x10 x11 : (⟨S4x3072, .f32⟩ : BufTy).Contents (Elt Ideal)) :
    Read.val_main_v124 x0 x1 x2 x3 x4 x5 x6 x7 x8 x9 x10 x11 = gruLayerK (Read.val_main_v78 x0 x1 x2 x3 x4 x5 x6 x7 x8 x9 x10 x11) x1 x8 x9 x10 x11 1 :=
  (layer1_ref x0 x1 x2 x3 x4 x5 x6 x7 x8 x9 x10 x11).trans (refLayer_eq 1 _ x1 x8 x9 x10 x11)

/-- Layer 2 of the reference is `refLayer 2` of layer 1's result: the same operations in the same order. -/
theorem layer2_ref (x0 : (⟨S2, .i32⟩ : BufTy).Contents (Elt Ideal)) (x1 : (⟨S4x1x1024, .f32⟩ : BufTy).Contents (Elt Ideal)) (x2 : (⟨S128x1024, .f32⟩ : BufTy).Contents (Elt Ideal)) (x3 : (⟨S32000x1024, .f32⟩ : BufTy).Contents (Elt Ideal)) (x4 : (⟨S128x3072, .f32⟩ : BufTy).Contents (Elt Ideal)) (x5 : (⟨S128, .f32⟩ : BufTy).Contents (Elt Ideal)) (x6 : (⟨S1024x3072, .f32⟩ : BufTy).Contents (Elt Ideal)) (x7 : (⟨S1024, .f32⟩ : BufTy).Contents (Elt Ideal)) (x8 x9 : (⟨S4x3072x1024, .f32⟩ : BufTy).Contents (Elt Ideal)) (x10 x11 : (⟨S4x3072, .f32⟩ : BufTy).Contents (Elt Ideal)) :
    Read.val_main_v170 x0 x1 x2 x3 x4 x5 x6 x7 x8 x9 x10 x11 = refLayer 2 (Read.val_main_v124 x0 x1 x2 x3 x4 x5 x6 x7 x8 x9 x10 x11) x1 x8 x9 x10 x11 := by
  unfold Read.val_main_v170 Read.val_main_v169 Read.val_main_v168 Read.val_main_v167 Read.val_main_v166 Read.val_main_v165
    Read.val_main_v164 Read.val_main_v163 Read.val_main_v162 Read.val_main_v161 Read.val_main_v160 Read.val_main_v159
    Read.val_main_v158 Read.val_main_v157 Read.val_main_v156 Read.val_main_v155 Read.val_main_v154 Read.val_main_v153
    Read.val_main_v152 Read.val_main_v151 Read.val_main_v150 Read.val_main_v149 Read.val_main_v148 Read.val_main_v147
    Read.val_main_v146 Read.val_main_v145 Read.val_main_v144 Read.val_main_v143 Read.val_main_v142 Read.val_main_v141
    Read.val_main_v140 Read.val_main_v139 Read.val_main_v138 Read.val_main_v137 Read.val_main_v136 Read.val_main_v135
    Read.val_main_v134 Read.val_main_v133 Read.val_main_v132 Read.val_main_v131 Read.val_main_v130 Read.val_main_v129
    Read.val_main_v128 Read.val_main_v127 Read.val_main_v126 Read.val_main_v125 Read.val_main_cst_13 Read.val_main_cst_14
    Read.val_main_cst_15 Read.val_main_cst_16 Read.val_main_cst_17
  generalize Read.val_main_v124 x0 x1 x2 x3 x4 x5 x6 x7 x8 x9 x10 x11 = x
  rfl

/-- Layer 2 of the reference is the kernel's layer 2. -/
theorem layer2_eq (x0 : (⟨S2, .i32⟩ : BufTy).Contents (Elt Ideal)) (x1 : (⟨S4x1x1024, .f32⟩ : BufTy).Contents (Elt Ideal)) (x2 : (⟨S128x1024, .f32⟩ : BufTy).Contents (Elt Ideal)) (x3 : (⟨S32000x1024, .f32⟩ : BufTy).Contents (Elt Ideal)) (x4 : (⟨S128x3072, .f32⟩ : BufTy).Contents (Elt Ideal)) (x5 : (⟨S128, .f32⟩ : BufTy).Contents (Elt Ideal)) (x6 : (⟨S1024x3072, .f32⟩ : BufTy).Contents (Elt Ideal)) (x7 : (⟨S1024, .f32⟩ : BufTy).Contents (Elt Ideal)) (x8 x9 : (⟨S4x3072x1024, .f32⟩ : BufTy).Contents (Elt Ideal)) (x10 x11 : (⟨S4x3072, .f32⟩ : BufTy).Contents (Elt Ideal)) :
    Read.val_main_v170 x0 x1 x2 x3 x4 x5 x6 x7 x8 x9 x10 x11 = gruLayerK (Read.val_main_v124 x0 x1 x2 x3 x4 x5 x6 x7 x8 x9 x10 x11) x1 x8 x9 x10 x11 2 :=
  (layer2_ref x0 x1 x2 x3 x4 x5 x6 x7 x8 x9 x10 x11).trans (refLayer_eq 2 _ x1 x8 x9 x10 x11)

/-- Layer 3 of the reference is `refLayer 3` of layer 2's result: the same operations in the same order. -/
theorem layer3_ref (x0 : (⟨S2, .i32⟩ : BufTy).Contents (Elt Ideal)) (x1 : (⟨S4x1x1024, .f32⟩ : BufTy).Contents (Elt Ideal)) (x2 : (⟨S128x1024, .f32⟩ : BufTy).Contents (Elt Ideal)) (x3 : (⟨S32000x1024, .f32⟩ : BufTy).Contents (Elt Ideal)) (x4 : (⟨S128x3072, .f32⟩ : BufTy).Contents (Elt Ideal)) (x5 : (⟨S128, .f32⟩ : BufTy).Contents (Elt Ideal)) (x6 : (⟨S1024x3072, .f32⟩ : BufTy).Contents (Elt Ideal)) (x7 : (⟨S1024, .f32⟩ : BufTy).Contents (Elt Ideal)) (x8 x9 : (⟨S4x3072x1024, .f32⟩ : BufTy).Contents (Elt Ideal)) (x10 x11 : (⟨S4x3072, .f32⟩ : BufTy).Contents (Elt Ideal)) :
    Read.val_main_v216 x0 x1 x2 x3 x4 x5 x6 x7 x8 x9 x10 x11 = refLayer 3 (Read.val_main_v170 x0 x1 x2 x3 x4 x5 x6 x7 x8 x9 x10 x11) x1 x8 x9 x10 x11 := by
  unfold Read.val_main_v216 Read.val_main_v215 Read.val_main_v214 Read.val_main_v213 Read.val_main_v212 Read.val_main_v211
    Read.val_main_v210 Read.val_main_v209 Read.val_main_v208 Read.val_main_v207 Read.val_main_v206 Read.val_main_v205
    Read.val_main_v204 Read.val_main_v203 Read.val_main_v202 Read.val_main_v201 Read.val_main_v200 Read.val_main_v199
    Read.val_main_v198 Read.val_main_v197 Read.val_main_v196 Read.val_main_v195 Read.val_main_v194 Read.val_main_v193
    Read.val_main_v192 Read.val_main_v191 Read.val_main_v190 Read.val_main_v189 Read.val_main_v188 Read.val_main_v187
    Read.val_main_v186 Read.val_main_v185 Read.val_main_v184 Read.val_main_v183 Read.val_main_v182 Read.val_main_v181
    Read.val_main_v180 Read.val_main_v179 Read.val_main_v178 Read.val_main_v177 Read.val_main_v176 Read.val_main_v175
    Read.val_main_v174 Read.val_main_v173 Read.val_main_v172 Read.val_main_v171 Read.val_main_cst_18 Read.val_main_cst_19
    Read.val_main_cst_20 Read.val_main_cst_21 Read.val_main_cst_22
  generalize Read.val_main_v170 x0 x1 x2 x3 x4 x5 x6 x7 x8 x9 x10 x11 = x
  rfl

/-- Layer 3 of the reference is the kernel's layer 3. -/
theorem layer3_eq (x0 : (⟨S2, .i32⟩ : BufTy).Contents (Elt Ideal)) (x1 : (⟨S4x1x1024, .f32⟩ : BufTy).Contents (Elt Ideal)) (x2 : (⟨S128x1024, .f32⟩ : BufTy).Contents (Elt Ideal)) (x3 : (⟨S32000x1024, .f32⟩ : BufTy).Contents (Elt Ideal)) (x4 : (⟨S128x3072, .f32⟩ : BufTy).Contents (Elt Ideal)) (x5 : (⟨S128, .f32⟩ : BufTy).Contents (Elt Ideal)) (x6 : (⟨S1024x3072, .f32⟩ : BufTy).Contents (Elt Ideal)) (x7 : (⟨S1024, .f32⟩ : BufTy).Contents (Elt Ideal)) (x8 x9 : (⟨S4x3072x1024, .f32⟩ : BufTy).Contents (Elt Ideal)) (x10 x11 : (⟨S4x3072, .f32⟩ : BufTy).Contents (Elt Ideal)) :
    Read.val_main_v216 x0 x1 x2 x3 x4 x5 x6 x7 x8 x9 x10 x11 = gruLayerK (Read.val_main_v170 x0 x1 x2 x3 x4 x5 x6 x7 x8 x9 x10 x11) x1 x8 x9 x10 x11 3 :=
  (layer3_ref x0 x1 x2 x3 x4 x5 x6 x7 x8 x9 x10 x11).trans (refLayer_eq 3 _ x1 x8 x9 x10 x11)

end Cert.Bridge

end
-- ==== Proof.Bridge.ProjTile.lean ====
import proofs.«145509_j26731876451021_2_alg».proof.Proof.Gen.KernelIdeal.Skeleton
import Idealize.ShloMosaic.Lib.ValueIdx
import Idealize.ShloMosaic.Lib.Pipeline.Value
import Idealize.ShloMosaic.PureOps.Ideal.Laws

/-! One tile of the output projection read at an index, at the extended reals.

The tile's payload is the product of the [1, 1024] input row with the transposed [3200, 1024] block of the projection
matrix, into a zero accumulator, plus the [1, 3200] block of the bias: at column `q` the sum over `k` of
`x(0, k) · W(q, k)`, plus `b(0, q)`. The narrowing of the operands to the 16-bit format is the identity on extended
reals, and so are the two casts of a shape to itself. -/

noncomputable section

open scoped BigOperators

namespace Cert.Bridge

open Idealize.ShloMosaic Idealize.ShloMosaic.ValueIdx Cert.KernelIdeal Cert.KernelIdeal.Gen

/-- The dimension numbers of the tile's product: [1, 1024] × [3200, 1024]ᵀ, contracting axis 1 with axis 1. -/
abbrev DOutProj : DotDims S1x1024 S3200x1024 S1x3200 := dot_S1x1024_S3200x1024_S1x3200_1_1_0_0_n_n

theorem DOutProj_lhs0 (i : S1x3200.Idx) (c : DOutProj.contr.Idx) : (DOutProj.lhsIdx i c 0).val = (i 0).val := by
  unfold DotDims.lhsIdx
  rw [dif_neg (show ¬(0 : Fin S1x1024.rank) ∈ DOutProj.lhsBatch by decide), dif_pos (show (0 : Fin S1x1024.rank) ∈ DOutProj.lhsNonContracting by decide)]
  rfl
theorem DOutProj_lhs1 (i : S1x3200.Idx) (c : DOutProj.contr.Idx) : (DOutProj.lhsIdx i c 1).val = (c ⟨0, by decide⟩).val :=
  DOutProj.lhsIdx_val_of_single rfl i c
theorem DOutProj_rhs0 (i : S1x3200.Idx) (c : DOutProj.contr.Idx) : (DOutProj.rhsIdx i c 0).val = (i 1).val := by
  unfold DotDims.rhsIdx
  rw [dif_neg (show ¬(0 : Fin S3200x1024.rank) ∈ DOutProj.rhsBatch by decide), dif_pos (show (0 : Fin S3200x1024.rank) ∈ DOutProj.rhsNonContracting by decide)]
  rfl
theorem DOutProj_rhs1 (i : S1x3200.Idx) (c : DOutProj.contr.Idx) : (DOutProj.rhsIdx i c 1).val = (c ⟨0, by decide⟩).val :=
  DOutProj.rhsIdx_val_of_single rfl i c

/-- The product into a zero accumulator at column `q`: the sum over `k` of `u(z, k) · M(q, k)`. -/
theorem matOutProj_apply (u : FVec Ideal S1x1024 .bf16) (M : FVec Ideal S3200x1024 .bf16) (z : Fin 1) (q : Fin 3200) :
    matmul (F := Ideal) DOutProj none u M (constant S1x3200 .f32 0x00000000#32) (ix2 z q)
      = ∑ k : Fin 1024, u (ix2 z k) * M (ix2 q k) := by
  simp only [matmul]
  rw [Ideal.matmul_constant_zero_apply, ← Equiv.sum_comp (contrEquiv1 DOutProj 1024 rfl rfl).symm]
  refine Finset.sum_congr rfl fun k _ => ?_
  have hk := contrEquiv1_symm_val DOutProj 1024 rfl rfl k
  have el : DOutProj.lhsIdx (ix2 z q) ((contrEquiv1 DOutProj 1024 rfl rfl).symm k) = ix2 z k := funext fun a => Fin.ext (by
    match a with
    | ⟨0, _⟩ => exact DOutProj_lhs0 _ _
    | ⟨1, _⟩ => exact (DOutProj_lhs1 _ _).trans hk)
  have er : DOutProj.rhsIdx (ix2 z q) ((contrEquiv1 DOutProj 1024 rfl rfl).symm k) = ix2 q k := funext fun a => Fin.ext (by
    match a with
    | ⟨0, _⟩ => exact DOutProj_rhs0 _ _
    | ⟨1, _⟩ => exact (DOutProj_rhs1 _ _).trans hk)
  rw [el, er]

/-- The tile's payload at column `q`: the row times the block's row `q`, plus the bias block at `q`. -/
theorem k2_pay1_apply (x : Vec Ideal S1x1024 .f32) (W : Vec Ideal S3200x1024 .f32) (b : Vec Ideal S1x3200 .f32)
    (z : Fin 1) (q : Fin 3200) :
    k2_pay1 (F := Ideal) x W b (ix2 z q) = (∑ k : Fin 1024, x (ix2 z k) * W (ix2 q k)) + b (ix2 z q) := by
  unfold k2_pay1
  show matmul (F := Ideal) DOutProj none (truncf .bf16 (shapeCast S1x1024 x shapeCasts_S1x1024_S1x1024) bitsLt_bf16_f32)
      (truncf .bf16 W bitsLt_bf16_f32) (constant S1x3200 .f32 0x00000000#32) (ix2 z q)
    + shapeCast S1x3200 b shapeCasts_S1x3200_S1x3200 (ix2 z q) = _
  rw [matOutProj_apply, shapeCast_self, shapeCast_self]
  rfl

end Cert.Bridge

end
-- ==== Proof.Bridge.ProjBlk.lean ====
import proofs.«145509_j26731876451021_2_alg».proof.Proof.Bridge.Defs2
import proofs.«145509_j26731876451021_2_alg».proof.Proof.Bridge.ProjTile

/-! The kernel's projected row read at a column.

Tile `t` of the projection holds rows `3200·t … 3200·t + 3199` of the matrix and the same entries of the bias (the
bias re-laid as a one-row matrix keeps every entry's position). Column `j` of the row is entry `j mod 3200` of tile
`j / 3200`, and `3200·(j / 3200) + j mod 3200 = j`: the column is the sum over `k` of `x(0, k) · W(j, k)`, plus
`b(j)`. -/

noncomputable section

open scoped BigOperators

namespace Cert.Bridge

open Idealize.ShloMosaic Idealize.ShloMosaic.ValueIdx Cert.KernelIdeal Cert.KernelIdeal.Gen

/-- Tile `t`'s block of the matrix at `(q, k)` is the matrix at `(3200·t + q, k)`. -/
theorem oWBlk_apply (oW : Vec Ideal S64000x1024 .f32) (t : Fin 20) (q : Fin 3200) (k : Fin 1024) :
    oWBlk oW t (ix2 q k)
      = oW (ix2 (⟨3200 * t.val + q.val, by have := t.isLt; have := q.isLt; omega⟩ : Fin 64000) k) := rfl

/-- Tile `t`'s block of the bias at `(z, q)` is the bias at `3200·t + q`. -/
theorem obBlk_apply (ob : Vec Ideal S64000 .f32) (t : Fin 20) (z : Fin 1) (q : Fin 3200) :
    obBlk ob t (ix2 z q)
      = ob (ix1 (⟨3200 * t.val + q.val, by have := t.isLt; have := q.isLt; omega⟩ : Fin 64000)) := by
  unfold obBlk
  refine shapeCast_apply ob shapeCasts_S64000_S1x64000 _ (ix1 _) ?_
  rw [Shape.rowMajor_val_one, Shape.rowMajor_val_two]
  show 3200 * t.val + q.val = 0 * 64000 + (3200 * t.val + q.val)
  omega

/-- The projected row at column `j`: the input row times row `j` of the matrix, plus the bias at `j`. -/
theorem logitsK_apply (x : Vec Ideal S1x1024 .f32) (oW : Vec Ideal S64000x1024 .f32) (ob : Vec Ideal S64000 .f32)
    (p : Fin 1) (j : Fin 64000) :
    logitsK x oW ob (ix2 p j) = (∑ k : Fin 1024, x (ix2 (0 : Fin 1) k) * oW (ix2 j k)) + ob (ix1 j) := by
  have hj := j.isLt
  have hdm : 3200 * (j.val / 3200) + j.val % 3200 = j.val := Nat.div_add_mod j.val 3200
  unfold logitsK
  show k2_pay1 (F := Ideal) x (oWBlk oW ⟨j.val / 3200, by omega⟩) (obBlk ob ⟨j.val / 3200, by omega⟩)
      (ix2 (0 : Fin 1) (⟨j.val % 3200, Nat.mod_lt _ (by decide)⟩ : Fin 3200)) = _
  rw [k2_pay1_apply, obBlk_apply]
  congr 1
  · refine Finset.sum_congr rfl fun k _ => ?_
    rw [oWBlk_apply]
    exact congrArg (fun i : Fin 64000 => x (ix2 (0 : Fin 1) k) * oW (ix2 i k)) (Fin.ext hdm)
  · exact congrArg (fun i : Fin 64000 => ob (ix1 i)) (Fin.ext hdm)

end Cert.Bridge

end
-- ==== Proof.Bridge.StackRows.lean ====
import Idealize.ShloMosaic.Lib.Pipeline.Value
import Idealize.ShloMosaic.Lib.ValueIdx

/-! Four rows stacked along a new leading axis, read at an index.

A row `[1, n]` broadcast to `[1, 1, n]` on the axes 1 and 2 reads, at `(u, u', c)`, the row at `(0, c)`. Four
`[1, 1, n]` pieces joined along axis 0 make a `[4, 1, n]` array whose element `(l, u, c)` is piece `l` at `(0, u, c)`:
every piece has extent one along the joined axis, so the pieces before piece `l` take up `l` positions. -/

noncomputable section

namespace Cert.Bridge

open Idealize.ShloMosaic Idealize.ShloMosaic.ValueIdx

variable {α : Type}

/-- A row `[1, n]` broadcast to `[1, 1, n]` reads, at `(u, u', c)`, the row at `(0, c)`. -/
theorem broadcastInDim_1n_11n_apply {n : ℕ} (h : (⟨2, ![1, n]⟩ : Shape).Idx → α)
    (hb : (⟨2, ![1, n]⟩ : Shape).BroadcastsInDim ⟨3, ![1, 1, n]⟩ ![1, 2]) (u u' : Fin 1) (c : Fin n) :
    broadcastInDim ⟨3, ![1, 1, n]⟩ ![1, 2] hb h (ix3 u u' c) = h (ix2 (0 : Fin 1) c) := by
  refine broadcastInDim_apply _ hb h (ix3 u u' c) (ix2 (0 : Fin 1) c) fun ax => ?_
  match ax with
  | ⟨0, _⟩ =>
    show (0 : ℕ) = if (1 : ℕ) = 1 then 0 else u'.val
    rw [if_pos rfl]
  | ⟨1, _⟩ =>
    show c.val = if n = 1 then 0 else c.val
    split
    · have := c.isLt; omega
    · rfl

/-- Four `[1, 1, n]` pieces joined along axis 0, at `(l, u, c)`: piece `l` at `(0, u, c)`. -/
theorem concatenate_four_unit_apply {n : ℕ} (x0 x1 x2 x3 : (⟨3, ![1, 1, n]⟩ : Shape).Idx → α)
    (hc : Shape.Concatenates [(⟨3, ![1, 1, n]⟩ : Shape), ⟨3, ![1, 1, n]⟩, ⟨3, ![1, 1, n]⟩, ⟨3, ![1, 1, n]⟩] ⟨3, ![4, 1, n]⟩ 0)
    (l : Fin 4) (u : Fin 1) (c : Fin n) :
    concatenate ⟨3, ![4, 1, n]⟩ 0 [⟨⟨3, ![1, 1, n]⟩, x0⟩, ⟨⟨3, ![1, 1, n]⟩, x1⟩, ⟨⟨3, ![1, 1, n]⟩, x2⟩, ⟨⟨3, ![1, 1, n]⟩, x3⟩] hc (ix3 l u c)
      = (![x0, x1, x2, x3] l) (ix3 (0 : Fin 1) u c) := by
  have hi : ∀ (l : Fin 4) (b : Fin 3), b.cast (rfl : (3 : ℕ) = 3) ≠ (0 : Fin 3) →
      ((ix3 (0 : Fin 1) u c) b : ℕ) = ((ix3 l u c) (b.cast (rfl : (3 : ℕ) = 3)) : ℕ) := fun l b hb => by
    match b with
    | ⟨0, _⟩ => exact absurd rfl hb
    | ⟨1, _⟩ => rfl
    | ⟨2, _⟩ => rfl
  match l with
  | ⟨0, _⟩ =>
    exact concatenate_apply_piece (t := ⟨3, ![4, 1, n]⟩) 0 [⟨⟨3, ![1, 1, n]⟩, x0⟩, ⟨⟨3, ![1, 1, n]⟩, x1⟩, ⟨⟨3, ![1, 1, n]⟩, x2⟩, ⟨⟨3, ![1, 1, n]⟩, x3⟩] hc
      (ix3 _ u c) 0 (show (0 : ℕ) < 4 by omega) ⟨3, ![1, 1, n]⟩ x0 rfl rfl 0 rfl (ix3 (0 : Fin 1) u c) (hi _) rfl
  | ⟨1, _⟩ =>
    exact concatenate_apply_piece (t := ⟨3, ![4, 1, n]⟩) 0 [⟨⟨3, ![1, 1, n]⟩, x0⟩, ⟨⟨3, ![1, 1, n]⟩, x1⟩, ⟨⟨3, ![1, 1, n]⟩, x2⟩, ⟨⟨3, ![1, 1, n]⟩, x3⟩] hc
      (ix3 _ u c) 1 (show (1 : ℕ) < 4 by omega) ⟨3, ![1, 1, n]⟩ x1 rfl rfl 1 rfl (ix3 (0 : Fin 1) u c) (hi _) rfl
  | ⟨2, _⟩ =>
    exact concatenate_apply_piece (t := ⟨3, ![4, 1, n]⟩) 0 [⟨⟨3, ![1, 1, n]⟩, x0⟩, ⟨⟨3, ![1, 1, n]⟩, x1⟩, ⟨⟨3, ![1, 1, n]⟩, x2⟩, ⟨⟨3, ![1, 1, n]⟩, x3⟩] hc
      (ix3 _ u c) 2 (show (2 : ℕ) < 4 by omega) ⟨3, ![1, 1, n]⟩ x2 rfl rfl 2 rfl (ix3 (0 : Fin 1) u c) (hi _) rfl
  | ⟨3, _⟩ =>
    exact concatenate_apply_piece (t := ⟨3, ![4, 1, n]⟩) 0 [⟨⟨3, ![1, 1, n]⟩, x0⟩, ⟨⟨3, ![1, 1, n]⟩, x1⟩, ⟨⟨3, ![1, 1, n]⟩, x2⟩, ⟨⟨3, ![1, 1, n]⟩, x3⟩] hc
      (ix3 _ u c) 3 (show (3 : ℕ) < 4 by omega) ⟨3, ![1, 1, n]⟩ x3 rfl rfl 3 rfl (ix3 (0 : Fin 1) u c) (hi _) rfl

end Cert.Bridge

end
-- ==== Proof.Bridge.Proj.lean ====
import proofs.«145509_j26731876451021_2_alg».proof.Proof.RefReadP
import proofs.«145509_j26731876451021_2_alg».proof.Proof.Bridge.ProjBlk
import proofs.«145509_j26731876451021_2_alg».proof.Proof.Bridge.StackRows

/-! The reference's output projection and its stacked state rows are the kernel's.

The reference projects in one contraction: the last layer's new state row times the transposed [1024, 64000] matrix, plus
the bias broadcast along a new leading axis; at column `j` that is the sum over `k` of `x(0, k) · W(j, k)`, plus `b(j)`,
which is what the kernel's tiled projection holds at column `j`. The reference stacks the four layers' new state rows,
each made a [1, 1, 1024] piece, along a new leading axis: element `(l, 0, c)` of the stack is row `l` at `(0, c)`. -/

noncomputable section

open scoped BigOperators

namespace Cert.Bridge

open Idealize.ShloMosaic Idealize.ShloMosaic.ValueIdx Cert.KernelIdeal Cert.KernelIdeal.Gen

/-- The reference's projected row is the kernel's tiled projection of the reference's last state row. -/
theorem proj_eq (x0 : (⟨S2, .i32⟩ : BufTy).Contents (Elt Ideal)) (x1 : (⟨S4x1x1024, .f32⟩ : BufTy).Contents (Elt Ideal))
    (x2 : (⟨S128x1024, .f32⟩ : BufTy).Contents (Elt Ideal)) (x3 : (⟨S32000x1024, .f32⟩ : BufTy).Contents (Elt Ideal))
    (x4 : (⟨S128x3072, .f32⟩ : BufTy).Contents (Elt Ideal)) (x5 : (⟨S128, .f32⟩ : BufTy).Contents (Elt Ideal))
    (x6 : (⟨S1024x3072, .f32⟩ : BufTy).Contents (Elt Ideal)) (x7 : (⟨S1024, .f32⟩ : BufTy).Contents (Elt Ideal))
    (x8 x9 : (⟨S4x3072x1024, .f32⟩ : BufTy).Contents (Elt Ideal)) (x10 x11 : (⟨S4x3072, .f32⟩ : BufTy).Contents (Elt Ideal))
    (x12 : (⟨S64000x1024, .f32⟩ : BufTy).Contents (Elt Ideal)) (x13 : (⟨S64000, .f32⟩ : BufTy).Contents (Elt Ideal)) :
    Cert.ReferenceIdeal.Read.val_main_v225 (F := Ideal) x0 x1 x2 x3 x4 x5 x6 x7 x8 x9 x10 x11 x12 x13
      = logitsK (Cert.ReferenceIdeal.Read.val_main_v216 (F := Ideal) x0 x1 x2 x3 x4 x5 x6 x7 x8 x9 x10 x11) x12 x13 := by
  funext j
  obtain ⟨p, q, rfl⟩ : ∃ (p : Fin 1) (q : Fin 64000), j = ix2 p q := ⟨j 0, j 1, eq_ix2 j⟩
  obtain rfl : p = 0 := Subsingleton.elim _ _
  rw [logitsK_apply, Cert.ReferenceIdeal.Read.val_main_v225_apply, Cert.ReferenceIdeal.Read.val_main_v223_apply, Cert.ReferenceIdeal.Read.val_main_v224_apply]
  generalize Cert.ReferenceIdeal.Read.val_main_v216 (F := Ideal) x0 x1 x2 x3 x4 x5 x6 x7 x8 x9 x10 x11 = x
  show (∑ k : Fin 1024, x (Cert.ReferenceIdeal.Read.lidx_main_v223 (ix2 (0 : Fin 1) q) k)
        * Cert.ReferenceIdeal.Read.val_main_v222 (F := Ideal) x12 (Cert.ReferenceIdeal.Read.ridx_main_v223 (ix2 (0 : Fin 1) q) k))
      + x13 (Cert.ReferenceIdeal.Read.idx_main_v224 (ix2 (0 : Fin 1) q)) = _
  congr 1
  · refine Finset.sum_congr rfl fun k _ => ?_
    rw [Cert.ReferenceIdeal.Read.val_main_v222_apply]
    have e1 : Cert.ReferenceIdeal.Read.lidx_main_v223 (ix2 (0 : Fin 1) q) k = ix2 (0 : Fin 1) k :=
      funext fun a => Fin.ext (by match a with | ⟨0, _⟩ => rfl | ⟨1, _⟩ => rfl)
    have e2 : Cert.ReferenceIdeal.Read.idx_main_v222 (Cert.ReferenceIdeal.Read.ridx_main_v223 (ix2 (0 : Fin 1) q) k) = ix2 q k :=
      funext fun a => Fin.ext (by match a with | ⟨0, _⟩ => rfl | ⟨1, _⟩ => rfl)
    rw [e1, e2]
  · exact congrArg x13 (funext fun a => Fin.ext (by match a with | ⟨0, _⟩ => rfl))

/-- The reference's stacked state rows are the kernel's stack of the reference's four new state rows. -/
theorem stack_eq (x0 : (⟨S2, .i32⟩ : BufTy).Contents (Elt Ideal)) (x1 : (⟨S4x1x1024, .f32⟩ : BufTy).Contents (Elt Ideal))
    (x2 : (⟨S128x1024, .f32⟩ : BufTy).Contents (Elt Ideal)) (x3 : (⟨S32000x1024, .f32⟩ : BufTy).Contents (Elt Ideal))
    (x4 : (⟨S128x3072, .f32⟩ : BufTy).Contents (Elt Ideal)) (x5 : (⟨S128, .f32⟩ : BufTy).Contents (Elt Ideal))
    (x6 : (⟨S1024x3072, .f32⟩ : BufTy).Contents (Elt Ideal)) (x7 : (⟨S1024, .f32⟩ : BufTy).Contents (Elt Ideal))
    (x8 x9 : (⟨S4x3072x1024, .f32⟩ : BufTy).Contents (Elt Ideal)) (x10 x11 : (⟨S4x3072, .f32⟩ : BufTy).Contents (Elt Ideal)) :
    Cert.ReferenceIdeal.Read.val_main_v221 (F := Ideal) x0 x1 x2 x3 x4 x5 x6 x7 x8 x9 x10 x11
      = hidK ![Cert.ReferenceIdeal.Read.val_main_v78 (F := Ideal) x0 x1 x2 x3 x4 x5 x6 x7 x8 x9 x10 x11,
          Cert.ReferenceIdeal.Read.val_main_v124 (F := Ideal) x0 x1 x2 x3 x4 x5 x6 x7 x8 x9 x10 x11,
          Cert.ReferenceIdeal.Read.val_main_v170 (F := Ideal) x0 x1 x2 x3 x4 x5 x6 x7 x8 x9 x10 x11,
          Cert.ReferenceIdeal.Read.val_main_v216 (F := Ideal) x0 x1 x2 x3 x4 x5 x6 x7 x8 x9 x10 x11] := by
  unfold Cert.ReferenceIdeal.Read.val_main_v221 Cert.ReferenceIdeal.Read.val_main_v217 Cert.ReferenceIdeal.Read.val_main_v218
    Cert.ReferenceIdeal.Read.val_main_v219 Cert.ReferenceIdeal.Read.val_main_v220
  generalize Cert.ReferenceIdeal.Read.val_main_v78 (F := Ideal) x0 x1 x2 x3 x4 x5 x6 x7 x8 x9 x10 x11 = h0
  generalize Cert.ReferenceIdeal.Read.val_main_v124 (F := Ideal) x0 x1 x2 x3 x4 x5 x6 x7 x8 x9 x10 x11 = h1
  generalize Cert.ReferenceIdeal.Read.val_main_v170 (F := Ideal) x0 x1 x2 x3 x4 x5 x6 x7 x8 x9 x10 x11 = h2
  generalize Cert.ReferenceIdeal.Read.val_main_v216 (F := Ideal) x0 x1 x2 x3 x4 x5 x6 x7 x8 x9 x10 x11 = h3
  funext j
  obtain ⟨l, u, c, rfl⟩ : ∃ (l : Fin 4) (u : Fin 1) (c : Fin 1024), j = ix3 l u c := ⟨j 0, j 1, j 2, eq_ix3 j⟩
  refine (concatenate_four_unit_apply (n := 1024) _ _ _ _ _ l u c).trans ?_
  unfold hidK
  match l with
  | ⟨0, _⟩ => exact broadcastInDim_1n_11n_apply (n := 1024) h0 Cert.ReferenceIdeal.Gen.bcast_S1x1024_S1x1x1024_1_2 0 u c
  | ⟨1, _⟩ => exact broadcastInDim_1n_11n_apply (n := 1024) h1 Cert.ReferenceIdeal.Gen.bcast_S1x1024_S1x1x1024_1_2 0 u c
  | ⟨2, _⟩ => exact broadcastInDim_1n_11n_apply (n := 1024) h2 Cert.ReferenceIdeal.Gen.bcast_S1x1024_S1x1x1024_1_2 0 u c
  | ⟨3, _⟩ => exact broadcastInDim_1n_11n_apply (n := 1024) h3 Cert.ReferenceIdeal.Gen.bcast_S1x1024_S1x1x1024_1_2 0 u c

end Cert.Bridge

end
-- ==== Proof.Bridge.Final.lean ====
import proofs.«145509_j26731876451021_2_alg».proof.Proof.RefReadP
import proofs.«145509_j26731876451021_2_alg».proof.Proof.Bridge.Defs3
import proofs.«145509_j26731876451021_2_alg».proof.Proof.Bridge.Attn
import proofs.«145509_j26731876451021_2_alg».proof.Proof.Bridge.Gru
import proofs.«145509_j26731876451021_2_alg».proof.Proof.Bridge.Proj

/-! The reference's three results from the kernel's pure functions.

The embedded tokens and the first state row are the same host operations in both programs. The attention weights and the
recurrent unit's first input row agree; each layer of the recurrent unit agrees given equal input rows, so the chain of
the layers' rows is the reference's chain of new states; the stacked rows and the projected row agree; the closing
log-softmax is the same host operations applied to the projected row. -/

noncomputable section

namespace Cert.Bridge

open Idealize.ShloMosaic Idealize.ShloMosaic.ValueIdx Cert.KernelIdeal Cert.KernelIdeal.Gen

/-- The two programs embed the tokens by the same host operations. -/
theorem embK_eq (ids : (⟨S2, .i32⟩ : BufTy).Contents (Elt Ideal)) (E : (⟨S32000x1024, .f32⟩ : BufTy).Contents (Elt Ideal)) :
    embK ids E = Cert.ReferenceIdeal.Read.val_main_v7 (F := Ideal) ids E := rfl

/-- The two programs cut the first state row by the same host operations. -/
theorem h0K_eq (hid : (⟨S4x1x1024, .f32⟩ : BufTy).Contents (Elt Ideal)) : h0K hid = Cert.ReferenceIdeal.Read.val_main_v9 (F := Ideal) hid := rfl

/-- The reference's attention weights are the kernel's. -/
theorem aw_fin (ids : (⟨S2, .i32⟩ : BufTy).Contents (Elt Ideal)) (hid : (⟨S4x1x1024, .f32⟩ : BufTy).Contents (Elt Ideal))
    (E : (⟨S32000x1024, .f32⟩ : BufTy).Contents (Elt Ideal)) (aW : (⟨S128x3072, .f32⟩ : BufTy).Contents (Elt Ideal))
    (ab : (⟨S128, .f32⟩ : BufTy).Contents (Elt Ideal)) :
    Cert.ReferenceIdeal.Read.val_main_v25 (F := Ideal) ids hid E aW ab
      = awK (embK ids E) (h0K hid) aW (shapeCast S1x128 ab shapeCasts_S128_S1x128) := by
  rw [embK_eq, h0K_eq]
  exact (aw_eq ids hid E aW ab).symm

/-- One more layer: the row after layer `l` is the kernel's layer `l` of the row before it. -/
theorem xsK_succ (x0 : S1x1024.Idx → Elt Ideal .f32) (hid : S4x1x1024.Idx → Elt Ideal .f32)
    (Wih Whh : S4x3072x1024.Idx → Elt Ideal .f32) (bih bhh : S4x3072.Idx → Elt Ideal .f32) (l : ℕ) (h : l < 4) :
    xsK x0 hid Wih Whh bih bhh (l + 1) = gruLayerK (xsK x0 hid Wih Whh bih bhh l) hid Wih Whh bih bhh ⟨l, h⟩ := by
  rw [xsK, dif_pos h]

/-- The region's input row is the reference's rectified combine. -/
theorem xs0_eq (ids : (⟨S2, .i32⟩ : BufTy).Contents (Elt Ideal)) (hid : (⟨S4x1x1024, .f32⟩ : BufTy).Contents (Elt Ideal))
    (enc : (⟨S128x1024, .f32⟩ : BufTy).Contents (Elt Ideal)) (E : (⟨S32000x1024, .f32⟩ : BufTy).Contents (Elt Ideal))
    (aW : (⟨S128x3072, .f32⟩ : BufTy).Contents (Elt Ideal)) (ab : (⟨S128, .f32⟩ : BufTy).Contents (Elt Ideal))
    (cW : (⟨S1024x3072, .f32⟩ : BufTy).Contents (Elt Ideal)) (cb : (⟨S1024, .f32⟩ : BufTy).Contents (Elt Ideal))
    (Wih Whh : (⟨S4x3072x1024, .f32⟩ : BufTy).Contents (Elt Ideal)) (bih bhh : (⟨S4x3072, .f32⟩ : BufTy).Contents (Elt Ideal)) :
    xsK (x0K (embK ids E) (h0K hid) aW (shapeCast S1x128 ab shapeCasts_S128_S1x128) enc cW
        (shapeCast S1x1024 cb shapeCasts_S1024_S1x1024)) hid Wih Whh bih bhh 0
      = Cert.ReferenceIdeal.Read.val_main_v32 (F := Ideal) ids hid enc E aW ab cW cb := by
  show x0K (embK ids E) (h0K hid) aW (shapeCast S1x128 ab shapeCasts_S128_S1x128) enc cW
        (shapeCast S1x1024 cb shapeCasts_S1024_S1x1024) = _
  rw [embK_eq, h0K_eq]
  exact x0_eq ids hid enc E aW ab cW cb

/-- After layer 0 the row is the reference's new state of layer 0. -/
theorem xs1_eq (ids : (⟨S2, .i32⟩ : BufTy).Contents (Elt Ideal)) (hid : (⟨S4x1x1024, .f32⟩ : BufTy).Contents (Elt Ideal))
    (enc : (⟨S128x1024, .f32⟩ : BufTy).Contents (Elt Ideal)) (E : (⟨S32000x1024, .f32⟩ : BufTy).Contents (Elt Ideal))
    (aW : (⟨S128x3072, .f32⟩ : BufTy).Contents (Elt Ideal)) (ab : (⟨S128, .f32⟩ : BufTy).Contents (Elt Ideal))
    (cW : (⟨S1024x3072, .f32⟩ : BufTy).Contents (Elt Ideal)) (cb : (⟨S1024, .f32⟩ : BufTy).Contents (Elt Ideal))
    (Wih Whh : (⟨S4x3072x1024, .f32⟩ : BufTy).Contents (Elt Ideal)) (bih bhh : (⟨S4x3072, .f32⟩ : BufTy).Contents (Elt Ideal)) :
    xsK (x0K (embK ids E) (h0K hid) aW (shapeCast S1x128 ab shapeCasts_S128_S1x128) enc cW
        (shapeCast S1x1024 cb shapeCasts_S1024_S1x1024)) hid Wih Whh bih bhh 1
      = Cert.ReferenceIdeal.Read.val_main_v78 (F := Ideal) ids hid enc E aW ab cW cb Wih Whh bih bhh :=
  (xsK_succ _ hid Wih Whh bih bhh 0 (by omega)).trans
    ((congrArg (fun x => gruLayerK x hid Wih Whh bih bhh (0 : Fin 4)) (xs0_eq ids hid enc E aW ab cW cb Wih Whh bih bhh)).trans
      (layer0_eq ids hid enc E aW ab cW cb Wih Whh bih bhh).symm)

/-- After layer 1 the row is the reference's new state of layer 1. -/
theorem xs2_eq (ids : (⟨S2, .i32⟩ : BufTy).Contents (Elt Ideal)) (hid : (⟨S4x1x1024, .f32⟩ : BufTy).Contents (Elt Ideal))
    (enc : (⟨S128x1024, .f32⟩ : BufTy).Contents (Elt Ideal)) (E : (⟨S32000x1024, .f32⟩ : BufTy).Contents (Elt Ideal))
    (aW : (⟨S128x3072, .f32⟩ : BufTy).Contents (Elt Ideal)) (ab : (⟨S128, .f32⟩ : BufTy).Contents (Elt Ideal))
    (cW : (⟨S1024x3072, .f32⟩ : BufTy).Contents (Elt Ideal)) (cb : (⟨S1024, .f32⟩ : BufTy).Contents (Elt Ideal))
    (Wih Whh : (⟨S4x3072x1024, .f32⟩ : BufTy).Contents (Elt Ideal)) (bih bhh : (⟨S4x3072, .f32⟩ : BufTy).Contents (Elt Ideal)) :
    xsK (x0K (embK ids E) (h0K hid) aW (shapeCast S1x128 ab shapeCasts_S128_S1x128) enc cW
        (shapeCast S1x1024 cb shapeCasts_S1024_S1x1024)) hid Wih Whh bih bhh 2
      = Cert.ReferenceIdeal.Read.val_main_v124 (F := Ideal) ids hid enc E aW ab cW cb Wih Whh bih bhh :=
  (xsK_succ _ hid Wih Whh bih bhh 1 (by omega)).trans
    ((congrArg (fun x => gruLayerK x hid Wih Whh bih bhh (1 : Fin 4)) (xs1_eq ids hid enc E aW ab cW cb Wih Whh bih bhh)).trans
      (layer1_eq ids hid enc E aW ab cW cb Wih Whh bih bhh).symm)

/-- After layer 2 the row is the reference's new state of layer 2. -/
theorem xs3_eq (ids : (⟨S2, .i32⟩ : BufTy).Contents (Elt Ideal)) (hid : (⟨S4x1x1024, .f32⟩ : BufTy).Contents (Elt Ideal))
    (enc : (⟨S128x1024, .f32⟩ : BufTy).Contents (Elt Ideal)) (E : (⟨S32000x1024, .f32⟩ : BufTy).Contents (Elt Ideal))
    (aW : (⟨S128x3072, .f32⟩ : BufTy).Contents (Elt Ideal)) (ab : (⟨S128, .f32⟩ : BufTy).Contents (Elt Ideal))
    (cW : (⟨S1024x3072, .f32⟩ : BufTy).Contents (Elt Ideal)) (cb : (⟨S1024, .f32⟩ : BufTy).Contents (Elt Ideal))
    (Wih Whh : (⟨S4x3072x1024, .f32⟩ : BufTy).Contents (Elt Ideal)) (bih bhh : (⟨S4x3072, .f32⟩ : BufTy).Contents (Elt Ideal)) :
    xsK (x0K (embK ids E) (h0K hid) aW (shapeCast S1x128 ab shapeCasts_S128_S1x128) enc cW
        (shapeCast S1x1024 cb shapeCasts_S1024_S1x1024)) hid Wih Whh bih bhh 3
      = Cert.ReferenceIdeal.Read.val_main_v170 (F := Ideal) ids hid enc E aW ab cW cb Wih Whh bih bhh :=
  (xsK_succ _ hid Wih Whh bih bhh 2 (by omega)).trans
    ((congrArg (fun x => gruLayerK x hid Wih Whh bih bhh (2 : Fin 4)) (xs2_eq ids hid enc E aW ab cW cb Wih Whh bih bhh)).trans
      (layer2_eq ids hid enc E aW ab cW cb Wih Whh bih bhh).symm)

/-- After layer 3 the row is the reference's new state of layer 3. -/
theorem xs4_eq (ids : (⟨S2, .i32⟩ : BufTy).Contents (Elt Ideal)) (hid : (⟨S4x1x1024, .f32⟩ : BufTy).Contents (Elt Ideal))
    (enc : (⟨S128x1024, .f32⟩ : BufTy).Contents (Elt Ideal)) (E : (⟨S32000x1024, .f32⟩ : BufTy).Contents (Elt Ideal))
    (aW : (⟨S128x3072, .f32⟩ : BufTy).Contents (Elt Ideal)) (ab : (⟨S128, .f32⟩ : BufTy).Contents (Elt Ideal))
    (cW : (⟨S1024x3072, .f32⟩ : BufTy).Contents (Elt Ideal)) (cb : (⟨S1024, .f32⟩ : BufTy).Contents (Elt Ideal))
    (Wih Whh : (⟨S4x3072x1024, .f32⟩ : BufTy).Contents (Elt Ideal)) (bih bhh : (⟨S4x3072, .f32⟩ : BufTy).Contents (Elt Ideal)) :
    xsK (x0K (embK ids E) (h0K hid) aW (shapeCast S1x128 ab shapeCasts_S128_S1x128) enc cW
        (shapeCast S1x1024 cb shapeCasts_S1024_S1x1024)) hid Wih Whh bih bhh 4
      = Cert.ReferenceIdeal.Read.val_main_v216 (F := Ideal) ids hid enc E aW ab cW cb Wih Whh bih bhh :=
  (xsK_succ _ hid Wih Whh bih bhh 3 (by omega)).trans
    ((congrArg (fun x => gruLayerK x hid Wih Whh bih bhh (3 : Fin 4)) (xs3_eq ids hid enc E aW ab cW cb Wih Whh bih bhh)).trans
      (layer3_eq ids hid enc E aW ab cW cb Wih Whh bih bhh).symm)

/-- A stack of four rows depends only on the four rows. -/
theorem hidK_congr4 (f : Fin 4 → Vec Ideal S1x1024 .f32) (a0 a1 a2 a3 : Vec Ideal S1x1024 .f32)
    (h0 : f 0 = a0) (h1 : f 1 = a1) (h2 : f 2 = a2) (h3 : f 3 = a3) : hidK ![a0, a1, a2, a3] = hidK f := by
  subst h0 h1 h2 h3
  refine congrArg hidK (funext fun l => ?_)
  match l with
  | ⟨0, _⟩ => rfl
  | ⟨1, _⟩ => rfl
  | ⟨2, _⟩ => rfl
  | ⟨3, _⟩ => rfl

/-- The reference's stacked state rows are the kernel's stack of its layers' rows. -/
theorem hid_fin (ids : (⟨S2, .i32⟩ : BufTy).Contents (Elt Ideal)) (hid : (⟨S4x1x1024, .f32⟩ : BufTy).Contents (Elt Ideal))
    (enc : (⟨S128x1024, .f32⟩ : BufTy).Contents (Elt Ideal)) (E : (⟨S32000x1024, .f32⟩ : BufTy).Contents (Elt Ideal))
    (aW : (⟨S128x3072, .f32⟩ : BufTy).Contents (Elt Ideal)) (ab : (⟨S128, .f32⟩ : BufTy).Contents (Elt Ideal))
    (cW : (⟨S1024x3072, .f32⟩ : BufTy).Contents (Elt Ideal)) (cb : (⟨S1024, .f32⟩ : BufTy).Contents (Elt Ideal))
    (Wih Whh : (⟨S4x3072x1024, .f32⟩ : BufTy).Contents (Elt Ideal)) (bih bhh : (⟨S4x3072, .f32⟩ : BufTy).Contents (Elt Ideal)) :
    Cert.ReferenceIdeal.Read.val_main_v221 (F := Ideal) ids hid enc E aW ab cW cb Wih Whh bih bhh
      = hidK (fun l : Fin 4 => xsK (x0K (embK ids E) (h0K hid) aW (shapeCast S1x128 ab shapeCasts_S128_S1x128) enc cW
        (shapeCast S1x1024 cb shapeCasts_S1024_S1x1024)) hid Wih Whh bih bhh (l.val + 1)) :=
  (stack_eq ids hid enc E aW ab cW cb Wih Whh bih bhh).trans
    (hidK_congr4 (fun l : Fin 4 => xsK (x0K (embK ids E) (h0K hid) aW (shapeCast S1x128 ab shapeCasts_S128_S1x128) enc cW
        (shapeCast S1x1024 cb shapeCasts_S1024_S1x1024)) hid Wih Whh bih bhh (l.val + 1)) _ _ _ _
      (xs1_eq ids hid enc E aW ab cW cb Wih Whh bih bhh) (xs2_eq ids hid enc E aW ab cW cb Wih Whh bih bhh) (xs3_eq ids hid enc E aW ab cW cb Wih Whh bih bhh) (xs4_eq ids hid enc E aW ab cW cb Wih Whh bih bhh))

/-- The reference's log-probabilities are the closing log-softmax of the kernel's projected row. -/
theorem logp_fin (ids : (⟨S2, .i32⟩ : BufTy).Contents (Elt Ideal)) (hid : (⟨S4x1x1024, .f32⟩ : BufTy).Contents (Elt Ideal))
    (enc : (⟨S128x1024, .f32⟩ : BufTy).Contents (Elt Ideal)) (E : (⟨S32000x1024, .f32⟩ : BufTy).Contents (Elt Ideal))
    (aW : (⟨S128x3072, .f32⟩ : BufTy).Contents (Elt Ideal)) (ab : (⟨S128, .f32⟩ : BufTy).Contents (Elt Ideal))
    (cW : (⟨S1024x3072, .f32⟩ : BufTy).Contents (Elt Ideal)) (cb : (⟨S1024, .f32⟩ : BufTy).Contents (Elt Ideal))
    (Wih Whh : (⟨S4x3072x1024, .f32⟩ : BufTy).Contents (Elt Ideal)) (bih bhh : (⟨S4x3072, .f32⟩ : BufTy).Contents (Elt Ideal))
    (oW : (⟨S64000x1024, .f32⟩ : BufTy).Contents (Elt Ideal)) (ob : (⟨S64000, .f32⟩ : BufTy).Contents (Elt Ideal)) :
    Cert.ReferenceIdeal.Read.val_main_v227 (F := Ideal) ids hid enc E aW ab cW cb Wih Whh bih bhh oW ob
      = tailK (logitsK (xsK (x0K (embK ids E) (h0K hid) aW (shapeCast S1x128 ab shapeCasts_S128_S1x128) enc cW
        (shapeCast S1x1024 cb shapeCasts_S1024_S1x1024)) hid Wih Whh bih bhh 4) oW ob) := by
  rw [xs4_eq ids hid enc E aW ab cW cb Wih Whh bih bhh, ← proj_eq ids hid enc E aW ab cW cb Wih Whh bih bhh oW ob]
  unfold Cert.ReferenceIdeal.Read.val_main_v227
    Cert.ReferenceIdeal.Read.val_main_call1_v10
    Cert.ReferenceIdeal.Read.val_main_call1_v9
    Cert.ReferenceIdeal.Read.val_main_call1_v8
    Cert.ReferenceIdeal.Read.val_main_call1_v7
    Cert.ReferenceIdeal.Read.val_main_call1_cst_1
    Cert.ReferenceIdeal.Read.val_main_call1_v6
    Cert.ReferenceIdeal.Read.val_main_call1_v5
    Cert.ReferenceIdeal.Read.val_main_call1_v4
    Cert.ReferenceIdeal.Read.val_main_call1_v3
    Cert.ReferenceIdeal.Read.val_main_call1_v2
    Cert.ReferenceIdeal.Read.val_main_call1_v1
    Cert.ReferenceIdeal.Read.val_main_call1_cst_0
    Cert.ReferenceIdeal.Read.val_main_call1_v0
    Cert.ReferenceIdeal.Read.val_main_call1_cst
    Cert.ReferenceIdeal.Read.val_main_v226
  generalize Cert.ReferenceIdeal.Read.val_main_v225 (F := Ideal) ids hid enc E aW ab cW cb Wih Whh bih bhh oW ob = z
  rfl

end Cert.Bridge

end
-- ==== Proof.lean ====
/- The certificate of one decoder step of an attention decoder with a four-layer gated recurrent unit.

   The kernel embeds two tokens (a table gather on the host), then runs three pipelined regions: (1) attention over 128
   encoder positions and the combine layer — the logits are emb·A₁ᵀ + h₀·A₂ᵀ + b with A₁, A₂ the first 2048 and the last 1024
   columns of the attention matrix, where the reference takes ONE product of the concatenated row with the whole matrix; a sum
   over 3072 indices is the sum over the first 2048 plus the sum over the last 1024, by associativity and commutativity of
   addition on the extended reals alone; softmax, the weighted sum of the encoder outputs, the combine product split the same
   way, and max(·, 0) are the same operations on both sides; (2) the recurrent unit, twelve grid points, three per layer
   (reset gate, update gate, candidate and new state), the layer's input, reset gate and update gate carried from point to
   point in three scratch rows; block 3l+g of a weight array re-laid [4,3072,1024] → [12,1024,1024] is rows g·1024 … of
   slice l of the original, so each gate's pre-activation is the reference's column band of x·Wᵀ + b; the sigmoid is
   1/(1+e^(-x)) on both sides by the meaning of the operation at the extended reals; (3) the output projection in twenty
   tiles of 3200 columns, tile j/3200 holding column j; and the log-softmax of the host, the same operations in both programs.
   No step uses finiteness of the inputs: the precondition is never opened.

   The three frames: the kernel's (at the word level and idealized) from the run of the program's eight items — five host
   stretches and the three regions — with every unscoped buffer's contents folded from the launch memory; the reference's from
   its run, its 269 operations read in six stretches. The ideal pass rewrote nothing, so the kernel's idealization is its own text read at the extended reals. -/
import proofs.«145509_j26731876451021_2_alg».proof.Defs
import proofs.«145509_j26731876451021_2_alg».proof.Proof.Gen.Kernel
import proofs.«145509_j26731876451021_2_alg».proof.Proof.Gen.KernelIdeal
import proofs.«145509_j26731876451021_2_alg».proof.Proof.Gen.ReferenceIdeal
import proofs.«145509_j26731876451021_2_alg».proof.Proof.RefRun
import proofs.«145509_j26731876451021_2_alg».proof.Proof.Gen.Pre_finite_inputs
import proofs.«145509_j26731876451021_2_alg».proof.Proof.K.Run
import proofs.«145509_j26731876451021_2_alg».proof.Proof.KI.ValRun
import proofs.«145509_j26731876451021_2_alg».proof.Proof.Bridge.Final
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ
theorem frame_ki : Cert.frame_KernelIdeal (hKernelIdeal := Cert.KernelIdeal.Gen.facts) (hPre_finite_inputs := Cert.Pre_finite_inputs.Gen.facts) :=
  fun m ρ _ => Cert.KernelIdeal.Hand.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.RefRun.run m ρ)

/-- The two idealized programs end with equal results: the kernel's value run and the reference's run read back, the
    reference's three terms rewritten to the kernel's functions of arguments that agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Bridge.tailK (Cert.KernelIdeal.Val.logitsV m c), fun c => Cert.KernelIdeal.Val.hidV m c, fun c => Cert.KernelIdeal.Val.awV m c,
    Cert.KernelIdeal.Val.run m ρ, ?_⟩
  refine (θ_run Cert.ReferenceIdeal.defs _ _).mono (fun _ h c => ?_) (Cert.ReferenceIdeal.RefRun.run m' ρ')
  obtain ⟨e0, e1, e2, e3, e4, e5, e6, e7, e8, e9, e10, e11, e12, e13⟩ := hagree c
  refine ⟨(h c).1.trans ?_, (h c).2.1.trans ?_, (h c).2.2.1.trans ?_, (h c).2.2.2⟩
  · rw [e0, e1, e2, e3, e4, e5, e6, e7, e8, e9, e10, e11, e12, e13]
    exact Cert.Bridge.logp_fin _ _ _ _ _ _ _ _ _ _ _ _ _ _
  · rw [e0, e1, e2, e3, e4, e5, e6, e7, e8, e9, e10, e11]
    exact Cert.Bridge.hid_fin _ _ _ _ _ _ _ _ _ _ _ _
  · rw [e0, e1, e3, e4, e5]
    exact Cert.Bridge.aw_fin _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
